-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000 : Shape := ⟨1, ![10000]⟩
abbrev S10000x32 : Shape := ⟨2, ![10000, 32]⟩
abbrev S50000x128 : Shape := ⟨2, ![50000, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S10000 : S_.BroadcastsInDim S10000 (![] : Fin 0 → Fin S10000.rank)
  reducesTo_S10000_S_d0 : S10000.ReducesTo [0] S_
  bcast_S_S10000x32 : S_.BroadcastsInDim S10000x32 (![] : Fin 0 → Fin S10000x32.rank)
  reducesTo_S10000x32_S_d0_1 : S10000x32.ReducesTo [0, 1] S_

variable [Facts]

def fn_part2 {F : FTy → Type} [FloatOps F] (main_arg0 : IVec S10000 32) (main_arg1 : IVec S10000x32 32) (main_v33 : IVec S_ 1) : IVec S_ 1 :=
  let main_c_12 : IVec S_ 32 := constantI S_ 32 0#32
  let main_v34 : IVec S10000 32 := broadcastInDim S10000 ![] bcast_S_S10000 main_c_12
  let main_v35 : IVec S10000 1 := cmpi .sge main_arg0 main_v34
  let main_c_13 : IVec S_ 32 := constantI S_ 32 49999#32
  let main_v36 : IVec S10000 32 := broadcastInDim S10000 ![] bcast_S_S10000 main_c_13
  let main_v37 : IVec S10000 1 := cmpi .sle main_arg0 main_v36
  let main_v38 : IVec S10000 1 := andi main_v35 main_v37
  let main_c_14 : IVec S_ 1 := constantI S_ 1 1#1
  let main_v39 : IVec S_ 1 := (fun x v => Host.reduce IntOp.andi x v reducesTo_S10000_S_d0 h_S_) main_v38 main_c_14
  let main_v40 : IVec S_ 1 := andi main_v33 main_v39
  let main_c_15 : IVec S_ 32 := constantI S_ 32 0#32
  let main_v41 : IVec S10000x32 32 := broadcastInDim S10000x32 ![] bcast_S_S10000x32 main_c_15
  let main_v42 : IVec S10000x32 1 := cmpi .sge main_arg1 main_v41
  let main_c_16 : IVec S_ 32 := constantI S_ 32 49999#32
  let main_v43 : IVec S10000x32 32 := broadcastInDim S10000x32 ![] bcast_S_S10000x32 main_c_16
  let main_v44 : IVec S10000x32 1 := cmpi .sle main_arg1 main_v43
  let main_v45 : IVec S10000x32 1 := andi main_v42 main_v44
  let main_c_17 : IVec S_ 1 := constantI S_ 1 1#1
  let main_v46 : IVec S_ 1 := (fun x v => Host.reduce IntOp.andi x v reducesTo_S10000x32_S_d0_1 h_S_) main_v45 main_c_17
  let main_v47 : IVec S_ 1 := andi main_v40 main_v46
  main_v47

def fn_part1 {F : FTy → Type} [FloatOps F] (main_arg0 : IVec S10000 32) (main_arg1 : IVec S10000x32 32) (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg0 main_arg1 main_v33

def fn {F : FTy → Type} [FloatOps F] (main_arg0 : IVec S10000 32) (main_arg1 : IVec S10000x32 32) (main_arg2 : FVec F S50000x128 .f32) (main_arg3 : FVec F S256x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S50000x128 .f32 := Host.absf main_arg2
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg1 main_arg6 main_arg7 main_arg8 main_v13 main_v16
-- ==== Kernel.lean ====
abbrev S10000 : Shape := ⟨1, ![10000]⟩
abbrev S10000x32 : Shape := ⟨2, ![10000, 32]⟩
abbrev S50000x128 : Shape := ⟨2, ![50000, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x128 : Shape := ⟨2, ![1, 128]⟩
abbrev S_ : Shape := ⟨0, ![]⟩
abbrev S240 : Shape := ⟨1, ![240]⟩
abbrev S10240 : Shape := ⟨1, ![10240]⟩
abbrev S320000 : Shape := ⟨1, ![320000]⟩
abbrev S330240x128 : Shape := ⟨2, ![330240, 128]⟩
abbrev S10320 : Shape := ⟨1, ![10320]⟩
abbrev S120x128 : Shape := ⟨2, ![120, 128]⟩
abbrev S80 : Shape := ⟨1, ![80]⟩
abbrev S120 : Shape := ⟨1, ![120]⟩
abbrev S10000x128 : Shape := ⟨2, ![10000, 128]⟩
abbrev S2560x128 : Shape := ⟨2, ![2560, 128]⟩
abbrev S80x128 : Shape := ⟨2, ![80, 128]⟩
abbrev S80x32x128 : Shape := ⟨3, ![80, 32, 128]⟩
abbrev S80x1x128 : Shape := ⟨3, ![80, 1, 128]⟩
abbrev S1x1x128 : Shape := ⟨3, ![1, 1, 128]⟩
abbrev S80x32 : Shape := ⟨2, ![80, 32]⟩
abbrev S80x32x1 : Shape := ⟨3, ![80, 32, 1]⟩
abbrev S80x1 : Shape := ⟨2, ![80, 1]⟩
abbrev S80x1x1 : Shape := ⟨3, ![80, 1, 1]⟩

abbrev nBuf : Table → Nat
  | .hbm => 23
  | .local .tc .vmem => 12
  | .local .scVector .vmem => 3
  | _ => 0

abbrev bufTy : (tb : Table) → Fin (nBuf tb) → BufTy
  | .hbm, ⟨0, _⟩ => ⟨S10000, .i32⟩
  | .hbm, ⟨1, _⟩ => ⟨S10000x32, .i32⟩
  | .hbm, ⟨2, _⟩ => ⟨S50000x128, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S128x128, .f32⟩
  | .hbm, ⟨10, _⟩ => ⟨S128x128, .bf16⟩
  | .hbm, ⟨11, _⟩ => ⟨S128x128, .f32⟩
  | .hbm, ⟨12, _⟩ => ⟨S128x128, .bf16⟩
  | .hbm, ⟨13, _⟩ => ⟨S128x128, .bf16⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S_, .i32⟩
  | .hbm, ⟨18, _⟩ => ⟨S240, .i32⟩
  | .hbm, ⟨19, _⟩ => ⟨S10240, .i32⟩
  | .hbm, ⟨20, _⟩ => ⟨S320000, .i32⟩
  | .hbm, ⟨21, _⟩ => ⟨S330240x128, .f32⟩
  | .hbm, ⟨22, _⟩ => ⟨S10000x128, .f32⟩
  | .local .tc .vmem, ⟨0, _⟩ => ⟨S2560x128, .f32⟩
  | .local .tc .vmem, ⟨1, _⟩ => ⟨S2560x128, .f32⟩
  | .local .tc .vmem, ⟨2, _⟩ => ⟨S80x128, .f32⟩
  | .local .tc .vmem, ⟨3, _⟩ => ⟨S80x128, .f32⟩
  | .local .tc .vmem, ⟨4, _⟩ => ⟨S128x128, .bf16⟩
  | .local .tc .vmem, ⟨5, _⟩ => ⟨S128x128, .bf16⟩
  | .local .tc .vmem, ⟨6, _⟩ => ⟨S1x128, .f32⟩
  | .local .tc .vmem, ⟨7, _⟩ => ⟨S128x128, .bf16⟩
  | .local .tc .vmem, ⟨8, _⟩ => ⟨S1x128, .f32⟩
  | .local .tc .vmem, ⟨9, _⟩ => ⟨S1x128, .f32⟩
  | .local .tc .vmem, ⟨10, _⟩ => ⟨S80x128, .f32⟩
  | .local .tc .vmem, ⟨11, _⟩ => ⟨S80x128, .f32⟩
  | .local .scVector .vmem, ⟨0, _⟩ => ⟨S10320, .i32⟩
  | .local .scVector .vmem, ⟨1, _⟩ => ⟨S120x128, .f32⟩
  | .local .scVector .vmem, ⟨2, _⟩ => ⟨S120x128, .f32⟩
  | _, _ => ⟨S10000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_arg2_scv : Ref sig .scVector := ⟨.hbm, 2, rfl⟩
abbrev main_v10_scv : Ref sig .scVector := ⟨.hbm, 20, rfl⟩
abbrev main_v9_scv : Ref sig .scVector := ⟨.hbm, 19, rfl⟩
abbrev main_v11_scv : Ref sig .scVector := ⟨.hbm, 21, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg8_1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v3 : BitVec 1 := Scalar.cmpi .slt v1 c31_i32
  let v4 : BitVec 32 := Scalar.extui v3
  let c0_i32 : BitVec 32 := 0#32
  let v5 : BitVec 1 := Scalar.cmpi .ne v4 c0_i32
  v5

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10320_i32 : BitVec 32 := 10320#32
  let v2 : BitVec 32 := Scalar.muli v1 c10320_i32
  ![v2.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_0 : BitVec 32 := 31#32
  let v6 : BitVec 1 := Scalar.cmpi .eq v1 c31_i32_0
  let v7 : BitVec 32 := Scalar.extui v6
  let c0_i32_1 : BitVec 32 := 0#32
  let v8 : BitVec 1 := Scalar.cmpi .ne v7 c0_i32_1
  v8

def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10320_i32 : BitVec 32 := 10320#32
  let v2 : BitVec 32 := Scalar.muli v1 c10320_i32
  ![v2.toNat]
@[reducible] def k0_t1_loop : Scf.Loop 32 :=
  let c0_i32_6 : BitVec 32 := 0#32
  let c43_i32 : BitVec 32 := 43#32
  let v11 : BitVec 32 := Scalar.addi c0_i32_6 c43_i32
  let c1_i32 : BitVec 32 := 1#32
  ⟨c0_i32_6, v11, c1_i32⟩
def k0_off3 (k0_t1 : Fin k0_t1_loop.trips) : Fin 1 → Nat :=
  let c2_i32_10 : BitVec 32 := 2#32
  let c0_i32_6 : BitVec 32 := 0#32
  let c1_i32 : BitVec 32 := 1#32
  let arg13 : BitVec 32 := Scf.iv c0_i32_6 c1_i32 k0_t1
  let v15 : BitVec 32 := Scalar.muli c2_i32_10 arg13
  let c120_i32 : BitVec 32 := 120#32
  let v16 : BitVec 32 := Scalar.muli v15 c120_i32
  ![v16.toNat]
def k0_cond3 (k0_t1 : Fin k0_t1_loop.trips) : BitVec 1 :=
  let c0_i32_6 : BitVec 32 := 0#32
  let c1_i32 : BitVec 32 := 1#32
  let arg13 : BitVec 32 := Scf.iv c0_i32_6 c1_i32 k0_t1
  let c0_i32_13 : BitVec 32 := 0#32
  let v19 : BitVec 1 := Scalar.cmpi .sgt arg13 c0_i32_13
  let v20 : BitVec 32 := Scalar.extui v19
  let c0_i32_14 : BitVec 32 := 0#32
  let v21 : BitVec 1 := Scalar.cmpi .ne v20 c0_i32_14
  v21

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10320_i32 : BitVec 32 := 10320#32
  let v2 : BitVec 32 := Scalar.muli v1 c10320_i32
  let c2_i32_10 : BitVec 32 := 2#32
  let c0_i32_6 : BitVec 32 := 0#32
  let c1_i32 : BitVec 32 := 1#32
  let arg13 : BitVec 32 := Scf.iv c0_i32_6 c1_i32 k0_t1
  let v15 : BitVec 32 := Scalar.muli c2_i32_10 arg13
  let c1_i32_36 : BitVec 32 := 1#32
  let v47 : BitVec 32 := Scalar.subi v15 c1_i32_36
  let c120_i32_37 : BitVec 32 := 120#32
  let v48 : BitVec 32 := Scalar.muli v47 c120_i32_37
  let v49 : BitVec 32 := Scalar.addi v2 v48
  let c0_i32_38 : BitVec 32 := 0#32
  ![v49.toNat, 0]
def k0_off5 (k0_t1 : Fin k0_t1_loop.trips) : Fin 1 → Nat :=
  let c2_i32_10 : BitVec 32 := 2#32
  let c0_i32_6 : BitVec 32 := 0#32
  let c1_i32 : BitVec 32 := 1#32
  let arg13 : BitVec 32 := Scf.iv c0_i32_6 c1_i32 k0_t1
  let v15 : BitVec 32 := Scalar.muli c2_i32_10 arg13
  let c1_i32_15 : BitVec 32 := 1#32
  let v22 : BitVec 32 := Scalar.addi v15 c1_i32_15
  let c120_i32_16 : BitVec 32 := 120#32
  let v23 : BitVec 32 := Scalar.muli v22 c120_i32_16
  ![v23.toNat]
def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10320_i32 : BitVec 32 := 10320#32
  let v2 : BitVec 32 := Scalar.muli v1 c10320_i32
  let c2_i32_10 : BitVec 32 := 2#32
  let c0_i32_6 : BitVec 32 := 0#32
  let c1_i32 : BitVec 32 := 1#32
  let arg13 : BitVec 32 := Scf.iv c0_i32_6 c1_i32 k0_t1
  let v15 : BitVec 32 := Scalar.muli c2_i32_10 arg13
  let c120_i32_19 : BitVec 32 := 120#32
  let v26 : BitVec 32 := Scalar.muli v15 c120_i32_19
  let v27 : BitVec 32 := Scalar.addi v2 v26
  let c0_i32_20 : BitVec 32 := 0#32
  ![v27.toNat, 0]
def k0_cond4 (k0_t1 : Fin k0_t1_loop.trips) : BitVec 1 :=
  let c0_i32_6 : BitVec 32 := 0#32
  let c1_i32 : BitVec 32 := 1#32
  let arg13 : BitVec 32 := Scf.iv c0_i32_6 c1_i32 k0_t1
  let c1_i32_29 : BitVec 32 := 1#32
  let v38 : BitVec 32 := Scalar.addi arg13 c1_i32_29
  let c43_i32_30 : BitVec 32 := 43#32
  let v39 : BitVec 1 := Scalar.cmpi .slt v38 c43_i32_30
  let v40 : BitVec 32 := Scalar.extui v39
  let c0_i32_31 : BitVec 32 := 0#32
  let v41 : BitVec 1 := Scalar.cmpi .ne v40 c0_i32_31
  v41

def k0_off7 (k0_t1 : Fin k0_t1_loop.trips) : Fin 1 → Nat :=
  let c2_i32_10 : BitVec 32 := 2#32
  let c0_i32_6 : BitVec 32 := 0#32
  let c1_i32 : BitVec 32 := 1#32
  let arg13 : BitVec 32 := Scf.iv c0_i32_6 c1_i32 k0_t1
  let v15 : BitVec 32 := Scalar.muli c2_i32_10 arg13
  let c2_i32_36 : BitVec 32 := 2#32
  let v47 : BitVec 32 := Scalar.addi v15 c2_i32_36
  let c120_i32_37 : BitVec 32 := 120#32
  let v48 : BitVec 32 := Scalar.muli v47 c120_i32_37
  ![v48.toNat]
def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10320_i32 : BitVec 32 := 10320#32
  let v2 : BitVec 32 := Scalar.muli v1 c10320_i32
  let c2_i32_10 : BitVec 32 := 2#32
  let c0_i32_6 : BitVec 32 := 0#32
  let c1_i32 : BitVec 32 := 1#32
  let arg13 : BitVec 32 := Scf.iv c0_i32_6 c1_i32 k0_t1
  let v15 : BitVec 32 := Scalar.muli c2_i32_10 arg13
  let c1_i32_32 : BitVec 32 := 1#32
  let v42 : BitVec 32 := Scalar.addi v15 c1_i32_32
  let c120_i32_33 : BitVec 32 := 120#32
  let v43 : BitVec 32 := Scalar.muli v42 c120_i32_33
  let v44 : BitVec 32 := Scalar.addi v2 v43
  let c0_i32_34 : BitVec 32 := 0#32
  ![v44.toNat, 0]
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10320_i32 : BitVec 32 := 10320#32
  let v2 : BitVec 32 := Scalar.muli v1 c10320_i32
  let c10200_i32 : BitVec 32 := 10200#32
  let v12 : BitVec 32 := Scalar.addi v2 c10200_i32
  let c0_i32_8 : BitVec 32 := 0#32
  ![v12.toNat, 0]
abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c4000_i32 : BitVec 32 := 4000#32
  let v0 : BitVec 32 := Scalar.addi c4000_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2560x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S80x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S80x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S256x128_S128x128_0_0 : S256x128.Slices ![0, 0] S128x128
  bitsLt_bf16_f32 : FTy.bits .bf16 < FTy.bits .f32
  slices_S256x128_S128x128_128_0 : S256x128.Slices ![128, 0] S128x128
  shapeCasts_S128_S1x128 : S128.ShapeCasts S1x128
  shapeCasts_S128x1_S1x128 : S128x1.ShapeCasts S1x128
  bcast_S_S240 : S_.BroadcastsInDim S240 (![] : Fin 0 → Fin S240.rank)
  concatenates_S10000_S240_S10240_d0 : Shape.Concatenates [S10000, S240] S10240 0
  shapeCasts_S10000x32_S320000 : S10000x32.ShapeCasts S320000
  inb_S10320_S80_0 : ∀ a, (![0] : Fin 1 → Nat) a + S80.size a ≤ S10320.size a
  inb_S10320_S10240_80 : ∀ a, (![80] : Fin 1 → Nat) a + S10240.size a ≤ S10320.size a
  inb_S10240_S10240_0 : ∀ a, (![0] : Fin 1 → Nat) a + S10240.size a ≤ S10240.size a
  inb_S10320_S120_0 : ∀ a, (![0] : Fin 1 → Nat) a + S120.size a ≤ S10320.size a
  inb_S50000x128_S50000x128_0_0 : ∀ a, (![0, 0] : Fin 2 → Nat) a + S50000x128.size a ≤ S50000x128.size a
  gathers_S50000x128_S120x128 : S50000x128.Gathers 0 S120x128
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  inb_S80x128_S80x128_0_0 : ∀ a, (![0, 0] : Fin 2 → Nat) a + S80x128.size a ≤ S80x128.size a
  h_S80x128 : 0 < S80x128.numel
  shapeCasts_S80x128_S80x128 : S80x128.ShapeCasts S80x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S80x128 : S1x128.Broadcasts S80x128
  shapeCasts_S2560x128_S80x32x128 : S2560x128.ShapeCasts S80x32x128
  shapeCasts_S80x128_S80x1x128 : S80x128.ShapeCasts S80x1x128
  broadcasts_S80x1x128_S80x32x128 : S80x1x128.Broadcasts S80x32x128
  shapeCasts_S80x32x128_S2560x128 : S80x32x128.ShapeCasts S2560x128
  broadcasts_S1x128_S2560x128 : S1x128.Broadcasts S2560x128
  shapeCasts_S1x128_S1x1x128 : S1x128.ShapeCasts S1x1x128
  broadcasts_S1x1x128_S80x32x128 : S1x1x128.Broadcasts S80x32x128
  reduces_S80x32x128_S80x32 : S80x32x128.Reduces [2] S80x32
  shapeCasts_S80x32_S80x32x1 : S80x32.ShapeCasts S80x32x1
  reduces_S80x32x1_S80x1 : S80x32x1.Reduces [1] S80x1
  shapeCasts_S80x1_S80x1x1 : S80x1.ShapeCasts S80x1x1
  broadcasts_S80x1x1_S80x32x1 : S80x1x1.Broadcasts S80x32x1
  broadcasts_S80x32x1_S80x32x128 : S80x32x1.Broadcasts S80x32x128
  reduces_S80x32x128_S80x128 : S80x32x128.Reduces [1] S80x128
  dot_S2560x128_S128x128_S2560x128_1_0_0_1_n_n_wf : DotDims.WF S2560x128 S128x128 S2560x128 [1] [0] [0] [1] [] []
  dot_S80x128_S128x128_S80x128_1_0_0_1_n_n_wf : DotDims.WF S80x128 S128x128 S80x128 [1] [0] [0] [1] [] []
  hcc0_scratch3 : 0 + S_.numel ≤ 19
  hcc0_scratch4 : 1 + S_.numel ≤ 19
  hcc0_scratch5 : 2 + S_.numel ≤ 19
  hcc0_scratch6 : 3 + S_.numel ≤ 19
  hcc0_scoped0 : 4 + S_.numel ≤ 19
  hcc0_scoped1 : 5 + S_.numel ≤ 19
  hcc0_scoped2 : 6 + S_.numel ≤ 19
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S10320.size a ≤ S320000.size a
  k0_off2_inb : ∀ i : grid0.Coords, ∀ (k0_h2 : k0_cond2 i = 1#1), ∀ a, (k0_off2 i) a + S80.size a ≤ S320000.size a
  k0_t1_ok : k0_t1_loop.OK
  k0_off3_inb : ∀ k0_t1 : Fin k0_t1_loop.trips, ∀ a, (k0_off3 k0_t1) a + S120.size a ≤ S10320.size a
  k0_off4_inb : ∀ (i : grid0.Coords) (k0_t1 : Fin k0_t1_loop.trips), ∀ (k0_h3 : k0_cond3 k0_t1 = 1#1), ∀ a, (k0_off4 i k0_t1) a + S120x128.size a ≤ S330240x128.size a
  k0_off5_inb : ∀ k0_t1 : Fin k0_t1_loop.trips, ∀ a, (k0_off5 k0_t1) a + S120.size a ≤ S10320.size a
  k0_off6_inb : ∀ (i : grid0.Coords) (k0_t1 : Fin k0_t1_loop.trips), ∀ a, (k0_off6 i k0_t1) a + S120x128.size a ≤ S330240x128.size a
  k0_off7_inb : ∀ k0_t1 : Fin k0_t1_loop.trips, ∀ (k0_h4 : k0_cond4 k0_t1 = 1#1), ∀ a, (k0_off7 k0_t1) a + S120.size a ≤ S10320.size a
  k0_off8_inb : ∀ (i : grid0.Coords) (k0_t1 : Fin k0_t1_loop.trips), ∀ a, (k0_off8 i k0_t1) a + S120x128.size a ≤ S330240x128.size a
  k0_off9_inb : ∀ i : grid0.Coords, ∀ a, (k0_off9 i) a + S120x128.size a ≤ S330240x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2560x128.size a ≤ S330240x128.size a
  hwx1_0 : ∀ i : grid1.Coords, EltTy.bits .f32 = 32 ∨ (Rect.block (s := S330240x128) S2560x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S80x128.size a ≤ S330240x128.size a
  hwx1_1 : ∀ i : grid1.Coords, EltTy.bits .f32 = 32 ∨ (Rect.block (s := S330240x128) S80x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S80x128.size a ≤ S10000x128.size a
  hwx1_8 : ∀ i : grid1.Coords, EltTy.bits .f32 = 32 ∨ (Rect.block (s := S10000x128) S80x128.size (cc1_transform_8 i) (hinb1_8 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2
def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf
def dot_S80x128_S128x128_S80x128_1_0_0_1_n_n : DotDims S80x128 S128x128 S80x128 where
  lhsContracting := [1]
  rhsContracting := [0]
  lhsNonContracting := [0]
  rhsNonContracting := [1]
  lhsBatch := []
  rhsBatch := []
  wf := dot_S80x128_S128x128_S80x128_1_0_0_1_n_n_wf

abbrev win1_0 : Pipeline.Window sig grid1 :=
  Pipeline.Window.ofSpec (Memref.whole main_v11) S2560x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S80x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12) S80x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S10000 : Shape := ⟨1, ![10000]⟩
abbrev S10000x32 : Shape := ⟨2, ![10000, 32]⟩
abbrev S50000x128 : Shape := ⟨2, ![50000, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S10000x32x1 : Shape := ⟨3, ![10000, 32, 1]⟩
abbrev S1x1x1 : Shape := ⟨3, ![1, 1, 1]⟩
abbrev S10000x32x128 : Shape := ⟨3, ![10000, 32, 128]⟩
abbrev S10000x1 : Shape := ⟨2, ![10000, 1]⟩
abbrev S1x1 : Shape := ⟨2, ![1, 1]⟩
abbrev S10000x128 : Shape := ⟨2, ![10000, 128]⟩
abbrev S10000x1x128 : Shape := ⟨3, ![10000, 1, 128]⟩
abbrev S10000x32x256 : Shape := ⟨3, ![10000, 32, 256]⟩
abbrev S1x1x128 : Shape := ⟨3, ![1, 1, 128]⟩
abbrev S10000x1x1 : Shape := ⟨3, ![10000, 1, 1]⟩

abbrev nBuf : Space → Nat
  | .hbm => 94
  | .vmem => 0
  | .smem => 0
  | _ => 0

abbrev bufTy : (tb : Table) → Fin (tcTables nBuf tb) → BufTy
  | .hbm, ⟨0, _⟩ => ⟨S10000, .i32⟩
  | .hbm, ⟨1, _⟩ => ⟨S10000x32, .i32⟩
  | .hbm, ⟨2, _⟩ => ⟨S50000x128, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S_, .i32⟩
  | .hbm, ⟨10, _⟩ => ⟨S10000x32, .i32⟩
  | .hbm, ⟨11, _⟩ => ⟨S10000x32, .i1⟩
  | .hbm, ⟨12, _⟩ => ⟨S_, .i32⟩
  | .hbm, ⟨13, _⟩ => ⟨S10000x32, .i32⟩
  | .hbm, ⟨14, _⟩ => ⟨S10000x32, .i32⟩
  | .hbm, ⟨15, _⟩ => ⟨S10000x32, .i32⟩
  | .hbm, ⟨16, _⟩ => ⟨S10000x32x1, .i32⟩
  | .hbm, ⟨17, _⟩ => ⟨S1, .i32⟩
  | .hbm, ⟨18, _⟩ => ⟨S_, .i32⟩
  | .hbm, ⟨19, _⟩ => ⟨S10000x32x1, .i32⟩
  | .hbm, ⟨20, _⟩ => ⟨S10000x32x1, .i1⟩
  | .hbm, ⟨21, _⟩ => ⟨S1x1x1, .i32⟩
  | .hbm, ⟨22, _⟩ => ⟨S10000x32x1, .i32⟩
  | .hbm, ⟨23, _⟩ => ⟨S10000x32x1, .i1⟩
  | .hbm, ⟨24, _⟩ => ⟨S10000x32x1, .i1⟩
  | .hbm, ⟨25, _⟩ => ⟨S_, .i1⟩
  | .hbm, ⟨26, _⟩ => ⟨S10000x32, .i1⟩
  | .hbm, ⟨27, _⟩ => ⟨S10000x32x128, .f32⟩
  | .hbm, ⟨28, _⟩ => ⟨S10000x32x128, .i1⟩
  | .hbm, ⟨29, _⟩ => ⟨S_, .f32⟩
  | .hbm, ⟨30, _⟩ => ⟨S10000x32x128, .f32⟩
  | .hbm, ⟨31, _⟩ => ⟨S10000x32x128, .f32⟩
  | .hbm, ⟨32, _⟩ => ⟨S_, .i32⟩
  | .hbm, ⟨33, _⟩ => ⟨S10000, .i32⟩
  | .hbm, ⟨34, _⟩ => ⟨S10000, .i1⟩
  | .hbm, ⟨35, _⟩ => ⟨S_, .i32⟩
  | .hbm, ⟨36, _⟩ => ⟨S10000, .i32⟩
  | .hbm, ⟨37, _⟩ => ⟨S10000, .i32⟩
  | .hbm, ⟨38, _⟩ => ⟨S10000, .i32⟩
  | .hbm, ⟨39, _⟩ => ⟨S10000x1, .i32⟩
  | .hbm, ⟨40, _⟩ => ⟨S1, .i32⟩
  | .hbm, ⟨41, _⟩ => ⟨S_, .i32⟩
  | .hbm, ⟨42, _⟩ => ⟨S10000x1, .i32⟩
  | .hbm, ⟨43, _⟩ => ⟨S10000x1, .i1⟩
  | .hbm, ⟨44, _⟩ => ⟨S1x1, .i32⟩
  | .hbm, ⟨45, _⟩ => ⟨S10000x1, .i32⟩
  | .hbm, ⟨46, _⟩ => ⟨S10000x1, .i1⟩
  | .hbm, ⟨47, _⟩ => ⟨S10000x1, .i1⟩
  | .hbm, ⟨48, _⟩ => ⟨S_, .i1⟩
  | .hbm, ⟨49, _⟩ => ⟨S10000, .i1⟩
  | .hbm, ⟨50, _⟩ => ⟨S10000x128, .f32⟩
  | .hbm, ⟨51, _⟩ => ⟨S10000x128, .i1⟩
  | .hbm, ⟨52, _⟩ => ⟨S_, .f32⟩
  | .hbm, ⟨53, _⟩ => ⟨S10000x128, .f32⟩
  | .hbm, ⟨54, _⟩ => ⟨S10000x128, .f32⟩
  | .hbm, ⟨55, _⟩ => ⟨S10000x1x128, .f32⟩
  | .hbm, ⟨56, _⟩ => ⟨S10000x32x128, .f32⟩
  | .hbm, ⟨57, _⟩ => ⟨S10000x32x256, .f32⟩
  | .hbm, ⟨58, _⟩ => ⟨S10000x32x128, .f32⟩
  | .hbm, ⟨59, _⟩ => ⟨S1x1x128, .f32⟩
  | .hbm, ⟨60, _⟩ => ⟨S10000x32x128, .f32⟩
  | .hbm, ⟨61, _⟩ => ⟨S10000x32x128, .f32⟩
  | .hbm, ⟨62, _⟩ => ⟨S_, .f32⟩
  | .hbm, ⟨63, _⟩ => ⟨S10000x32x128, .f32⟩
  | .hbm, ⟨64, _⟩ => ⟨S10000x32x128, .f32⟩
  | .hbm, ⟨65, _⟩ => ⟨S10000x32x128, .f32⟩
  | .hbm, ⟨66, _⟩ => ⟨S1x1x128, .f32⟩
  | .hbm, ⟨67, _⟩ => ⟨S10000x32x128, .f32⟩
  | .hbm, ⟨68, _⟩ => ⟨S10000x32x128, .f32⟩
  | .hbm, ⟨69, _⟩ => ⟨S_, .f32⟩
  | .hbm, ⟨70, _⟩ => ⟨S10000x32x128, .f32⟩
  | .hbm, ⟨71, _⟩ => ⟨S10000x32x128, .f32⟩
  | .hbm, ⟨72, _⟩ => ⟨S10000x32x1, .f32⟩
  | .hbm, ⟨73, _⟩ => ⟨S1x1x1, .f32⟩
  | .hbm, ⟨74, _⟩ => ⟨S10000x32x1, .f32⟩
  | .hbm, ⟨75, _⟩ => ⟨S10000x32x1, .f32⟩
  | .hbm, ⟨76, _⟩ => ⟨S_, .f32⟩
  | .hbm, ⟨77, _⟩ => ⟨S10000x1, .f32⟩
  | .hbm, ⟨78, _⟩ => ⟨S_, .f32⟩
  | .hbm, ⟨79, _⟩ => ⟨S10000x1, .f32⟩
  | .hbm, ⟨80, _⟩ => ⟨S10000x1, .f32⟩
  | .hbm, ⟨81, _⟩ => ⟨S10000x1x1, .f32⟩
  | .hbm, ⟨82, _⟩ => ⟨S10000x32x1, .f32⟩
  | .hbm, ⟨83, _⟩ => ⟨S10000x32x1, .f32⟩
  | .hbm, ⟨84, _⟩ => ⟨S10000x32x1, .f32⟩
  | .hbm, ⟨85, _⟩ => ⟨S_, .f32⟩
  | .hbm, ⟨86, _⟩ => ⟨S10000x1, .f32⟩
  | .hbm, ⟨87, _⟩ => ⟨S10000x1x1, .f32⟩
  | .hbm, ⟨88, _⟩ => ⟨S10000x32x1, .f32⟩
  | .hbm, ⟨89, _⟩ => ⟨S10000x32x1, .f32⟩
  | .hbm, ⟨90, _⟩ => ⟨S10000x32x128, .f32⟩
  | .hbm, ⟨91, _⟩ => ⟨S10000x32x128, .f32⟩
  | .hbm, ⟨92, _⟩ => ⟨S_, .f32⟩
  | .hbm, ⟨93, _⟩ => ⟨S10000x128, .f32⟩
  | _, _ => ⟨S10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_call2_cst : Ref sig .tc := ⟨.hbm, 62, rfl⟩
abbrev main_call2_v0 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_call3_cst : Ref sig .tc := ⟨.hbm, 69, rfl⟩
abbrev main_call3_v0 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_cst : Ref sig .tc := ⟨.hbm, 76, rfl⟩
abbrev main_v19 : Ref sig .tc := ⟨.hbm, 77, rfl⟩
abbrev main_cst_0 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_cst_1 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_2 : Ref sig .tc := ⟨.hbm, 92, rfl⟩
abbrev main_v32 : Ref sig .tc := ⟨.hbm, 93, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  bcast_S10000x32_S10000x32x1_0_1 : S10000x32.BroadcastsInDim S10000x32x1 (![0, 1] : Fin 2 → Fin S10000x32x1.rank)
  bcast_S_S10000x32x1 : S_.BroadcastsInDim S10000x32x1 (![] : Fin 0 → Fin S10000x32x1.rank)
  bcast_S1_S1x1x1_2 : S1.BroadcastsInDim S1x1x1 (![2] : Fin 1 → Fin S1x1x1.rank)
  bcast_S1x1x1_S10000x32x1_0_1_2 : S1x1x1.BroadcastsInDim S10000x32x1 (![0, 1, 2] : Fin 3 → Fin S10000x32x1.rank)
  reducesTo_S10000x32x1_S10000x32_d2 : S10000x32x1.ReducesTo [2] S10000x32
  h_S_ : 0 < S_.numel
  bcast_S10000x32_S10000x32x128_0_1 : S10000x32.BroadcastsInDim S10000x32x128 (![0, 1] : Fin 2 → Fin S10000x32x128.rank)
  bcast_S_S10000x32x128 : S_.BroadcastsInDim S10000x32x128 (![] : Fin 0 → Fin S10000x32x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  reducesTo_S10000x1_S10000_d1 : S10000x1.ReducesTo [1] S10000
  bcast_S10000_S10000x128_0 : S10000.BroadcastsInDim S10000x128 (![0] : Fin 1 → Fin S10000x128.rank)
  bcast_S_S10000x128 : S_.BroadcastsInDim S10000x128 (![] : Fin 0 → Fin S10000x128.rank)
  bcast_S10000x128_S10000x1x128_0_2 : S10000x128.BroadcastsInDim S10000x1x128 (![0, 2] : Fin 2 → Fin S10000x1x128.rank)
  bcast_S10000x1x128_S10000x32x128_0_1_2 : S10000x1x128.BroadcastsInDim S10000x32x128 (![0, 1, 2] : Fin 3 → Fin S10000x32x128.rank)
  concatenates_S10000x32x128_S10000x32x128_S10000x32x256_d2 : Shape.Concatenates [S10000x32x128, S10000x32x128] S10000x32x256 2
  bcast_S128_S1x1x128_2 : S128.BroadcastsInDim S1x1x128 (![2] : Fin 1 → Fin S1x1x128.rank)
  bcast_S1x1x128_S10000x32x128_0_1_2 : S1x1x128.BroadcastsInDim S10000x32x128 (![0, 1, 2] : Fin 3 → Fin S10000x32x128.rank)
  reducesTo_S10000x32x1_S10000x1_d1 : S10000x32x1.ReducesTo [1] S10000x1
  bcast_S10000x1_S10000x1x1_0_2 : S10000x1.BroadcastsInDim S10000x1x1 (![0, 2] : Fin 2 → Fin S10000x1x1.rank)
  bcast_S10000x1x1_S10000x32x1_0_1_2 : S10000x1x1.BroadcastsInDim S10000x32x1 (![0, 1, 2] : Fin 3 → Fin S10000x32x1.rank)
  bcast_S10000x32x1_S10000x32x128_0_1_2 : S10000x32x1.BroadcastsInDim S10000x32x128 (![0, 1, 2] : Fin 3 → Fin S10000x32x128.rank)
  reducesTo_S10000x32x128_S10000x128_d1 : S10000x32x128.ReducesTo [1] S10000x128
  gather_S50000x128_S10000x32x1_S10000x32x128_2_0_n_n_0_2_1128_wf : GatherDims.WF S50000x128 S10000x32x1 S10000x32x128 [2] [0] [] [0] [] 2 ![1, 128]
  gather_S50000x128_S10000x1_S10000x128_1_0_n_n_0_1_1128_wf : GatherDims.WF S50000x128 S10000x1 S10000x128 [1] [0] [] [0] [] 1 ![1, 128]
  dot_S10000x32x256_S256x128_S10000x32x128_2_0_01_1_n_n_wf : DotDims.WF S10000x32x256 S256x128 S10000x32x128 [2] [0] [0, 1] [1] [] []
  dot_S10000x32x128_S128x128_S10000x32x128_2_0_01_1_n_n_wf : DotDims.WF S10000x32x128 S128x128 S10000x32x128 [2] [0] [0, 1] [1] [] []
  dot_S10000x32x128_S128x1_S10000x32x1_2_0_01_1_n_n_wf : DotDims.WF S10000x32x128 S128x1 S10000x32x1 [2] [0] [0, 1] [1] [] []

variable [Facts₀]

def gather_S50000x128_S10000x32x1_S10000x32x128_2_0_n_n_0_2_1128 : GatherDims S50000x128 S10000x32x1 S10000x32x128 where
  offsetDims := [2]
  collapsedSliceDims := [0]
  operandBatchingDims := []
  startIndicesBatchingDims := []
  startIndexMap := [0]
  indexVectorDim := 2
  sliceSizes := ![1, 128]
  wf := gather_S50000x128_S10000x32x1_S10000x32x128_2_0_n_n_0_2_1128_wf
def gather_S50000x128_S10000x1_S10000x128_1_0_n_n_0_1_1128 : GatherDims S50000x128 S10000x1 S10000x128 where
  offsetDims := [1]
  collapsedSliceDims := [0]
  operandBatchingDims := []
  startIndicesBatchingDims := []
  startIndexMap := [0]
  indexVectorDim := 1
  sliceSizes := ![1, 128]
  wf := gather_S50000x128_S10000x1_S10000x128_1_0_n_n_0_1_1128_wf
def dot_S10000x32x256_S256x128_S10000x32x128_2_0_01_1_n_n : DotDims S10000x32x256 S256x128 S10000x32x128 where
  lhsContracting := [2]
  rhsContracting := [0]
  lhsNonContracting := [0, 1]
  rhsNonContracting := [1]
  lhsBatch := []
  rhsBatch := []
  wf := dot_S10000x32x256_S256x128_S10000x32x128_2_0_01_1_n_n_wf
def dot_S10000x32x128_S128x128_S10000x32x128_2_0_01_1_n_n : DotDims S10000x32x128 S128x128 S10000x32x128 where
  lhsContracting := [2]
  rhsContracting := [0]
  lhsNonContracting := [0, 1]
  rhsNonContracting := [1]
  lhsBatch := []
  rhsBatch := []
  wf := dot_S10000x32x128_S128x128_S10000x32x128_2_0_01_1_n_n_wf
def dot_S10000x32x128_S128x1_S10000x32x1_2_0_01_1_n_n : DotDims S10000x32x128 S128x1 S10000x32x1 where
  lhsContracting := [2]
  rhsContracting := [0]
  lhsNonContracting := [0, 1]
  rhsNonContracting := [1]
  lhsBatch := []
  rhsBatch := []
  wf := dot_S10000x32x128_S128x1_S10000x32x1_2_0_01_1_n_n_wf

class Facts : Prop extends Facts₀ where

variable [Facts]
-- ==== Proof.KiCommon.lean ====
/-
  The program as the SparseCore launch theorem sees it, and the resource algebra of the proof: the handshake
  cells' rounds, the TensorCore pipeline's staging cells' rounds, and the local transfers' counters, side by side.
-/
import proofs.«215990_g90829968376431_cont_sun_c4_571_51_alg».proof.KernelIdeal
import proofs.«215990_g90829968376431_cont_sun_c4_571_51_alg».proof.Proof.Gen.KernelIdeal
import Idealize.ShloMosaic.Lib.SparseCore.Launch
import Idealize.ShloMosaic.Lib.StableHlo.Run
import Idealize.ShloMosaic.Lib.Pipeline.Kit
import Idealize.ShloMosaic.Lib.Transfers
import Idealize.ShloMosaic.Lib.Tactic

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UR : Type := URounds (GSem nD τ sig) Unit
abbrev UU : Type := UH × (UR × Counters)

/-- The handshakes' rounds: the left factor. -/
abbrev EH : Emb UH (MT nD τ sig (HIx 1) (Elt F) ℕ UU ℕ) := embL

/-- The pipeline's staging cells' rounds: the middle factor. -/
def EP : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb

instance EP_landsIn : (EP : Emb UR (MT nD τ sig (HIx 1) (Elt F) ℕ UU ℕ)).LandsIn (upEmb : UEmb _ (MT nD τ sig (HIx 1) (Elt F) ℕ UU ℕ)) := by
  unfold EP; infer_instance

example : CountersIn UU := inferInstance

end Cert.KernelIdeal.Launch

end
-- ==== Proof.KiHost.lean ====
import proofs.«215990_g90829968376431_cont_sun_c4_571_51_alg».proof.Proof.KiCommon

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## @main's arrays on the TensorCore -/

/-- Every unscoped buffer the TensorCore names: @main's arrays. -/
def S23 : Finset (DevRef τ sig) := (Finset.univ.filter fun b : Ref sig .tc => ¬ b.isScoped).map ⟨Proc.devRef .tc, Proc.devRef_injective _⟩

omit [FloatOps F] in
theorem mem_S23 (b : Ref sig .tc) (h : ¬ b.isScoped) : Proc.devRef .tc b ∈ S23 :=
  Finset.mem_map.mpr ⟨b, Finset.mem_filter.mpr ⟨Finset.mem_univ _, h⟩, rfl⟩

theorem sub1 (y : Ref sig .tc) (hy : ¬ y.isScoped) : ({Proc.devRef .tc y} : Finset (DevRef τ sig)) ⊆ S23 :=
  Finset.singleton_subset_iff.mpr (mem_S23 y hy)
theorem sub2 (x y : Ref sig .tc) (hx : ¬ x.isScoped) (hy : ¬ y.isScoped) : ({Proc.devRef .tc x, Proc.devRef .tc y} : Finset (DevRef τ sig)) ⊆ S23 :=
  Finset.insert_subset (mem_S23 x hx) (sub1 y hy)
theorem sub3 (a b y : Ref sig .tc) (ha : ¬ a.isScoped) (hb : ¬ b.isScoped) (hy : ¬ y.isScoped) :
    ({Proc.devRef .tc a, Proc.devRef .tc b, Proc.devRef .tc y} : Finset (DevRef τ sig)) ⊆ S23 :=
  Finset.insert_subset (mem_S23 a ha) (sub2 b y hb hy)

/-- The launch valuation of device `d`. -/
def V0 (d : Dev nD) : Valuation τ sig (Elt F) := fun b => m (d, b)

omit [FloatOps F] in
theorem unscoped_held (d : Dev nD) : (unscopedBufs d (fun b => m ((SparseCore.T d).loc b)) : sProp 𝕄) = held (T d) S23 (V0 m d) := by
  unfold unscopedBufs held S23
  rw [bigSep_map]; rfl

/-! ## The host operations before the SparseCore call -/

abbrev op0 : HloOp τ sig (Elt F) := StableHlo.unary main_arg3 main_v0 ((extractStridedSlice S128x128 ![0, 0] · Facts₀.slices_S256x128_S128x128_0_0) : (⟨S256x128, .f32⟩ : BufTy).Contents (Elt F) → (⟨S128x128, .f32⟩ : BufTy).Contents (Elt F))
abbrev op1 : HloOp τ sig (Elt F) := StableHlo.unary main_v0 main_v1 ((truncf .bf16 · Facts₀.bitsLt_bf16_f32) : (⟨S128x128, .f32⟩ : BufTy).Contents (Elt F) → (⟨S128x128, .bf16⟩ : BufTy).Contents (Elt F))
abbrev op2 : HloOp τ sig (Elt F) := StableHlo.unary main_arg3 main_v2 ((extractStridedSlice S128x128 ![128, 0] · Facts₀.slices_S256x128_S128x128_128_0) : (⟨S256x128, .f32⟩ : BufTy).Contents (Elt F) → (⟨S128x128, .f32⟩ : BufTy).Contents (Elt F))
abbrev op3 : HloOp τ sig (Elt F) := StableHlo.unary main_v2 main_v3 ((truncf .bf16 · Facts₀.bitsLt_bf16_f32) : (⟨S128x128, .f32⟩ : BufTy).Contents (Elt F) → (⟨S128x128, .bf16⟩ : BufTy).Contents (Elt F))
abbrev op4 : HloOp τ sig (Elt F) := StableHlo.unary main_arg5 main_v4 ((truncf .bf16 · Facts₀.bitsLt_bf16_f32) : (⟨S128x128, .f32⟩ : BufTy).Contents (Elt F) → (⟨S128x128, .bf16⟩ : BufTy).Contents (Elt F))
abbrev op5 : HloOp τ sig (Elt F) := StableHlo.reshape main_arg4 main_v5 rfl Facts₀.shapeCasts_S128_S1x128
abbrev op6 : HloOp τ sig (Elt F) := StableHlo.reshape main_arg6 main_v6 rfl Facts₀.shapeCasts_S128_S1x128
abbrev op7 : HloOp τ sig (Elt F) := StableHlo.reshape main_arg7 main_v7 rfl Facts₀.shapeCasts_S128x1_S1x128
abbrev op8 : HloOp τ sig (Elt F) := StableHlo.nullary main_c (constantI S_ 32 0#32)
abbrev op9 : HloOp τ sig (Elt F) := StableHlo.unary main_c main_v8 (broadcastInDim S240 ![] Facts₀.bcast_S_S240 : (⟨S_, .i32⟩ : BufTy).Contents (Elt F) → (⟨S240, .i32⟩ : BufTy).Contents (Elt F))
abbrev op10 : HloOp τ sig (Elt F) := StableHlo.binary main_arg0 main_v8 main_v9 ((fun a b => concatenate S10240 0 [⟨S10000, a⟩, ⟨S240, b⟩] Facts₀.concatenates_S10000_S240_S10240_d0) : (⟨S10000, .i32⟩ : BufTy).Contents (Elt F) → (⟨S240, .i32⟩ : BufTy).Contents (Elt F) → (⟨S10240, .i32⟩ : BufTy).Contents (Elt F))
abbrev op11 : HloOp τ sig (Elt F) := StableHlo.reshape main_arg1 main_v10 rfl Facts₀.shapeCasts_S10000x32_S320000

/-- The host operations before the SparseCore call, in order. -/
abbrev hostOps : List (HloOp τ sig (Elt F)) := [op0, op1, op2, op3, op4, op5, op6, op7, op8, op9, op10, op11]

/-- The valuation after them. -/
def V12 (d : Dev nD) : Valuation τ sig (Elt F) := StableHlo.after hostOps (V0 m d)

/-! ## What the arrays hold after the host operations -/

theorem V12_arg0 (d : Dev nD) : V12 m d (Proc.devRef .tc main_arg0) = m ((SparseCore.T d).loc main_arg0) := by
  unfold V12; after_results; rfl
theorem V12_arg1 (d : Dev nD) : V12 m d (Proc.devRef .tc main_arg1) = m ((SparseCore.T d).loc main_arg1) := by
  unfold V12; after_results; rfl
theorem V12_arg2 (d : Dev nD) : V12 m d (Proc.devRef .tc main_arg2) = m ((SparseCore.T d).loc main_arg2) := by
  unfold V12; after_results; rfl
theorem V12_arg3 (d : Dev nD) : V12 m d (Proc.devRef .tc main_arg3) = m ((SparseCore.T d).loc main_arg3) := by
  unfold V12; after_results; rfl
theorem V12_arg4 (d : Dev nD) : V12 m d (Proc.devRef .tc main_arg4) = m ((SparseCore.T d).loc main_arg4) := by
  unfold V12; after_results; rfl
theorem V12_arg5 (d : Dev nD) : V12 m d (Proc.devRef .tc main_arg5) = m ((SparseCore.T d).loc main_arg5) := by
  unfold V12; after_results; rfl
theorem V12_arg6 (d : Dev nD) : V12 m d (Proc.devRef .tc main_arg6) = m ((SparseCore.T d).loc main_arg6) := by
  unfold V12; after_results; rfl
theorem V12_arg7 (d : Dev nD) : V12 m d (Proc.devRef .tc main_arg7) = m ((SparseCore.T d).loc main_arg7) := by
  unfold V12; after_results; rfl
theorem V12_arg8 (d : Dev nD) : V12 m d (Proc.devRef .tc main_arg8) = m ((SparseCore.T d).loc main_arg8) := by
  unfold V12; after_results; rfl
theorem V12_v11 (d : Dev nD) : V12 m d (Proc.devRef .tc main_v11) = m ((SparseCore.T d).loc main_v11) := by
  unfold V12; after_results; rfl
theorem V12_v12 (d : Dev nD) : V12 m d (Proc.devRef .tc main_v12) = m ((SparseCore.T d).loc main_v12) := by
  unfold V12; after_results; rfl

/-- The first weight's upper half, in the narrow format. -/
def hv1 (a3 : (⟨S256x128, .f32⟩ : BufTy).Contents (Elt F)) : (⟨S128x128, .bf16⟩ : BufTy).Contents (Elt F) :=
  truncf .bf16 (extractStridedSlice S128x128 ![0, 0] a3 Facts₀.slices_S256x128_S128x128_0_0) Facts₀.bitsLt_bf16_f32
/-- The first weight's lower half, in the narrow format. -/
def hv3 (a3 : (⟨S256x128, .f32⟩ : BufTy).Contents (Elt F)) : (⟨S128x128, .bf16⟩ : BufTy).Contents (Elt F) :=
  truncf .bf16 (extractStridedSlice S128x128 ![128, 0] a3 Facts₀.slices_S256x128_S128x128_128_0) Facts₀.bitsLt_bf16_f32
/-- The second weight, in the narrow format. -/
def hv4 (a5 : (⟨S128x128, .f32⟩ : BufTy).Contents (Elt F)) : (⟨S128x128, .bf16⟩ : BufTy).Contents (Elt F) :=
  truncf .bf16 a5 Facts₀.bitsLt_bf16_f32
/-- The node list padded with 240 zeros. -/
def hv9 (a0 : (⟨S10000, .i32⟩ : BufTy).Contents (Elt F)) : (⟨S10240, .i32⟩ : BufTy).Contents (Elt F) :=
  concatenate S10240 0 [⟨S10000, a0⟩, ⟨S240, (broadcastInDim S240 ![] Facts₀.bcast_S_S240 (constantI S_ 32 0#32) : (⟨S240, .i32⟩ : BufTy).Contents (Elt F))⟩] Facts₀.concatenates_S10000_S240_S10240_d0

theorem V12_v1 (d : Dev nD) : V12 m d (Proc.devRef .tc main_v1) = hv1 (m ((SparseCore.T d).loc main_arg3)) := by
  unfold V12 hv1; after_results; rfl
theorem V12_v3 (d : Dev nD) : V12 m d (Proc.devRef .tc main_v3) = hv3 (m ((SparseCore.T d).loc main_arg3)) := by
  unfold V12 hv3; after_results; rfl
theorem V12_v4 (d : Dev nD) : V12 m d (Proc.devRef .tc main_v4) = hv4 (m ((SparseCore.T d).loc main_arg5)) := by
  unfold V12 hv4; after_results; rfl
theorem V12_v9 (d : Dev nD) : V12 m d (Proc.devRef .tc main_v9) = hv9 (m ((SparseCore.T d).loc main_arg0)) := by
  unfold V12 hv9; after_results; rfl

end Cert.KernelIdeal.Launch

end
-- ==== Proof.ScTileDefs.lean ====
/-
  The SparseCore gather task: what a vector subcore is handed and hands back, and the value it leaves.

  Subcore `(c, s)` has number `w = 2 s + c`.  Its index list is words `[10320 w, 10320 w + 10320)` of the
  concatenation of the two index arrays (320000 neighbour words, then 10240 node words); row `r` of the result is the
  table's row named by word `r` of that concatenation.  A task reads the table and both index arrays (a read share of
  each, whole) and owns its 10320 rows of the result.
-/
import proofs.«215990_g90829968376431_cont_sun_c4_571_51_alg».proof.Proof.KiCommon
import Idealize.ShloMosaic.Lib.ValueIdx
import Idealize.ShloMosaic.Lib.SparseCore.Stream

noncomputable section

namespace Cert.KernelIdeal.ScTile

open Cert.KernelIdeal Cert.KernelIdeal.Gen Cert.KernelIdeal.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The value: one whole-array function of the three arrays read -/

/-- Word `r` of the concatenated index list: the neighbour words, then the node words. -/
def cat (nf : S320000.Idx → Elt F .i32) (np : S10240.Idx → Elt F .i32) (r : ℕ) : Elt F .i32 :=
  if h : r < 320000 then nf (ValueIdx.ix1 (⟨r, h⟩ : Fin 320000))
  else np (ValueIdx.ix1 (⟨(r - 320000) % 10240, Nat.mod_lt _ (by decide)⟩ : Fin 10240))

/-- The table row a word names (reduced into the table's extent; under the range hypotheses it is the word). -/
def rowOfWord (w : BitVec 32) : Fin 50000 := ⟨w.toNat % 50000, Nat.mod_lt _ (by decide)⟩

/-- The gathered array: row `r` is the table's row named by word `r` of the concatenated list. -/
def gathered (tab : S50000x128.Idx → Elt F .f32) (nf : S320000.Idx → Elt F .i32) (np : S10240.Idx → Elt F .i32) :
    S330240x128.Idx → Elt F .f32 :=
  fun i => tab (ValueIdx.ix2 (rowOfWord (cat nf np (i 0).val)) (i 1))

/-! ## The arrays, the thread, the task's rows -/

abbrev tLoc (d : Dev nD) : Loc nD τ sig := (SparseCore.T d).loc main_arg2
abbrev nLoc (d : Dev nD) : Loc nD τ sig := (SparseCore.T d).loc main_v10
abbrev pLoc (d : Dev nD) : Loc nD τ sig := (SparseCore.T d).loc main_v9
abbrev oLoc (d : Dev nD) : Loc nD τ sig := (SparseCore.T d).loc main_v11

abbrev cV (L : grid0.Coords) : Fin τ.nSC := (L 0).castLE hcore0
abbrev jV (L : grid0.Coords) : Fin τ.nSub := (L 1).castLE hsub0

/-- The subcore's number, `2 s + c`. -/
def wid (L : grid0.Coords) : Fin 32 :=
  ⟨2 * (L 1).val + (L 0).val, by
    have h0 : (L 0).val < 2 := (L 0).isLt
    have h1 : (L 1).val < 16 := (L 1).isLt
    omega⟩

theorem hdiv32 : 32 ∣ S330240x128.size 0 := ⟨10320, rfl⟩

/-- Rows `[10320 w, 10320 w + 10320)` of the result, all columns. -/
abbrev tileRect (w : Fin 32) : Rect S330240x128 := Rect.part (s := S330240x128) (a₀ := 0) hdiv32 w
abbrev tileRows (w : Fin 32) : Finset S330240x128.Idx := (tileRect w).set

section Task
variable [FloatOps F]

/-- What a task is handed: a read share of the table and of each index array, and its rows of the result at the
    launch contents. -/
def tileGo (d : Dev nD) (L : grid0.Coords) (qT qN qP : PosShare TreeShare)
    (tab : Buf (Elt F) (tLoc d)) (nf : Buf (Elt F) (nLoc d)) (np : Buf (Elt F) (pLoc d)) (o0 : Buf (Elt F) (oLoc d)) : sProp 𝕄 :=
  iprop((tLoc d ↦{qT} tab) ∗ (nLoc d ↦{qN} nf) ∗ (pLoc d ↦{qP} np) ∗ (oLoc d ↦[tileRows (wid L)]{fullShare} o0))

/-- What it hands back: the shares, and its rows of the result at the gathered contents. -/
def tileTd (d : Dev nD) (L : grid0.Coords) (qT qN qP : PosShare TreeShare)
    (tab : Buf (Elt F) (tLoc d)) (nf : Buf (Elt F) (nLoc d)) (np : Buf (Elt F) (pLoc d)) : sProp 𝕄 :=
  iprop((tLoc d ↦{qT} tab) ∗ (nLoc d ↦{qN} nf) ∗ (pLoc d ↦{qP} np) ∗ (oLoc d ↦[tileRows (wid L)]{fullShare} gathered tab nf np))

end Task

/-! ## Intervals of a key -/

/-- The elements whose key lies in `[lo, hi)`. -/
def keyIn {ι : Type} [Fintype ι] (key : ι → ℕ) (lo hi : ℕ) : Finset ι := Finset.univ.filter fun i => lo ≤ key i ∧ key i < hi

theorem mem_keyIn {ι : Type} [Fintype ι] {key : ι → ℕ} {lo hi : ℕ} {i : ι} : i ∈ keyIn key lo hi ↔ lo ≤ key i ∧ key i < hi := by
  simp [keyIn]

theorem keyIn_disjoint {ι : Type} [Fintype ι] (key : ι → ℕ) (lo mid hi : ℕ) : Disjoint (keyIn key lo mid) (keyIn key mid hi) :=
  Finset.disjoint_left.mpr fun i h1 h2 => by rw [mem_keyIn] at h1 h2; omega

theorem keyIn_union {ι : Type} [Fintype ι] [DecidableEq ι] (key : ι → ℕ) {lo mid hi : ℕ} (h1 : lo ≤ mid) (h2 : mid ≤ hi) :
    keyIn key lo mid ∪ keyIn key mid hi = keyIn key lo hi := by
  ext i; simp only [Finset.mem_union, mem_keyIn]; omega

/-- Rows `[lo, hi)` of the result. -/
abbrev rowsIn (lo hi : ℕ) : Finset S330240x128.Idx := keyIn (fun i : S330240x128.Idx => (i 0).val) lo hi

theorem pointsTo_rows_split (dd : Dev nD) {lo mid hi : ℕ} (h1 : lo ≤ mid) (h2 : mid ≤ hi) (q : PosShare TreeShare) (f : Buf (Elt F) (oLoc dd)) :
    (oLoc dd ↦[rowsIn lo hi]{q} f : sProp 𝕄) ⊣⊢ iprop((oLoc dd ↦[rowsIn lo mid]{q} f) ∗ oLoc dd ↦[rowsIn mid hi]{q} f) := by
  have hd : Disjoint (rowsIn lo mid) (rowsIn mid hi) := keyIn_disjoint _ _ _ _
  have hu : (oLoc dd ↦[rowsIn lo mid ∪ rowsIn mid hi]{q} f : sProp 𝕄) ⊣⊢ iprop((oLoc dd ↦[rowsIn lo mid]{q} f) ∗ oLoc dd ↦[rowsIn mid hi]{q} f) := pointsTo_union hd
  have e : rowsIn lo mid ∪ rowsIn mid hi = rowsIn lo hi := by
    ext i; simp only [Finset.mem_union, mem_keyIn]; omega
  rw [e] at hu
  exact hu

theorem tileRows_eq (w : Fin 32) : tileRows w = rowsIn (10320 * w.val) (10320 * w.val + 10320) := by
  ext i
  rw [mem_keyIn]
  show i ∈ (Rect.part (s := S330240x128) (a₀ := 0) hdiv32 w).set ↔ _
  rw [Rect.mem_set_unit, Fin.forall_fin_two]
  have h1 : (i 1).val < 128 := (i 1).isLt
  simp only [Shape.partIx, Shape.partSize]
  constructor
  · rintro ⟨⟨a, b⟩, _⟩
    simp at a b
    omega
  · intro ⟨a, b⟩
    refine ⟨⟨?_, ?_⟩, ⟨?_, ?_⟩⟩ <;> simp <;> omega

/-! ## The index scratch -/

abbrev thr (dd : Dev nD) (L : grid0.Coords) : Thread nD τ := V dd (cV L) (jV L)

/-- Words `[lo, hi)` of the index scratch. -/
abbrev idxIn (lo hi : ℕ) : Finset S10320.Idx := keyIn (fun j : S10320.Idx => (j 0).val) lo hi

theorem pointsTo_idx_split (dd : Dev nD) (L : grid0.Coords) {lo mid hi : ℕ} (h1 : lo ≤ mid) (h2 : mid ≤ hi) (q : PosShare TreeShare)
    (f : Buf (Elt F) ((thr dd L).loc cc0_scratch0)) :
    ((thr dd L).loc cc0_scratch0 ↦[idxIn lo hi]{q} f : sProp 𝕄)
      ⊣⊢ iprop(((thr dd L).loc cc0_scratch0 ↦[idxIn lo mid]{q} f) ∗ (thr dd L).loc cc0_scratch0 ↦[idxIn mid hi]{q} f) := by
  have hd : Disjoint (idxIn lo mid) (idxIn mid hi) := keyIn_disjoint _ _ _ _
  have hu : ((thr dd L).loc cc0_scratch0 ↦[idxIn lo mid ∪ idxIn mid hi]{q} f : sProp 𝕄)
      ⊣⊢ iprop(((thr dd L).loc cc0_scratch0 ↦[idxIn lo mid]{q} f) ∗ (thr dd L).loc cc0_scratch0 ↦[idxIn mid hi]{q} f) := pointsTo_union hd
  have e : idxIn lo mid ∪ idxIn mid hi = idxIn lo hi := by
    ext i; simp only [Finset.mem_union, mem_keyIn]; omega
  rw [e] at hu
  exact hu

theorem idxIn_univ : idxIn 0 10320 = Finset.univ := by
  ext j; simp only [mem_keyIn, Finset.mem_univ, iff_true]; exact ⟨Nat.zero_le _, (j 0).isLt⟩

/-- The list a task works from: words `[10320 w, 10320 w + 10320)` of the concatenation. -/
def tileIdx (nf : S320000.Idx → Elt F .i32) (np : S10240.Idx → Elt F .i32) (L : grid0.Coords) : S10320.Idx → Elt F .i32 :=
  fun j => cat nf np (10320 * (wid L).val + (j 0).val)

theorem cat_lt {nf : S320000.Idx → Elt F .i32} {np : S10240.Idx → Elt F .i32}
    (hnf : ∀ i, (nf i).toNat < 50000) (hnp : ∀ i, (np i).toNat < 50000) (r : ℕ) : (cat nf np r).toNat < 50000 := by
  unfold cat; split
  · exact hnf _
  · exact hnp _

/-- A 120-word window of the index scratch, as the body slices it. -/
abbrev ich (off : Fin 1 → ℕ) (inb : ∀ a, off a + S120.size a ≤ S10320.size a) : Memref sig .scVector .vmem S120 .i32 :=
  (Memref.whole cc0_scratch0).slice (Rect.unit (s := S10320) off S120.size inb) (fun _ => rfl)

theorem ich_set (off : Fin 1 → ℕ) (inb : ∀ a, off a + S120.size a ≤ S10320.size a) : (ich off inb).view.set = idxIn (off 0) (off 0 + 120) := by
  show ((View.whole cc0_scratch0).slice (Rect.unit (s := S10320) off S120.size inb)).set = _
  rw [View.set_slice_whole]
  ext j
  rw [Rect.mem_set_unit, mem_keyIn]
  show (∀ a : Fin 1, off a ≤ (j a).val ∧ (j a).val < off a + S120.size a) ↔ _
  rw [Fin.forall_fin_one]
  exact Iff.rfl

theorem ich_read (off : Fin 1 → ℕ) (inb : ∀ a, off a + S120.size a ≤ S10320.size a) (g : S10320.Idx → Elt F .i32) (x : S120.Idx) :
    (ich off inb).view.read (Elt F) g x = g (ValueIdx.ix1 (⟨off 0 + (x 0).val, by have h : off 0 + 120 ≤ 10320 := inb 0; have hx : (x 0).val < 120 := (x 0).isLt; omega⟩ : Fin 10320)) := by
  refine ((View.read_apply _ _).trans (cast_eq _ _)).trans (congrArg g ?_)
  funext a
  match a with
  | ⟨0, _⟩ => exact Fin.ext (by show off 0 + 1 * (x 0).val = _; simp)

/-! ## The result's chunks and the table -/

/-- A 120-row window of the result, as the body slices it. -/
abbrev och (off : Fin 2 → ℕ) (inb : ∀ a, off a + S120x128.size a ≤ S330240x128.size a) : Memref sig .scVector .hbm S120x128 .f32 :=
  (Memref.whole main_v11_scv).slice (Rect.unit (s := S330240x128) off S120x128.size inb) (fun _ => rfl)

theorem och_set (off : Fin 2 → ℕ) (inb : ∀ a, off a + S120x128.size a ≤ S330240x128.size a) (h1 : off 1 = 0) :
    (och off inb).view.set = rowsIn (off 0) (off 0 + 120) := by
  show ((View.whole main_v11_scv).slice (Rect.unit (s := S330240x128) off S120x128.size inb)).set = _
  rw [View.set_slice_whole]
  ext i
  rw [Rect.mem_set_unit, mem_keyIn]
  show (∀ a : Fin 2, off a ≤ (i a).val ∧ (i a).val < off a + S120x128.size a) ↔ _
  rw [Fin.forall_fin_two, h1]
  have hi : (i 1).val < 128 := (i 1).isLt
  constructor
  · exact fun h => h.1
  · exact fun h => ⟨h, Nat.zero_le _, by show (i 1).val < 0 + 128; omega⟩

/-- The table as the body slices it (whole). -/
abbrev tsl : Memref sig .scVector .hbm S50000x128 .f32 :=
  (Memref.whole main_arg2_scv).slice (Rect.unit (s := S50000x128) ![0, 0] S50000x128.size inb_S50000x128_S50000x128_0_0) (fun _ => rfl)

theorem tsl_set : (tsl).view.set = Finset.univ := by
  show ((View.whole main_arg2_scv).slice (Rect.unit (s := S50000x128) ![0, 0] S50000x128.size inb_S50000x128_S50000x128_0_0)).set = _
  rw [View.set_slice_whole]
  ext z
  rw [Rect.mem_set_unit]
  simp only [Finset.mem_univ, iff_true]
  show ∀ a : Fin 2, (![0, 0] : Fin 2 → ℕ) a ≤ (z a).val ∧ (z a).val < (![0, 0] : Fin 2 → ℕ) a + S50000x128.size a
  rw [Fin.forall_fin_two]
  have h0 : (z 0).val < 50000 := (z 0).isLt
  have h1 : (z 1).val < 128 := (z 1).isLt
  exact ⟨⟨Nat.zero_le _, by show (z 0).val < 0 + 50000; omega⟩, ⟨Nat.zero_le _, by show (z 1).val < 0 + 128; omega⟩⟩

theorem tsl_read (tab : S50000x128.Idx → Elt F .f32) : (tsl).view.read (Elt F) tab = tab := by
  funext z
  refine ((View.read_apply _ _).trans (cast_eq _ _)).trans (congrArg tab ?_)
  funext a
  match a with
  | ⟨0, _⟩ => exact Fin.ext (by show 0 + 1 * (z 0).val = _; simp)
  | ⟨1, _⟩ => exact Fin.ext (by show 0 + 1 * (z 1).val = _; simp)

/-- Rows `[r0, r0 + 120)` of the gathered array, as a chunk buffer holds them. -/
def chunkVal (tab : S50000x128.Idx → Elt F .f32) (nf : S320000.Idx → Elt F .i32) (np : S10240.Idx → Elt F .i32) (r0 : ℕ) :
    S120x128.Idx → Elt F .f32 :=
  fun y => tab (ValueIdx.ix2 (rowOfWord (cat nf np (r0 + (y 0).val))) (y 1))

/-- What an indirect gather through a 120-word window of the task's list delivers: the chunk of the gathered array. -/
theorem gather_val (L : grid0.Coords) (tab : S50000x128.Idx → Elt F .f32) (nf : S320000.Idx → Elt F .i32) (np : S10240.Idx → Elt F .i32)
    (hnf : ∀ i, (nf i).toNat < 50000) (hnp : ∀ i, (np i).toNat < 50000)
    (off : Fin 1 → ℕ) (inb : ∀ a, off a + S120.size a ≤ S10320.size a)
    (hn : S120.numel = S120x128.size (gathers_S50000x128_S120x128).axis')
    (hin : ∀ x, ((ich off inb).view.read (Elt F) (tileIdx nf np L) x).toNat < S50000x128.size (gathers_S50000x128_S120x128).axis) :
    SparseCore.gatherPayload gathers_S50000x128_S120x128 ((tsl).view.read (Elt F) tab)
        (SparseCore.rows ((ich off inb).view.read (Elt F) (tileIdx nf np L)) hn hin)
      = chunkVal tab nf np (10320 * (wid L).val + off 0) := by
  rw [tsl_read]
  funext y
  unfold SparseCore.gatherPayload chunkVal
  refine congrArg tab ?_
  funext a
  match a with
  | ⟨0, h0⟩ =>
    apply Fin.ext
    have e := congrArg Fin.val (Shape.Gathers.idx_axis gathers_S50000x128_S120x128
      (SparseCore.rows ((ich off inb).view.read (Elt F) (tileIdx nf np L)) hn hin) y)
    refine e.trans ?_
    unfold SparseCore.rows
    show ((ich off inb).view.read (Elt F) (tileIdx nf np L) _).toNat = (cat nf np _).toNat % 50000
    rw [ich_read, Nat.mod_eq_of_lt (cat_lt hnf hnp _)]
    unfold tileIdx
    have hk : ∀ k : Fin S120.numel, ((S120.rowMajor.symm k) 0).val = k.val := fun k => by
      have := Shape.rowMajor_val_one (S120.rowMajor.symm k)
      rw [Equiv.apply_symm_apply] at this
      exact this.symm
    show (cat nf np (10320 * (wid L).val + (off 0 + ((S120.rowMajor.symm _) 0).val))).toNat = _
    rw [hk]
    show (cat nf np (10320 * (wid L).val + (off 0 + (y 0).val))).toNat = _
    rw [Nat.add_assoc]
  | ⟨1, h1⟩ =>
    apply Fin.ext
    exact Shape.Gathers.idx_of_ne gathers_S50000x128_S120x128 _ y ⟨1, h1⟩ (show (1 : ℕ) ≠ 0 by decide)

/-- The credit of a copy into a 120-row window of the result. -/
abbrev NC : ℕ := sig.dmaCredit .scVector (Kind.scVector.table .hbm) (main_v11_scv : Ref sig .scVector).idx S120x128 .f32
theorem NC_pos : 0 < NC := sig.dmaCredit_pos _ _ _ _ _ (by decide)

/-- A chunk buffer copied into its window of the result leaves the gathered array's rows there. -/
theorem copy_val (tab : S50000x128.Idx → Elt F .f32) (nf : S320000.Idx → Elt F .i32) (np : S10240.Idx → Elt F .i32)
    (off : Fin 2 → ℕ) (inb : ∀ a, off a + S120x128.size a ≤ S330240x128.size a) (h1 : off 1 = 0)
    (o0 : S330240x128.Idx → Elt F .f32) (i : S330240x128.Idx) (hi : i ∈ (och off inb).view.set) :
    (och off inb).view.write (Elt F) o0 (chunkVal tab nf np (off 0)) Finset.univ i = gathered tab nf np i := by
  obtain ⟨y, -, rfl⟩ := Finset.mem_map.mp hi
  refine ((View.write_emb_of_mem (v := (och off inb).view) o0 (chunkVal tab nf np (off 0)) (M := Finset.univ) (Finset.mem_univ y)).trans (cast_eq _ _)).trans ?_
  unfold chunkVal gathered
  refine congrArg tab ?_
  funext a
  match a with
  | ⟨0, _⟩ =>
    show rowOfWord (cat nf np (off 0 + (y 0).val)) = rowOfWord (cat nf np (off 0 + 1 * (y 0).val))
    rw [Nat.one_mul]
  | ⟨1, _⟩ =>
    apply Fin.ext
    show (y 1).val = off 1 + 1 * (y 1).val
    rw [h1]; simp

/-! ## What the task's first copies leave in the index scratch -/

theorem cond1_iff : ∀ i : grid0.Coords, k0_cond1 i = 1#1 ↔ 2 * (i 1).val + (i 0).val < 31 := by decide +kernel
theorem cond2_iff : ∀ i : grid0.Coords, k0_cond2 i = 1#1 ↔ 2 * (i 1).val + (i 0).val = 31 := by decide +kernel

/-- Every task but the last copies its 10320 neighbour words. -/
theorem fetch_main (L : grid0.Coords) (k0_h1 : k0_cond1 L = 1#1) (nf : S320000.Idx → Elt F .i32) (np : S10240.Idx → Elt F .i32) :
    (ReadAs.same (Val := Elt F)).apply (View.read (Elt F) ((Memref.whole main_v10_scv : Memref sig .scVector .hbm S320000 .i32).slice
        (Rect.unit (s := S320000) (k0_off1 L) S10320.size (k0_off1_inb L k0_h1)) (fun _ => rfl)).view nf) = tileIdx nf np L := by
  rw [ReadAs.apply_same]
  funext j
  refine ((View.read_apply _ _).trans (cast_eq _ _)).trans ?_
  have hw : 2 * (L 1).val + (L 0).val < 31 := (cond1_iff L).mp k0_h1
  have hj : (j 0).val < 10320 := (j 0).isLt
  unfold tileIdx cat
  have hlt : 10320 * (wid L).val + (j 0).val < 320000 := by
    show 10320 * (2 * (L 1).val + (L 0).val) + (j 0).val < 320000
    omega
  rw [dif_pos hlt]
  refine congrArg nf ?_
  funext a
  match a with
  | ⟨0, _⟩ =>
    apply Fin.ext
    have e1 : k0_off1 L 0 = 20640 * (L 1).val + 10320 * (L 0).val := by rw [k0_off1_eq]; rfl
    show k0_off1 L 0 + 1 * (j 0).val = 10320 * (2 * (L 1).val + (L 0).val) + (j 0).val
    omega

/-- The last task copies the last 80 neighbour words, then the 10240 node words. -/
theorem fetch_last (L : grid0.Coords) (k0_h2 : k0_cond2 L = 1#1) (nf : S320000.Idx → Elt F .i32) (np : S10240.Idx → Elt F .i32)
    (f0 : S10320.Idx → Elt F .i32) :
    (View.whole cc0_scratch0).writes (Elt F) f0
      [⟨Rect.unit (s := S10320) ![80] S10240.size inb_S10320_S10240_80,
          (ReadAs.same (Val := Elt F)).apply (View.read (Elt F) ((Memref.whole main_v9_scv : Memref sig .scVector .hbm S10240 .i32).slice
            (Rect.unit (s := S10240) ![0] S10240.size inb_S10240_S10240_0) (fun _ => rfl)).view np)⟩,
        ⟨Rect.unit (s := S10320) ![0] S80.size inb_S10320_S80_0,
          (ReadAs.same (Val := Elt F)).apply (View.read (Elt F) ((Memref.whole main_v10_scv : Memref sig .scVector .hbm S320000 .i32).slice
            (Rect.unit (s := S320000) (k0_off2 L) S80.size (k0_off2_inb L k0_h2)) (fun _ => rfl)).view nf)⟩]
      = tileIdx nf np L := by
  have hw : 2 * (L 1).val + (L 0).val = 31 := (cond2_iff L).mp k0_h2
  have hwid : (wid L).val = 31 := hw
  funext j
  have hj : (j 0).val < 10320 := (j 0).isLt
  refine (congrFun (View.read_whole cc0_scratch0 _).symm j).trans ?_
  refine View.read_writes_apply_of_pieces (View.whole cc0_scratch0) f0 (tileIdx nf np L) _ ?_ j ?_
  · intro p hp x
    simp only [List.mem_cons, List.mem_nil_iff, or_false] at hp
    rcases hp with rfl | rfl
    · -- the node words
      have hx : (x 0).val < 10240 := (x 0).isLt
      dsimp only
      rw [ReadAs.apply_same]
      refine ((View.read_apply _ _).trans (cast_eq _ _)).trans ?_
      unfold tileIdx cat
      have e0 : ((Rect.unit (s := S10320) ![80] S10240.size inb_S10320_S10240_80).emb x 0).val = 80 + (x 0).val := by
        show 80 + 1 * (x 0).val = _; omega
      rw [e0, hwid, dif_neg (by omega)]
      refine congrArg np ?_
      funext a
      match a with
      | ⟨0, _⟩ =>
        apply Fin.ext
        show 0 + 1 * (x 0).val = (10320 * 31 + (80 + (x 0).val) - 320000) % 10240
        have : 10320 * 31 + (80 + (x 0).val) - 320000 = (x 0).val := by omega
        rw [this, Nat.mod_eq_of_lt hx]; omega
    · -- the last neighbour words
      have hx : (x 0).val < 80 := (x 0).isLt
      dsimp only
      rw [ReadAs.apply_same]
      refine ((View.read_apply _ _).trans (cast_eq _ _)).trans ?_
      unfold tileIdx cat
      have e0 : ((Rect.unit (s := S10320) ![0] S80.size inb_S10320_S80_0).emb x 0).val = (x 0).val := by
        show 0 + 1 * (x 0).val = _; omega
      rw [e0, hwid, dif_pos (by omega)]
      refine congrArg nf ?_
      funext a
      match a with
      | ⟨0, _⟩ =>
        apply Fin.ext
        have e1 : k0_off2 L 0 = 20640 * (L 1).val + 10320 * (L 0).val := by rw [k0_off2_eq]; rfl
        show k0_off2 L 0 + 1 * (x 0).val = 10320 * 31 + (x 0).val
        omega
  · by_cases h : (j 0).val < 80
    · refine ⟨_, List.mem_cons_of_mem _ List.mem_cons_self, ?_⟩
      rw [Rect.mem_set_unit]
      show ∀ a : Fin 1, (![0] : Fin 1 → ℕ) a ≤ (j a).val ∧ (j a).val < (![0] : Fin 1 → ℕ) a + S80.size a
      rw [Fin.forall_fin_one]
      exact ⟨Nat.zero_le _, by show (j 0).val < 0 + 80; omega⟩
    · refine ⟨_, List.mem_cons_self, ?_⟩
      rw [Rect.mem_set_unit]
      show ∀ a : Fin 1, (![80] : Fin 1 → ℕ) a ≤ (j a).val ∧ (j a).val < (![80] : Fin 1 → ℕ) a + S10240.size a
      rw [Fin.forall_fin_one]
      exact ⟨by show 80 ≤ (j 0).val; omega, by show (j 0).val < 80 + 10240; omega⟩

theorem cond3_iff : ∀ t : Fin k0_t1_loop.trips, k0_cond3 t = 1#1 ↔ 0 < t.val := by decide +kernel
theorem cond4_iff : ∀ t : Fin k0_t1_loop.trips, k0_cond4 t = 1#1 ↔ t.val + 1 < 43 := by decide +kernel
theorem trips_lt (t : Fin k0_t1_loop.trips) : t.val < 43 := lt_of_lt_of_le t.isLt k0_t1_abs.2.1

theorem off5_zero (t : Fin k0_t1_loop.trips) : k0_off5 t 0 = 120 * (2 * t.val + 1) := by
  rw [k0_off5_eq]; show 240 * t.val + 120 = _; omega
theorem off7_zero (t : Fin k0_t1_loop.trips) : k0_off7 t 0 = 120 * (2 * t.val + 2) := by
  rw [k0_off7_eq]; show 240 * t.val + 240 = _; omega
theorem off6_eq' (L : grid0.Coords) (t : Fin k0_t1_loop.trips) : k0_off6 L t = ![10320 * (wid L).val + 120 * (2 * t.val), 0] := by
  rw [k0_off6_eq]
  have e : 20640 * (L 1).val + 10320 * (L 0).val + 240 * t.val = 10320 * (wid L).val + 120 * (2 * t.val) := by
    show _ = 10320 * (2 * (L 1).val + (L 0).val) + 120 * (2 * t.val); omega
  rw [e]
theorem off8_eq' (L : grid0.Coords) (t : Fin k0_t1_loop.trips) : k0_off8 L t = ![10320 * (wid L).val + 120 * (2 * t.val + 1), 0] := by
  rw [k0_off8_eq]
  have e : 20640 * (L 1).val + 10320 * (L 0).val + 240 * t.val + 120 = 10320 * (wid L).val + 120 * (2 * t.val + 1) := by
    show _ = 10320 * (2 * (L 1).val + (L 0).val) + 120 * (2 * t.val + 1); omega
  rw [e]

section Steps
variable [FloatOps F]

/-- The gather's flight on semaphore `sem` into chunk buffer 0: at its wait it hands back the buffer at chunk `j` of the
    gathered array, the table share and window `j` of the list. -/
def gFlight0 (dd : Dev nD) (L : grid0.Coords) (tab : S50000x128.Idx → Elt F .f32) (nf : S320000.Idx → Elt F .i32) (np : S10240.Idx → Elt F .i32)
    (sem : DmaSem sig) (q : PosShare TreeShare) (j : ℕ) : sProp 𝕄 :=
  Transfers.Flight countersEmb (thr dd L) (.dma sem) (default : HIx 1) (Memref.whole cc0_scratch1 : Memref sig .scVector .vmem S120x128 .f32).view.dmaCredit
    iprop(((thr dd L).loc cc0_scratch1 ↦{fullShare} chunkVal tab nf np (10320 * (wid L).val + 120 * j)) ∗ (tLoc dd ↦{q} tab)
      ∗ ((thr dd L).loc cc0_scratch0 ↦[idxIn (120 * j) (120 * j + 120)]{fullShare} tileIdx nf np L))

theorem step_gather0 (dd : Dev nD) (L : grid0.Coords) (tab : S50000x128.Idx → Elt F .f32) (nf : S320000.Idx → Elt F .i32) (np : S10240.Idx → Elt F .i32)
    (hnf : ∀ i, (nf i).toNat < 50000) (hnp : ∀ i, (np i).toNat < 50000)
    (sem : DmaSem sig) (q : PosShare TreeShare) (off : Fin 1 → ℕ) (inb : ∀ a, off a + S120.size a ≤ S10320.size a) (j : ℕ) (hj : off 0 = 120 * j)
    (f : Buf (Elt F) ((thr dd L).loc cc0_scratch1)) {α : Type} (k : PUnit → Prog (TpuEff nD τ sig (Elt F) Λ₀ (thr dd L).2) α) (Q : α → sProp 𝕄)
    (hp : (thr dd L).2.kind = .scVector) (hn : S120.numel = S120x128.size (gathers_S50000x128_S120x128).axis')
    (hsrc : (tsl).view.WordExact) (he : EltTy.f32.bits = 32) (hsp : Space.hbm = .hbm ∨ Space.hbm = .shared) (hr : S50000x128.StreamRows 0) :
    iprop(((thr dd L).loc cc0_scratch1 ↦{fullShare} f) ∗ (tLoc dd ↦{q} tab)
        ∗ ((thr dd L).loc cc0_scratch0 ↦[idxIn (120 * j) (120 * j + 120)]{fullShare} tileIdx nf np L) ∗ semVal (thr dd L, SemLoc.dma sem) 0)
      ⊢ iprop((gFlight0 dd L tab nf np sem q j -∗ wp frame (wpE (defs₀ (F := F)) 𝒱₀ (thr dd L) none) Set.univ (k ⟨⟩) Q)
          -∗ wp frame (wpE (defs₀ (F := F)) 𝒱₀ (thr dd L) none) Set.univ
              (SparseCore.enqueueIndirectGather hp (tsl) (Memref.whole cc0_scratch1) gathers_S50000x128_S120x128 (ich off inb) hn sem hsrc he hsp hr >>= k) Q) := by
  have hin : ∀ x, ((ich off inb).view.read (Elt F) (tileIdx nf np L) x).toNat < S50000x128.size (gathers_S50000x128_S120x128).axis := fun x => by
    rw [ich_read]; exact cat_lt hnf hnp _
  have hbs : (Memref.whole cc0_scratch1 : Memref sig .scVector .vmem S120x128 .f32).view.set = Finset.univ := by
    simp only [Memref.view_whole, View.set_whole]
  iintro ⟨Hb, Ht, Hi, Hs⟩ Hk
  ihave Hb' := (Entails.of_eq (show ((thr dd L).loc cc0_scratch1 ↦{fullShare} f : sProp 𝕄)
      = (Memref.whole cc0_scratch1 : Memref sig .scVector .vmem S120x128 .f32).view.loc (thr dd L) ↦[(Memref.whole cc0_scratch1 : Memref sig .scVector .vmem S120x128 .f32).view.set]{fullShare} f by rw [hbs])) $$ Hb
  ihave Ht' := (Entails.of_eq (show (tLoc dd ↦{q} tab : sProp 𝕄) = (tsl).view.loc (thr dd L) ↦[(tsl).view.set]{q} tab by rw [tsl_set])) $$ Ht
  ihave Hi' := (Entails.of_eq (show ((thr dd L).loc cc0_scratch0 ↦[idxIn (120 * j) (120 * j + 120)]{fullShare} tileIdx nf np L : sProp 𝕄)
      = (ich off inb).view.loc (thr dd L) ↦[(ich off inb).view.set]{fullShare} tileIdx nf np L by rw [ich_set, hj])) $$ Hi
  iapply (SparseCore.wp_indirectGatherLocal countersEmb 𝒱₀ (thr dd L) none (hg := gathers_S50000x128_S120x128) (default : HIx 1)
      (Memref.whole cc0_scratch1 : Memref sig .scVector .vmem S120x128 .f32).view.dmaCredit
      (SparseCore.sum_rowCredit_eq_dmaCredit _ _ (fun _ => rfl)) (by decide) hin) $$ [Ht' Hb' Hi' Hs]
  · isplitl [Ht']; · iexact Ht'
    isplitl [Hb']; · iexact Hb'
    isplitl [Hi']; · iexact Hi'
    iexact Hs
  iintro Hfl
  iapply Hk
  unfold gFlight0
  iapply (Transfers.Flight_mono countersEmb (thr dd L) ?_) $$ Hfl
  iintro ⟨Hd, Hs, Ho⟩
  isplitl [Hd]
  · rw [hbs, ← hj, ← gather_val L tab nf np hnf hnp off inb hn hin]
    iapply (Entails.of_eq (congrArg (fun g => ((thr dd L).loc cc0_scratch1 ↦{fullShare} g : sProp 𝕄)) (View.write_whole_univ cc0_scratch1 f _))) $$ Hd
  isplitl [Hs]
  · iapply (Entails.of_eq (show ((tsl).view.loc (thr dd L) ↦[(tsl).view.set]{q} tab : sProp 𝕄) = (tLoc dd ↦{q} tab) by rw [tsl_set])) $$ Hs
  · iapply (Entails.of_eq (show ((ich off inb).view.loc (thr dd L) ↦[(ich off inb).view.set]{fullShare} tileIdx nf np L : sProp 𝕄)
      = ((thr dd L).loc cc0_scratch0 ↦[idxIn (120 * j) (120 * j + 120)]{fullShare} tileIdx nf np L) by rw [ich_set, hj])) $$ Ho

/-- The gather's flight on semaphore `sem` into chunk buffer 1: at its wait it hands back the buffer at chunk `j` of the
    gathered array, the table share and window `j` of the list. -/
def gFlight1 (dd : Dev nD) (L : grid0.Coords) (tab : S50000x128.Idx → Elt F .f32) (nf : S320000.Idx → Elt F .i32) (np : S10240.Idx → Elt F .i32)
    (sem : DmaSem sig) (q : PosShare TreeShare) (j : ℕ) : sProp 𝕄 :=
  Transfers.Flight countersEmb (thr dd L) (.dma sem) (default : HIx 1) (Memref.whole cc0_scratch2 : Memref sig .scVector .vmem S120x128 .f32).view.dmaCredit
    iprop(((thr dd L).loc cc0_scratch2 ↦{fullShare} chunkVal tab nf np (10320 * (wid L).val + 120 * j)) ∗ (tLoc dd ↦{q} tab)
      ∗ ((thr dd L).loc cc0_scratch0 ↦[idxIn (120 * j) (120 * j + 120)]{fullShare} tileIdx nf np L))

theorem step_gather1 (dd : Dev nD) (L : grid0.Coords) (tab : S50000x128.Idx → Elt F .f32) (nf : S320000.Idx → Elt F .i32) (np : S10240.Idx → Elt F .i32)
    (hnf : ∀ i, (nf i).toNat < 50000) (hnp : ∀ i, (np i).toNat < 50000)
    (sem : DmaSem sig) (q : PosShare TreeShare) (off : Fin 1 → ℕ) (inb : ∀ a, off a + S120.size a ≤ S10320.size a) (j : ℕ) (hj : off 0 = 120 * j)
    (f : Buf (Elt F) ((thr dd L).loc cc0_scratch2)) {α : Type} (k : PUnit → Prog (TpuEff nD τ sig (Elt F) Λ₀ (thr dd L).2) α) (Q : α → sProp 𝕄)
    (hp : (thr dd L).2.kind = .scVector) (hn : S120.numel = S120x128.size (gathers_S50000x128_S120x128).axis')
    (hsrc : (tsl).view.WordExact) (he : EltTy.f32.bits = 32) (hsp : Space.hbm = .hbm ∨ Space.hbm = .shared) (hr : S50000x128.StreamRows 0) :
    iprop(((thr dd L).loc cc0_scratch2 ↦{fullShare} f) ∗ (tLoc dd ↦{q} tab)
        ∗ ((thr dd L).loc cc0_scratch0 ↦[idxIn (120 * j) (120 * j + 120)]{fullShare} tileIdx nf np L) ∗ semVal (thr dd L, SemLoc.dma sem) 0)
      ⊢ iprop((gFlight1 dd L tab nf np sem q j -∗ wp frame (wpE (defs₀ (F := F)) 𝒱₀ (thr dd L) none) Set.univ (k ⟨⟩) Q)
          -∗ wp frame (wpE (defs₀ (F := F)) 𝒱₀ (thr dd L) none) Set.univ
              (SparseCore.enqueueIndirectGather hp (tsl) (Memref.whole cc0_scratch2) gathers_S50000x128_S120x128 (ich off inb) hn sem hsrc he hsp hr >>= k) Q) := by
  have hin : ∀ x, ((ich off inb).view.read (Elt F) (tileIdx nf np L) x).toNat < S50000x128.size (gathers_S50000x128_S120x128).axis := fun x => by
    rw [ich_read]; exact cat_lt hnf hnp _
  have hbs : (Memref.whole cc0_scratch2 : Memref sig .scVector .vmem S120x128 .f32).view.set = Finset.univ := by
    simp only [Memref.view_whole, View.set_whole]
  iintro ⟨Hb, Ht, Hi, Hs⟩ Hk
  ihave Hb' := (Entails.of_eq (show ((thr dd L).loc cc0_scratch2 ↦{fullShare} f : sProp 𝕄)
      = (Memref.whole cc0_scratch2 : Memref sig .scVector .vmem S120x128 .f32).view.loc (thr dd L) ↦[(Memref.whole cc0_scratch2 : Memref sig .scVector .vmem S120x128 .f32).view.set]{fullShare} f by rw [hbs])) $$ Hb
  ihave Ht' := (Entails.of_eq (show (tLoc dd ↦{q} tab : sProp 𝕄) = (tsl).view.loc (thr dd L) ↦[(tsl).view.set]{q} tab by rw [tsl_set])) $$ Ht
  ihave Hi' := (Entails.of_eq (show ((thr dd L).loc cc0_scratch0 ↦[idxIn (120 * j) (120 * j + 120)]{fullShare} tileIdx nf np L : sProp 𝕄)
      = (ich off inb).view.loc (thr dd L) ↦[(ich off inb).view.set]{fullShare} tileIdx nf np L by rw [ich_set, hj])) $$ Hi
  iapply (SparseCore.wp_indirectGatherLocal countersEmb 𝒱₀ (thr dd L) none (hg := gathers_S50000x128_S120x128) (default : HIx 1)
      (Memref.whole cc0_scratch2 : Memref sig .scVector .vmem S120x128 .f32).view.dmaCredit
      (SparseCore.sum_rowCredit_eq_dmaCredit _ _ (fun _ => rfl)) (by decide) hin) $$ [Ht' Hb' Hi' Hs]
  · isplitl [Ht']; · iexact Ht'
    isplitl [Hb']; · iexact Hb'
    isplitl [Hi']; · iexact Hi'
    iexact Hs
  iintro Hfl
  iapply Hk
  unfold gFlight1
  iapply (Transfers.Flight_mono countersEmb (thr dd L) ?_) $$ Hfl
  iintro ⟨Hd, Hs, Ho⟩
  isplitl [Hd]
  · rw [hbs, ← hj, ← gather_val L tab nf np hnf hnp off inb hn hin]
    iapply (Entails.of_eq (congrArg (fun g => ((thr dd L).loc cc0_scratch2 ↦{fullShare} g : sProp 𝕄)) (View.write_whole_univ cc0_scratch2 f _))) $$ Hd
  isplitl [Hs]
  · iapply (Entails.of_eq (show ((tsl).view.loc (thr dd L) ↦[(tsl).view.set]{q} tab : sProp 𝕄) = (tLoc dd ↦{q} tab) by rw [tsl_set])) $$ Hs
  · iapply (Entails.of_eq (show ((ich off inb).view.loc (thr dd L) ↦[(ich off inb).view.set]{fullShare} tileIdx nf np L : sProp 𝕄)
      = ((thr dd L).loc cc0_scratch0 ↦[idxIn (120 * j) (120 * j + 120)]{fullShare} tileIdx nf np L) by rw [ich_set, hj])) $$ Ho

/-- The copy-out's flight on semaphore `sem` from chunk buffer 0: at its wait it hands back rows of chunk `j` of the result at
    the gathered contents, and the buffer. -/
def cFlight0 (dd : Dev nD) (L : grid0.Coords) (tab : S50000x128.Idx → Elt F .f32) (nf : S320000.Idx → Elt F .i32) (np : S10240.Idx → Elt F .i32)
    (sem : DmaSem sig) (j : ℕ) : sProp 𝕄 :=
  Transfers.Flight countersEmb (thr dd L) (.dma sem) (default : HIx 1) NC
    iprop((oLoc dd ↦[rowsIn (10320 * (wid L).val + 120 * j) (10320 * (wid L).val + 120 * j + 120)]{fullShare} gathered tab nf np)
      ∗ ((thr dd L).loc cc0_scratch1 ↦{fullShare} chunkVal tab nf np (10320 * (wid L).val + 120 * j)))

theorem step_copy0 (dd : Dev nD) (L : grid0.Coords) (tab : S50000x128.Idx → Elt F .f32) (nf : S320000.Idx → Elt F .i32) (np : S10240.Idx → Elt F .i32)
    (sem : DmaSem sig) (off : Fin 2 → ℕ) (inb : ∀ a, off a + S120x128.size a ≤ S330240x128.size a) (j : ℕ)
    (hj : off = ![10320 * (wid L).val + 120 * j, 0]) (o0 : Buf (Elt F) (oLoc dd))
    {α : Type} (k : PUnit → Prog (TpuEff nD τ sig (Elt F) Λ₀ (thr dd L).2) α) (Q : α → sProp 𝕄)
    (hsrc : (Memref.whole cc0_scratch1 : Memref sig .scVector .vmem S120x128 .f32).view.WordExact) (hdst : (och off inb).view.WordExact)
    (hsem : DmaTarget.Typed (nD := nD) (p := (thr dd L).2) Space.vmem (SemLoc.dma sem) (.here (och off inb))) :
    iprop(((thr dd L).loc cc0_scratch1 ↦{fullShare} chunkVal tab nf np (10320 * (wid L).val + 120 * j))
        ∗ (oLoc dd ↦[rowsIn (10320 * (wid L).val + 120 * j) (10320 * (wid L).val + 120 * j + 120)]{fullShare} o0) ∗ semVal (thr dd L, SemLoc.dma sem) 0)
      ⊢ iprop((cFlight0 dd L tab nf np sem j -∗ wp frame (wpE (defs₀ (F := F)) 𝒱₀ (thr dd L) none) Set.univ (k ⟨⟩) Q)
          -∗ wp frame (wpE (defs₀ (F := F)) 𝒱₀ (thr dd L) none) Set.univ
              (.op (.enqueueDma (Memref.whole cc0_scratch1 : Memref sig .scVector .vmem S120x128 .f32) (.here (och off inb)) (.dma sem) hsrc hdst hsem) k) Q) := by
  have h0 : off 0 = 10320 * (wid L).val + 120 * j := by rw [hj]; rfl
  have h1 : off 1 = 0 := by rw [hj]; rfl
  have hbs : (Memref.whole cc0_scratch1 : Memref sig .scVector .vmem S120x128 .f32).view.set = Finset.univ := by
    simp only [Memref.view_whole, View.set_whole]
  have hos : (och off inb).view.set = rowsIn (10320 * (wid L).val + 120 * j) (10320 * (wid L).val + 120 * j + 120) := by
    rw [och_set off inb h1, h0]
  iintro ⟨Hb, Ho, Hs⟩ Hk
  ihave Hb' := (Entails.of_eq (show ((thr dd L).loc cc0_scratch1 ↦{fullShare} chunkVal tab nf np (10320 * (wid L).val + 120 * j) : sProp 𝕄)
      = (Memref.whole cc0_scratch1 : Memref sig .scVector .vmem S120x128 .f32).view.loc (thr dd L) ↦[(Memref.whole cc0_scratch1 : Memref sig .scVector .vmem S120x128 .f32).view.set]{fullShare}
          chunkVal tab nf np (10320 * (wid L).val + 120 * j) by rw [hbs])) $$ Hb
  ihave Ho' := (Entails.of_eq (show (oLoc dd ↦[rowsIn (10320 * (wid L).val + 120 * j) (10320 * (wid L).val + 120 * j + 120)]{fullShare} o0 : sProp 𝕄)
      = (och off inb).view.loc (thr dd L) ↦[(och off inb).view.set]{fullShare} o0 by rw [hos])) $$ Ho
  iapply (Transfers.wp_dmaLocal countersEmb 𝒱₀ (thr dd L) none (default : HIx 1) NC rfl NC_pos (Finset.Subset.refl _)) $$ [Hb' Ho' Hs]
  · isplitl [Hb']; · iexact Hb'
    isplitl [Ho']; · iexact Ho'
    iexact Hs
  iintro Hfl
  iapply Hk
  unfold cFlight0
  iapply (Transfers.Flight_mono countersEmb (thr dd L) ?_) $$ Hfl
  iintro ⟨Hd, Hsrc⟩
  isplitl [Hd]
  · rw [← hos]
    iapply (Entails.of_eq (pointsTo_congr fun i hi => ?_)) $$ Hd
    have e : (ReadAs.same (Val := Elt F)).apply (View.read (Elt F) (Memref.whole cc0_scratch1 : Memref sig .scVector .vmem S120x128 .f32).view (chunkVal tab nf np (10320 * (wid L).val + 120 * j)))
        = chunkVal tab nf np (off 0) := by
      rw [h0]; exact View.read_whole cc0_scratch1 _
    rw [e]
    exact copy_val tab nf np off inb h1 o0 i hi
  · iapply (Entails.of_eq (show ((Memref.whole cc0_scratch1 : Memref sig .scVector .vmem S120x128 .f32).view.loc (thr dd L) ↦[(Memref.whole cc0_scratch1 : Memref sig .scVector .vmem S120x128 .f32).view.set]{fullShare}
          chunkVal tab nf np (10320 * (wid L).val + 120 * j) : sProp 𝕄)
      = ((thr dd L).loc cc0_scratch1 ↦{fullShare} chunkVal tab nf np (10320 * (wid L).val + 120 * j)) by rw [hbs])) $$ Hsrc

/-- The copy-out's flight on semaphore `sem` from chunk buffer 1: at its wait it hands back rows of chunk `j` of the result at
    the gathered contents, and the buffer. -/
def cFlight1 (dd : Dev nD) (L : grid0.Coords) (tab : S50000x128.Idx → Elt F .f32) (nf : S320000.Idx → Elt F .i32) (np : S10240.Idx → Elt F .i32)
    (sem : DmaSem sig) (j : ℕ) : sProp 𝕄 :=
  Transfers.Flight countersEmb (thr dd L) (.dma sem) (default : HIx 1) NC
    iprop((oLoc dd ↦[rowsIn (10320 * (wid L).val + 120 * j) (10320 * (wid L).val + 120 * j + 120)]{fullShare} gathered tab nf np)
      ∗ ((thr dd L).loc cc0_scratch2 ↦{fullShare} chunkVal tab nf np (10320 * (wid L).val + 120 * j)))

theorem step_copy1 (dd : Dev nD) (L : grid0.Coords) (tab : S50000x128.Idx → Elt F .f32) (nf : S320000.Idx → Elt F .i32) (np : S10240.Idx → Elt F .i32)
    (sem : DmaSem sig) (off : Fin 2 → ℕ) (inb : ∀ a, off a + S120x128.size a ≤ S330240x128.size a) (j : ℕ)
    (hj : off = ![10320 * (wid L).val + 120 * j, 0]) (o0 : Buf (Elt F) (oLoc dd))
    {α : Type} (k : PUnit → Prog (TpuEff nD τ sig (Elt F) Λ₀ (thr dd L).2) α) (Q : α → sProp 𝕄)
    (hsrc : (Memref.whole cc0_scratch2 : Memref sig .scVector .vmem S120x128 .f32).view.WordExact) (hdst : (och off inb).view.WordExact)
    (hsem : DmaTarget.Typed (nD := nD) (p := (thr dd L).2) Space.vmem (SemLoc.dma sem) (.here (och off inb))) :
    iprop(((thr dd L).loc cc0_scratch2 ↦{fullShare} chunkVal tab nf np (10320 * (wid L).val + 120 * j))
        ∗ (oLoc dd ↦[rowsIn (10320 * (wid L).val + 120 * j) (10320 * (wid L).val + 120 * j + 120)]{fullShare} o0) ∗ semVal (thr dd L, SemLoc.dma sem) 0)
      ⊢ iprop((cFlight1 dd L tab nf np sem j -∗ wp frame (wpE (defs₀ (F := F)) 𝒱₀ (thr dd L) none) Set.univ (k ⟨⟩) Q)
          -∗ wp frame (wpE (defs₀ (F := F)) 𝒱₀ (thr dd L) none) Set.univ
              (.op (.enqueueDma (Memref.whole cc0_scratch2 : Memref sig .scVector .vmem S120x128 .f32) (.here (och off inb)) (.dma sem) hsrc hdst hsem) k) Q) := by
  have h0 : off 0 = 10320 * (wid L).val + 120 * j := by rw [hj]; rfl
  have h1 : off 1 = 0 := by rw [hj]; rfl
  have hbs : (Memref.whole cc0_scratch2 : Memref sig .scVector .vmem S120x128 .f32).view.set = Finset.univ := by
    simp only [Memref.view_whole, View.set_whole]
  have hos : (och off inb).view.set = rowsIn (10320 * (wid L).val + 120 * j) (10320 * (wid L).val + 120 * j + 120) := by
    rw [och_set off inb h1, h0]
  iintro ⟨Hb, Ho, Hs⟩ Hk
  ihave Hb' := (Entails.of_eq (show ((thr dd L).loc cc0_scratch2 ↦{fullShare} chunkVal tab nf np (10320 * (wid L).val + 120 * j) : sProp 𝕄)
      = (Memref.whole cc0_scratch2 : Memref sig .scVector .vmem S120x128 .f32).view.loc (thr dd L) ↦[(Memref.whole cc0_scratch2 : Memref sig .scVector .vmem S120x128 .f32).view.set]{fullShare}
          chunkVal tab nf np (10320 * (wid L).val + 120 * j) by rw [hbs])) $$ Hb
  ihave Ho' := (Entails.of_eq (show (oLoc dd ↦[rowsIn (10320 * (wid L).val + 120 * j) (10320 * (wid L).val + 120 * j + 120)]{fullShare} o0 : sProp 𝕄)
      = (och off inb).view.loc (thr dd L) ↦[(och off inb).view.set]{fullShare} o0 by rw [hos])) $$ Ho
  iapply (Transfers.wp_dmaLocal countersEmb 𝒱₀ (thr dd L) none (default : HIx 1) NC rfl NC_pos (Finset.Subset.refl _)) $$ [Hb' Ho' Hs]
  · isplitl [Hb']; · iexact Hb'
    isplitl [Ho']; · iexact Ho'
    iexact Hs
  iintro Hfl
  iapply Hk
  unfold cFlight1
  iapply (Transfers.Flight_mono countersEmb (thr dd L) ?_) $$ Hfl
  iintro ⟨Hd, Hsrc⟩
  isplitl [Hd]
  · rw [← hos]
    iapply (Entails.of_eq (pointsTo_congr fun i hi => ?_)) $$ Hd
    have e : (ReadAs.same (Val := Elt F)).apply (View.read (Elt F) (Memref.whole cc0_scratch2 : Memref sig .scVector .vmem S120x128 .f32).view (chunkVal tab nf np (10320 * (wid L).val + 120 * j)))
        = chunkVal tab nf np (off 0) := by
      rw [h0]; exact View.read_whole cc0_scratch2 _
    rw [e]
    exact copy_val tab nf np off inb h1 o0 i hi
  · iapply (Entails.of_eq (show ((Memref.whole cc0_scratch2 : Memref sig .scVector .vmem S120x128 .f32).view.loc (thr dd L) ↦[(Memref.whole cc0_scratch2 : Memref sig .scVector .vmem S120x128 .f32).view.set]{fullShare}
          chunkVal tab nf np (10320 * (wid L).val + 120 * j) : sProp 𝕄)
      = ((thr dd L).loc cc0_scratch2 ↦{fullShare} chunkVal tab nf np (10320 * (wid L).val + 120 * j)) by rw [hbs])) $$ Hsrc

end Steps

end Cert.KernelIdeal.ScTile

end
-- ==== Proof.KiPay.lean ====
import proofs.«215990_g90829968376431_cont_sun_c4_571_51_alg».proof.Proof.KiHost
import proofs.«215990_g90829968376431_cont_sun_c4_571_51_alg».proof.Proof.ScTileDefs

noncomputable section

namespace Cert.KernelIdeal.Launch

open Cert.KernelIdeal Cert.KernelIdeal.Gen Cert.KernelIdeal.ScTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The tasks: 32 of them, task `(c, i)` numbered `2 i + c` -/

def coordsV (c : Fin (grid0.bound 0)) (s : Fin (grid0.bound 1)) : grid0.Coords :=
  fun | 0 => c | 1 => s | ⟨_ + 2, h⟩ => absurd h (Nat.not_lt.2 (Nat.le_add_left _ _))

/-- Task `w`'s read token of a whole array's full share. -/
abbrev tk (w : Fin 32) : PosShare TreeShare := Transfers.shareTok fullShare 32 w
/-- What the TensorCore keeps of each read array while the tasks run. -/
abbrev rest32 : PosShare TreeShare := Transfers.shareDrop fullShare 32

/-- Task `w`'s holdings with the result rows at `fo`: its tokens of the three arrays read and its rows of the result. -/
def taskAt (d : Dev nD) (tab : Buf (Elt F) (tLoc d)) (nf : Buf (Elt F) (nLoc d)) (np : Buf (Elt F) (pLoc d)) (fo : Buf (Elt F) (oLoc d))
    (w : Fin 32) : sProp 𝕄 :=
  iprop((tLoc d ↦{tk w} tab) ∗ (nLoc d ↦{tk w} nf) ∗ (pLoc d ↦{tk w} np) ∗ (oLoc d ↦[tileRows w]{fullShare} fo))

omit [FloatOps F] in
theorem tileGo_eq (d : Dev nD) (L : grid0.Coords) (tab : Buf (Elt F) (tLoc d)) (nf : Buf (Elt F) (nLoc d)) (np : Buf (Elt F) (pLoc d)) (o0 : Buf (Elt F) (oLoc d)) :
    tileGo d L (tk (wid L)) (tk (wid L)) (tk (wid L)) tab nf np o0 = taskAt d tab nf np o0 (wid L) := rfl
omit [FloatOps F] in
theorem tileTd_eq (d : Dev nD) (L : grid0.Coords) (tab : Buf (Elt F) (tLoc d)) (nf : Buf (Elt F) (nLoc d)) (np : Buf (Elt F) (pLoc d)) :
    tileTd d L (tk (wid L)) (tk (wid L)) (tk (wid L)) tab nf np = taskAt d tab nf np (gathered tab nf np) (wid L) := rfl

omit [FloatOps F] in
/-- Over the 32 tasks is over the 2 cores and their 16 subcores. -/
theorem bigSep_tasks32 (Φ : Fin 32 → sProp 𝕄) :
    bigSep (Finset.univ : Finset (Fin 32)) Φ
      = bigSep (Finset.univ : Finset (Fin 2)) fun c => bigSep (Finset.univ : Finset (Fin 16)) fun i => Φ (wid (coordsV c i)) := by
  rw [bigSep_univ_equiv (finProdFinEquiv : Fin 16 × Fin 2 ≃ Fin (16 * 2)) Φ, bigSep_univ_prod, bigSep_univ_comm]
  refine bigSep_congr fun c _ => bigSep_congr fun i _ => congrArg Φ (Fin.ext ?_)
  simp only [finProdFinEquiv, Equiv.coe_fn_mk, wid, coordsV]
  omega

omit [FloatOps F] in
theorem rows_disjoint : ∀ i ∈ (Finset.univ : Finset (Fin 32)), ∀ j ∈ (Finset.univ : Finset (Fin 32)), i ≠ j → Disjoint (tileRows i) (tileRows j) :=
  fun i _ j _ h => Rect.part_disjoint hdiv32 h
omit [FloatOps F] in
theorem rows_cover : (Finset.univ : Finset (Fin 32)).biUnion tileRows = Finset.univ := Rect.biUnion_part hdiv32

omit [FloatOps F] in
theorem oPts_rows (d : Dev nD) (f : Buf (Elt F) (oLoc d)) :
    (oLoc d ↦{fullShare} f : sProp 𝕄) = bigSep Finset.univ fun w : Fin 32 => oLoc d ↦[tileRows w]{fullShare} f := by
  rw [← pointsTo_biUnion Finset.univ (ℓ := oLoc d) tileRows rows_disjoint, rows_cover]; try rfl

omit [FloatOps F] in
/-- The three arrays read and the result, whole, are what the TensorCore keeps and the 32 tasks' holdings. -/
theorem deal_iff (d : Dev nD) (tab : Buf (Elt F) (tLoc d)) (nf : Buf (Elt F) (nLoc d)) (np : Buf (Elt F) (pLoc d)) (fo : Buf (Elt F) (oLoc d)) :
    (iprop((tLoc d ↦{fullShare} tab) ∗ (nLoc d ↦{fullShare} nf) ∗ (pLoc d ↦{fullShare} np) ∗ (oLoc d ↦{fullShare} fo)) : sProp 𝕄)
      ⊣⊢ iprop(((tLoc d ↦{rest32} tab) ∗ (nLoc d ↦{rest32} nf) ∗ (pLoc d ↦{rest32} np))
          ∗ bigSep (Finset.univ : Finset (Fin 2)) fun c => bigSep (Finset.univ : Finset (Fin 16)) fun i => taskAt d tab nf np fo (wid (coordsV c i))) := by
  rw [← bigSep_tasks32 (fun w => taskAt d tab nf np fo w)]
  unfold taskAt
  rw [bigSep_sep', bigSep_sep', bigSep_sep', ← oPts_rows]
  constructor
  · iintro ⟨Ht, Hn, Hp, Ho⟩
    ihave Ht' := (Transfers.pointsTo_toks_split fullShare 32) $$ Ht
    ihave Hn' := (Transfers.pointsTo_toks_split fullShare 32) $$ Hn
    ihave Hp' := (Transfers.pointsTo_toks_split fullShare 32) $$ Hp
    icases Ht' with ⟨Ht0, Ht⟩
    icases Hn' with ⟨Hn0, Hn⟩
    icases Hp' with ⟨Hp0, Hp⟩
    isplitl [Ht0 Hn0 Hp0]
    · isplitl [Ht0]; · iexact Ht0
      isplitl [Hn0]; · iexact Hn0
      iexact Hp0
    isplitl [Ht]; · iexact Ht
    isplitl [Hn]; · iexact Hn
    isplitl [Hp]; · iexact Hp
    iexact Ho
  · iintro ⟨⟨Ht0, Hn0, Hp0⟩, Ht, Hn, Hp, Ho⟩
    isplitl [Ht0 Ht]
    · iapply (Transfers.pointsTo_toks_join fullShare 32); isplitl [Ht0]; · iexact Ht0
      iexact Ht
    isplitl [Hn0 Hn]
    · iapply (Transfers.pointsTo_toks_join fullShare 32); isplitl [Hn0]; · iexact Hn0
      iexact Hn
    isplitl [Hp0 Hp]
    · iapply (Transfers.pointsTo_toks_join fullShare 32); isplitl [Hp0]; · iexact Hp0
      iexact Hp
    iexact Ho

/-! ## What the handshakes carry -/

/-- The arrays the call reads and writes, as they stand when it starts. -/
abbrev tabOf (d : Dev nD) : Buf (Elt F) (tLoc d) := m (tLoc d)
abbrev nfOf (d : Dev nD) : Buf (Elt F) (nLoc d) := V12 m d (Proc.devRef .tc main_v10)
abbrev npOf (d : Dev nD) : Buf (Elt F) (pLoc d) := V12 m d (Proc.devRef .tc main_v9)
abbrev o0Of (d : Dev nD) : Buf (Elt F) (oLoc d) := m (oLoc d)

/-- The grid point of task `i` of SparseCore `c` of the call. -/
abbrev LV (c : Fin ((K (F := F)).nCore 0)) (i : Fin ((K (F := F)).nSub 0)) : grid0.Coords :=
  coordsV ⟨c.val, c.isLt⟩ ⟨i.val, i.isLt⟩

/-- A task is handed its tokens and rows and hands them back with the rows gathered; a SparseCore, its sixteen tasks'. -/
def P : (K (F := F)).Pay (nD := nD) (Val := Elt F) (Name := ℕ) (U := UU) where
  st := fun q d c => match q with
    | 0 => bigSep Finset.univ fun i : Fin ((K (F := F)).nSub 0) => taskAt d (tabOf m d) (nfOf m d) (npOf m d) (o0Of m d) (wid (LV c i))
  dn := fun q d c => match q with
    | 0 => bigSep Finset.univ fun i : Fin ((K (F := F)).nSub 0) => taskAt d (tabOf m d) (nfOf m d) (npOf m d) (gathered (tabOf m d) (nfOf m d) (npOf m d)) (wid (LV c i))
  go := fun q d c i => match q with
    | 0 => taskAt d (tabOf m d) (nfOf m d) (npOf m d) (o0Of m d) (wid (LV c i))
  td := fun q d c i => match q with
    | 0 => taskAt d (tabOf m d) (nfOf m d) (npOf m d) (gathered (tabOf m d) (nfOf m d) (npOf m d)) (wid (LV c i))
  x := fun _ _ => iprop(emp)

instance taskAt_storable (d : Dev nD) (tab : Buf (Elt F) (tLoc d)) (nf : Buf (Elt F) (nLoc d)) (np : Buf (Elt F) (pLoc d)) (fo : Buf (Elt F) (oLoc d)) (w : Fin 32) :
    BI.Storable (upEmb : UEmb _ 𝕄) (taskAt d tab nf np fo w) := by
  unfold taskAt; infer_instance

instance P_storable : (P (F := F) m).IsStorable where
  st q d c := match q with | 0 => (by unfold P; infer_instance)
  dn q d c := match q with | 0 => (by unfold P; infer_instance)
  go q d c i := match q with | 0 => (by unfold P; infer_instance)
  td q d c i := match q with | 0 => (by unfold P; infer_instance)

theorem vecSplit : (K (F := F)).VecSplit' (P m) 0 := by
  intro d c
  have hst : (P m).st 0 d c = bigSep Finset.univ fun i : Fin ((K (F := F)).nSub 0) => (P m).go 0 d c i := rfl
  have hdn : (P m).dn 0 d c = bigSep Finset.univ fun i : Fin ((K (F := F)).nSub 0) => (P m).td 0 d c i := rfl
  rw [hst, hdn]
  iintro H; imodintro
  isplitl [H]; · iexact H
  iintro H; iexact H

end Cert.KernelIdeal.Launch

end
-- ==== Proof.TcBody.lean ====
import proofs.«215990_g90829968376431_cont_sun_c4_571_51_alg».proof.Proof.Gen.KernelIdeal.Launch
import proofs.«215990_g90829968376431_cont_sun_c4_571_51_alg».proof.Proof.Gen.KernelIdeal.Skeleton
import proofs.«215990_g90829968376431_cont_sun_c4_571_51_alg».proof.Proof.Gen.KernelIdeal.Points
import Idealize.ShloMosaic.Lib.Pipeline.FrameBody
import Idealize.ShloMosaic.Lib.Pipeline.Value
import Idealize.ShloMosaic.Lib.SparseCore.Cells
import Idealize.ShloMosaic.Lib.ValueIdx
import Idealize.ShloMosaic.Lib.Tactic

set_option maxRecDepth 16384

noncomputable section

namespace Cert.KernelIdeal.TcBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.SparseCore.Cfg (HIx)

variable {F : FTy → Type} [FloatOps F] {UU : Type} [URA UU]

local notation "𝕄" => MT nD τ sig (HIx 1) (Elt F) ℕ UU ℕ

/-! # The TensorCore region's body

The one TensorCore kernel of the program reads, at grid point `t`, eight blocks — the 2560 gathered neighbour rows
of its 80 nodes, the 80 gathered node rows, and the five weight arrays whole — and stores one block, the 80 attention-
weighted sums. Its arithmetic is one pure function of the eight blocks (`tcPay`); the result array is that function
block by block (`tcOut`). -/

abbrev rE : Rect S2560x128 := Rect.unit (s := S2560x128) ![0, 0] S2560x128.size inb_S2560x128_S2560x128_0_0
abbrev rU : Rect S80x128 := Rect.unit (s := S80x128) ![0, 0] S80x128.size inb_S80x128_S80x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

theorem hz : (![0, 0] : Fin 2 → Nat) = fun _ => 0 := funext fun a => by fin_cases a <;> rfl

/-- The block the body stores, from the eight blocks it loads: neighbour rows, node rows, the first layer's two
    weight halves and bias, the second layer's weights and bias, the scoring row. -/
def tcPay (e : Vec F S2560x128 .f32) (u : Vec F S80x128 .f32) (w1a w1b : Vec F S128x128 .bf16) (b1 : Vec F S1x128 .f32)
    (w2 : Vec F S128x128 .bf16) (b2 w3 : Vec F S1x128 .f32) : Vec F S80x128 .f32 :=
  k1_pay1 (k1_pay2 e) (k1_pay3 e u w1a w1b b1 w2 b2) (k1_pay4 w3)

/-- The one store covers the output block. -/
theorem cover_out [∀ e, Nonempty (Elt F e)] (p0 : Vec F S80x128 .f32) (y : S80x128.Idx) :
    ∃ pc ∈ ([⟨rU, p0⟩] : List (View.Piece (Elt F) S80x128 .f32)), y ∈ pc.1.set :=
  View.cover_of_tiled [⟨rU, p0⟩] S80x128.size (by rfl) y

set_option maxHeartbeats 2000000 in
/-- The body on whole staging memrefs: the eight inputs read and left as they were, the output's buffer left at
    `tcPay` of them. -/
theorem sound_kernel [∀ e, Nonempty (Elt F e)] (𝒱₀ : Variants) (c : Dev nD) (E : Set ℕ) (i : grid1.Coords)
    (arg1 : Memref sig .tc .vmem S2560x128 .f32) (harg1 : arg1.IsWhole) (arg2 : Memref sig .tc .vmem S80x128 .f32) (harg2 : arg2.IsWhole)
    (arg3 : Memref sig .tc .vmem S128x128 .bf16) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S80x128 .f32) (harg9 : arg9.IsWhole)
    (x0 : Vec F S2560x128 .f32) (x1 : Vec F S80x128 .f32) (x2 x3 : Vec F S128x128 .bf16) (x4 : Vec F S1x128 .f32) (x5 : Vec F S128x128 .bf16) (x6 x7 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (tcPay x0 x1 x2 x3 x4 x5 x6 x7)) -∗ K ⟨⟩))
      ⊢ wp frame (wpE (defs₀ (F := F)) 𝒱₀ c none) E (cc1__tc_mlp_body i arg1 harg1 arg2 harg2 arg3 harg3 arg4 harg4 arg5 harg5 arg6 harg6 arg7 harg7 arg8 harg8 arg9 harg9) K := by
  simp only [cc1__tc_mlp_body_eq_skeleton]; unfold cc1__tc_mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (cover_out _), View.canon_unit_zero hz]
  sl_unfold_run_names
  unfold tcPay
  simp only [View.readAt_eq_ld, View.ld_unit_zero (S := S2560x128) hz, View.ld_unit_zero (S := S80x128) hz,
    View.ld_unit_zero (S := S128x128) hz, View.ld_unit_zero (S := S1x128) hz]

/-! ## The result array as one function of the operand arrays -/

open ValueIdx in
/-- Block `t` of the gathered rows as the neighbour window reads it: rows `2560 t .. 2560 t + 2560`. -/
def eBlk (g : Vec F S330240x128 .f32) (t : Fin 125) : Vec F S2560x128 .f32 :=
  fun y => g (ix2 (⟨2560 * t.val + (y 0).val, by have := idx2_lt0 y; have := t.isLt; show _ < 330240; omega⟩ : Fin 330240) (⟨(y 1).val, idx2_lt1 y⟩ : Fin 128))

open ValueIdx in
/-- Block `t` of the gathered rows as the node window reads it: rows `320000 + 80 t .. + 80`. -/
def uBlk (g : Vec F S330240x128 .f32) (t : Fin 125) : Vec F S80x128 .f32 :=
  fun y => g (ix2 (⟨320000 + 80 * t.val + (y 0).val, by have := idx2_lt0 y; have := t.isLt; show _ < 330240; omega⟩ : Fin 330240) (⟨(y 1).val, idx2_lt1 y⟩ : Fin 128))

open ValueIdx in
/-- The kernel's result, whole: row `r` is row `r % 80` of `tcPay` of the blocks at point `r / 80`. -/
def tcOut (g : Vec F S330240x128 .f32) (w1a w1b : Vec F S128x128 .bf16) (b1 : Vec F S1x128 .f32)
    (w2 : Vec F S128x128 .bf16) (b2 w3 : Vec F S1x128 .f32) : Vec F S10000x128 .f32 :=
  fun i => tcPay (eBlk g ⟨(i 0).val / 80, by have := idx2_lt0 i; show _ < 125; omega⟩) (uBlk g ⟨(i 0).val / 80, by have := idx2_lt0 i; show _ < 125; omega⟩)
    w1a w1b b1 w2 b2 w3 (ix2 (⟨(i 0).val % 80, Nat.mod_lt _ (by decide)⟩ : Fin 80) (⟨(i 1).val, idx2_lt1 i⟩ : Fin 128))

open ValueIdx in
theorem tcOut_ix2 (g : Vec F S330240x128 .f32) (w1a w1b : Vec F S128x128 .bf16) (b1 : Vec F S1x128 .f32)
    (w2 : Vec F S128x128 .bf16) (b2 w3 : Vec F S1x128 .f32) (t : Fin 125) (a : Fin 80) (d : Fin 128) :
    tcOut g w1a w1b b1 w2 b2 w3 (ix2 (⟨80 * t.val + a.val, by have := t.isLt; have := a.isLt; omega⟩ : Fin 10000) d)
      = tcPay (eBlk g t) (uBlk g t) w1a w1b b1 w2 b2 w3 (ix2 a d) := by
  have h1 : (80 * t.val + a.val) / 80 = t.val := by have := a.isLt; omega
  have h2 : (80 * t.val + a.val) % 80 = a.val := by have := a.isLt; omega
  have e1 : ∀ h, (⟨(80 * t.val + a.val) / 80, h⟩ : Fin 125) = t := fun _ => Fin.ext h1
  have e2 : ∀ h, (⟨(80 * t.val + a.val) % 80, h⟩ : Fin 80) = a := fun _ => Fin.ext h2
  show tcPay (eBlk g ⟨(80 * t.val + a.val) / 80, _⟩) (uBlk g ⟨(80 * t.val + a.val) / 80, _⟩) w1a w1b b1 w2 b2 w3
      (ix2 (⟨(80 * t.val + a.val) % 80, _⟩ : Fin 80) (⟨d.val, _⟩ : Fin 128)) = _
  rw [e1, e2]

/-! # The region's proof data

The windows' arrays as the region finds them, what the body leaves in each staging buffer at each point, and the
body obligation. Windows 0 and 1 read one array, the gathered rows; each holds half of its share. -/

section Data

variable (g : Vec F S330240x128 .f32) (w1a w1b : Vec F S128x128 .bf16) (b1 : Vec F S1x128 .f32)
  (w2 : Vec F S128x128 .bf16) (b2 w3 : Vec F S1x128 .f32) (o : Vec F S10000x128 .f32)
  (O : CellTallies nD τ sig (HIx 1)) (W : Waits sig (HIx 1))

/-- Each window's array at the region's entry. -/
def arrA (c : Dev nD) : (w : Fin cfg1.W) → Buf (Elt F) ((cfg1.win w).arr.view.loc (c.tc : Thread nD τ))
  | ⟨0, _⟩ => g | ⟨1, _⟩ => g | ⟨2, _⟩ => w1a | ⟨3, _⟩ => w1b | ⟨4, _⟩ => b1
  | ⟨5, _⟩ => w2 | ⟨6, _⟩ => b2 | ⟨7, _⟩ => w3 | ⟨8, _⟩ => o

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (arrA g w1a w1b b1 w2 b2 w3 o c w)

/-- The proof data: each input's buffer holds its block, the output's the body's value of the input blocks; the
    invariant is the scoped buffers no window stages (none); the thread owes `O` throughout, its recorded waits
    within `W` and the loop's own. -/
def dat (c : Dev nD) : Dat τ (Elt F) (HIx 1) ℕ UU ℕ cfg1 c where
  A := arrA g w1a w1b b1 w2 b2 w3 o c
  after w t := match w with
    | ⟨0, _⟩ => iblk g w1a w1b b1 w2 b2 w3 o c 0 t
    | ⟨1, _⟩ => iblk g w1a w1b b1 w2 b2 w3 o c 1 t
    | ⟨2, _⟩ => iblk g w1a w1b b1 w2 b2 w3 o c 2 t
    | ⟨3, _⟩ => iblk g w1a w1b b1 w2 b2 w3 o c 3 t
    | ⟨4, _⟩ => iblk g w1a w1b b1 w2 b2 w3 o c 4 t
    | ⟨5, _⟩ => iblk g w1a w1b b1 w2 b2 w3 o c 5 t
    | ⟨6, _⟩ => iblk g w1a w1b b1 w2 b2 w3 o c 6 t
    | ⟨7, _⟩ => iblk g w1a w1b b1 w2 b2 w3 o c 7 t
    | ⟨8, _⟩ => tcPay (iblk g w1a w1b b1 w2 b2 w3 o c 0 t) (iblk g w1a w1b b1 w2 b2 w3 o c 1 t) (iblk g w1a w1b b1 w2 b2 w3 o c 2 t) (iblk g w1a w1b b1 w2 b2 w3 o c 3 t) (iblk g w1a w1b b1 w2 b2 w3 o c 4 t) (iblk g w1a w1b b1 w2 b2 w3 o c 5 t) (iblk g w1a w1b b1 w2 b2 w3 o c 6 t) (iblk g w1a w1b b1 w2 b2 w3 o c 7 t)
  Φ _ := Pipeline.scopedRest (Ix := HIx 1) (Name := ℕ) (U := UU) (Lvl := ℕ) (Val := Elt F) spec1 c
  q w := match w with
    | ⟨0, _⟩ => fullShare.left | ⟨1, _⟩ => fullShare.right | ⟨2, _⟩ => fullShare | ⟨3, _⟩ => fullShare | ⟨4, _⟩ => fullShare
    | ⟨5, _⟩ => fullShare | ⟨6, _⟩ => fullShare | ⟨7, _⟩ => fullShare | ⟨8, _⟩ => fullShare
  owed _ := O
  recorded _ := (↑W : Set (SemLoc sig × HIx 1))

theorem after_0 (c : Dev nD) (t : Fin cfg1.N) : (dat (UU := UU) g w1a w1b b1 w2 b2 w3 o O W c).after 0 t = iblk g w1a w1b b1 w2 b2 w3 o c 0 t := by dsimp only [dat]
theorem after_1 (c : Dev nD) (t : Fin cfg1.N) : (dat (UU := UU) g w1a w1b b1 w2 b2 w3 o O W c).after 1 t = iblk g w1a w1b b1 w2 b2 w3 o c 1 t := by dsimp only [dat]
theorem after_2 (c : Dev nD) (t : Fin cfg1.N) : (dat (UU := UU) g w1a w1b b1 w2 b2 w3 o O W c).after 2 t = iblk g w1a w1b b1 w2 b2 w3 o c 2 t := by dsimp only [dat]
theorem after_3 (c : Dev nD) (t : Fin cfg1.N) : (dat (UU := UU) g w1a w1b b1 w2 b2 w3 o O W c).after 3 t = iblk g w1a w1b b1 w2 b2 w3 o c 3 t := by dsimp only [dat]
theorem after_4 (c : Dev nD) (t : Fin cfg1.N) : (dat (UU := UU) g w1a w1b b1 w2 b2 w3 o O W c).after 4 t = iblk g w1a w1b b1 w2 b2 w3 o c 4 t := by dsimp only [dat]
theorem after_5 (c : Dev nD) (t : Fin cfg1.N) : (dat (UU := UU) g w1a w1b b1 w2 b2 w3 o O W c).after 5 t = iblk g w1a w1b b1 w2 b2 w3 o c 5 t := by dsimp only [dat]
theorem after_6 (c : Dev nD) (t : Fin cfg1.N) : (dat (UU := UU) g w1a w1b b1 w2 b2 w3 o O W c).after 6 t = iblk g w1a w1b b1 w2 b2 w3 o c 6 t := by dsimp only [dat]
theorem after_7 (c : Dev nD) (t : Fin cfg1.N) : (dat (UU := UU) g w1a w1b b1 w2 b2 w3 o O W c).after 7 t = iblk g w1a w1b b1 w2 b2 w3 o c 7 t := by dsimp only [dat]
theorem after_8 (c : Dev nD) (t : Fin cfg1.N) : (dat (UU := UU) g w1a w1b b1 w2 b2 w3 o O W c).after 8 t = tcPay (iblk g w1a w1b b1 w2 b2 w3 o c 0 t) (iblk g w1a w1b b1 w2 b2 w3 o c 1 t) (iblk g w1a w1b b1 w2 b2 w3 o c 2 t) (iblk g w1a w1b b1 w2 b2 w3 o c 3 t) (iblk g w1a w1b b1 w2 b2 w3 o c 4 t) (iblk g w1a w1b b1 w2 b2 w3 o c 5 t) (iblk g w1a w1b b1 w2 b2 w3 o c 6 t) (iblk g w1a w1b b1 w2 b2 w3 o c 7 t) := by dsimp only [dat]

/-- Input window 0's current buffer holds its block at every point, fetched there or not. -/
theorem before_0 (c : Dev nD) (t : Fin cfg1.N) (d) : (dat (UU := UU) g w1a w1b b1 w2 b2 w3 o O W c).before 0 t d = iblk g w1a w1b b1 w2 b2 w3 o c 0 t :=
  ((dat (UU := UU) g w1a w1b b1 w2 b2 w3 o O W c).before_in_eq_fetched 0 rfl (fun _ => rfl) (fun _ _ _ => rfl) (fun t => by rw [after_0]; rfl) t d).trans
    (by unfold Dat.fetched Dat.blockOf iblk; rfl)
/-- Input window 1's current buffer holds its block at every point, fetched there or not. -/
theorem before_1 (c : Dev nD) (t : Fin cfg1.N) (d) : (dat (UU := UU) g w1a w1b b1 w2 b2 w3 o O W c).before 1 t d = iblk g w1a w1b b1 w2 b2 w3 o c 1 t :=
  ((dat (UU := UU) g w1a w1b b1 w2 b2 w3 o O W c).before_in_eq_fetched 1 rfl (fun _ => rfl) (fun _ _ _ => rfl) (fun t => by rw [after_1]; rfl) t d).trans
    (by unfold Dat.fetched Dat.blockOf iblk; rfl)
/-- Input window 2's current buffer holds its block at every point, fetched there or not. -/
theorem before_2 (c : Dev nD) (t : Fin cfg1.N) (d) : (dat (UU := UU) g w1a w1b b1 w2 b2 w3 o O W c).before 2 t d = iblk g w1a w1b b1 w2 b2 w3 o c 2 t :=
  ((dat (UU := UU) g w1a w1b b1 w2 b2 w3 o O W c).before_in_eq_fetched 2 rfl (fun _ => rfl) (fun _ _ _ => rfl) (fun t => by rw [after_2]; rfl) t d).trans
    (by unfold Dat.fetched Dat.blockOf iblk; rfl)
/-- Input window 3's current buffer holds its block at every point, fetched there or not. -/
theorem before_3 (c : Dev nD) (t : Fin cfg1.N) (d) : (dat (UU := UU) g w1a w1b b1 w2 b2 w3 o O W c).before 3 t d = iblk g w1a w1b b1 w2 b2 w3 o c 3 t :=
  ((dat (UU := UU) g w1a w1b b1 w2 b2 w3 o O W c).before_in_eq_fetched 3 rfl (fun _ => rfl) (fun _ _ _ => rfl) (fun t => by rw [after_3]; rfl) t d).trans
    (by unfold Dat.fetched Dat.blockOf iblk; rfl)
/-- Input window 4's current buffer holds its block at every point, fetched there or not. -/
theorem before_4 (c : Dev nD) (t : Fin cfg1.N) (d) : (dat (UU := UU) g w1a w1b b1 w2 b2 w3 o O W c).before 4 t d = iblk g w1a w1b b1 w2 b2 w3 o c 4 t :=
  ((dat (UU := UU) g w1a w1b b1 w2 b2 w3 o O W c).before_in_eq_fetched 4 rfl (fun _ => rfl) (fun _ _ _ => rfl) (fun t => by rw [after_4]; rfl) t d).trans
    (by unfold Dat.fetched Dat.blockOf iblk; rfl)
/-- Input window 5's current buffer holds its block at every point, fetched there or not. -/
theorem before_5 (c : Dev nD) (t : Fin cfg1.N) (d) : (dat (UU := UU) g w1a w1b b1 w2 b2 w3 o O W c).before 5 t d = iblk g w1a w1b b1 w2 b2 w3 o c 5 t :=
  ((dat (UU := UU) g w1a w1b b1 w2 b2 w3 o O W c).before_in_eq_fetched 5 rfl (fun _ => rfl) (fun _ _ _ => rfl) (fun t => by rw [after_5]; rfl) t d).trans
    (by unfold Dat.fetched Dat.blockOf iblk; rfl)
/-- Input window 6's current buffer holds its block at every point, fetched there or not. -/
theorem before_6 (c : Dev nD) (t : Fin cfg1.N) (d) : (dat (UU := UU) g w1a w1b b1 w2 b2 w3 o O W c).before 6 t d = iblk g w1a w1b b1 w2 b2 w3 o c 6 t :=
  ((dat (UU := UU) g w1a w1b b1 w2 b2 w3 o O W c).before_in_eq_fetched 6 rfl (fun _ => rfl) (fun _ _ _ => rfl) (fun t => by rw [after_6]; rfl) t d).trans
    (by unfold Dat.fetched Dat.blockOf iblk; rfl)
/-- Input window 7's current buffer holds its block at every point, fetched there or not. -/
theorem before_7 (c : Dev nD) (t : Fin cfg1.N) (d) : (dat (UU := UU) g w1a w1b b1 w2 b2 w3 o O W c).before 7 t d = iblk g w1a w1b b1 w2 b2 w3 o c 7 t :=
  ((dat (UU := UU) g w1a w1b b1 w2 b2 w3 o O W c).before_in_eq_fetched 7 rfl (fun _ => rfl) (fun _ _ _ => rfl) (fun t => by rw [after_7]; rfl) t d).trans
    (by unfold Dat.fetched Dat.blockOf iblk; rfl)

/-- What the body is called with at point `t`, -/
def bodyPre (c : Dev nD) (t : Fin cfg1.N) : sProp 𝕄 :=
  iprop((dat (UU := UU) g w1a w1b b1 w2 b2 w3 o O W c).Φ t.castSucc ∗ (dat (UU := UU) g w1a w1b b1 w2 b2 w3 o O W c).owesAt none t.castSucc
    ∗ (∃ d, owns (c : Thread nD τ) (st1_0 t) fullShare ((dat (UU := UU) g w1a w1b b1 w2 b2 w3 o O W c).before 0 t d))
    ∗ (∃ d, owns (c : Thread nD τ) (st1_1 t) fullShare ((dat (UU := UU) g w1a w1b b1 w2 b2 w3 o O W c).before 1 t d))
    ∗ (∃ d, owns (c : Thread nD τ) (st1_2 t) fullShare ((dat (UU := UU) g w1a w1b b1 w2 b2 w3 o O W c).before 2 t d))
    ∗ (∃ d, owns (c : Thread nD τ) (st1_3 t) fullShare ((dat (UU := UU) g w1a w1b b1 w2 b2 w3 o O W c).before 3 t d))
    ∗ (∃ d, owns (c : Thread nD τ) (st1_4 t) fullShare ((dat (UU := UU) g w1a w1b b1 w2 b2 w3 o O W c).before 4 t d))
    ∗ (∃ d, owns (c : Thread nD τ) (st1_5 t) fullShare ((dat (UU := UU) g w1a w1b b1 w2 b2 w3 o O W c).before 5 t d))
    ∗ (∃ d, owns (c : Thread nD τ) (st1_6 t) fullShare ((dat (UU := UU) g w1a w1b b1 w2 b2 w3 o O W c).before 6 t d))
    ∗ (∃ d, owns (c : Thread nD τ) (st1_7 t) fullShare ((dat (UU := UU) g w1a w1b b1 w2 b2 w3 o O W c).before 7 t d))
    ∗ (∃ d, owns (c : Thread nD τ) (st1_8 t) fullShare ((dat (UU := UU) g w1a w1b b1 w2 b2 w3 o O W c).before 8 t d)))

/-- and what it returns. -/
def bodyPost (c : Dev nD) (t : Fin cfg1.N) : sProp 𝕄 :=
  iprop((dat (UU := UU) g w1a w1b b1 w2 b2 w3 o O W c).Φ t.succ ∗ (dat (UU := UU) g w1a w1b b1 w2 b2 w3 o O W c).owesAt none t.succ
    ∗ owns (c : Thread nD τ) (st1_0 t) fullShare ((dat (UU := UU) g w1a w1b b1 w2 b2 w3 o O W c).after 0 t)
    ∗ owns (c : Thread nD τ) (st1_1 t) fullShare ((dat (UU := UU) g w1a w1b b1 w2 b2 w3 o O W c).after 1 t)
    ∗ owns (c : Thread nD τ) (st1_2 t) fullShare ((dat (UU := UU) g w1a w1b b1 w2 b2 w3 o O W c).after 2 t)
    ∗ owns (c : Thread nD τ) (st1_3 t) fullShare ((dat (UU := UU) g w1a w1b b1 w2 b2 w3 o O W c).after 3 t)
    ∗ owns (c : Thread nD τ) (st1_4 t) fullShare ((dat (UU := UU) g w1a w1b b1 w2 b2 w3 o O W c).after 4 t)
    ∗ owns (c : Thread nD τ) (st1_5 t) fullShare ((dat (UU := UU) g w1a w1b b1 w2 b2 w3 o O W c).after 5 t)
    ∗ owns (c : Thread nD τ) (st1_6 t) fullShare ((dat (UU := UU) g w1a w1b b1 w2 b2 w3 o O W c).after 6 t)
    ∗ owns (c : Thread nD τ) (st1_7 t) fullShare ((dat (UU := UU) g w1a w1b b1 w2 b2 w3 o O W c).after 7 t)
    ∗ owns (c : Thread nD τ) (st1_8 t) fullShare ((dat (UU := UU) g w1a w1b b1 w2 b2 w3 o O W c).after 8 t))

variable (𝒱₀ : Variants)

/-- The body at any point: the inputs' buffers hold their blocks, so the body's triple applies; the invariant and the
    thread's debts pass through unread. -/
theorem sound_body [∀ e, Nonempty (Elt F e)] (c : Dev nD) (t : Fin cfg1.N) :
    bodyPre (UU := UU) g w1a w1b b1 w2 b2 w3 o O W c t ⊢ wp frame (wpE (defs₀ (F := F)) 𝒱₀ c none) Set.univ (bodyAt1 t) (fun _ => bodyPost (UU := UU) g w1a w1b b1 w2 b2 w3 o O W c t) := by
  unfold bodyPre bodyPost bodyAt1
  simp only [before_0, before_1, before_2, before_3, before_4, before_5, before_6, before_7]
  rw [show (dat (UU := UU) g w1a w1b b1 w2 b2 w3 o O W c).Φ t.succ = (dat (UU := UU) g w1a w1b b1 w2 b2 w3 o O W c).Φ t.castSucc from rfl,
    show (dat (UU := UU) g w1a w1b b1 w2 b2 w3 o O W c).owesAt none t.succ = (dat (UU := UU) g w1a w1b b1 w2 b2 w3 o O W c).owesAt none t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel 𝒱₀ c Set.univ _ _ _ _ _ _ _ _ _ _ _ _ _ _ _ _ _ _ _ (iblk g w1a w1b b1 w2 b2 w3 o c 0 t) (iblk g w1a w1b b1 w2 b2 w3 o c 1 t) (iblk g w1a w1b b1 w2 b2 w3 o c 2 t) (iblk g w1a w1b b1 w2 b2 w3 o c 3 t) (iblk g w1a w1b b1 w2 b2 w3 o c 4 t) (iblk g w1a w1b b1 w2 b2 w3 o c 5 t) (iblk g w1a w1b b1 w2 b2 w3 o c 6 t) (iblk g w1a w1b b1 w2 b2 w3 o c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation [∀ e, Nonempty (Elt F e)] (c : Dev nD) :
    BodyObligation (dat (F := F) (UU := UU) g w1a w1b b1 w2 b2 w3 o O W c) (defs₀ (F := F)) 𝒱₀ none Set.univ := fun t => by
  rw [bigSep_W1, bigSep_W1]
  exact sound_body (UU := UU) g w1a w1b b1 w2 b2 w3 o O W 𝒱₀ c t

end Data

/-! # The result array after the region

The printed index maps decided once over the grid; each input block read where the output's block says; the output's
blocks tile the array, so it ends holding `tcOut` of the operand arrays. -/

section Final

variable (g : Vec F S330240x128 .f32) (w1a w1b : Vec F S128x128 .bf16) (b1 : Vec F S1x128 .f32)
  (w2 : Vec F S128x128 .bf16) (b2 w3 : Vec F S1x128 .f32) (o : Vec F S10000x128 .f32)
  (O : CellTallies nD τ sig (HIx 1)) (W : Waits sig (HIx 1))

theorem idx_facts : ∀ t : Fin cfg1.N,
    win1_0.index t (0 : Fin 2) = t.val ∧ win1_0.index t (1 : Fin 2) = 0
    ∧ win1_1.index t (0 : Fin 2) = 4000 + t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- A grid point as a number below 125. -/
abbrev pt (t : Fin cfg1.N) : Fin 125 := ⟨t.val, lt_of_lt_of_eq t.isLt N_1⟩

open ValueIdx in
theorem iblk0_eq (c : Dev nD) (t : Fin cfg1.N) : iblk g w1a w1b b1 w2 b2 w3 o c 0 t = eBlk g (pt t) := by
  obtain ⟨e0, e1, -⟩ := idx_facts t
  funext y
  show g (((cfg1.win 0).blk t).view.emb y) = g (ix2 _ _)
  refine congrArg g ?_
  funext a; apply Fin.ext
  match a with
  | ⟨0, _⟩ => show win1_0.index t (0 : Fin 2) * 2560 + 1 * (y 0).val = 2560 * t.val + (y 0).val; omega
  | ⟨1, _⟩ => show win1_0.index t (1 : Fin 2) * 128 + 1 * (y 1).val = (y 1).val; omega

open ValueIdx in
theorem iblk1_eq (c : Dev nD) (t : Fin cfg1.N) : iblk g w1a w1b b1 w2 b2 w3 o c 1 t = uBlk g (pt t) := by
  obtain ⟨-, -, e0, e1, -⟩ := idx_facts t
  funext y
  show g (((cfg1.win 1).blk t).view.emb y) = g (ix2 _ _)
  refine congrArg g ?_
  funext a; apply Fin.ext
  match a with
  | ⟨0, _⟩ => show win1_1.index t (0 : Fin 2) * 80 + 1 * (y 0).val = 320000 + 80 * t.val + (y 0).val; omega
  | ⟨1, _⟩ => show win1_1.index t (1 : Fin 2) * 128 + 1 * (y 1).val = (y 1).val; omega

theorem iblk2_eq (c : Dev nD) (t : Fin cfg1.N) : iblk g w1a w1b b1 w2 b2 w3 o c 2 t = w1a := by
  obtain ⟨-, -, -, -, e0, e1, -⟩ := idx_facts t
  funext y
  show w1a (((cfg1.win 2).blk t).view.emb y) = w1a y
  refine congrArg w1a ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem iblk3_eq (c : Dev nD) (t : Fin cfg1.N) : iblk g w1a w1b b1 w2 b2 w3 o c 3 t = w1b := by
  obtain ⟨-, -, -, -, -, -, e0, e1, -⟩ := idx_facts t
  funext y
  show w1b (((cfg1.win 3).blk t).view.emb y) = w1b y
  refine congrArg w1b ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem iblk4_eq (c : Dev nD) (t : Fin cfg1.N) : iblk g w1a w1b b1 w2 b2 w3 o c 4 t = b1 := by
  obtain ⟨-, -, -, -, -, -, -, -, e0, e1, -⟩ := idx_facts t
  funext y
  show b1 (((cfg1.win 4).blk t).view.emb y) = b1 y
  refine congrArg b1 ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem iblk5_eq (c : Dev nD) (t : Fin cfg1.N) : iblk g w1a w1b b1 w2 b2 w3 o c 5 t = w2 := by
  obtain ⟨-, -, -, -, -, -, -, -, -, -, e0, e1, -⟩ := idx_facts t
  funext y
  show w2 (((cfg1.win 5).blk t).view.emb y) = w2 y
  refine congrArg w2 ?_
  funext a; apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem iblk6_eq (c : Dev nD) (t : Fin cfg1.N) : iblk g w1a w1b b1 w2 b2 w3 o c 6 t = b2 := by
  obtain ⟨-, -, -, -, -, -, -, -, -, -, -, -, e0, e1, -⟩ := idx_facts t
  funext y
  show b2 (((cfg1.win 6).blk t).view.emb y) = b2 y
  refine congrArg b2 ?_
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

theorem iblk7_eq (c : Dev nD) (t : Fin cfg1.N) : iblk g w1a w1b b1 w2 b2 w3 o c 7 t = w3 := by
  obtain ⟨-, -, -, -, -, -, -, -, -, -, -, -, -, -, e0, e1, -⟩ := idx_facts t
  funext y
  show w3 (((cfg1.win 7).blk t).view.emb y) = w3 y
  refine congrArg w3 ?_
  funext a; apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

open ValueIdx in
/-- What point `t` writes back is block `t` of `tcOut` of the operand arrays. -/
theorem flushed_eq (c : Dev nD) (t : Fin cfg1.N) :
    (dat (UU := UU) g w1a w1b b1 w2 b2 w3 o O W c).flushed 8 t = ((cfg1.win 8).blk t).view.read (Elt F) (tcOut g w1a w1b b1 w2 b2 w3) := by
  show (cfg1.win 8).cut (grid1.coords t) ((dat (UU := UU) g w1a w1b b1 w2 b2 w3 o O W c).after 8 t) = _
  rw [after_8, iblk0_eq, iblk1_eq, iblk2_eq, iblk3_eq, iblk4_eq, iblk5_eq, iblk6_eq, iblk7_eq]
  obtain ⟨-, -, -, -, -, -, -, -, -, -, -, -, -, -, -, -, e0, e1⟩ := idx_facts t
  funext j
  have hj0 : (j 0).val < 80 := (j 0).isLt
  have hj1 : (j 1).val < 128 := (j 1).isLt
  have hi : ((cfg1.win 8).blk t).view.emb j
      = ix2 (⟨80 * (pt t).val + (⟨(j 0).val, hj0⟩ : Fin 80).val, by have := (pt t).isLt; show _ < 10000; omega⟩ : Fin 10000) (⟨(j 1).val, hj1⟩ : Fin 128) := by
    funext a; apply Fin.ext
    match a with
    | ⟨0, _⟩ => show win1_8.index t (0 : Fin 2) * 80 + 1 * (j 0).val = 80 * t.val + (j 0).val; omega
    | ⟨1, _⟩ => show win1_8.index t (1 : Fin 2) * 128 + 1 * (j 1).val = (j 1).val; omega
  show tcPay (eBlk g (pt t)) (uBlk g (pt t)) w1a w1b b1 w2 b2 w3 _ = (tcOut g w1a w1b b1 w2 b2 w3) (((cfg1.win 8).blk t).view.emb j)
  rw [hi, tcOut_ix2]
  refine congrArg _ ?_
  funext a
  match a with
  | ⟨0, _⟩ => rfl
  | ⟨1, _⟩ => rfl

/-- An index of the result array is in point `t`'s block iff each coordinate is in the block's range. -/
theorem mem_blk (t : Fin cfg1.N) (i : S10000x128.Idx) :
    i ∈ ((cfg1.win 8).blk t).view.set ↔ ∀ a : Fin 2, win1_8.index t a * S80x128.size a ≤ (i a).val ∧ (i a).val < win1_8.index t a * S80x128.size a + S80x128.size a := by
  show i ∈ ((View.whole main_v12).slice (win1_8.rect t)).set ↔ _
  rw [View.set_slice_whole, Rect.mem_set_unit]
  exact Iff.rfl

open ValueIdx in
/-- Every row of the result lies in the block of the point `row / 80`. -/
theorem cover (i : S10000x128.Idx) : ∃ t : Fin cfg1.N, (cfg1.win 8).flush t = true ∧ i ∈ ((cfg1.win 8).blk t).view.set := by
  have hi0 := idx2_lt0 i
  have hi1 := idx2_lt1 i
  have hN : cfg1.N = 125 := N_1
  refine ⟨⟨(i 0).val / 80, by rw [hN]; omega⟩, flush1_8 _, ?_⟩
  obtain ⟨-, -, -, -, -, -, -, -, -, -, -, -, -, -, -, -, e0, e1⟩ := idx_facts ⟨(i 0).val / 80, by rw [hN]; omega⟩
  rw [mem_blk]
  intro a
  match a with
  | ⟨0, _⟩ =>
    show win1_8.index _ (0 : Fin 2) * 80 ≤ (i 0).val ∧ (i 0).val < win1_8.index _ (0 : Fin 2) * 80 + 80
    rw [e0]; show (i 0).val / 80 * 80 ≤ (i 0).val ∧ (i 0).val < (i 0).val / 80 * 80 + 80; omega
  | ⟨1, _⟩ =>
    show win1_8.index _ (1 : Fin 2) * 128 ≤ (i 1).val ∧ (i 1).val < win1_8.index _ (1 : Fin 2) * 128 + 128
    rw [e1]; omega

/-- The result array after the region. -/
theorem final8 (c : Dev nD) : (dat (UU := UU) g w1a w1b b1 w2 b2 w3 o O W c).arrAt 8 cfg1.N = tcOut g w1a w1b b1 w2 b2 w3 :=
  (dat (UU := UU) g w1a w1b b1 w2 b2 w3 o O W c).arrAt_eq_of_cover 8 (tcOut g w1a w1b b1 w2 b2 w3) (fun t _ => flushed_eq g w1a w1b b1 w2 b2 w3 o O W c t) cover

theorem final0 (c : Dev nD) (n : Nat) : (dat (UU := UU) g w1a w1b b1 w2 b2 w3 o O W c).arrAt 0 n = arrA g w1a w1b b1 w2 b2 w3 o c 0 := (dat (UU := UU) g w1a w1b b1 w2 b2 w3 o O W c).arrAt_in 0 rfl n
theorem final1 (c : Dev nD) (n : Nat) : (dat (UU := UU) g w1a w1b b1 w2 b2 w3 o O W c).arrAt 1 n = arrA g w1a w1b b1 w2 b2 w3 o c 1 := (dat (UU := UU) g w1a w1b b1 w2 b2 w3 o O W c).arrAt_in 1 rfl n
theorem final2 (c : Dev nD) (n : Nat) : (dat (UU := UU) g w1a w1b b1 w2 b2 w3 o O W c).arrAt 2 n = arrA g w1a w1b b1 w2 b2 w3 o c 2 := (dat (UU := UU) g w1a w1b b1 w2 b2 w3 o O W c).arrAt_in 2 rfl n
theorem final3 (c : Dev nD) (n : Nat) : (dat (UU := UU) g w1a w1b b1 w2 b2 w3 o O W c).arrAt 3 n = arrA g w1a w1b b1 w2 b2 w3 o c 3 := (dat (UU := UU) g w1a w1b b1 w2 b2 w3 o O W c).arrAt_in 3 rfl n
theorem final4 (c : Dev nD) (n : Nat) : (dat (UU := UU) g w1a w1b b1 w2 b2 w3 o O W c).arrAt 4 n = arrA g w1a w1b b1 w2 b2 w3 o c 4 := (dat (UU := UU) g w1a w1b b1 w2 b2 w3 o O W c).arrAt_in 4 rfl n
theorem final5 (c : Dev nD) (n : Nat) : (dat (UU := UU) g w1a w1b b1 w2 b2 w3 o O W c).arrAt 5 n = arrA g w1a w1b b1 w2 b2 w3 o c 5 := (dat (UU := UU) g w1a w1b b1 w2 b2 w3 o O W c).arrAt_in 5 rfl n
theorem final6 (c : Dev nD) (n : Nat) : (dat (UU := UU) g w1a w1b b1 w2 b2 w3 o O W c).arrAt 6 n = arrA g w1a w1b b1 w2 b2 w3 o c 6 := (dat (UU := UU) g w1a w1b b1 w2 b2 w3 o O W c).arrAt_in 6 rfl n
theorem final7 (c : Dev nD) (n : Nat) : (dat (UU := UU) g w1a w1b b1 w2 b2 w3 o O W c).arrAt 7 n = arrA g w1a w1b b1 w2 b2 w3 o c 7 := (dat (UU := UU) g w1a w1b b1 w2 b2 w3 o O W c).arrAt_in 7 rfl n

end Final

end Cert.KernelIdeal.TcBody
end
-- ==== Proof.Spec.lean ====
/-
  The common mathematical specification of the neighbour-attention aggregation, over extended reals.

  N = 10000 nodes, K = 32 neighbours per node, D = 128 features; a table of 50000 rows.
  For a node n with neighbour rows e k (k < 32) and own row u, and weights w1a, w1b, w2 (128 x 128),
  b1, b2, w3 (128):
    A1 k j = sum_d e k d * w1a d j                 HU j = (sum_d u d * w1b d j) + b1 j
    H1 k j = max (A1 k j + HU j) 0                 H2 k j = max ((sum_i H1 k i * w2 i j) + b2 j) 0
    L k    = sum_j H2 k j * w3 j                   M = sup_k L k   (the supremum of the empty family is -inf)
    P k    = exp (L k - M)                         Z = sum_k P k
    att k  = P k / Z                               out d = sum_k e k d * att k
  The whole-array result reads the neighbour rows and the own row out of the table at the rows the index
  words name; the block form reads them out of a block of 2560 gathered neighbour rows (row 32 a + k is
  neighbour k of the block's node a) and a block of 80 gathered own rows.
  This module mentions no program.
-/
import Idealize.ShloMosaic.PureOps.Ideal
import Idealize.ShloMosaic.Lib.ValueIdx

noncomputable section

open scoped BigOperators

namespace Cert.Spec

open Idealize.ShloMosaic Idealize.ShloMosaic.ValueIdx

/-! ## Shapes (literal; definitionally the programs' own) -/

abbrev S10000 : Shape := ⟨1, ![10000]⟩
abbrev S10000x32 : Shape := ⟨2, ![10000, 32]⟩
abbrev S50000x128 : Shape := ⟨2, ![50000, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S10000x128 : Shape := ⟨2, ![10000, 128]⟩
abbrev S330240x128 : Shape := ⟨2, ![330240, 128]⟩
abbrev S2560x128 : Shape := ⟨2, ![2560, 128]⟩
abbrev S80x128 : Shape := ⟨2, ![80, 128]⟩
abbrev S1x128 : Shape := ⟨2, ![1, 128]⟩

/-! ## The table row an index word names -/

/-- The row of the 50000-row table that the index word `w` names: its unsigned value (reduced modulo 50000 so
    that the function is total; in range it is the value itself). -/
def row (w : BitVec 32) : Fin 50000 := ⟨w.toNat % 50000, Nat.mod_lt _ (by norm_num)⟩

theorem row_val (w : BitVec 32) : (row w).val = w.toNat % 50000 := rfl

/-- In range the row is the word's value. -/
theorem row_val_of_lt {w : BitVec 32} (h : w.toNat < 50000) : (row w).val = w.toNat := Nat.mod_eq_of_lt h

/-! ## One node's attention, over coordinates -/

section Node

variable (e : Fin 32 → Fin 128 → EReal) (u : Fin 128 → EReal)
  (w1a w1b : Fin 128 → Fin 128 → EReal) (b1 : Fin 128 → EReal)
  (w2 : Fin 128 → Fin 128 → EReal) (b2 w3 : Fin 128 → EReal)

/-- The neighbours' half of the first layer: row k of e against w1a. -/
def nodeA1 (k : Fin 32) (j : Fin 128) : EReal := ∑ d : Fin 128, e k d * w1a d j

/-- The node's own half of the first layer, with the bias. -/
def nodeHU (j : Fin 128) : EReal := (∑ d : Fin 128, u d * w1b d j) + b1 j

/-- The first hidden layer. -/
def nodeH1 (k : Fin 32) (j : Fin 128) : EReal := max (nodeA1 e w1a k j + nodeHU u w1b b1 j) 0

/-- The second hidden layer. -/
def nodeH2 (k : Fin 32) (j : Fin 128) : EReal :=
  max ((∑ i : Fin 128, nodeH1 e u w1a w1b b1 k i * w2 i j) + b2 j) 0

/-- The attention logit of neighbour k. -/
def nodeL (k : Fin 32) : EReal := ∑ j : Fin 128, nodeH2 e u w1a w1b b1 w2 b2 k j * w3 j

/-- The largest logit. -/
def nodeM : EReal := Finset.univ.sup fun k : Fin 32 => nodeL e u w1a w1b b1 w2 b2 w3 k

/-- The unnormalised weight of neighbour k. -/
def nodeP (k : Fin 32) : EReal :=
  Ideal.exp (nodeL e u w1a w1b b1 w2 b2 w3 k - nodeM e u w1a w1b b1 w2 b2 w3)

/-- The normaliser. -/
def nodeZ : EReal := ∑ k : Fin 32, nodeP e u w1a w1b b1 w2 b2 w3 k

/-- The attention weight of neighbour k. -/
def nodeAtt (k : Fin 32) : EReal :=
  Ideal.div (nodeP e u w1a w1b b1 w2 b2 w3 k) (nodeZ e u w1a w1b b1 w2 b2 w3)

/-- The node's result: the attention-weighted sum of its neighbours' rows. -/
def nodeOut (d : Fin 128) : EReal := ∑ k : Fin 32, e k d * nodeAtt e u w1a w1b b1 w2 b2 w3 k

end Node

/-! ## The whole-array result -/

section Whole

variable (nodes : S10000.Idx → BitVec 32) (neigh : S10000x32.Idx → BitVec 32)
  (u2e : S50000x128.Idx → EReal) (W1 : S256x128.Idx → EReal) (b1 : S128.Idx → EReal)
  (W2 : S128x128.Idx → EReal) (b2 : S128.Idx → EReal) (W3 : S128x1.Idx → EReal)

/-- Feature d of neighbour k of node n. -/
def E (n : Fin 10000) (k : Fin 32) (d : Fin 128) : EReal := u2e (ix2 (row (neigh (ix2 n k))) d)

/-- Feature d of node n's own row. -/
def U (n : Fin 10000) (d : Fin 128) : EReal := u2e (ix2 (row (nodes (ix1 n))) d)

/-- The first 128 rows of the first layer's weights (they meet the neighbour's row). -/
def W1a (d j : Fin 128) : EReal := W1 (ix2 (⟨d.val, by omega⟩ : Fin 256) j)

/-- The last 128 rows of the first layer's weights (they meet the node's own row). -/
def W1b (d j : Fin 128) : EReal := W1 (ix2 (⟨128 + d.val, by omega⟩ : Fin 256) j)

/-- A rank-2 weight by coordinates. -/
def mat (W : S128x128.Idx → EReal) (i j : Fin 128) : EReal := W (ix2 i j)

/-- A rank-1 weight by its coordinate. -/
def vec (b : S128.Idx → EReal) (j : Fin 128) : EReal := b (ix1 j)

/-- The last layer's one column by its row coordinate. -/
def col (W : S128x1.Idx → EReal) (j : Fin 128) : EReal := W (ix2 j (0 : Fin 1))

def A1 (n : Fin 10000) (k : Fin 32) (j : Fin 128) : EReal := nodeA1 (E neigh u2e n) (W1a W1) k j
def HU (n : Fin 10000) (j : Fin 128) : EReal := nodeHU (U nodes u2e n) (W1b W1) (vec b1) j
def H1 (n : Fin 10000) (k : Fin 32) (j : Fin 128) : EReal :=
  nodeH1 (E neigh u2e n) (U nodes u2e n) (W1a W1) (W1b W1) (vec b1) k j
def H2 (n : Fin 10000) (k : Fin 32) (j : Fin 128) : EReal :=
  nodeH2 (E neigh u2e n) (U nodes u2e n) (W1a W1) (W1b W1) (vec b1) (mat W2) (vec b2) k j
def L (n : Fin 10000) (k : Fin 32) : EReal :=
  nodeL (E neigh u2e n) (U nodes u2e n) (W1a W1) (W1b W1) (vec b1) (mat W2) (vec b2) (col W3) k
def M (n : Fin 10000) : EReal :=
  nodeM (E neigh u2e n) (U nodes u2e n) (W1a W1) (W1b W1) (vec b1) (mat W2) (vec b2) (col W3)
def P (n : Fin 10000) (k : Fin 32) : EReal :=
  nodeP (E neigh u2e n) (U nodes u2e n) (W1a W1) (W1b W1) (vec b1) (mat W2) (vec b2) (col W3) k
def Z (n : Fin 10000) : EReal :=
  nodeZ (E neigh u2e n) (U nodes u2e n) (W1a W1) (W1b W1) (vec b1) (mat W2) (vec b2) (col W3)
def att (n : Fin 10000) (k : Fin 32) : EReal :=
  nodeAtt (E neigh u2e n) (U nodes u2e n) (W1a W1) (W1b W1) (vec b1) (mat W2) (vec b2) (col W3) k

/-- The result at node n, feature d. -/
def outAt (n : Fin 10000) (d : Fin 128) : EReal :=
  nodeOut (E neigh u2e n) (U nodes u2e n) (W1a W1) (W1b W1) (vec b1) (mat W2) (vec b2) (col W3) d

/-- THE RESULT, f32[10000,128], as one function of the eight arrays it depends on. -/
def out : S10000x128.Idx → EReal := fun i => outAt nodes neigh u2e W1 b1 W2 b2 W3 (i 0) (i 1)

theorem out_ix2 (n : Fin 10000) (d : Fin 128) :
    out nodes neigh u2e W1 b1 W2 b2 W3 (ix2 n d) = outAt nodes neigh u2e W1 b1 W2 b2 W3 n d := rfl

theorem outAt_eq (n : Fin 10000) (d : Fin 128) :
    outAt nodes neigh u2e W1 b1 W2 b2 W3 n d =
      ∑ k : Fin 32, E neigh u2e n k d * att nodes neigh u2e W1 b1 W2 b2 W3 n k := rfl

end Whole

/-! ## The block form: 80 nodes at a time -/

section Block

variable (e : S2560x128.Idx → EReal) (u : S80x128.Idx → EReal)
  (w1a w1b : S128x128.Idx → EReal) (b1 : S1x128.Idx → EReal)
  (w2 : S128x128.Idx → EReal) (b2 w3 : S1x128.Idx → EReal)

/-- Neighbour k of the block's node a is row 32 a + k of the block of gathered neighbour rows. -/
def blkE (a : Fin 80) (k : Fin 32) (d : Fin 128) : EReal :=
  e (ix2 (⟨32 * a.val + k.val, by omega⟩ : Fin 2560) d)

/-- The block's node a's own row. -/
def blkU (a : Fin 80) (d : Fin 128) : EReal := u (ix2 a d)

/-- A one-row array by its column coordinate. -/
def row1 (b : S1x128.Idx → EReal) (j : Fin 128) : EReal := b (ix2 (0 : Fin 1) j)

/-- The block's result at node a, feature d. -/
def attnBlockAt (a : Fin 80) (d : Fin 128) : EReal :=
  nodeOut (blkE e a) (blkU u a) (mat w1a) (mat w1b) (row1 b1) (mat w2) (row1 b2) (row1 w3) d

/-- THE BLOCK'S RESULT, f32[80,128], by the same formulas, as one function of the block's eight operands. -/
def attnBlock : S80x128.Idx → EReal := fun i => attnBlockAt e u w1a w1b b1 w2 b2 w3 (i 0) (i 1)

theorem attnBlock_ix2 (a : Fin 80) (d : Fin 128) :
    attnBlock e u w1a w1b b1 w2 b2 w3 (ix2 a d) = attnBlockAt e u w1a w1b b1 w2 b2 w3 a d := rfl

end Block

/-! ## The blocks of the whole-array result -/

section Blocks

variable (nodes : S10000.Idx → BitVec 32) (neigh : S10000x32.Idx → BitVec 32)
  (u2e : S50000x128.Idx → EReal) (W1 : S256x128.Idx → EReal) (b1 : S128.Idx → EReal)
  (W2 : S128x128.Idx → EReal) (b2 : S128.Idx → EReal) (W3 : S128x1.Idx → EReal)

/-- Block t of the gathered neighbour rows: row r is neighbour r % 32 of node 80 t + r / 32. -/
def eBlock (t : Fin 125) : S2560x128.Idx → EReal := fun i =>
  E neigh u2e (⟨80 * t.val + (i 0).val / 32, by have := idx2_lt0 i; omega⟩ : Fin 10000)
    (⟨(i 0).val % 32, Nat.mod_lt _ (by norm_num)⟩ : Fin 32) (i 1)

/-- Block t of the gathered own rows: row a is node 80 t + a. -/
def uBlock (t : Fin 125) : S80x128.Idx → EReal := fun i =>
  U nodes u2e (⟨80 * t.val + (i 0).val, by have := idx2_lt0 i; omega⟩ : Fin 10000) (i 1)

/-- The first 128 rows of the first layer's weights, as an array. -/
def w1aArr : S128x128.Idx → EReal := fun i => W1a W1 (i 0) (i 1)

/-- The last 128 rows of the first layer's weights, as an array. -/
def w1bArr : S128x128.Idx → EReal := fun i => W1b W1 (i 0) (i 1)

/-- A rank-1 weight as a one-row array. -/
def rowArr (b : S128.Idx → EReal) : S1x128.Idx → EReal := fun i => b (ix1 (i 1))

/-- The last layer's one column as a one-row array. -/
def colArr (W : S128x1.Idx → EReal) : S1x128.Idx → EReal := fun i => W (ix2 (i 1) (0 : Fin 1))

/-- Node 80 t + a of the whole result is node a of the block form at block t of the gathered rows. -/
theorem out_block (t : Fin 125) (a : Fin 80) (d : Fin 128) :
    out nodes neigh u2e W1 b1 W2 b2 W3 (ix2 (⟨80 * t.val + a.val, by omega⟩ : Fin 10000) d) =
      attnBlock (eBlock neigh u2e t) (uBlock nodes u2e t) (w1aArr W1) (w1bArr W1) (rowArr b1) W2
        (rowArr b2) (colArr W3) (ix2 a d) := by
  rw [out_ix2, attnBlock_ix2]
  unfold outAt attnBlockAt
  have hE : blkE (eBlock neigh u2e t) a = E neigh u2e (⟨80 * t.val + a.val, by omega⟩ : Fin 10000) := by
    funext k d'
    unfold blkE eBlock
    have h1 : (32 * a.val + k.val) / 32 = a.val := by omega
    have h2 : (32 * a.val + k.val) % 32 = k.val := by omega
    congr 1
    · exact Fin.ext (by show 80 * t.val + (32 * a.val + k.val) / 32 = 80 * t.val + a.val; rw [h1])
    · exact Fin.ext h2
  have hU : blkU (uBlock nodes u2e t) a = U nodes u2e (⟨80 * t.val + a.val, by omega⟩ : Fin 10000) := rfl
  rw [hE, hU]
  rfl

end Blocks

/-! ## The gathered rows: every table row the block form reads, as one array -/

section Gathered

variable (nodes : S10000.Idx → BitVec 32) (neigh : S10000x32.Idx → BitVec 32)
  (u2e : S50000x128.Idx → EReal)

/-- The flat list of the 330240 index words: the 320000 neighbour words in row-major order, then the 10000
    node words, then 240 zero words. -/
def cat (r : Fin 330240) : BitVec 32 :=
  if h : r.val < 320000 then
    neigh (ix2 (⟨r.val / 32, by omega⟩ : Fin 10000) (⟨r.val % 32, Nat.mod_lt _ (by norm_num)⟩ : Fin 32))
  else if h' : r.val < 330000 then nodes (ix1 (⟨r.val - 320000, by omega⟩ : Fin 10000))
  else 0#32

theorem cat_of_lt (r : Fin 330240) (h : r.val < 320000) :
    cat nodes neigh r =
      neigh (ix2 (⟨r.val / 32, by omega⟩ : Fin 10000) (⟨r.val % 32, Nat.mod_lt _ (by norm_num)⟩ : Fin 32)) :=
  dif_pos h

theorem cat_of_mid (r : Fin 330240) (h1 : 320000 ≤ r.val) (h2 : r.val < 330000) :
    cat nodes neigh r = nodes (ix1 (⟨r.val - 320000, by omega⟩ : Fin 10000)) := by
  unfold cat
  rw [dif_neg (by omega), dif_pos h2]

theorem cat_of_ge (r : Fin 330240) (h : 330000 ≤ r.val) : cat nodes neigh r = 0#32 := by
  unfold cat
  rw [dif_neg (by omega), dif_neg (by omega)]

/-- The gathered array, f32[330240,128]: row r is the table row that word r of the flat list names. -/
def gath : S330240x128.Idx → EReal := fun i => u2e (ix2 (row (cat nodes neigh (i 0))) (i 1))

theorem gath_ix2 (r : Fin 330240) (d : Fin 128) :
    gath nodes neigh u2e (ix2 r d) = u2e (ix2 (row (cat nodes neigh r)) d) := rfl

/-- Block t of the gathered neighbour rows is rows 2560 t … 2560 t + 2559 of the gathered array. -/
theorem eBlock_eq_gath (t : Fin 125) (r : Fin 2560) (d : Fin 128) :
    eBlock neigh u2e t (ix2 r d) =
      gath nodes neigh u2e (ix2 (⟨2560 * t.val + r.val, by omega⟩ : Fin 330240) d) := by
  have hlt : 2560 * t.val + r.val < 320000 := by omega
  have h1 : (⟨80 * t.val + r.val / 32, by omega⟩ : Fin 10000) = ⟨(2560 * t.val + r.val) / 32, by omega⟩ :=
    Fin.ext (by show 80 * t.val + r.val / 32 = (2560 * t.val + r.val) / 32; omega)
  have h2 : (⟨r.val % 32, Nat.mod_lt _ (by norm_num)⟩ : Fin 32)
      = ⟨(2560 * t.val + r.val) % 32, Nat.mod_lt _ (by norm_num)⟩ :=
    Fin.ext (by show r.val % 32 = (2560 * t.val + r.val) % 32; omega)
  rw [gath_ix2, cat_of_lt nodes neigh _ hlt]
  show E neigh u2e ⟨80 * t.val + r.val / 32, _⟩ ⟨r.val % 32, _⟩ d = _
  unfold E
  rw [h1, h2]

/-- Block t of the gathered own rows is rows 320000 + 80 t … 320000 + 80 t + 79 of the gathered array. -/
theorem uBlock_eq_gath (t : Fin 125) (a : Fin 80) (d : Fin 128) :
    uBlock nodes u2e t (ix2 a d) =
      gath nodes neigh u2e (ix2 (⟨320000 + 80 * t.val + a.val, by omega⟩ : Fin 330240) d) := by
  have h1 : 320000 ≤ 320000 + 80 * t.val + a.val := by omega
  have h2 : 320000 + 80 * t.val + a.val < 330000 := by omega
  have h3 : (⟨80 * t.val + a.val, by omega⟩ : Fin 10000) = ⟨320000 + 80 * t.val + a.val - 320000, by omega⟩ :=
    Fin.ext (by show 80 * t.val + a.val = 320000 + 80 * t.val + a.val - 320000; omega)
  rw [gath_ix2, cat_of_mid nodes neigh _ h1 h2]
  show U nodes u2e ⟨80 * t.val + a.val, _⟩ d = _
  unfold U
  rw [h3]

end Gathered

end Cert.Spec

end
-- ==== Proof.PreFacts.lean ====
/-
  The precondition of this certificate, read back into plain facts about the argument arrays.

  The precondition is one boolean: the conjunction, over the nine arguments, of "every entry passes a test".
  For the seven float arrays (the embedding table, the three weight matrices and the three bias vectors) the
  test is |x| < +∞; for the two index arrays (the node ids and the neighbour ids) it is 0 ≤ w ∧ w ≤ 49999, read
  as signed 32-bit words. Each "every entry" is a reduction by `and` from the constant 1 down to a single
  boolean, so the boolean being 1 gives the test at every index.

  * `elems`: the nine elementwise tests, for any reading of floats.
  * `ranges`: an index word is nonnegative as a signed word and, as a natural number, below 50000 — the number
    of rows of the table it indexes. Holds for any reading of floats: the integer tests do not mention them.
  * `finite`: with floats read as extended reals, |x| = max x (−x) < +∞ excludes both infinities, so every
    float entry is a real number.
  * the last section restates both about the argument buffers of a launch memory, for each of the three programs.
-/
import proofs.«215990_g90829968376431_cont_sun_c4_571_51_alg».proof.Defs
import Idealize.ShloMosaic.Lib.ReduceAll
import Idealize.ShloMosaic.Lib.ValueIdx
import Idealize.ShloMosaic.PureOps.Ideal.Laws

noncomputable section

namespace Cert.PreFacts

open Idealize.ShloMosaic Idealize.SL.Sem
open Cert.Pre_input_domain (S10000 S10000x32 S50000x128 S256x128 S128 S128x128 S128x1 S1 S_)

variable [hD : Cert.Pre_input_domain.Facts]

/-- The shape with no axes has exactly one index. -/
instance : Subsingleton S_.Idx := ⟨fun _ _ => funext fun d => d.elim0⟩

/-! ## One entry -/

/-- A 32-bit word between 0 and 49999 as a signed integer is below 50000 as a natural number. -/
theorem toNat_lt_of_sle (w : BitVec 32) (h0 : 0 ≤ w.toInt) (h1 : w.toInt ≤ 49999) : w.toNat < 50000 := by
  rw [BitVec.toInt_eq_toNat_cond] at h0 h1
  split at h0 <;> omega

/-- The integer test at one word: 0 ≤ w and w ≤ 49999, both signed. -/
theorem word_range (w : BitVec 32)
    (e : IntOp.andi (IntOp.cmpi .sge w 0#32) (IntOp.cmpi .sle w 49999#32) = 1#1) :
    0 ≤ w.toInt ∧ w.toNat < 50000 := by
  rw [IntOp.andi_eq_one, IntOp.cmpi_sge, IntOp.cmpi_sle] at e
  have z : (0#32 : BitVec 32).toInt = 0 := by decide
  have t : (49999#32 : BitVec 32).toInt = 49999 := by decide
  rw [z] at e; rw [t] at e
  exact ⟨e.1, toNat_lt_of_sle w e.1 e.2⟩

/-- The float test at one extended real: max x (−x) < +∞ leaves only the real numbers. The bit pattern
    0x7F800000 (sign 0, exponent all ones, fraction 0) denotes +∞. -/
theorem real_of_abs_lt (x : EReal)
    (e : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at e
  induction x using EReal.rec with
  | bot => simp [Ideal.cmp] at e
  | coe r => exact ⟨r, rfl⟩
  | top => simp [Ideal.cmp] at e

/-! ## The nine tests, entry by entry -/

section Generic
variable {F : FTy → Type} [FloatOps F]
variable (a0 : IVec S10000 32) (a1 : IVec S10000x32 32) (a2 : FVec F S50000x128 .f32) (a3 : FVec F S256x128 .f32)
  (a4 : FVec F S128 .f32) (a5 : FVec F S128x128 .f32) (a6 : FVec F S128 .f32) (a7 : FVec F S128x1 .f32)
  (a8 : FVec F S1 .f32)

/-- The precondition, entry by entry: each float entry's absolute value compares below the pattern of +∞, and each
    index word passes both signed comparisons. -/
theorem elems (h : Cert.Pre_input_domain.fn (F := F) a0 a1 a2 a3 a4 a5 a6 a7 a8 = (fun _ => 1#1)) :
    (∀ i, FloatOps.cmpf .olt (FloatOps.hostAbsf (a2 i)) (FloatOps.ofBits (F := F) .f32 0x7F800000#32) = 1#1)
    ∧ (∀ i, FloatOps.cmpf .olt (FloatOps.hostAbsf (a3 i)) (FloatOps.ofBits (F := F) .f32 0x7F800000#32) = 1#1)
    ∧ (∀ i, FloatOps.cmpf .olt (FloatOps.hostAbsf (a4 i)) (FloatOps.ofBits (F := F) .f32 0x7F800000#32) = 1#1)
    ∧ (∀ i, FloatOps.cmpf .olt (FloatOps.hostAbsf (a5 i)) (FloatOps.ofBits (F := F) .f32 0x7F800000#32) = 1#1)
    ∧ (∀ i, FloatOps.cmpf .olt (FloatOps.hostAbsf (a6 i)) (FloatOps.ofBits (F := F) .f32 0x7F800000#32) = 1#1)
    ∧ (∀ i, FloatOps.cmpf .olt (FloatOps.hostAbsf (a7 i)) (FloatOps.ofBits (F := F) .f32 0x7F800000#32) = 1#1)
    ∧ (∀ i, FloatOps.cmpf .olt (FloatOps.hostAbsf (a8 i)) (FloatOps.ofBits (F := F) .f32 0x7F800000#32) = 1#1)
    ∧ (∀ i, IntOp.andi (IntOp.cmpi .sge (a0 i) 0#32) (IntOp.cmpi .sle (a0 i) 49999#32) = 1#1)
    ∧ (∀ i, IntOp.andi (IntOp.cmpi .sge (a1 i) 0#32) (IntOp.cmpi .sle (a1 i) 49999#32) = 1#1) := by
  have e := congrFun h ValueIdx.ix0
  dsimp only [Cert.Pre_input_domain.fn, Cert.Pre_input_domain.fn_part1, Cert.Pre_input_domain.fn_part2] at e
  simp only [andi, IntOp.andi_eq_one] at e
  obtain ⟨⟨⟨⟨⟨⟨⟨⟨h2, h3⟩, h4⟩, h5⟩, h6⟩, h7⟩, h8⟩, h0⟩, h1⟩ := e
  exact ⟨fun i => Host.reduce_andi_all _ _ _ _ _ h2 i, fun i => Host.reduce_andi_all _ _ _ _ _ h3 i,
    fun i => Host.reduce_andi_all _ _ _ _ _ h4 i, fun i => Host.reduce_andi_all _ _ _ _ _ h5 i,
    fun i => Host.reduce_andi_all _ _ _ _ _ h6 i, fun i => Host.reduce_andi_all _ _ _ _ _ h7 i,
    fun i => Host.reduce_andi_all _ _ _ _ _ h8 i, fun i => Host.reduce_andi_all _ _ _ _ _ h0 i,
    fun i => Host.reduce_andi_all _ _ _ _ _ h1 i⟩

/-- Both index arrays hold row numbers of the 50000-row table: nonnegative as signed words, below 50000 as
    natural numbers. -/
theorem ranges (h : Cert.Pre_input_domain.fn (F := F) a0 a1 a2 a3 a4 a5 a6 a7 a8 = (fun _ => 1#1)) :
    (∀ i, 0 ≤ (a0 i).toInt ∧ (a0 i).toNat < 50000) ∧ (∀ i, 0 ≤ (a1 i).toInt ∧ (a1 i).toNat < 50000) := by
  obtain ⟨-, -, -, -, -, -, -, h0, h1⟩ := elems a0 a1 a2 a3 a4 a5 a6 a7 a8 h
  exact ⟨fun i => word_range _ (h0 i), fun i => word_range _ (h1 i)⟩

end Generic

/-- With floats read as extended reals, every entry of every float argument is a real number. -/
theorem finite (a0 : IVec S10000 32) (a1 : IVec S10000x32 32) (a2 : FVec Ideal S50000x128 .f32)
    (a3 : FVec Ideal S256x128 .f32) (a4 : FVec Ideal S128 .f32) (a5 : FVec Ideal S128x128 .f32)
    (a6 : FVec Ideal S128 .f32) (a7 : FVec Ideal S128x1 .f32) (a8 : FVec Ideal S1 .f32)
    (h : Cert.Pre_input_domain.fn (F := Ideal) a0 a1 a2 a3 a4 a5 a6 a7 a8 = (fun _ => 1#1)) :
    (∀ i, ∃ x : ℝ, a2 i = (x : EReal)) ∧ (∀ i, ∃ x : ℝ, a3 i = (x : EReal)) ∧ (∀ i, ∃ x : ℝ, a4 i = (x : EReal))
    ∧ (∀ i, ∃ x : ℝ, a5 i = (x : EReal)) ∧ (∀ i, ∃ x : ℝ, a6 i = (x : EReal)) ∧ (∀ i, ∃ x : ℝ, a7 i = (x : EReal))
    ∧ (∀ i, ∃ x : ℝ, a8 i = (x : EReal)) := by
  obtain ⟨h2, h3, h4, h5, h6, h7, h8, -, -⟩ := elems a0 a1 a2 a3 a4 a5 a6 a7 a8 h
  exact ⟨fun i => real_of_abs_lt _ (h2 i), fun i => real_of_abs_lt _ (h3 i), fun i => real_of_abs_lt _ (h4 i),
    fun i => real_of_abs_lt _ (h5 i), fun i => real_of_abs_lt _ (h6 i), fun i => real_of_abs_lt _ (h7 i),
    fun i => real_of_abs_lt _ (h8 i)⟩

/-! ## The same, about a launch memory's argument buffers -/

theorem kernelIdeal_ranges (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, 0 ≤ (m ((c.tc : Thread Cert.KernelIdeal.nD Cert.KernelIdeal.τ).loc Cert.KernelIdeal.main_arg0) i).toInt ∧ (m ((c.tc : Thread Cert.KernelIdeal.nD Cert.KernelIdeal.τ).loc Cert.KernelIdeal.main_arg0) i).toNat < 50000)
      ∧ (∀ i, 0 ≤ (m ((c.tc : Thread Cert.KernelIdeal.nD Cert.KernelIdeal.τ).loc Cert.KernelIdeal.main_arg1) i).toInt ∧ (m ((c.tc : Thread Cert.KernelIdeal.nD Cert.KernelIdeal.τ).loc Cert.KernelIdeal.main_arg1) i).toNat < 50000) :=
  ranges _ _ _ _ _ _ _ _ _ (h c)

theorem kernelIdeal_finite (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg2) i = (x : EReal))
      ∧ (∀ i, ∃ x : ℝ, m ((c.tc : Thread Cert.KernelIdeal.nD Cert.KernelIdeal.τ).loc Cert.KernelIdeal.main_arg3) i = (x : EReal))
      ∧ (∀ i, ∃ x : ℝ, m ((c.tc : Thread Cert.KernelIdeal.nD Cert.KernelIdeal.τ).loc Cert.KernelIdeal.main_arg4) i = (x : EReal))
      ∧ (∀ i, ∃ x : ℝ, m ((c.tc : Thread Cert.KernelIdeal.nD Cert.KernelIdeal.τ).loc Cert.KernelIdeal.main_arg5) i = (x : EReal))
      ∧ (∀ i, ∃ x : ℝ, m ((c.tc : Thread Cert.KernelIdeal.nD Cert.KernelIdeal.τ).loc Cert.KernelIdeal.main_arg6) i = (x : EReal))
      ∧ (∀ i, ∃ x : ℝ, m ((c.tc : Thread Cert.KernelIdeal.nD Cert.KernelIdeal.τ).loc Cert.KernelIdeal.main_arg7) i = (x : EReal))
      ∧ (∀ i, ∃ x : ℝ, m ((c.tc : Thread Cert.KernelIdeal.nD Cert.KernelIdeal.τ).loc Cert.KernelIdeal.main_arg8) i = (x : EReal)) :=
  finite _ _ _ _ _ _ _ _ _ (h c)

theorem kernel_ranges (m : (ℓ : Loc Cert.Kernel.nD Cert.Kernel.τ Cert.Kernel.sig) → Buf (Elt Bits) ℓ)
    (h : Cert.Pre_Kernel m) (c : Dev Cert.Kernel.nD) :
    (∀ i, 0 ≤ (m ((c.tc : Thread Cert.Kernel.nD Cert.Kernel.τ).loc Cert.Kernel.main_arg0) i).toInt ∧ (m ((c.tc : Thread Cert.Kernel.nD Cert.Kernel.τ).loc Cert.Kernel.main_arg0) i).toNat < 50000)
      ∧ (∀ i, 0 ≤ (m ((c.tc : Thread Cert.Kernel.nD Cert.Kernel.τ).loc Cert.Kernel.main_arg1) i).toInt ∧ (m ((c.tc : Thread Cert.Kernel.nD Cert.Kernel.τ).loc Cert.Kernel.main_arg1) i).toNat < 50000) :=
  ranges _ _ _ _ _ _ _ _ _ (h c)

theorem referenceIdeal_ranges (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i, 0 ≤ (m ((c.tc : Thread Cert.ReferenceIdeal.nD Cert.ReferenceIdeal.τ).loc Cert.ReferenceIdeal.main_arg0) i).toInt ∧ (m ((c.tc : Thread Cert.ReferenceIdeal.nD Cert.ReferenceIdeal.τ).loc Cert.ReferenceIdeal.main_arg0) i).toNat < 50000)
      ∧ (∀ i, 0 ≤ (m ((c.tc : Thread Cert.ReferenceIdeal.nD Cert.ReferenceIdeal.τ).loc Cert.ReferenceIdeal.main_arg1) i).toInt ∧ (m ((c.tc : Thread Cert.ReferenceIdeal.nD Cert.ReferenceIdeal.τ).loc Cert.ReferenceIdeal.main_arg1) i).toNat < 50000) :=
  ranges _ _ _ _ _ _ _ _ _ (h c)

theorem referenceIdeal_finite (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i, ∃ x : ℝ, m ((c.tc : Thread Cert.ReferenceIdeal.nD Cert.ReferenceIdeal.τ).loc Cert.ReferenceIdeal.main_arg2) i = (x : EReal))
      ∧ (∀ i, ∃ x : ℝ, m ((c.tc : Thread Cert.ReferenceIdeal.nD Cert.ReferenceIdeal.τ).loc Cert.ReferenceIdeal.main_arg3) i = (x : EReal))
      ∧ (∀ i, ∃ x : ℝ, m ((c.tc : Thread Cert.ReferenceIdeal.nD Cert.ReferenceIdeal.τ).loc Cert.ReferenceIdeal.main_arg4) i = (x : EReal))
      ∧ (∀ i, ∃ x : ℝ, m ((c.tc : Thread Cert.ReferenceIdeal.nD Cert.ReferenceIdeal.τ).loc Cert.ReferenceIdeal.main_arg5) i = (x : EReal))
      ∧ (∀ i, ∃ x : ℝ, m ((c.tc : Thread Cert.ReferenceIdeal.nD Cert.ReferenceIdeal.τ).loc Cert.ReferenceIdeal.main_arg6) i = (x : EReal))
      ∧ (∀ i, ∃ x : ℝ, m ((c.tc : Thread Cert.ReferenceIdeal.nD Cert.ReferenceIdeal.τ).loc Cert.ReferenceIdeal.main_arg7) i = (x : EReal))
      ∧ (∀ i, ∃ x : ℝ, m ((c.tc : Thread Cert.ReferenceIdeal.nD Cert.ReferenceIdeal.τ).loc Cert.ReferenceIdeal.main_arg8) i = (x : EReal)) :=
  finite _ _ _ _ _ _ _ _ _ (h c)

end Cert.PreFacts

end
-- ==== Proof.KiHostVals.lean ====
/-
  The host operations that prepare the kernel's operands, read at an index.

  Before the two kernels run, the program slices the first layer's 256 x 128 weight matrix into its upper and lower
  128 x 128 halves and narrows them (and the second layer's matrix) to a 16-bit format; lays the two bias vectors and
  the last layer's one column out as one-row arrays; flattens the 10000 x 32 neighbour ids to a list of 320000 words;
  and appends 240 zero words to the 10000 node ids. All of this is data movement: every entry of a result is one
  entry of an argument (or the constant 0), and with floats read as extended reals the change of format is the
  identity.

  * at extended reals, each float result is the specification's corresponding array (whole-array equalities);
  * the flattened neighbour list at position r is neighbour r % 32 of node r / 32; the padded node list at position
    r is node r below 10000 and the zero word from there on;
  * the two lists, the neighbour list first, are the specification's flat list of 330240 index words;
  * when the node and neighbour ids are row numbers of the 50000-row table, so is every word of both lists
    (the padding word 0 is row 0).
-/
import proofs.«215990_g90829968376431_cont_sun_c4_571_51_alg».proof.KernelIdeal
import proofs.«215990_g90829968376431_cont_sun_c4_571_51_alg».proof.Proof.Spec
import proofs.«215990_g90829968376431_cont_sun_c4_571_51_alg».proof.Proof.PreFacts
import Idealize.ShloMosaic.Lib.Pipeline.Value
import Idealize.ShloMosaic.Lib.ValueIdx

noncomputable section

namespace Cert.KernelIdeal.HostVals

open Idealize.ShloMosaic Idealize.ShloMosaic.ValueIdx

variable [hK : Cert.KernelIdeal.Facts]

/-! ## The float operands, at extended reals -/

/-- The upper half of the first layer's weights, narrowed: entry (p, q) is entry (p, q) of the matrix. -/
theorem v1_eq (a3 : FVec Ideal S256x128 .f32) :
    (truncf .bf16 (extractStridedSlice S128x128 ![0, 0] a3 Facts₀.slices_S256x128_S128x128_0_0) Facts₀.bitsLt_bf16_f32 : FVec Ideal S128x128 .bf16) = Cert.Spec.w1aArr a3 := by
  funext i
  obtain ⟨p, q, rfl⟩ : ∃ (p : Fin 128) (q : Fin 128), i = ix2 p q := ⟨i 0, i 1, eq_ix2 i⟩
  refine (extractStridedSlice_apply ![0, 0] a3 Facts₀.slices_S256x128_S128x128_0_0 (ix2 p q)
    (ix2 (⟨p.val, by omega⟩ : Fin 256) q) ?_).trans rfl
  intro a
  match a with
  | ⟨0, _⟩ => show p.val = 0 + p.val; omega
  | ⟨1, _⟩ => show q.val = 0 + q.val; omega

/-- The lower half of the first layer's weights, narrowed: entry (p, q) is entry (128 + p, q) of the matrix. -/
theorem v3_eq (a3 : FVec Ideal S256x128 .f32) :
    (truncf .bf16 (extractStridedSlice S128x128 ![128, 0] a3 Facts₀.slices_S256x128_S128x128_128_0) Facts₀.bitsLt_bf16_f32 : FVec Ideal S128x128 .bf16) = Cert.Spec.w1bArr a3 := by
  funext i
  obtain ⟨p, q, rfl⟩ : ∃ (p : Fin 128) (q : Fin 128), i = ix2 p q := ⟨i 0, i 1, eq_ix2 i⟩
  refine (extractStridedSlice_apply ![128, 0] a3 Facts₀.slices_S256x128_S128x128_128_0 (ix2 p q)
    (ix2 (⟨128 + p.val, by omega⟩ : Fin 256) q) ?_).trans rfl
  intro a
  match a with
  | ⟨0, _⟩ => show 128 + p.val = 128 + p.val; rfl
  | ⟨1, _⟩ => show q.val = 0 + q.val; omega

/-- The second layer's weights, narrowed: unchanged. -/
theorem v4_eq (a5 : FVec Ideal S128x128 .f32) :
    (truncf .bf16 a5 Facts₀.bitsLt_bf16_f32 : FVec Ideal S128x128 .bf16) = (a5 : S128x128.Idx → EReal) := rfl

/-- A 128-vector laid out as one row: entry (0, q) is entry q. -/
theorem v5_eq (a4 : FVec Ideal S128 .f32) :
    (shapeCast S1x128 a4 Facts₀.shapeCasts_S128_S1x128 : FVec Ideal S1x128 .f32) = Cert.Spec.rowArr a4 := by
  funext i
  obtain ⟨p, q, rfl⟩ : ∃ (p : Fin 1) (q : Fin 128), i = ix2 p q := ⟨i 0, i 1, eq_ix2 i⟩
  refine (shapeCast_apply a4 Facts₀.shapeCasts_S128_S1x128 (ix2 p q) (ix1 q) ?_).trans rfl
  rw [Shape.rowMajor_val_one, Shape.rowMajor_val_two]
  show q.val = p.val * 128 + q.val
  have := p.isLt
  omega

/-- The second bias vector laid out as one row: the same statement at another argument. -/
theorem v6_eq (a6 : FVec Ideal S128 .f32) :
    (shapeCast S1x128 a6 Facts₀.shapeCasts_S128_S1x128 : FVec Ideal S1x128 .f32) = Cert.Spec.rowArr a6 := v5_eq a6

/-- A 128 x 1 column laid out as one row: entry (0, q) is entry (q, 0). -/
theorem v7_eq (a7 : FVec Ideal S128x1 .f32) :
    (shapeCast S1x128 a7 Facts₀.shapeCasts_S128x1_S1x128 : FVec Ideal S1x128 .f32) = Cert.Spec.colArr a7 := by
  funext i
  obtain ⟨p, q, rfl⟩ : ∃ (p : Fin 1) (q : Fin 128), i = ix2 p q := ⟨i 0, i 1, eq_ix2 i⟩
  refine (shapeCast_apply a7 Facts₀.shapeCasts_S128x1_S1x128 (ix2 p q) (ix2 q (0 : Fin 1)) ?_).trans rfl
  rw [Shape.rowMajor_val_two, Shape.rowMajor_val_two]
  show q.val * 1 + 0 = p.val * 128 + q.val
  have := p.isLt
  omega

/-! ## The two index lists -/

/-- The flattened neighbour ids at position r: neighbour r % 32 of node r / 32. -/
theorem v10_apply (a1 : IVec S10000x32 32) (r : Fin 320000) :
    (shapeCast S320000 a1 Facts₀.shapeCasts_S10000x32_S320000) (ix1 r) =
      a1 (ix2 (⟨r.val / 32, by omega⟩ : Fin 10000) (⟨r.val % 32, Nat.mod_lt _ (by norm_num)⟩ : Fin 32)) := by
  refine shapeCast_apply a1 Facts₀.shapeCasts_S10000x32_S320000 (ix1 r) _ ?_
  rw [Shape.rowMajor_val_one, Shape.rowMajor_val_two]
  show r.val / 32 * 32 + r.val % 32 = r.val
  omega

/-- The padding: 240 zero words. -/
theorem v8_apply (i : S240.Idx) : (broadcastInDim S240 ![] Facts₀.bcast_S_S240 (constantI S_ 32 0#32)) i = 0#32 := rfl

/-- The padded node ids below position 10000: the node ids. -/
theorem v9_apply_lt (a0 : IVec S10000 32) (r : Fin 10240) (h : r.val < 10000) :
    (concatenate S10240 0 [⟨S10000, a0⟩, ⟨S240, (broadcastInDim S240 ![] Facts₀.bcast_S_S240 (constantI S_ 32 0#32))⟩] Facts₀.concatenates_S10000_S240_S10240_d0) (ix1 r) = a0 (ix1 (⟨r.val, h⟩ : Fin 10000)) := by
  refine concatenate_pair_apply_left (0 : Fin S10240.rank) a0 (broadcastInDim S240 ![] Facts₀.bcast_S_S240 (constantI S_ 32 0#32))
    Facts₀.concatenates_S10000_S240_S10240_d0 (ix1 r) rfl (ix1 (⟨r.val, h⟩ : Fin 10000)) ?_
  intro b
  match b with
  | ⟨0, _⟩ => rfl

/-- The padded node ids from position 10000 on: the zero word. -/
theorem v9_apply_ge (a0 : IVec S10000 32) (r : Fin 10240) (h : 10000 ≤ r.val) :
    (concatenate S10240 0 [⟨S10000, a0⟩, ⟨S240, (broadcastInDim S240 ![] Facts₀.bcast_S_S240 (constantI S_ 32 0#32))⟩] Facts₀.concatenates_S10000_S240_S10240_d0) (ix1 r) = 0#32 := by
  refine (concatenate_pair_apply_right (0 : Fin S10240.rank) a0 (broadcastInDim S240 ![] Facts₀.bcast_S_S240 (constantI S_ 32 0#32))
    Facts₀.concatenates_S10000_S240_S10240_d0 (ix1 r) rfl rfl (ix1 (⟨r.val - 10000, by omega⟩ : Fin 240)) ?_ ?_).trans rfl
  · intro b hb
    match b with
    | ⟨0, _⟩ => exact absurd rfl hb
  · show r.val - 10000 + 10000 = r.val
    omega

/-! ## The two lists are the specification's flat list -/

/-- Positions below 320000 of the flat list: the flattened neighbour ids. -/
theorem cat_eq_v10 (a0 : IVec S10000 32) (a1 : IVec S10000x32 32) (r : Fin 330240) (h : r.val < 320000) :
    Cert.Spec.cat a0 a1 r = (shapeCast S320000 a1 Facts₀.shapeCasts_S10000x32_S320000) (ix1 (⟨r.val, h⟩ : Fin 320000)) := by
  rw [Cert.Spec.cat_of_lt a0 a1 r h, v10_apply]

/-- Positions from 320000 on: the padded node ids. -/
theorem cat_eq_v9 (a0 : IVec S10000 32) (a1 : IVec S10000x32 32) (r : Fin 330240) (h : 320000 ≤ r.val) :
    Cert.Spec.cat a0 a1 r = (concatenate S10240 0 [⟨S10000, a0⟩, ⟨S240, (broadcastInDim S240 ![] Facts₀.bcast_S_S240 (constantI S_ 32 0#32))⟩] Facts₀.concatenates_S10000_S240_S10240_d0) (ix1 (⟨r.val - 320000, by omega⟩ : Fin 10240)) := by
  by_cases h2 : r.val < 330000
  · rw [Cert.Spec.cat_of_mid a0 a1 r h h2, v9_apply_lt a0 _ (by show r.val - 320000 < 10000; omega)]
  · rw [Cert.Spec.cat_of_ge a0 a1 r (by omega), v9_apply_ge a0 _ (by show 10000 ≤ r.val - 320000; omega)]

/-! ## Every word of both lists names a row of the table -/

theorem v10_lt (a1 : IVec S10000x32 32) (h1 : ∀ i, 0 ≤ (a1 i).toInt ∧ (a1 i).toNat < 50000) (i : S320000.Idx) :
    ((shapeCast S320000 a1 Facts₀.shapeCasts_S10000x32_S320000) i).toNat < 50000 := by
  obtain ⟨r, rfl⟩ : ∃ r : Fin 320000, i = ix1 r := ⟨i 0, eq_ix1 i⟩
  rw [v10_apply]
  exact (h1 _).2

theorem v9_lt (a0 : IVec S10000 32) (h0 : ∀ i, 0 ≤ (a0 i).toInt ∧ (a0 i).toNat < 50000) (i : S10240.Idx) :
    ((concatenate S10240 0 [⟨S10000, a0⟩, ⟨S240, (broadcastInDim S240 ![] Facts₀.bcast_S_S240 (constantI S_ 32 0#32))⟩] Facts₀.concatenates_S10000_S240_S10240_d0) i).toNat < 50000 := by
  obtain ⟨r, rfl⟩ : ∃ r : Fin 10240, i = ix1 r := ⟨i 0, eq_ix1 i⟩
  by_cases h : r.val < 10000
  · rw [v9_apply_lt a0 r h]
    exact (h0 _).2
  · rw [v9_apply_ge a0 r (by omega)]
    decide

end Cert.KernelIdeal.HostVals

end
-- ==== Proof.KiValue.lean ====
/-
  The kernel's result is the specification's.

  The program's result is assembled in two steps. The vector subcores leave a gathered array: row r is the table row
  named by word r of the concatenation of the flattened neighbour ids and the padded node ids. The dense stage then
  computes, for each of 125 blocks of 80 nodes, one block function of rows [2560 t, 2560 t + 2560) (the 32 neighbour
  rows of each of the block's nodes) and rows [320000 + 80 t, 320000 + 80 t + 80) (the nodes' own rows) of the
  gathered array and of the prepared weights.

  * the concatenation of the two prepared lists is the specification's flat list of index words, so the gathered
    array is the specification's gathered array;
  * its two families of row blocks are the specification's neighbour blocks and own-row blocks;
  * given that the block function is the specification's attention block, row 80 t + a of the result is row a of
    that block at block t, which is row 80 t + a of the specification's result; every row is of this form with
    t = r / 80 and a = r % 80.
-/
import proofs.«215990_g90829968376431_cont_sun_c4_571_51_alg».proof.Proof.ScTileDefs
import proofs.«215990_g90829968376431_cont_sun_c4_571_51_alg».proof.Proof.KiHostVals
import proofs.«215990_g90829968376431_cont_sun_c4_571_51_alg».proof.Proof.TcBody

noncomputable section

namespace Cert.KernelIdeal.KValue

open Idealize.ShloMosaic Idealize.ShloMosaic.ValueIdx

variable [hK : Cert.KernelIdeal.Facts]

/-! ## The gathered array -/

/-- Word r of the concatenation of the two prepared index lists is word r of the specification's flat list. -/
theorem cat_eq (a0 : IVec S10000 32) (a1 : IVec S10000x32 32) (r : Fin 330240) :
    ScTile.cat (F := Ideal) (shapeCast S320000 a1 Facts₀.shapeCasts_S10000x32_S320000) (concatenate S10240 0 [⟨S10000, a0⟩, ⟨S240, (broadcastInDim S240 ![] Facts₀.bcast_S_S240 (constantI S_ 32 0#32))⟩] Facts₀.concatenates_S10000_S240_S10240_d0) r.val = Cert.Spec.cat a0 a1 r := by
  by_cases h : r.val < 320000
  · rw [HostVals.cat_eq_v10 a0 a1 r h]
    exact dif_pos h
  · have h' : 320000 ≤ r.val := by omega
    have hlt : r.val < 330240 := r.isLt
    rw [HostVals.cat_eq_v9 a0 a1 r h']
    unfold ScTile.cat
    rw [dif_neg h]
    refine congrArg (fun k : Fin 10240 => (concatenate S10240 0 [⟨S10000, a0⟩, ⟨S240, (broadcastInDim S240 ![] Facts₀.bcast_S_S240 (constantI S_ 32 0#32))⟩] Facts₀.concatenates_S10000_S240_S10240_d0) (ix1 k)) (Fin.ext ?_)
    exact Nat.mod_eq_of_lt (by omega)

/-- The gathered array the subcores leave is the specification's. -/
theorem gathered_eq (a0 : IVec S10000 32) (a1 : IVec S10000x32 32) (a2 : FVec Ideal S50000x128 .f32) :
    ScTile.gathered (F := Ideal) a2 (shapeCast S320000 a1 Facts₀.shapeCasts_S10000x32_S320000) (concatenate S10240 0 [⟨S10000, a0⟩, ⟨S240, (broadcastInDim S240 ![] Facts₀.bcast_S_S240 (constantI S_ 32 0#32))⟩] Facts₀.concatenates_S10000_S240_S10240_d0) = Cert.Spec.gath a0 a1 a2 := by
  funext i
  show a2 (ix2 (ScTile.rowOfWord (ScTile.cat (F := Ideal) _ _ (i 0).val)) (i 1)) = a2 (ix2 (Cert.Spec.row (Cert.Spec.cat a0 a1 (i 0))) (i 1))
  rw [cat_eq a0 a1 (i 0)]
  rfl

/-! ## Its row blocks -/

/-- Rows [2560 t, 2560 t + 2560) of the gathered array are block t of the neighbour rows. -/
theorem eBlk_gath (a0 : IVec S10000 32) (a1 : IVec S10000x32 32) (a2 : FVec Ideal S50000x128 .f32) (t : Fin 125) :
    TcBody.eBlk (F := Ideal) (Cert.Spec.gath a0 a1 a2) t = Cert.Spec.eBlock a1 a2 t := by
  funext y
  obtain ⟨r, d, rfl⟩ : ∃ (r : Fin 2560) (d : Fin 128), y = ix2 r d := ⟨y 0, y 1, eq_ix2 y⟩
  exact (Cert.Spec.eBlock_eq_gath a0 a1 a2 t r d).symm

/-- Rows [320000 + 80 t, 320000 + 80 t + 80) of the gathered array are block t of the nodes' own rows. -/
theorem uBlk_gath (a0 : IVec S10000 32) (a1 : IVec S10000x32 32) (a2 : FVec Ideal S50000x128 .f32) (t : Fin 125) :
    TcBody.uBlk (F := Ideal) (Cert.Spec.gath a0 a1 a2) t = Cert.Spec.uBlock a0 a2 t := by
  funext y
  obtain ⟨a, d, rfl⟩ : ∃ (a : Fin 80) (d : Fin 128), y = ix2 a d := ⟨y 0, y 1, eq_ix2 y⟩
  exact (Cert.Spec.uBlock_eq_gath a0 a1 a2 t a d).symm

/-! ## The assembly -/

section Assembly

variable (htc : ∀ (e : Vec Ideal S2560x128 .f32) (u : Vec Ideal S80x128 .f32) (w1a w1b : Vec Ideal S128x128 .bf16)
    (b1 : Vec Ideal S1x128 .f32) (w2 : Vec Ideal S128x128 .bf16) (b2 w3 : Vec Ideal S1x128 .f32),
    TcBody.tcPay (F := Ideal) e u w1a w1b b1 w2 b2 w3 = Cert.Spec.attnBlock e u w1a w1b b1 w2 b2 w3)
  (a0 : IVec S10000 32) (a1 : IVec S10000x32 32) (a2 : FVec Ideal S50000x128 .f32) (a3 : FVec Ideal S256x128 .f32)
  (a4 : FVec Ideal S128 .f32) (a5 : FVec Ideal S128x128 .f32) (a6 : FVec Ideal S128 .f32) (a7 : FVec Ideal S128x1 .f32)

include htc in
/-- Row 80 t + a of the kernel's result is row 80 t + a of the specification's. -/
theorem kernel_value_row (t : Fin 125) (a : Fin 80) (d : Fin 128) :
    TcBody.tcOut (F := Ideal) (ScTile.gathered (F := Ideal) a2 (shapeCast S320000 a1 Facts₀.shapeCasts_S10000x32_S320000) (concatenate S10240 0 [⟨S10000, a0⟩, ⟨S240, (broadcastInDim S240 ![] Facts₀.bcast_S_S240 (constantI S_ 32 0#32))⟩] Facts₀.concatenates_S10000_S240_S10240_d0))
        (truncf .bf16 (extractStridedSlice S128x128 ![0, 0] a3 Facts₀.slices_S256x128_S128x128_0_0) Facts₀.bitsLt_bf16_f32 : FVec Ideal S128x128 .bf16) (truncf .bf16 (extractStridedSlice S128x128 ![128, 0] a3 Facts₀.slices_S256x128_S128x128_128_0) Facts₀.bitsLt_bf16_f32 : FVec Ideal S128x128 .bf16) (shapeCast S1x128 a4 Facts₀.shapeCasts_S128_S1x128 : FVec Ideal S1x128 .f32) (truncf .bf16 a5 Facts₀.bitsLt_bf16_f32 : FVec Ideal S128x128 .bf16) (shapeCast S1x128 a6 Facts₀.shapeCasts_S128_S1x128 : FVec Ideal S1x128 .f32) (shapeCast S1x128 a7 Facts₀.shapeCasts_S128x1_S1x128 : FVec Ideal S1x128 .f32)
        (ix2 (⟨80 * t.val + a.val, by omega⟩ : Fin 10000) d)
      = Cert.Spec.out a0 a1 a2 a3 a4 a5 a6 a7 (ix2 (⟨80 * t.val + a.val, by omega⟩ : Fin 10000) d) := by
  rw [TcBody.tcOut_ix2, htc, Cert.Spec.out_block a0 a1 a2 a3 a4 a5 a6 a7 t a d, gathered_eq a0 a1 a2,
    eBlk_gath a0 a1 a2 t, uBlk_gath a0 a1 a2 t, HostVals.v1_eq a3, HostVals.v3_eq a3, HostVals.v4_eq a5,
    HostVals.v5_eq a4, HostVals.v5_eq a6, HostVals.v7_eq a7]

include htc in
/-- THE KERNEL'S RESULT, as one function of the eight arrays it depends on, is the specification's. -/
theorem kernel_value :
    TcBody.tcOut (F := Ideal) (ScTile.gathered (F := Ideal) a2 (shapeCast S320000 a1 Facts₀.shapeCasts_S10000x32_S320000) (concatenate S10240 0 [⟨S10000, a0⟩, ⟨S240, (broadcastInDim S240 ![] Facts₀.bcast_S_S240 (constantI S_ 32 0#32))⟩] Facts₀.concatenates_S10000_S240_S10240_d0))
        (truncf .bf16 (extractStridedSlice S128x128 ![0, 0] a3 Facts₀.slices_S256x128_S128x128_0_0) Facts₀.bitsLt_bf16_f32 : FVec Ideal S128x128 .bf16) (truncf .bf16 (extractStridedSlice S128x128 ![128, 0] a3 Facts₀.slices_S256x128_S128x128_128_0) Facts₀.bitsLt_bf16_f32 : FVec Ideal S128x128 .bf16) (shapeCast S1x128 a4 Facts₀.shapeCasts_S128_S1x128 : FVec Ideal S1x128 .f32) (truncf .bf16 a5 Facts₀.bitsLt_bf16_f32 : FVec Ideal S128x128 .bf16) (shapeCast S1x128 a6 Facts₀.shapeCasts_S128_S1x128 : FVec Ideal S1x128 .f32) (shapeCast S1x128 a7 Facts₀.shapeCasts_S128x1_S1x128 : FVec Ideal S1x128 .f32)
      = Cert.Spec.out a0 a1 a2 a3 a4 a5 a6 a7 := by
  funext i
  obtain ⟨n, d, rfl⟩ : ∃ (n : Fin 10000) (d : Fin 128), i = ix2 n d := ⟨i 0, i 1, eq_ix2 i⟩
  have hn : n = (⟨80 * (⟨n.val / 80, by omega⟩ : Fin 125).val + (⟨n.val % 80, Nat.mod_lt _ (by norm_num)⟩ : Fin 80).val,
      by show 80 * (n.val / 80) + n.val % 80 < 10000; omega⟩ : Fin 10000) :=
    Fin.ext (by show n.val = 80 * (n.val / 80) + n.val % 80; omega)
  rw [hn]
  exact kernel_value_row htc a0 a1 a2 a3 a4 a5 a6 a7 _ _ d

end Assembly

end Cert.KernelIdeal.KValue

end
-- ==== Proof.KiOut.lean ====
/-
  The kernel's result as one function of the launch memory, and the two facts the launch needs about it.

  After the host operations that prepare the operands, the vector subcores gather table rows into one array and the
  dense stage turns that array and the prepared weights into the result. `kOut` is that composite, stated over what the
  arrays hold after the host operations. `IdxOK` says every word of the two prepared index lists names a row of the
  50000-row table, which is what lets every indexed copy complete.

  * the prepared one-row arrays and the flattened neighbour list are reshapes of the corresponding arguments;
  * when the node and neighbour ids are row numbers of the table, so is every word of the two prepared lists
    (for any reading of floats);
  * with floats read as extended reals, and given that the dense stage's block function is the specification's
    attention block, `kOut` is the specification's result at the eight argument arrays.
-/
import proofs.«215990_g90829968376431_cont_sun_c4_571_51_alg».proof.Proof.KiPay
import proofs.«215990_g90829968376431_cont_sun_c4_571_51_alg».proof.Proof.TcBody
import proofs.«215990_g90829968376431_cont_sun_c4_571_51_alg».proof.Proof.KiHostVals
import proofs.«215990_g90829968376431_cont_sun_c4_571_51_alg».proof.Proof.KiValue
import proofs.«215990_g90829968376431_cont_sun_c4_571_51_alg».proof.Proof.PreFacts

noncomputable section

namespace Cert.KernelIdeal.Launch

open Cert.KernelIdeal Cert.KernelIdeal.Gen Cert.KernelIdeal.ScTile

open Idealize.ShloMosaic
open Idealize.ShloMosaic.SparseCore (S V T)
open Idealize.SL.Sem
open Idealize.ShloMosaic.Tactic

variable {F : FTy → Type} (m : (ℓ : Loc nD τ sig) → Buf (Elt F) ℓ) [FloatOps F]

/-! ## The result, and the range condition on the prepared index lists -/

def kOut (d : Dev nD) : Vec F S10000x128 .f32 := TcBody.tcOut (F := F) (gathered (tabOf m d) (nfOf m d) (npOf m d)) (V12 m d (Proc.devRef .tc main_v1)) (V12 m d (Proc.devRef .tc main_v3)) (V12 m d (Proc.devRef .tc main_v5)) (V12 m d (Proc.devRef .tc main_v4)) (V12 m d (Proc.devRef .tc main_v6)) (V12 m d (Proc.devRef .tc main_v7))

def IdxOK : Prop := ∀ d : Dev nD, (∀ i, (nfOf m d i).toNat < 50000) ∧ (∀ i, (npOf m d i).toNat < 50000)

/-! ## The remaining arrays after the host operations -/

theorem V12_v5 (d : Dev nD) :
    V12 m d (Proc.devRef .tc main_v5) = shapeCast S1x128 (m ((SparseCore.T d).loc main_arg4)) Facts₀.shapeCasts_S128_S1x128 := by
  unfold V12; after_results; rfl
theorem V12_v6 (d : Dev nD) :
    V12 m d (Proc.devRef .tc main_v6) = shapeCast S1x128 (m ((SparseCore.T d).loc main_arg6)) Facts₀.shapeCasts_S128_S1x128 := by
  unfold V12; after_results; rfl
theorem V12_v7 (d : Dev nD) :
    V12 m d (Proc.devRef .tc main_v7) = shapeCast S1x128 (m ((SparseCore.T d).loc main_arg7)) Facts₀.shapeCasts_S128x1_S1x128 := by
  unfold V12; after_results; rfl
theorem V12_v10 (d : Dev nD) :
    V12 m d (Proc.devRef .tc main_v10) = shapeCast S320000 (m ((SparseCore.T d).loc main_arg1)) Facts₀.shapeCasts_S10000x32_S320000 := by
  unfold V12; after_results; rfl

/-! ## Every word of the prepared lists names a table row -/

theorem idxOK
    (h : ∀ d : Dev nD,
      (∀ i, 0 ≤ (m ((SparseCore.T d).loc main_arg0) i).toInt ∧ (m ((SparseCore.T d).loc main_arg0) i).toNat < 50000)
      ∧ (∀ i, 0 ≤ (m ((SparseCore.T d).loc main_arg1) i).toInt ∧ (m ((SparseCore.T d).loc main_arg1) i).toNat < 50000)) :
    IdxOK m := by
  intro d
  refine ⟨fun i => ?_, fun i => ?_⟩
  · show (V12 m d (Proc.devRef .tc main_v10) i).toNat < 50000
    rw [V12_v10]
    exact HostVals.v10_lt _ (h d).2 i
  · show (V12 m d (Proc.devRef .tc main_v9) i).toNat < 50000
    rw [V12_v9]
    unfold hv9
    exact HostVals.v9_lt _ (h d).1 i

/-! ## The result is the specification's -/

theorem kOut_eq_spec
    (htc : ∀ (e : Vec Ideal S2560x128 .f32) (u : Vec Ideal S80x128 .f32) (w1a w1b : Vec Ideal S128x128 .bf16)
      (b1 : Vec Ideal S1x128 .f32) (w2 : Vec Ideal S128x128 .bf16) (b2 w3 : Vec Ideal S1x128 .f32),
      TcBody.tcPay (F := Ideal) e u w1a w1b b1 w2 b2 w3 = Cert.Spec.attnBlock e u w1a w1b b1 w2 b2 w3)
    (m : (ℓ : Loc nD τ sig) → Buf (Elt Ideal) ℓ) (d : Dev nD) :
    kOut (F := Ideal) m d
      = Cert.Spec.out (m ((SparseCore.T d).loc main_arg0)) (m ((SparseCore.T d).loc main_arg1)) (m ((SparseCore.T d).loc main_arg2)) (m ((SparseCore.T d).loc main_arg3))
          (m ((SparseCore.T d).loc main_arg4)) (m ((SparseCore.T d).loc main_arg5)) (m ((SparseCore.T d).loc main_arg6)) (m ((SparseCore.T d).loc main_arg7)) := by
  unfold kOut nfOf npOf tabOf
  rw [V12_v1, V12_v3, V12_v4, V12_v5, V12_v6, V12_v7, V12_v10, V12_v9]
  unfold hv1 hv3 hv4 hv9
  exact KValue.kernel_value htc _ _ _ _ _ _ _ _

end Cert.KernelIdeal.Launch

end
-- ==== Proof.KiLaunch.lean ====
/-
  The launch of the program: what the handshakes carry between the TensorCore, the sequencers and the 32 gather tasks;
  @main on the TensorCore (twelve host operations, the gather call, the attention region); the launch element; and the
  program's run, with the result named and the nine arguments unchanged. The gather task's body and the attention
  region enter as their statements (`TileBodySpec`, `RegionSpec`).
-/
import proofs.«215990_g90829968376431_cont_sun_c4_571_51_alg».proof.Proof.KiOut

noncomputable section

namespace Cert.KernelIdeal.Launch

open Cert.KernelIdeal Cert.KernelIdeal.Gen Cert.KernelIdeal.ScTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## @main's arrays, one by one -/

abbrev L23 : List (DevRef τ sig) := [Proc.devRef .tc main_arg0, Proc.devRef .tc main_arg1, Proc.devRef .tc main_arg2, Proc.devRef .tc main_arg3, Proc.devRef .tc main_arg4, Proc.devRef .tc main_arg5, Proc.devRef .tc main_arg6, Proc.devRef .tc main_arg7, Proc.devRef .tc main_arg8, Proc.devRef .tc main_v0, Proc.devRef .tc main_v1, Proc.devRef .tc main_v2, Proc.devRef .tc main_v3, Proc.devRef .tc main_v4, Proc.devRef .tc main_v5, Proc.devRef .tc main_v6, Proc.devRef .tc main_v7, Proc.devRef .tc main_c, Proc.devRef .tc main_v8, Proc.devRef .tc main_v9, Proc.devRef .tc main_v10, Proc.devRef .tc main_v11, Proc.devRef .tc main_v12]

omit [FloatOps F] in
theorem S23_eq : (S23 : Finset (DevRef τ sig)) = L23.toFinset := by decide

omit [FloatOps F] in
theorem held_chain (d : Dev nD) (W : Valuation τ sig (Elt F)) :
    (held (T d) S23 W : sProp 𝕄) = iprop((((SparseCore.T d).loc main_arg0) ↦{fullShare} W (Proc.devRef .tc main_arg0)) ∗ (((SparseCore.T d).loc main_arg1) ↦{fullShare} W (Proc.devRef .tc main_arg1)) ∗ (((SparseCore.T d).loc main_arg2) ↦{fullShare} W (Proc.devRef .tc main_arg2)) ∗ (((SparseCore.T d).loc main_arg3) ↦{fullShare} W (Proc.devRef .tc main_arg3)) ∗ (((SparseCore.T d).loc main_arg4) ↦{fullShare} W (Proc.devRef .tc main_arg4)) ∗ (((SparseCore.T d).loc main_arg5) ↦{fullShare} W (Proc.devRef .tc main_arg5)) ∗ (((SparseCore.T d).loc main_arg6) ↦{fullShare} W (Proc.devRef .tc main_arg6)) ∗ (((SparseCore.T d).loc main_arg7) ↦{fullShare} W (Proc.devRef .tc main_arg7)) ∗ (((SparseCore.T d).loc main_arg8) ↦{fullShare} W (Proc.devRef .tc main_arg8)) ∗ (((SparseCore.T d).loc main_v0) ↦{fullShare} W (Proc.devRef .tc main_v0)) ∗ (((SparseCore.T d).loc main_v1) ↦{fullShare} W (Proc.devRef .tc main_v1)) ∗ (((SparseCore.T d).loc main_v2) ↦{fullShare} W (Proc.devRef .tc main_v2)) ∗ (((SparseCore.T d).loc main_v3) ↦{fullShare} W (Proc.devRef .tc main_v3)) ∗ (((SparseCore.T d).loc main_v4) ↦{fullShare} W (Proc.devRef .tc main_v4)) ∗ (((SparseCore.T d).loc main_v5) ↦{fullShare} W (Proc.devRef .tc main_v5)) ∗ (((SparseCore.T d).loc main_v6) ↦{fullShare} W (Proc.devRef .tc main_v6)) ∗ (((SparseCore.T d).loc main_v7) ↦{fullShare} W (Proc.devRef .tc main_v7)) ∗ (((SparseCore.T d).loc main_c) ↦{fullShare} W (Proc.devRef .tc main_c)) ∗ (((SparseCore.T d).loc main_v8) ↦{fullShare} W (Proc.devRef .tc main_v8)) ∗ (((SparseCore.T d).loc main_v9) ↦{fullShare} W (Proc.devRef .tc main_v9)) ∗ (((SparseCore.T d).loc main_v10) ↦{fullShare} W (Proc.devRef .tc main_v10)) ∗ (((SparseCore.T d).loc main_v11) ↦{fullShare} W (Proc.devRef .tc main_v11)) ∗ (((SparseCore.T d).loc main_v12) ↦{fullShare} W (Proc.devRef .tc main_v12))) :=
  bigSep_eq_bigSepL_of_eq L23 S23_eq (by decide) _

theorem st0_eq (d : Dev nD) :
    (bigSep Finset.univ fun c : Fin ((K (F := F)).nCore 0) => (P m).st 0 d c)
      = bigSep (Finset.univ : Finset (Fin 2)) fun c => bigSep (Finset.univ : Finset (Fin 16)) fun i =>
          taskAt d (tabOf m d) (nfOf m d) (npOf m d) (o0Of m d) (wid (coordsV c i)) := rfl
theorem dn0_eq (d : Dev nD) :
    (bigSep Finset.univ fun c : Fin ((K (F := F)).nCore 0) => (P m).dn 0 d c)
      = bigSep (Finset.univ : Finset (Fin 2)) fun c => bigSep (Finset.univ : Finset (Fin 16)) fun i =>
          taskAt d (tabOf m d) (nfOf m d) (npOf m d) (gathered (tabOf m d) (nfOf m d) (npOf m d)) (wid (coordsV c i)) := rfl

/-! ## The two bodies' statements, as the launch uses them -/

/-- One gather task, at a symbolic grid point: from its tokens and rows to the rows gathered. -/
def TileBodySpec : Prop :=
  ∀ (d : Dev nD) (L : grid0.Coords) (qT qN qP : PosShare TreeShare)
    (tab : Buf (Elt F) (tLoc d)) (nf : Buf (Elt F) (nLoc d)) (np : Buf (Elt F) (pLoc d)) (o0 : Buf (Elt F) (oLoc d))
    (_ : ∀ i, (nf i).toNat < 50000) (_ : ∀ i, (np i).toNat < 50000)
    (O : CellTallies nD τ sig (HIx 1)) (W : Waits sig (HIx 1)) (_ : ∀ g, O g none = 0),
    (iprop(levAts (K (F := F)).L (K (F := F)).lev ∗ emp ∗ tileGo d L qT qN qP tab nf np o0
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L (Memref.whole main_arg2_scv) (Memref.isWhole_whole _) (Memref.whole main_v10_scv) (Memref.isWhole_whole _) (Memref.whole main_v9_scv) (Memref.isWhole_whole _) (Memref.whole main_v11_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scoped0 cc0_scoped1 cc0_scoped2)
          fun _ => iprop(tileTd d L qT qN qP tab nf np ∗ scopedBufs (V d (cV L) (jV L)) ∗ scopedSems0 (V d (cV L) (jV L))
            ∗ ∃ W', ⌜∀ p ∈ W', p ∈ W ∨ p.2 = none⌝ ∗ owes (V d (cV L) (jV L)) O W')

/-- The attention region entered from @main on the TensorCore: from its seven operands, the result's array, the region
    boundary and the staging cells' ghost state `RG d`, to the operands unchanged and the result at the blockwise value. -/
def RegionSpec (RG : Dev nD → sProp 𝕄) : Prop :=
  ∀ (d : Dev nD) (O : CellTallies nD τ sig (HIx 1)) (W : Waits sig (HIx 1))
    (_ : ∀ sm : SemLoc sig, (levAts (K (F := F)).L (K (F := F)).lev : sProp 𝕄) ⊢ MayWait (SparseCore.T d) sm none O)
    (g : Vec F S330240x128 .f32) (w1a w1b : Vec F S128x128 .bf16) (b1 : Vec F S1x128 .f32) (w2 : Vec F S128x128 .bf16) (b2 w3 : Vec F S1x128 .f32)
    (Q : PUnit → sProp 𝕄),
    (iprop(boundary (SparseCore.T d) ∗ (((SparseCore.T d).loc main_v11) ↦{fullShare} g) ∗ (((SparseCore.T d).loc main_v1) ↦{fullShare} w1a) ∗ (((SparseCore.T d).loc main_v3) ↦{fullShare} w1b) ∗ (((SparseCore.T d).loc main_v5) ↦{fullShare} b1) ∗ (((SparseCore.T d).loc main_v4) ↦{fullShare} w2) ∗ (((SparseCore.T d).loc main_v6) ↦{fullShare} b2) ∗ (((SparseCore.T d).loc main_v7) ↦{fullShare} w3)
        ∗ (∃ o, ((SparseCore.T d).loc main_v12) ↦{fullShare} o)
        ∗ owes (SparseCore.T d) O W ∗ levAts (K (F := F)).L (K (F := F)).lev ∗ RG d
        ∗ (iprop(boundary (SparseCore.T d) ∗ (((SparseCore.T d).loc main_v11) ↦{fullShare} g) ∗ (((SparseCore.T d).loc main_v1) ↦{fullShare} w1a) ∗ (((SparseCore.T d).loc main_v3) ↦{fullShare} w1b) ∗ (((SparseCore.T d).loc main_v5) ↦{fullShare} b1) ∗ (((SparseCore.T d).loc main_v4) ↦{fullShare} w2) ∗ (((SparseCore.T d).loc main_v6) ↦{fullShare} b2) ∗ (((SparseCore.T d).loc main_v7) ↦{fullShare} w3)
              ∗ (((SparseCore.T d).loc main_v12) ↦{fullShare} TcBody.tcOut (F := F) g w1a w1b b1 w2 b2 w3)
              ∗ ∃ W', ⌜∀ p ∈ W', p ∈ W ∨ p.2 = none⌝ ∗ owes (SparseCore.T d) O W')
            -∗ wp frame (wpE ((K (F := F)).defs (D (F := F))) 𝒱 (SparseCore.T d) none) Set.univ (.ret ⟨⟩) Q)) : sProp 𝕄)
      ⊢ wp frame (wpE ((K (F := F)).defs (D (F := F))) 𝒱 (SparseCore.T d) none) Set.univ
          (.op (.customCall (SparseCore.inner (Pipeline.entry 0)) ()) fun _ => .ret ⟨⟩) Q

/-! ## What @main leaves the claim -/

/-- The result and the nine arguments, whole, at the kernel's value and the launch contents. -/
abbrev FIN (d : Dev nD) : sProp 𝕄 := iprop((((SparseCore.T d).loc main_v12) ↦{fullShare} kOut m d) ∗ (((SparseCore.T d).loc main_arg0) ↦{fullShare} m ((SparseCore.T d).loc main_arg0)) ∗ (((SparseCore.T d).loc main_arg1) ↦{fullShare} m ((SparseCore.T d).loc main_arg1)) ∗ (((SparseCore.T d).loc main_arg2) ↦{fullShare} m ((SparseCore.T d).loc main_arg2)) ∗ (((SparseCore.T d).loc main_arg3) ↦{fullShare} m ((SparseCore.T d).loc main_arg3)) ∗ (((SparseCore.T d).loc main_arg4) ↦{fullShare} m ((SparseCore.T d).loc main_arg4)) ∗ (((SparseCore.T d).loc main_arg5) ↦{fullShare} m ((SparseCore.T d).loc main_arg5)) ∗ (((SparseCore.T d).loc main_arg6) ↦{fullShare} m ((SparseCore.T d).loc main_arg6)) ∗ (((SparseCore.T d).loc main_arg7) ↦{fullShare} m ((SparseCore.T d).loc main_arg7)) ∗ (((SparseCore.T d).loc main_arg8) ↦{fullShare} m ((SparseCore.T d).loc main_arg8)))

def fq (d : Dev nD) (s' : Phys nD τ sig (Elt F)) : Prop := s'.mem.mem ((SparseCore.T d).loc main_v12) = kOut m d ∧ s'.mem.mem ((SparseCore.T d).loc main_arg0) = m ((SparseCore.T d).loc main_arg0) ∧ s'.mem.mem ((SparseCore.T d).loc main_arg1) = m ((SparseCore.T d).loc main_arg1) ∧ s'.mem.mem ((SparseCore.T d).loc main_arg2) = m ((SparseCore.T d).loc main_arg2) ∧ s'.mem.mem ((SparseCore.T d).loc main_arg3) = m ((SparseCore.T d).loc main_arg3) ∧ s'.mem.mem ((SparseCore.T d).loc main_arg4) = m ((SparseCore.T d).loc main_arg4) ∧ s'.mem.mem ((SparseCore.T d).loc main_arg5) = m ((SparseCore.T d).loc main_arg5) ∧ s'.mem.mem ((SparseCore.T d).loc main_arg6) = m ((SparseCore.T d).loc main_arg6) ∧ s'.mem.mem ((SparseCore.T d).loc main_arg7) = m ((SparseCore.T d).loc main_arg7) ∧ s'.mem.mem ((SparseCore.T d).loc main_arg8) = m ((SparseCore.T d).loc main_arg8)

theorem hfin (d : Dev nD) (s' : Phys nD τ sig (Elt F)) : iprop(FIN m d ∗ SI s') ⊢ (⌜fq m d s'⌝ : sProp 𝕄) := by
  iintro ⟨⟨H0, H1, H2, H3, H4, H5, H6, H7, H8, H9⟩, HSI⟩
  ihave H := (persistent_entails_right (SI_pointsTo_agree (st := s') (ℓ := (SparseCore.T d).loc main_v12) (I := Finset.univ) (q := fullShare) (f := kOut m d))) $$ [HSI H0]
  · isplitl [HSI] <;> iassumption
  icases H with ⟨%h0, HSI, -⟩
  ihave H := (persistent_entails_right (SI_pointsTo_agree (st := s') (ℓ := (SparseCore.T d).loc main_arg0) (I := Finset.univ) (q := fullShare) (f := m ((SparseCore.T d).loc main_arg0)))) $$ [HSI H1]
  · isplitl [HSI] <;> iassumption
  icases H with ⟨%h1, HSI, -⟩
  ihave H := (persistent_entails_right (SI_pointsTo_agree (st := s') (ℓ := (SparseCore.T d).loc main_arg1) (I := Finset.univ) (q := fullShare) (f := m ((SparseCore.T d).loc main_arg1)))) $$ [HSI H2]
  · isplitl [HSI] <;> iassumption
  icases H with ⟨%h2, HSI, -⟩
  ihave H := (persistent_entails_right (SI_pointsTo_agree (st := s') (ℓ := (SparseCore.T d).loc main_arg2) (I := Finset.univ) (q := fullShare) (f := m ((SparseCore.T d).loc main_arg2)))) $$ [HSI H3]
  · isplitl [HSI] <;> iassumption
  icases H with ⟨%h3, HSI, -⟩
  ihave H := (persistent_entails_right (SI_pointsTo_agree (st := s') (ℓ := (SparseCore.T d).loc main_arg3) (I := Finset.univ) (q := fullShare) (f := m ((SparseCore.T d).loc main_arg3)))) $$ [HSI H4]
  · isplitl [HSI] <;> iassumption
  icases H with ⟨%h4, HSI, -⟩
  ihave H := (persistent_entails_right (SI_pointsTo_agree (st := s') (ℓ := (SparseCore.T d).loc main_arg4) (I := Finset.univ) (q := fullShare) (f := m ((SparseCore.T d).loc main_arg4)))) $$ [HSI H5]
  · isplitl [HSI] <;> iassumption
  icases H with ⟨%h5, HSI, -⟩
  ihave H := (persistent_entails_right (SI_pointsTo_agree (st := s') (ℓ := (SparseCore.T d).loc main_arg5) (I := Finset.univ) (q := fullShare) (f := m ((SparseCore.T d).loc main_arg5)))) $$ [HSI H6]
  · isplitl [HSI] <;> iassumption
  icases H with ⟨%h6, HSI, -⟩
  ihave H := (persistent_entails_right (SI_pointsTo_agree (st := s') (ℓ := (SparseCore.T d).loc main_arg6) (I := Finset.univ) (q := fullShare) (f := m ((SparseCore.T d).loc main_arg6)))) $$ [HSI H7]
  · isplitl [HSI] <;> iassumption
  icases H with ⟨%h7, HSI, -⟩
  ihave H := (persistent_entails_right (SI_pointsTo_agree (st := s') (ℓ := (SparseCore.T d).loc main_arg7) (I := Finset.univ) (q := fullShare) (f := m ((SparseCore.T d).loc main_arg7)))) $$ [HSI H8]
  · isplitl [HSI] <;> iassumption
  icases H with ⟨%h8, HSI, -⟩
  ihave H := (SI_pointsTo_agree (st := s') (ℓ := (SparseCore.T d).loc main_arg8) (I := Finset.univ) (q := fullShare) (f := m ((SparseCore.T d).loc main_arg8))) $$ [HSI H9]
  · isplitl [HSI] <;> iassumption
  icases H with %h9
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i), funext fun i => h8 i (Finset.mem_univ i), funext fun i => h9 i (Finset.mem_univ i)⟩

def QC : PUnit × MemSt nD τ sig (Elt F) → Prop := fun r => ∀ c : Dev nD, r.2.mem ((SparseCore.T c).loc main_v12) = kOut m c ∧ r.2.mem ((SparseCore.T c).loc main_arg0) = m ((SparseCore.T c).loc main_arg0) ∧ r.2.mem ((SparseCore.T c).loc main_arg1) = m ((SparseCore.T c).loc main_arg1) ∧ r.2.mem ((SparseCore.T c).loc main_arg2) = m ((SparseCore.T c).loc main_arg2) ∧ r.2.mem ((SparseCore.T c).loc main_arg3) = m ((SparseCore.T c).loc main_arg3) ∧ r.2.mem ((SparseCore.T c).loc main_arg4) = m ((SparseCore.T c).loc main_arg4) ∧ r.2.mem ((SparseCore.T c).loc main_arg5) = m ((SparseCore.T c).loc main_arg5) ∧ r.2.mem ((SparseCore.T c).loc main_arg6) = m ((SparseCore.T c).loc main_arg6) ∧ r.2.mem ((SparseCore.T c).loc main_arg7) = m ((SparseCore.T c).loc main_arg7) ∧ r.2.mem ((SparseCore.T c).loc main_arg8) = m ((SparseCore.T c).loc main_arg8)

/-! ## @main on the TensorCore -/

theorem Otc1_none (d : Dev nD) : ∀ g, ((K (F := F)).Otc d 1) g none = 0 := by
  intro g; rw [(K (F := F)).Otc_end d le_rfl]; rfl

theorem hmain (RG : Dev nD → sProp 𝕄) (hreg : RegionSpec (F := F) RG) (κ : GSem nD τ sig → ℕ) (d : Dev nD) :
    iprop((K (F := F)).ctx EH (P m) κ ∗ (K (F := F)).tcSt EH d 0 ∗ (K (F := F)).tcRes m ρ d ∗ RG d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  iapply (wp_hlo_within 𝒱 (SparseCore.T d) none Set.univ (op := op0) (S := S23) (sub2 main_arg3 main_v0 (by decide) (by decide)) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S23) (sub2 main_v0 main_v1 (by decide) (by decide)) (V := StableHlo.after [op0] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2) (S := S23) (sub2 main_arg3 main_v2 (by decide) (by decide)) (V := StableHlo.after [op0, op1] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S23) (sub2 main_v2 main_v3 (by decide) (by decide)) (V := StableHlo.after [op0, op1, op2] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op4) (S := S23) (sub2 main_arg5 main_v4 (by decide) (by decide)) (V := StableHlo.after [op0, op1, op2, op3] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op5) (S := S23) (sub2 main_arg4 main_v5 (by decide) (by decide)) (V := StableHlo.after [op0, op1, op2, op3, op4] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op6) (S := S23) (sub2 main_arg6 main_v6 (by decide) (by decide)) (V := StableHlo.after [op0, op1, op2, op3, op4, op5] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op7) (S := S23) (sub2 main_arg7 main_v7 (by decide) (by decide)) (V := StableHlo.after [op0, op1, op2, op3, op4, op5, op6] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op8) (S := S23) (sub1 main_c (by decide)) (V := StableHlo.after [op0, op1, op2, op3, op4, op5, op6, op7] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op9) (S := S23) (sub2 main_c main_v8 (by decide) (by decide)) (V := StableHlo.after [op0, op1, op2, op3, op4, op5, op6, op7, op8] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op10) (S := S23) (sub3 main_arg0 main_v8 main_v9 (by decide) (by decide) (by decide)) (V := StableHlo.after [op0, op1, op2, op3, op4, op5, op6, op7, op8, op9] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op11) (S := S23) (sub2 main_arg1 main_v10 (by decide) (by decide)) (V := StableHlo.after [op0, op1, op2, op3, op4, op5, op6, op7, op8, op9, op10] (V0 m d))) $$ [Hb Hheld]
  · isplitl [Hb]; · iexact Hb
    iexact Hheld
  iintro ⟨Hb, Hheld⟩
  rw [wp_ret]; imodintro
  ihave Hheld' := (Entails.of_eq (show (held (T d) S23 (op11.result (StableHlo.after [op0, op1, op2, op3, op4, op5, op6, op7, op8, op9, op10] (V0 m d))) : sProp 𝕄) = held (T d) S23 (V12 m d) from rfl)) $$ Hheld
  ihave Hh := (Entails.of_eq (held_chain (F := F) d (V12 m d))) $$ Hheld'
  icases Hh with ⟨Harg0, Harg1, Harg2, Harg3, Harg4, Harg5, Harg6, Harg7, Harg8, Hv0, Hv1, Hv2, Hv3, Hv4, Hv5, Hv6, Hv7, Hc, Hv8, Hv9, Hv10, Hv11, Hv12⟩
  rw [V12_arg0, V12_arg1, V12_arg2, V12_arg3, V12_arg4, V12_arg5, V12_arg6, V12_arg7, V12_arg8, V12_v11, V12_v12]
  -- the call: the table and the two index lists out as read tokens, the result's rows to their tasks; all back, the rows gathered
  ihave Hdeal := (deal_iff (F := F) d (tabOf m d) (nfOf m d) (npOf m d) (o0Of m d)).1 $$ [Harg2 Hv10 Hv9 Hv11]
  · isplitl [Harg2]; · iexact Harg2
    isplitl [Hv10]; · iexact Hv10
    isplitl [Hv9]; · iexact Hv9
    iexact Hv11
  icases Hdeal with ⟨⟨Ht0, Hn0, Hp0⟩, Htasks⟩
  iapply ((K (F := F)).wp_run (D (F := F)) 𝒱 (EH := EH) (P := P m) κ d 0) $$ [Hst Htasks Hb Ht0 Hn0 Hp0 HG Harg0 Harg1 Harg3 Harg4 Harg5 Harg6 Harg7 Harg8 Hv0 Hv1 Hv2 Hv3 Hv4 Hv5 Hv6 Hv7 Hc Hv8 Hv12]
  isplitr; · iexact Hctx
  isplitl [Hst]; · iexact Hst
  isplitl [Htasks]
  · rw [st0_eq]; iexact Htasks
  iintro ⟨Hst, Hdn⟩
  ihave Hdn' := (Entails.of_eq (dn0_eq m d)) $$ Hdn
  ihave Hback := (deal_iff (F := F) d (tabOf m d) (nfOf m d) (npOf m d) (gathered (tabOf m d) (nfOf m d) (npOf m d))).2 $$ [Ht0 Hn0 Hp0 Hdn']
  · isplitl [Ht0 Hn0 Hp0]
    · isplitl [Ht0]; · iexact Ht0
      isplitl [Hn0]; · iexact Hn0
      iexact Hp0
    iexact Hdn'
  icases Hback with ⟨Harg2, Hv10, Hv9, Hv11⟩
  -- the attention region
  ihave Hlev := ((K (F := F)).ctx_levAts (EH := EH) (P := P m) κ) $$ Hctx
  ihave Hst' := (Entails.of_eq (show (K (F := F)).tcSt EH d ((0 : Fin 1).val + 1) = (K (F := F)).tcSt EH d 1 from rfl)) $$ Hst
  unfold SparseCore.Cfg.tcSt
  icases Hst' with ⟨⟨%W, %hW, HO⟩, Hrest⟩
  iapply (hreg d ((K (F := F)).Otc d 1) W (fun sm => (K (F := F)).mayWait_none sm (Otc1_none d)) _ _ _ _ _ _ _ _) $$ [Hb Hv11 Hv1 Hv3 Hv5 Hv4 Hv6 Hv7 Hv12 HO Hlev HG Hrest Harg0 Harg1 Harg2 Harg3 Harg4 Harg5 Harg6 Harg7 Harg8]
  isplitl [Hb]; · iexact Hb
  isplitl [Hv11]; · iexact Hv11
  isplitl [Hv1]; · iexact Hv1
  isplitl [Hv3]; · iexact Hv3
  isplitl [Hv5]; · iexact Hv5
  isplitl [Hv4]; · iexact Hv4
  isplitl [Hv6]; · iexact Hv6
  isplitl [Hv7]; · iexact Hv7
  isplitl [Hv12]; · iexists _; iexact Hv12
  isplitl [HO]; · iexact HO
  isplitl [Hlev]; · iexact Hlev
  isplitl [HG]; · iexact HG
  iintro ⟨Hb, Hv11, Hv1, Hv3, Hv5, Hv4, Hv6, Hv7, Hv12, %W', %hW', HO⟩
  rw [wp_ret]; imodintro; imodintro
  isplitl [HO Hrest]
  · isplitl [HO]
    · iexists W'; isplitr
      · ipureintro
        intro p hp
        rcases hW' p hp with h | h
        · exact hW p h
        · rw [h]; exact Nat.zero_le _
      · iexact HO
    · iexact Hrest
  isplitl [Hv12]; · iexact Hv12
  isplitl [Harg0]; · iexact Harg0
  isplitl [Harg1]; · iexact Harg1
  isplitl [Harg2]; · iexact Harg2
  isplitl [Harg3]; · iexact Harg3
  isplitl [Harg4]; · iexact Harg4
  isplitl [Harg5]; · iexact Harg5
  isplitl [Harg6]; · iexact Harg6
  isplitl [Harg7]; · iexact Harg7
  iexact Harg8

/-! ## The launch theorem's obligations -/

theorem defs₀_vector (c : Fin τ.nSC) (s : Fin τ.nSub) :
    defs₀ (F := F) (.scVector c s) 0 ()
      = SparseCore.onTile hcore0 hsub0 (fun c s => cc0__sc_gather_body (coordsV c s) (Memref.whole main_arg2_scv) (Memref.isWhole_whole _) (Memref.whole main_v10_scv) (Memref.isWhole_whole _) (Memref.whole main_v9_scv) (Memref.isWhole_whole _) (Memref.whole main_v11_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (htb : TileBodySpec (F := F)) (hidx : IdxOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htb d (coordsV ⟨_, hc.1⟩ ⟨_, hc.2⟩) _ _ _ (tabOf m d) (nfOf m d) (npOf m d) (o0Of m d) (hidx d).1 (hidx d).2 O W hO).trans
    (wp_mono frame _ _ fun _ => obl_post)

/-! ## The launch element -/

def u₀ (g₀ : UR) : UU := (initOf (K (F := F)).hsCells (K (F := F)).hsToks, (g₀, 1))

omit [FloatOps F] in
theorem bigSep_emp' {I : Type} (s : Finset I) : (bigSep s fun _ => iprop(emp)) = (iprop(emp) : sProp 𝕄) := bigSep_emp_const s

theorem hu₀ (g₀ : UR) (RG : Dev nD → sProp 𝕄) (hfund : (BI.own (EP g₀) : sProp 𝕄) ⊢ iprop(|==> bigSep Finset.univ RG)) :
    (ownU (u₀ (F := F) g₀) : sProp 𝕄)
      ⊢ |={Set.univ}=> iprop(BI.own (EH (initOf (K (F := F)).hsCells (K (F := F)).hsToks)) ∗ (bigSep Finset.univ RG)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR (A := UH) (B := UR × Counters) (nD := nD) (τ := τ) (sig := sig) (Ix := HIx 1) (Val := Elt F) (Name := ℕ) (Lvl := ℕ)) g₀ (1 : Counters)) $$ HR
  icases H2 with ⟨HP, -⟩
  ihave HP' := (Entails.of_eq (show (BI.own (((Emb.inl : Emb UR (UR × Counters)).trans (embR (A := UH) (B := UR × Counters) (nD := nD) (τ := τ) (sig := sig) (Ix := HIx 1) (Val := Elt F) (Name := ℕ) (Lvl := ℕ))) g₀) : sProp 𝕄) = BI.own (EP g₀) from rfl)) $$ HP
  imod hfund $$ HP' with HG
  imodintro
  isplitl [HH]; · iexact HH
  isplitl [HG]; · iexact HG
  rw [show (bigSep Finset.univ fun thr : Thread nD τ => bigSep Finset.univ fun q : Fin 1 => (P m).x q thr) = (iprop(emp) : sProp 𝕄) from by
    rw [show (fun thr : Thread nD τ => bigSep Finset.univ fun q : Fin 1 => (P m).x q thr) = fun _ : Thread nD τ => (iprop(emp) : sProp 𝕄) from
      funext fun _ => bigSep_emp' _, bigSep_emp']]
  iempintro

/-! ## The program's run -/

theorem run_main [∀ e, Nonempty (Elt F e)] (htb : TileBodySpec (F := F)) (hidx : IdxOK m)
    (g₀ : UR) (RG : Dev nD → sProp 𝕄) (hfund : (BI.own (EP g₀) : sProp 𝕄) ⊢ iprop(|==> bigSep Finset.univ RG)) (hreg : RegionSpec (F := F) RG) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m htb hidx)
    (fun q _ => match q with | 0 => SparseCore.Cfg.VecSplit.of_plain (vecSplit m))
    m ρ main RG (FIN m) (u₀ (F := F) g₀) (sep_elim_left.trans (hu₀ m g₀ RG hfund)) (hmain m ρ RG hreg) (fq m) (hfin m) (QC m) (fun _ h => h)

end Cert.KernelIdeal.Launch

end
-- ==== Proof.RefTerm.lean ====
/-
  The reference program's @main as ONE pure function of its nine argument arrays.

  Each `let` below is one StableHLO operation of the printed program, in the printed order and with the
  printed pure operation and shape evidence; the three outlined functions (the clamped row lookup at two index
  shapes, and the rectifier) are stated once each as pure functions and applied where @main calls them.
  The mathematics: E = table rows named by the neighbour indices, U = table rows named by the node indices,
  h1 = max(concat(E, U) · W1 + b1, 0), h2 = max(h1 · W2 + b2, 0), logits = h2 · W3 + b3,
  a softmax of the logits over the neighbour axis (maximum subtracted first), and the result
  sum over neighbours of E times the softmax weight.
-/
import proofs.«215990_g90829968376431_cont_sun_c4_571_51_alg».proof.ReferenceIdeal

noncomputable section

namespace Cert.ReferenceIdeal.RefValue

open Cert.ReferenceIdeal Idealize.ShloMosaic Idealize.SL.Sem
open Cert.ReferenceIdeal.Facts₀ Cert.ReferenceIdeal.Facts

variable {F : FTy → Type} [FloatOps F] [Cert.ReferenceIdeal.Facts]

/-- The contents of a buffer of shape `S` and element type `e`, at the float instance in scope. -/
local notation "𝕋[" S ", " e "]" => BufTy.Contents (Elt F) (BufTy.mk S e)

/-- The outlined row lookup at index shape [10000, 32]: a negative index is wrapped by the table's height,
    the row is gathered, and an index outside [0, 49999] after wrapping yields the fill value instead. -/
def take (tbl : 𝕋[S50000x128, .f32]) (idx : 𝕋[S10000x32, .i32]) : 𝕋[S10000x32x128, .f32] :=
  let c : 𝕋[S_, .i32] := constantI S_ 32 0#32
  let v0 : 𝕋[S10000x32, .i32] := broadcastInDim S10000x32 ![] bcast_S_S10000x32 c
  let v1 : 𝕋[S10000x32, .i1] := cmpi .slt idx v0
  let c_0 : 𝕋[S_, .i32] := constantI S_ 32 50000#32
  let v2 : 𝕋[S10000x32, .i32] := broadcastInDim S10000x32 ![] bcast_S_S10000x32 c_0
  let v3 : 𝕋[S10000x32, .i32] := addi idx v2
  let v4 : 𝕋[S10000x32, .i32] := select v1 v3 idx
  let v5 : 𝕋[S10000x32x1, .i32] := broadcastInDim S10000x32x1 ![0, 1] bcast_S10000x32_S10000x32x1_0_1 v4
  let c_1 : 𝕋[S1, .i32] := constantI S1 32 49999#32
  let c_2 : 𝕋[S_, .i32] := constantI S_ 32 0#32
  let v6 : 𝕋[S10000x32x1, .i32] := broadcastInDim S10000x32x1 ![] bcast_S_S10000x32x1 c_2
  let v7 : 𝕋[S10000x32x1, .i1] := cmpi .sge v5 v6
  let v8 : 𝕋[S1x1x1, .i32] := broadcastInDim S1x1x1 ![2] bcast_S1_S1x1x1_2 c_1
  let v9 : 𝕋[S10000x32x1, .i32] := broadcastInDim S10000x32x1 ![0, 1, 2] bcast_S1x1x1_S10000x32x1_0_1_2 v8
  let v10 : 𝕋[S10000x32x1, .i1] := cmpi .sle v5 v9
  let v11 : 𝕋[S10000x32x1, .i1] := andi v7 v10
  let c_3 : 𝕋[S_, .i1] := constantI S_ 1 1#1
  let v12 : 𝕋[S10000x32, .i1] := Host.reduce IntOp.andi v11 c_3 reducesTo_S10000x32x1_S10000x32_d2 h_S_
  let v13 : 𝕋[S10000x32x128, .f32] := Host.gather gather_S50000x128_S10000x32x1_S10000x32x128_2_0_n_n_0_2_1128 tbl v5
  let v14 : 𝕋[S10000x32x128, .i1] := broadcastInDim S10000x32x128 ![0, 1] bcast_S10000x32_S10000x32x128_0_1 v12
  let cst : 𝕋[S_, .f32] := constant S_ .f32 0x7FC00000#32
  let v15 : 𝕋[S10000x32x128, .f32] := broadcastInDim S10000x32x128 ![] bcast_S_S10000x32x128 cst
  select v14 v13 v15

/-- The outlined row lookup at index shape [10000]: as `take`, one index per output row. -/
def take_0 (tbl : 𝕋[S50000x128, .f32]) (idx : 𝕋[S10000, .i32]) : 𝕋[S10000x128, .f32] :=
  let c : 𝕋[S_, .i32] := constantI S_ 32 0#32
  let v0 : 𝕋[S10000, .i32] := broadcastInDim S10000 ![] bcast_S_S10000 c
  let v1 : 𝕋[S10000, .i1] := cmpi .slt idx v0
  let c_0 : 𝕋[S_, .i32] := constantI S_ 32 50000#32
  let v2 : 𝕋[S10000, .i32] := broadcastInDim S10000 ![] bcast_S_S10000 c_0
  let v3 : 𝕋[S10000, .i32] := addi idx v2
  let v4 : 𝕋[S10000, .i32] := select v1 v3 idx
  let v5 : 𝕋[S10000x1, .i32] := broadcastInDim S10000x1 ![0] bcast_S10000_S10000x1_0 v4
  let c_1 : 𝕋[S1, .i32] := constantI S1 32 49999#32
  let c_2 : 𝕋[S_, .i32] := constantI S_ 32 0#32
  let v6 : 𝕋[S10000x1, .i32] := broadcastInDim S10000x1 ![] bcast_S_S10000x1 c_2
  let v7 : 𝕋[S10000x1, .i1] := cmpi .sge v5 v6
  let v8 : 𝕋[S1x1, .i32] := broadcastInDim S1x1 ![1] bcast_S1_S1x1_1 c_1
  let v9 : 𝕋[S10000x1, .i32] := broadcastInDim S10000x1 ![0, 1] bcast_S1x1_S10000x1_0_1 v8
  let v10 : 𝕋[S10000x1, .i1] := cmpi .sle v5 v9
  let v11 : 𝕋[S10000x1, .i1] := andi v7 v10
  let c_3 : 𝕋[S_, .i1] := constantI S_ 1 1#1
  let v12 : 𝕋[S10000, .i1] := Host.reduce IntOp.andi v11 c_3 reducesTo_S10000x1_S10000_d1 h_S_
  let v13 : 𝕋[S10000x128, .f32] := Host.gather gather_S50000x128_S10000x1_S10000x128_1_0_n_n_0_1_1128 tbl v5
  let v14 : 𝕋[S10000x128, .i1] := broadcastInDim S10000x128 ![0] bcast_S10000_S10000x128_0 v12
  let cst : 𝕋[S_, .f32] := constant S_ .f32 0x7FC00000#32
  let v15 : 𝕋[S10000x128, .f32] := broadcastInDim S10000x128 ![] bcast_S_S10000x128 cst
  select v14 v13 v15

/-- The outlined rectifier: the elementwise maximum with a broadcast zero. -/
def relu (x : 𝕋[S10000x32x128, .f32]) : 𝕋[S10000x32x128, .f32] :=
  let cst : 𝕋[S_, .f32] := constant S_ .f32 0x00000000#32
  let v0 : 𝕋[S10000x32x128, .f32] := broadcastInDim S10000x32x128 ![] bcast_S_S10000x32x128 cst
  maximumf x v0

/-- @main's result as a pure function of its nine arguments, one `let` per operation of @main. -/
def term (nodes : 𝕋[S10000, .i32]) (neigh : 𝕋[S10000x32, .i32]) (u2e : 𝕋[S50000x128, .f32])
    (W1 : 𝕋[S256x128, .f32]) (b1 : 𝕋[S128, .f32]) (W2 : 𝕋[S128x128, .f32]) (b2 : 𝕋[S128, .f32])
    (W3 : 𝕋[S128x1, .f32]) (b3 : 𝕋[S1, .f32]) : 𝕋[S10000x128, .f32] :=
  let v0 : 𝕋[S10000x32x128, .f32] := take u2e neigh
  let v1 : 𝕋[S10000x128, .f32] := take_0 u2e nodes
  let v2 : 𝕋[S10000x1x128, .f32] := broadcastInDim S10000x1x128 ![0, 2] bcast_S10000x128_S10000x1x128_0_2 v1
  let v3 : 𝕋[S10000x32x128, .f32] := broadcastInDim S10000x32x128 ![0, 1, 2] bcast_S10000x1x128_S10000x32x128_0_1_2 v2
  let v4 : 𝕋[S10000x32x256, .f32] := concatenate S10000x32x256 2 [⟨S10000x32x128, v0⟩, ⟨S10000x32x128, v3⟩] concatenates_S10000x32x128_S10000x32x128_S10000x32x256_d2
  let v5 : 𝕋[S10000x32x128, .f32] := Host.dotGeneral dot_S10000x32x256_S256x128_S10000x32x128_2_0_01_1_n_n none v4 W1
  let v6 : 𝕋[S1x1x128, .f32] := broadcastInDim S1x1x128 ![2] bcast_S128_S1x1x128_2 b1
  let v7 : 𝕋[S10000x32x128, .f32] := broadcastInDim S10000x32x128 ![0, 1, 2] bcast_S1x1x128_S10000x32x128_0_1_2 v6
  let v8 : 𝕋[S10000x32x128, .f32] := addf v5 v7
  let v9 : 𝕋[S10000x32x128, .f32] := relu v8
  let v10 : 𝕋[S10000x32x128, .f32] := Host.dotGeneral dot_S10000x32x128_S128x128_S10000x32x128_2_0_01_1_n_n none v9 W2
  let v11 : 𝕋[S1x1x128, .f32] := broadcastInDim S1x1x128 ![2] bcast_S128_S1x1x128_2 b2
  let v12 : 𝕋[S10000x32x128, .f32] := broadcastInDim S10000x32x128 ![0, 1, 2] bcast_S1x1x128_S10000x32x128_0_1_2 v11
  let v13 : 𝕋[S10000x32x128, .f32] := addf v10 v12
  let v14 : 𝕋[S10000x32x128, .f32] := relu v13
  let v15 : 𝕋[S10000x32x1, .f32] := Host.dotGeneral dot_S10000x32x128_S128x1_S10000x32x1_2_0_01_1_n_n none v14 W3
  let v16 : 𝕋[S1x1x1, .f32] := broadcastInDim S1x1x1 ![2] bcast_S1_S1x1x1_2 b3
  let v17 : 𝕋[S10000x32x1, .f32] := broadcastInDim S10000x32x1 ![0, 1, 2] bcast_S1x1x1_S10000x32x1_0_1_2 v16
  let v18 : 𝕋[S10000x32x1, .f32] := addf v15 v17
  let cst : 𝕋[S_, .f32] := constant S_ .f32 0xFF800000#32
  let v19 : 𝕋[S10000x1, .f32] := Host.reduce FloatOps.maximumf v18 cst reducesTo_S10000x32x1_S10000x1_d1 h_S_
  let cst_0 : 𝕋[S_, .f32] := constant S_ .f32 0xFF800000#32
  let v20 : 𝕋[S10000x1, .f32] := broadcastInDim S10000x1 ![] bcast_S_S10000x1 cst_0
  let v21 : 𝕋[S10000x1, .f32] := maximumf v20 v19
  let v22 : 𝕋[S10000x1x1, .f32] := broadcastInDim S10000x1x1 ![0, 2] bcast_S10000x1_S10000x1x1_0_2 v21
  let v23 : 𝕋[S10000x32x1, .f32] := broadcastInDim S10000x32x1 ![0, 1, 2] bcast_S10000x1x1_S10000x32x1_0_1_2 v22
  let v24 : 𝕋[S10000x32x1, .f32] := subf v18 v23
  let v25 : 𝕋[S10000x32x1, .f32] := Host.exp v24
  let cst_1 : 𝕋[S_, .f32] := constant S_ .f32 0x00000000#32
  let v26 : 𝕋[S10000x1, .f32] := Host.reduceAdd v25 cst_1 reducesTo_S10000x32x1_S10000x1_d1 h_S_
  let v27 : 𝕋[S10000x1x1, .f32] := broadcastInDim S10000x1x1 ![0, 2] bcast_S10000x1_S10000x1x1_0_2 v26
  let v28 : 𝕋[S10000x32x1, .f32] := broadcastInDim S10000x32x1 ![0, 1, 2] bcast_S10000x1x1_S10000x32x1_0_1_2 v27
  let v29 : 𝕋[S10000x32x1, .f32] := Host.divf v25 v28
  let v30 : 𝕋[S10000x32x128, .f32] := broadcastInDim S10000x32x128 ![0, 1, 2] bcast_S10000x32x1_S10000x32x128_0_1_2 v29
  let v31 : 𝕋[S10000x32x128, .f32] := mulf v0 v30
  let cst_2 : 𝕋[S_, .f32] := constant S_ .f32 0x00000000#32
  Host.reduceAdd v31 cst_2 reducesTo_S10000x32x128_S10000x128_d1 h_S_

end Cert.ReferenceIdeal.RefValue

end
-- ==== Proof.Claims.lean ====
/-
  The five claims, assembled.

  The kernel's run ends with its result at one function of the launch memory and its nine arguments unchanged; with
  floats read as extended reals that function is the specification's result of the first eight arguments. The
  reference's run ends with its result at the reference's own pure term of its nine arguments, and under the
  precondition (every float entry a real number, every index word a row number of the table) that term is the same
  specification. Hence:

  * each program's frame is its run with the result forgotten;
  * the idealized kernel is the word-level kernel's own text read at extended reals, so nothing is owed for that step;
  * from memories agreeing on the arguments both programs end at the specification's result of the kernel's arguments:
    the reference's arguments are first rewritten to the kernel's, and only then are the precondition's facts about the
    kernel's arguments used.

  The statements about the two kernel bodies, the dense block function, the reference's run and the reference's term
  enter as hypotheses, named below; the closing module supplies them.
-/
import proofs.«215990_g90829968376431_cont_sun_c4_571_51_alg».proof.Defs
import proofs.«215990_g90829968376431_cont_sun_c4_571_51_alg».proof.Proof.Gen.Kernel
import proofs.«215990_g90829968376431_cont_sun_c4_571_51_alg».proof.Proof.Gen.KernelIdeal
import proofs.«215990_g90829968376431_cont_sun_c4_571_51_alg».proof.Proof.Gen.ReferenceIdeal
import proofs.«215990_g90829968376431_cont_sun_c4_571_51_alg».proof.Proof.Gen.Pre_input_domain
import proofs.«215990_g90829968376431_cont_sun_c4_571_51_alg».proof.Proof.KiLaunch
import proofs.«215990_g90829968376431_cont_sun_c4_571_51_alg».proof.Proof.KiOut
import proofs.«215990_g90829968376431_cont_sun_c4_571_51_alg».proof.Proof.PreFacts
import proofs.«215990_g90829968376431_cont_sun_c4_571_51_alg».proof.Proof.Spec
import proofs.«215990_g90829968376431_cont_sun_c4_571_51_alg».proof.Proof.RefTerm

noncomputable section

namespace Cert.Proof.Claims

open Idealize.ShloMosaic
open Idealize.ShloMosaic.SparseCore.Cfg (HIx)
open Idealize.SL Idealize.SL.RA Idealize.SL.BI
open scoped Idealize.SL.BI
open Idealize.SL.BI.BIBase Idealize.SL.Sem

/-- The resource algebra the kernel's launch is proved in, at extended reals. -/
local notation "𝕄" => MT Cert.KernelIdeal.nD Cert.KernelIdeal.τ Cert.KernelIdeal.sig (HIx 1) (Elt Ideal) ℕ Cert.KernelIdeal.Launch.UU ℕ

/-! ## The statements that enter as hypotheses -/

/-- The dense stage's block function is the specification's attention block. -/
abbrev TcPaySpec : Prop :=
  ∀ (e : Vec Ideal Cert.KernelIdeal.S2560x128 .f32) (u : Vec Ideal Cert.KernelIdeal.S80x128 .f32) (w1a w1b : Vec Ideal Cert.KernelIdeal.S128x128 .bf16)
    (b1 : Vec Ideal Cert.KernelIdeal.S1x128 .f32) (w2 : Vec Ideal Cert.KernelIdeal.S128x128 .bf16) (b2 w3 : Vec Ideal Cert.KernelIdeal.S1x128 .f32),
    Cert.KernelIdeal.TcBody.tcPay (F := Ideal) e u w1a w1b b1 w2 b2 w3 = Cert.Spec.attnBlock e u w1a w1b b1 w2 b2 w3

/-- The reference's run: it ends with its result at its own pure term of the nine arguments, which end unchanged. -/
abbrev RefRunSpec : Prop :=
  ∀ (m : (ℓ : Loc Cert.ReferenceIdeal.nD Cert.ReferenceIdeal.τ Cert.ReferenceIdeal.sig) → Buf (Elt Ideal) ℓ) (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v32)
            = Cert.ReferenceIdeal.RefValue.term (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
                (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

/-- The reference's term is the specification, on real float entries and in-range index words. -/
abbrev RefValSpec : Prop :=
  ∀ (a0 : IVec Cert.ReferenceIdeal.S10000 32) (a1 : IVec Cert.ReferenceIdeal.S10000x32 32) (a2 : FVec Ideal Cert.ReferenceIdeal.S50000x128 .f32)
    (a3 : FVec Ideal Cert.ReferenceIdeal.S256x128 .f32) (a4 : FVec Ideal Cert.ReferenceIdeal.S128 .f32) (a5 : FVec Ideal Cert.ReferenceIdeal.S128x128 .f32)
    (a6 : FVec Ideal Cert.ReferenceIdeal.S128 .f32) (a7 : FVec Ideal Cert.ReferenceIdeal.S128x1 .f32) (a8 : FVec Ideal Cert.ReferenceIdeal.S1 .f32)
    (_ : ∀ i, ∃ x : ℝ, a2 i = (x : EReal)) (_ : ∀ i, ∃ x : ℝ, a3 i = (x : EReal))
    (_ : ∀ i, ∃ x : ℝ, a4 i = (x : EReal)) (_ : ∀ i, ∃ x : ℝ, a5 i = (x : EReal))
    (_ : ∀ i, ∃ x : ℝ, a6 i = (x : EReal)) (_ : ∀ i, ∃ x : ℝ, a7 i = (x : EReal))
    (_ : ∀ i, ∃ x : ℝ, a8 i = (x : EReal))
    (_ : ∀ i, 0 ≤ (a0 i).toInt ∧ (a0 i).toNat < 50000) (_ : ∀ i, 0 ≤ (a1 i).toInt ∧ (a1 i).toNat < 50000),
    Cert.ReferenceIdeal.RefValue.term (F := Ideal) a0 a1 a2 a3 a4 a5 a6 a7 a8 = Cert.Spec.out a0 a1 a2 a3 a4 a5 a6 a7

/-! ## The kernel's run under the precondition -/

section
variable (htb : Cert.KernelIdeal.Launch.TileBodySpec (F := Ideal)) (g₀ : Cert.KernelIdeal.Launch.UR) (RG : Dev Cert.KernelIdeal.nD → sProp 𝕄)
  (hfund : (BI.own (Cert.KernelIdeal.Launch.EP g₀) : sProp 𝕄) ⊢ iprop(|==> bigSep Finset.univ RG))
  (hreg : Cert.KernelIdeal.Launch.RegionSpec (F := Ideal) RG)
include htb hfund hreg

/-- Under the precondition the prepared index lists name table rows, so the launch's run applies: the program ends
    with its result at the composite of the two stages and its nine arguments unchanged. -/
theorem kernel_run (m : (ℓ : Loc Cert.KernelIdeal.nD Cert.KernelIdeal.τ Cert.KernelIdeal.sig) → Buf (Elt Ideal) ℓ) (ρ : Dev Cert.KernelIdeal.nD → PrngReg)
    (hpre : Cert.Pre_KernelIdeal (hPre_input_domain := Cert.Pre_input_domain.Gen.facts) m) :
    θ_run (Cert.KernelIdeal.defs (F := Ideal)) (Cert.KernelIdeal.threads (F := Ideal)) ⟨m, fun _ => 0, ρ⟩ (Cert.KernelIdeal.Launch.QC m) :=
  Cert.KernelIdeal.Launch.run_main m ρ htb (Cert.KernelIdeal.Launch.idxOK m (fun d => Cert.PreFacts.kernelIdeal_ranges m hpre d)) g₀ RG hfund hreg

/-! ## The frames -/

/-- The idealized kernel's frame: its run with the result forgotten. -/
theorem frame_pi_of :
    Cert.frame_KernelIdeal (hKernelIdeal := Cert.KernelIdeal.Gen.facts) (hPre_input_domain := Cert.Pre_input_domain.Gen.facts) :=
  fun m ρ hpre => (θ_run _ _ _).mono (fun _ h c => (h c).2) (kernel_run htb g₀ RG hfund hreg m ρ hpre)

end

/-- The reference's frame: its run with the result forgotten. -/
theorem frame_ri_of (hrun : RefRunSpec) :
    Cert.frame_ReferenceIdeal (hReferenceIdeal := Cert.ReferenceIdeal.Gen.facts) (hPre_input_domain := Cert.Pre_input_domain.Gen.facts) :=
  fun m ρ _ => (θ_run _ _ _).mono (fun _ h c => (h c).2) (hrun m ρ)

/-- The idealized kernel is the word-level kernel's own text: no rewrite was made, nothing is owed. -/
theorem preserves : Cert.preserves_Kernel_KernelIdeal := trivial

/-! ## The two results agree -/

/-- The reference's term at arguments equal to the kernel's is the specification at the kernel's arguments. -/
theorem ref_value (hval : RefValSpec)
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_input_domain := Cert.Pre_input_domain.Gen.facts) m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.RefValue.term (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      = Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  obtain ⟨e0, e1, e2, e3, e4, e5, e6, e7, e8⟩ := hagree
  rw [e0, e1, e2, e3, e4, e5, e6, e7, e8]
  obtain ⟨hr2, hr3, hr4, hr5, hr6, hr7, hr8⟩ := Cert.PreFacts.kernelIdeal_finite m hpre c
  obtain ⟨h0, h1⟩ := Cert.PreFacts.kernelIdeal_ranges m hpre c
  exact hval _ _ _ _ _ _ _ _ _ hr2 hr3 hr4 hr5 hr6 hr7 hr8 h0 h1

section
variable (htb : Cert.KernelIdeal.Launch.TileBodySpec (F := Ideal)) (g₀ : Cert.KernelIdeal.Launch.UR) (RG : Dev Cert.KernelIdeal.nD → sProp 𝕄)
  (hfund : (BI.own (Cert.KernelIdeal.Launch.EP g₀) : sProp 𝕄) ⊢ iprop(|==> bigSep Finset.univ RG))
  (hreg : Cert.KernelIdeal.Launch.RegionSpec (F := Ideal) RG)
include htb hfund hreg

/-- From memories agreeing on the arguments, both programs end at the specification's result of the kernel's
    arguments, their own arguments unchanged. -/
theorem algebraic_of (htc : TcPaySpec) (hrun : RefRunSpec) (hval : RefValSpec) :
    Cert.algebraic_KernelIdeal_ReferenceIdeal (hKernelIdeal := Cert.KernelIdeal.Gen.facts) (hReferenceIdeal := Cert.ReferenceIdeal.Gen.facts)
      (hPre_input_domain := Cert.Pre_input_domain.Gen.facts) :=
  fun m ρ m' ρ' hpre hagree =>
    ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
      (θ_run _ _ _).mono (fun _ h c => ⟨(h c).1.trans (Cert.KernelIdeal.Launch.kOut_eq_spec htc m c), (h c).2⟩)
        (kernel_run htb g₀ RG hfund hreg m ρ hpre),
      (θ_run _ _ _).mono (fun _ h c => ⟨(h c).1.trans (ref_value hval m m' hpre c (hagree c)), (h c).2⟩) (hrun m' ρ')⟩

/-- All five, given the word-level kernel's frame. -/
theorem claim_of (hfK : Cert.frame_Kernel (hKernel := Cert.Kernel.Gen.facts) (hPre_input_domain := Cert.Pre_input_domain.Gen.facts))
    (htc : TcPaySpec) (hrun : RefRunSpec) (hval : RefValSpec) : Cert.Claim :=
  ⟨Cert.Kernel.Gen.facts, Cert.KernelIdeal.Gen.facts, Cert.ReferenceIdeal.Gen.facts, Cert.Pre_input_domain.Gen.facts,
    hfK, frame_pi_of htb g₀ RG hfund hreg, frame_ri_of hrun, preserves,
    algebraic_of htb g₀ RG hfund hreg htc hrun hval⟩

end

end Cert.Proof.Claims

end
-- ==== Proof.ScTile.lean ====
/-
  The SparseCore gather task's body: a vector subcore fetches its 10320 index words (one copy; two on the last subcore, whose
  list straddles the two index arrays), then gathers 86 chunks of 120 table rows and copies each out to its rows of the result,
  alternating two buffers: while one buffer's rows are copied out the other is being gathered into.  Four DMA semaphores carry
  the loop's transfers, each with one transfer outstanding at a time, so that every wait hands back exactly what its one transfer
  delivers.  The loop's invariant counts in chunks: before trip `k` chunk `2 k`'s gather and chunk `2 k - 1`'s copy-out are under
  way, the rows of chunks below `2 k - 1` hold the gathered array, and the list's windows below `2 k` are back.  What is handed
  back at the end is the task's rows at the one whole-array function `gathered`.
-/
import proofs.«215990_g90829968376431_cont_sun_c4_571_51_alg».proof.Proof.ScTileDefs
import proofs.«215990_g90829968376431_cont_sun_c4_571_51_alg».proof.Proof.Gen.KernelIdeal.Skeleton
import Idealize.ShloMosaic.Lib.SparseCore.Stream
import Idealize.ShloMosaic.Lib.Tactic

noncomputable section

namespace Cert.KernelIdeal.ScTile

open Cert.KernelIdeal Cert.KernelIdeal.Gen Cert.KernelIdeal.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-! ## The thread's own semaphores and buffers -/

abbrev cell (s : DmaSems sig S_) : GSem nD τ sig := (thr d L, .dma s.sem)

def kCells : Finset (GSem nD τ sig) :=
  {cell d L cc0_scratch3, cell d L cc0_scratch4, cell d L cc0_scratch5, cell d L cc0_scratch6,
   cell d L cc0_scoped0, cell d L cc0_scoped1, cell d L cc0_scoped2}

theorem kCells_sub : kCells d L ⊆ ownCells (thr d L) := by
  intro g hg
  simp only [kCells, Finset.mem_insert, Finset.mem_singleton] at hg
  rcases hg with rfl | rfl | rfl | rfl | rfl | rfl | rfl
  · exact mem_ownCells.mpr ⟨rfl, by show (SemLoc.dma cc0_scratch3.sem : SemLoc sig).isScoped .scVector = true; decide⟩
  · exact mem_ownCells.mpr ⟨rfl, by show (SemLoc.dma cc0_scratch4.sem : SemLoc sig).isScoped .scVector = true; decide⟩
  · exact mem_ownCells.mpr ⟨rfl, by show (SemLoc.dma cc0_scratch5.sem : SemLoc sig).isScoped .scVector = true; decide⟩
  · exact mem_ownCells.mpr ⟨rfl, by show (SemLoc.dma cc0_scratch6.sem : SemLoc sig).isScoped .scVector = true; decide⟩
  · exact mem_ownCells.mpr ⟨rfl, by show (SemLoc.dma cc0_scoped0.sem : SemLoc sig).isScoped .scVector = true; decide⟩
  · exact mem_ownCells.mpr ⟨rfl, by show (SemLoc.dma cc0_scoped1.sem : SemLoc sig).isScoped .scVector = true; decide⟩
  · exact mem_ownCells.mpr ⟨rfl, by show (SemLoc.dma cc0_scoped2.sem : SemLoc sig).isScoped .scVector = true; decide⟩

theorem ownSems0_V :
    (ownSems0 (thr d L) : sProp 𝕄)
      = iprop((semVal (cell d L cc0_scratch3) 0 ∗ semVal (cell d L cc0_scratch4) 0 ∗ semVal (cell d L cc0_scratch5) 0 ∗ semVal (cell d L cc0_scratch6) 0
          ∗ semVal (cell d L cc0_scoped0) 0 ∗ semVal (cell d L cc0_scoped1) 0 ∗ semVal (cell d L cc0_scoped2) 0)
          ∗ bigSep (ownCells (thr d L) \ kCells d L) fun g => semVal g 0) := by
  unfold SparseCore.Cfg.ownSems0
  rw [SparseCore.bigSep_sdiff_split' (kCells_sub d L)]
  unfold kCells
  rw [SparseCore.bigSep_insert' (by simp only [Finset.mem_insert, Finset.mem_singleton, Prod.mk.injEq, true_and, SemLoc.dma.injEq, not_or]; decide),
    SparseCore.bigSep_insert' (by simp only [Finset.mem_insert, Finset.mem_singleton, Prod.mk.injEq, true_and, SemLoc.dma.injEq, not_or]; decide),
    SparseCore.bigSep_insert' (by simp only [Finset.mem_insert, Finset.mem_singleton, Prod.mk.injEq, true_and, SemLoc.dma.injEq, not_or]; decide),
    SparseCore.bigSep_insert' (by simp only [Finset.mem_insert, Finset.mem_singleton, Prod.mk.injEq, true_and, SemLoc.dma.injEq, not_or]; decide),
    SparseCore.bigSep_insert' (by simp only [Finset.mem_insert, Finset.mem_singleton, Prod.mk.injEq, true_and, SemLoc.dma.injEq, not_or]; decide),
    SparseCore.bigSep_insert' (by simp only [Finset.mem_singleton, Prod.mk.injEq, true_and, SemLoc.dma.injEq]; decide),
    bigSep_singleton]

def kRefs : Finset (DevRef τ sig) :=
  {(Proc.scVector (cV L) (jV L)).devRef cc0_scratch0, (Proc.scVector (cV L) (jV L)).devRef cc0_scratch1, (Proc.scVector (cV L) (jV L)).devRef cc0_scratch2}

theorem kRefs_sub : kRefs L ⊆ ownRefs (τ := τ) (.scVector (cV L) (jV L)) := by
  intro b hb
  simp only [kRefs, Finset.mem_insert, Finset.mem_singleton] at hb
  rcases hb with rfl | rfl | rfl <;> exact SparseCore.Cfg.mem_ownRefs_of_owner (p := Proc.scVector (cV L) (jV L)) rfl

theorem ownBufs_V :
    (ownBufs (thr d L) : sProp 𝕄)
      = iprop(((∃ f, (thr d L).loc cc0_scratch0 ↦{fullShare} f) ∗ (∃ f, (thr d L).loc cc0_scratch1 ↦{fullShare} f) ∗ (∃ f, (thr d L).loc cc0_scratch2 ↦{fullShare} f))
          ∗ bigSep (ownRefs (τ := τ) (.scVector (cV L) (jV L)) \ kRefs L) fun b => iprop(∃ f, ((d, b) : Loc nD τ sig) ↦{fullShare} f)) := by
  unfold SparseCore.Cfg.ownBufs
  rw [SparseCore.bigSep_sdiff_split' (kRefs_sub L)]
  unfold kRefs
  rw [SparseCore.bigSep_insert' (by
        simp only [Finset.mem_insert, Finset.mem_singleton, not_or]
        exact ⟨fun e => absurd (Proc.devRef_injective _ e) (show (cc0_scratch0 : Ref sig .scVector) ≠ cc0_scratch1 by decide),
          fun e => absurd (Proc.devRef_injective _ e) (show (cc0_scratch0 : Ref sig .scVector) ≠ cc0_scratch2 by decide)⟩),
    SparseCore.bigSep_insert' (by
        simp only [Finset.mem_singleton]
        exact fun e => absurd (Proc.devRef_injective _ e) (show (cc0_scratch1 : Ref sig .scVector) ≠ cc0_scratch2 by decide)),
    bigSep_singleton]

/-! ## The memrefs as the body table passes them -/

local notation "tV" => (Memref.whole Cert.KernelIdeal.main_arg2_scv : Memref Cert.KernelIdeal.sig Kind.scVector Space.hbm Cert.KernelIdeal.S50000x128 EltTy.f32)
local notation "nV" => (Memref.whole Cert.KernelIdeal.main_v10_scv : Memref Cert.KernelIdeal.sig Kind.scVector Space.hbm Cert.KernelIdeal.S320000 EltTy.i32)
local notation "pV" => (Memref.whole Cert.KernelIdeal.main_v9_scv : Memref Cert.KernelIdeal.sig Kind.scVector Space.hbm Cert.KernelIdeal.S10240 EltTy.i32)
local notation "oV" => (Memref.whole Cert.KernelIdeal.main_v11_scv : Memref Cert.KernelIdeal.sig Kind.scVector Space.hbm Cert.KernelIdeal.S330240x128 EltTy.f32)
local notation "sI" => (Memref.whole Cert.KernelIdeal.cc0_scratch0 : Memref Cert.KernelIdeal.sig Kind.scVector Space.vmem Cert.KernelIdeal.S10320 EltTy.i32)
local notation "b0" => (Memref.whole Cert.KernelIdeal.cc0_scratch1 : Memref Cert.KernelIdeal.sig Kind.scVector Space.vmem Cert.KernelIdeal.S120x128 EltTy.f32)
local notation "b1" => (Memref.whole Cert.KernelIdeal.cc0_scratch2 : Memref Cert.KernelIdeal.sig Kind.scVector Space.vmem Cert.KernelIdeal.S120x128 EltTy.f32)

theorem pts_n (q : PosShare TreeShare) (f : Buf (Elt F) (nLoc d)) : ((nV).view.loc (thr d L) ↦{q} f : sProp 𝕄) = nLoc d ↦{q} f := rfl
theorem pts_p (q : PosShare TreeShare) (f : Buf (Elt F) (pLoc d)) : ((pV).view.loc (thr d L) ↦{q} f : sProp 𝕄) = pLoc d ↦{q} f := rfl
theorem pts_sI (q : PosShare TreeShare) (f : Buf (Elt F) ((thr d L).loc cc0_scratch0)) : ((sI).view.loc (thr d L) ↦{q} f : sProp 𝕄) = (thr d L).loc cc0_scratch0 ↦{q} f := rfl

variable [FloatOps F]
variable (qT : PosShare TreeShare) (tab : Buf (Elt F) (tLoc d)) (nf : Buf (Elt F) (nLoc d)) (np : Buf (Elt F) (pLoc d)) (o0 : Buf (Elt F) (oLoc d))
variable (O : CellTallies nD τ sig (HIx 1)) (W : Waits sig (HIx 1))

/-! ## The loop's invariant

Before trip `k` of the 43: the gather of chunk `2 k` is in flight into the first buffer (none after the last trip); the copy-out of
chunk `2 k - 1` is in flight from the second buffer (none before the first trip); windows `< 2 k` of the list are back, windows
`> 2 k` not yet lent; rows of chunks `< 2 k - 1` hold the gathered array, rows of chunks `≥ 2 k` their launch contents. -/

def Apart (k : ℕ) : sProp 𝕄 :=
  if k < 43 then gFlight0 d L tab nf np cc0_scratch3.sem qT.left (2 * k)
  else iprop((∃ f, (thr d L).loc cc0_scratch1 ↦{fullShare} f) ∗ semVal (cell d L cc0_scratch3) 0 ∗ (tLoc d ↦{qT.left} tab))

def Dpart (k : ℕ) : sProp 𝕄 :=
  if k = 0 then iprop((∃ f, (thr d L).loc cc0_scratch2 ↦{fullShare} f) ∗ semVal (cell d L cc0_scratch6) 0)
  else cFlight1 d L tab nf np cc0_scratch6.sem (2 * k - 1)

theorem Apart_lt {k : ℕ} (h : k < 43) : Apart d L qT tab nf np k = gFlight0 d L tab nf np cc0_scratch3.sem qT.left (2 * k) := if_pos h
theorem Apart_ge {k : ℕ} (h : ¬ k < 43) : Apart d L qT tab nf np k
    = iprop((∃ f, (thr d L).loc cc0_scratch1 ↦{fullShare} f) ∗ semVal (cell d L cc0_scratch3) 0 ∗ (tLoc d ↦{qT.left} tab)) := if_neg h
theorem Dpart_zero' {k : ℕ} (h : k = 0) : Dpart d L tab nf np k = iprop((∃ f, (thr d L).loc cc0_scratch2 ↦{fullShare} f) ∗ semVal (cell d L cc0_scratch6) 0) := if_pos h
theorem Dpart_pos {k : ℕ} (h : k ≠ 0) : Dpart d L tab nf np k = cFlight1 d L tab nf np cc0_scratch6.sem (2 * k - 1) := if_neg h

def inv (k : ℕ) (_ : Unit) : sProp 𝕄 :=
  iprop(Transfers.MayWaits (thr d L) (none : HIx 1) O ∗ Apart d L qT tab nf np k ∗ Dpart d L tab nf np k
    ∗ (tLoc d ↦{qT.right} tab)
    ∗ ((thr d L).loc cc0_scratch0 ↦[idxIn 0 (240 * k)]{fullShare} tileIdx nf np L)
    ∗ ((thr d L).loc cc0_scratch0 ↦[idxIn (min (240 * k + 120) 10320) 10320]{fullShare} tileIdx nf np L)
    ∗ (oLoc d ↦[rowsIn (10320 * (wid L).val) (10320 * (wid L).val + (240 * k - 120))]{fullShare} gathered tab nf np)
    ∗ (oLoc d ↦[rowsIn (10320 * (wid L).val + 240 * k) (10320 * (wid L).val + 10320)]{fullShare} o0)
    ∗ semVal (cell d L cc0_scratch4) 0 ∗ semVal (cell d L cc0_scratch5) 0
    ∗ ∃ W', ⌜∀ p ∈ W', p ∈ W ∨ p.2 = none⌝ ∗ owes (thr d L) O W')

omit [FloatOps F] in
theorem rows_cast {lo hi lo' hi' : ℕ} (q : PosShare TreeShare) (f : Buf (Elt F) (oLoc d)) (h1 : lo = lo') (h2 : hi = hi') :
    (oLoc d ↦[rowsIn lo hi]{q} f : sProp 𝕄) = (oLoc d ↦[rowsIn lo' hi']{q} f) := by rw [h1, h2]
omit [FloatOps F] in
theorem idx_cast {lo hi lo' hi' : ℕ} (q : PosShare TreeShare) (f : Buf (Elt F) ((thr d L).loc cc0_scratch0)) (h1 : lo = lo') (h2 : hi = hi') :
    ((thr d L).loc cc0_scratch0 ↦[idxIn lo hi]{q} f : sProp 𝕄) = ((thr d L).loc cc0_scratch0 ↦[idxIn lo' hi']{q} f) := by rw [h1, h2]

theorem sem3_eq (h : 3 < 19) : (⟨3, h⟩ : DmaSem sig) = cc0_scratch6.sem := rfl
set_option maxHeartbeats 2000000 in
theorem trip_first (hnf : ∀ i, (nf i).toNat < 50000) (hnp : ∀ i, (np i).toNat < 50000)
    (t : Fin k0_t1_loop.trips) (v2 : BitVec 32) (hk0 : t.val = 0) :
    inv d L qT tab nf np o0 O W t.val ()
      ⊢ wp frame (wpE (defs₀ (F := F)) 𝒱₀ (thr d L) none) Set.univ
          (k0_t1_body L tV (Memref.isWhole_whole _) nV (Memref.isWhole_whole _) pV (Memref.isWhole_whole _) oV (Memref.isWhole_whole _)
            sI (Memref.isWhole_whole _) b0 (Memref.isWhole_whole _) b1 (Memref.isWhole_whole _)
            cc0_scratch3 cc0_scratch4 cc0_scratch5 cc0_scratch6 cc0_scoped0 cc0_scoped1 cc0_scoped2 v2 t ())
          (inv d L qT tab nf np o0 O W (t.val + 1)) := by
  have ht : t.val < 43 := trips_lt t
  have k0_h3 : ¬ k0_cond3 t = 1#1 := by rw [cond3_iff]; omega
  have k0_h4 : k0_cond4 t = 1#1 := by rw [cond4_iff]; omega
  unfold inv
  rw [Apart_lt d L qT tab nf np ht, Dpart_zero' d L tab nf np hk0,
    Apart_lt d L qT tab nf np (k := t.val + 1) (by omega),
    Dpart_pos d L tab nf np (k := t.val + 1) (by omega),
    show 2 * (t.val + 1) - 1 = 2 * t.val + 1 from by omega, show 2 * (t.val + 1) = 2 * t.val + 2 from by omega]
  unfold gFlight0 cFlight1
  iintro ⟨#Hmw, HA, ⟨⟨%f8, H8⟩, Hc6⟩, HtB, Hid, Hit, Hrd, Hrt, Hc4, Hc5, %W', %hW', HO⟩
  unfold k0_t1_body
  sl_exec
  -- the gather of chunk 2k lands in the first buffer
  iapply (Transfers.wp_waitLocalO countersEmb 𝒱₀ (thr d L) none (default : HIx 1) rfl) $$ [HA HO]
  · isplitl [HA]; · iexact HA
    isplitl [HO]; · iexact HO
    iapply (Transfers.MayWaits.elim (SemLoc.dma cc0_scratch3.sem)) $$ Hmw
  iintro ⟨⟨Hb0, HtA, HiA⟩, Hc3, HO⟩
  sl_exec
  -- the gather of chunk 2k+1 into the second buffer, through window 2k+1 of the list
  ihave Hsp := (pointsTo_idx_split d L (lo := min (240 * t.val + 120) 10320) (mid := 240 * t.val + 240) (hi := 10320) (by omega) (by omega) fullShare (tileIdx nf np L)).1 $$ Hit
  icases Hsp with ⟨HiB, Hit⟩
  ihave HiB := (Entails.of_eq (idx_cast d L fullShare _ (show min (240 * t.val + 120) 10320 = 120 * (2 * t.val + 1) by omega) (show 240 * t.val + 240 = 120 * (2 * t.val + 1) + 120 by omega))) $$ HiB
  iapply (step_gather1 d L tab nf np hnf hnp cc0_scratch4.sem qT.right (k0_off5 t) (k0_off5_inb t) (2 * t.val + 1) (off5_zero t) _ _ _ _ _ _ _ _ _) $$ [H8 HtB HiB Hc4]
  · isplitl [H8]; · iexact H8
    isplitl [HtB]; · iexact HtB
    isplitl [HiB]; · iexact HiB
    iexact Hc4
  iintro HB
  sl_exec
  -- the copy-out of chunk 2k from the first buffer
  ihave Hsp := (pointsTo_rows_split d (lo := 10320 * (wid L).val + 240 * t.val) (mid := 10320 * (wid L).val + 240 * t.val + 120) (hi := 10320 * (wid L).val + 10320) (by omega) (by omega) fullShare o0).1 $$ Hrt
  icases Hsp with ⟨HrC, Hrt⟩
  ihave HrC := (Entails.of_eq (rows_cast d fullShare o0 (show 10320 * (wid L).val + 240 * t.val = 10320 * (wid L).val + 120 * (2 * t.val) by omega) (show 10320 * (wid L).val + 240 * t.val + 120 = 10320 * (wid L).val + 120 * (2 * t.val) + 120 by omega))) $$ HrC
  iapply (step_copy0 d L tab nf np cc0_scratch5.sem (k0_off6 L t) (k0_off6_inb L t) (2 * t.val) (off6_eq' L t) o0 _ _ _ _ _) $$ [Hb0 HrC Hc5]
  · isplitl [Hb0]; · iexact Hb0
    isplitl [HrC]; · iexact HrC
    iexact Hc5
  iintro HC
  sl_exec
  -- the gather of chunk 2k+1 lands in the second buffer
  unfold gFlight1
  iapply (Transfers.wp_waitLocalO countersEmb 𝒱₀ (thr d L) none (default : HIx 1) rfl) $$ [HB HO]
  · isplitl [HB]; · iexact HB
    isplitl [HO]; · iexact HO
    iapply (Transfers.MayWaits.elim (SemLoc.dma cc0_scratch4.sem)) $$ Hmw
  iintro ⟨⟨Hb1, HtB, HiB⟩, Hc4, HO⟩
  sl_exec
  -- the copy-out of chunk 2k has left the first buffer
  unfold cFlight0
  iapply (Transfers.wp_waitLocalO countersEmb 𝒱₀ (thr d L) none (default : HIx 1) rfl) $$ [HC HO]
  · isplitl [HC]; · iexact HC
    isplitl [HO]; · iexact HO
    iapply (Transfers.MayWaits.elim (SemLoc.dma cc0_scratch5.sem)) $$ Hmw
  iintro ⟨⟨HrC, Hb0⟩, Hc5, HO⟩
  sl_exec
  -- the gather of chunk 2k+2 into the first buffer, through window 2k+2 of the list
  ihave Hsp := (pointsTo_idx_split d L (lo := 240 * t.val + 240) (mid := 240 * t.val + 360) (hi := 10320) (by omega) (by omega) fullShare (tileIdx nf np L)).1 $$ Hit
  icases Hsp with ⟨HiA', Hit⟩
  ihave HiA' := (Entails.of_eq (idx_cast d L fullShare _ (show 240 * t.val + 240 = 120 * (2 * t.val + 2) by omega) (show 240 * t.val + 360 = 120 * (2 * t.val + 2) + 120 by omega))) $$ HiA'
  iapply (step_gather0 d L tab nf np hnf hnp cc0_scratch3.sem qT.left (k0_off7 t) (k0_off7_inb t k0_h4) (2 * t.val + 2) (off7_zero t) _ _ _ _ _ _ _ _ _) $$ [Hb0 HtA HiA' Hc3]
  · isplitl [Hb0]; · iexact Hb0
    isplitl [HtA]; · iexact HtA
    isplitl [HiA']; · iexact HiA'
    iexact Hc3
  iintro HA'
  sl_exec
  -- the copy-out of chunk 2k+1 from the second buffer
  ihave Hsp := (pointsTo_rows_split d (lo := 10320 * (wid L).val + 240 * t.val + 120) (mid := 10320 * (wid L).val + 240 * t.val + 240) (hi := 10320 * (wid L).val + 10320) (by omega) (by omega) fullShare o0).1 $$ Hrt
  icases Hsp with ⟨HrD', Hrt⟩
  ihave HrD' := (Entails.of_eq (rows_cast d fullShare o0 (show 10320 * (wid L).val + 240 * t.val + 120 = 10320 * (wid L).val + 120 * (2 * t.val + 1) by omega) (show 10320 * (wid L).val + 240 * t.val + 240 = 10320 * (wid L).val + 120 * (2 * t.val + 1) + 120 by omega))) $$ HrD'
  iapply (step_copy1 d L tab nf np cc0_scratch6.sem (k0_off8 L t) (k0_off8_inb L t) (2 * t.val + 1) (off8_eq' L t) o0 _ _ _ _ _) $$ [Hb1 HrD' Hc6]
  · isplitl [Hb1]; · iexact Hb1
    isplitl [HrD']; · iexact HrD'
    iexact Hc6
  iintro HD'
  sl_exec
  sl_step
  unfold gFlight0 cFlight1
  isplitr; · iexact Hmw
  isplitl [HA']; · iexact HA'
  isplitl [HD']; · iexact HD'
  isplitl [HtB]; · iexact HtB
  isplitl [Hid HiA HiB]
  · ihave H1 := (pointsTo_idx_split d L (lo := 0) (mid := 240 * t.val) (hi := 240 * t.val + 120) (by omega) (by omega) fullShare (tileIdx nf np L)).2 $$ [Hid HiA]
    · isplitl [Hid]; · iexact Hid
      iapply (Entails.of_eq (idx_cast d L fullShare _ (show 120 * (2 * t.val) = 240 * t.val by omega) (show 120 * (2 * t.val) + 120 = 240 * t.val + 120 by omega))) $$ HiA
    ihave H2 := (pointsTo_idx_split d L (lo := 0) (mid := 240 * t.val + 120) (hi := 240 * t.val + 240) (by omega) (by omega) fullShare (tileIdx nf np L)).2 $$ [H1 HiB]
    · isplitl [H1]; · iexact H1
      iapply (Entails.of_eq (idx_cast d L fullShare _ (show 120 * (2 * t.val + 1) = 240 * t.val + 120 by omega) (show 120 * (2 * t.val + 1) + 120 = 240 * t.val + 240 by omega))) $$ HiB
    iapply (Entails.of_eq (idx_cast d L fullShare _ (show 0 = 0 by omega) (show 240 * t.val + 240 = 240 * (t.val + 1) by omega))) $$ H2
  isplitl [Hit]
  · iapply (Entails.of_eq (idx_cast d L fullShare _ (show 240 * t.val + 360 = min (240 * (t.val + 1) + 120) 10320 by omega) (show 10320 = 10320 by omega))) $$ Hit
  isplitl [Hrd HrC]
  · ihave H1 := (pointsTo_rows_split d (lo := 10320 * (wid L).val) (mid := 10320 * (wid L).val + 240 * t.val) (hi := 10320 * (wid L).val + 240 * t.val + 120) (by omega) (by omega) fullShare (gathered tab nf np)).2 $$ [Hrd HrC]
    · isplitl [Hrd]
      · iapply (Entails.of_eq (rows_cast d fullShare _ (show 10320 * (wid L).val = 10320 * (wid L).val by omega) (show 10320 * (wid L).val + (240 * t.val - 120) = 10320 * (wid L).val + 240 * t.val by omega))) $$ Hrd
      iapply (Entails.of_eq (rows_cast d fullShare _ (show 10320 * (wid L).val + 120 * (2 * t.val) = 10320 * (wid L).val + 240 * t.val by omega) (show 10320 * (wid L).val + 120 * (2 * t.val) + 120 = 10320 * (wid L).val + 240 * t.val + 120 by omega))) $$ HrC
    iapply (Entails.of_eq (rows_cast d fullShare _ (show 10320 * (wid L).val = 10320 * (wid L).val by omega) (show 10320 * (wid L).val + 240 * t.val + 120 = 10320 * (wid L).val + (240 * (t.val + 1) - 120) by omega))) $$ H1
  isplitl [Hrt]
  · iapply (Entails.of_eq (rows_cast d fullShare o0 (show 10320 * (wid L).val + 240 * t.val + 240 = 10320 * (wid L).val + 240 * (t.val + 1) by omega) (show 10320 * (wid L).val + 10320 = 10320 * (wid L).val + 10320 by omega))) $$ Hrt
  isplitl [Hc4]; · iexact Hc4
  isplitl [Hc5]; · iexact Hc5
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp
set_option maxHeartbeats 2000000 in
theorem trip_mid (hnf : ∀ i, (nf i).toNat < 50000) (hnp : ∀ i, (np i).toNat < 50000)
    (t : Fin k0_t1_loop.trips) (v2 : BitVec 32) (hk0 : t.val ≠ 0) (hk1 : t.val ≠ 42) :
    inv d L qT tab nf np o0 O W t.val ()
      ⊢ wp frame (wpE (defs₀ (F := F)) 𝒱₀ (thr d L) none) Set.univ
          (k0_t1_body L tV (Memref.isWhole_whole _) nV (Memref.isWhole_whole _) pV (Memref.isWhole_whole _) oV (Memref.isWhole_whole _)
            sI (Memref.isWhole_whole _) b0 (Memref.isWhole_whole _) b1 (Memref.isWhole_whole _)
            cc0_scratch3 cc0_scratch4 cc0_scratch5 cc0_scratch6 cc0_scoped0 cc0_scoped1 cc0_scoped2 v2 t ())
          (inv d L qT tab nf np o0 O W (t.val + 1)) := by
  have ht : t.val < 43 := trips_lt t
  have k0_h3 : k0_cond3 t = 1#1 := by rw [cond3_iff]; omega
  have k0_h4 : k0_cond4 t = 1#1 := by rw [cond4_iff]; omega
  unfold inv
  rw [Apart_lt d L qT tab nf np ht, Dpart_pos d L tab nf np hk0,
    Apart_lt d L qT tab nf np (k := t.val + 1) (by omega),
    Dpart_pos d L tab nf np (k := t.val + 1) (by omega),
    show 2 * (t.val + 1) - 1 = 2 * t.val + 1 from by omega, show 2 * (t.val + 1) = 2 * t.val + 2 from by omega]
  unfold gFlight0 cFlight1
  iintro ⟨#Hmw, HA, HD, HtB, Hid, Hit, Hrd, Hrt, Hc4, Hc5, %W', %hW', HO⟩
  unfold k0_t1_body
  sl_exec
  -- the gather of chunk 2k lands in the first buffer
  iapply (Transfers.wp_waitLocalO countersEmb 𝒱₀ (thr d L) none (default : HIx 1) rfl) $$ [HA HO]
  · isplitl [HA]; · iexact HA
    isplitl [HO]; · iexact HO
    iapply (Transfers.MayWaits.elim (SemLoc.dma cc0_scratch3.sem)) $$ Hmw
  iintro ⟨⟨Hb0, HtA, HiA⟩, Hc3, HO⟩
  sl_exec
  rw [sem3_eq]
  -- the gather of chunk 2k+1 into the second buffer, through window 2k+1 of the list
  ihave Hsp := (pointsTo_idx_split d L (lo := min (240 * t.val + 120) 10320) (mid := 240 * t.val + 240) (hi := 10320) (by omega) (by omega) fullShare (tileIdx nf np L)).1 $$ Hit
  icases Hsp with ⟨HiB, Hit⟩
  ihave HiB := (Entails.of_eq (idx_cast d L fullShare _ (show min (240 * t.val + 120) 10320 = 120 * (2 * t.val + 1) by omega) (show 240 * t.val + 240 = 120 * (2 * t.val + 1) + 120 by omega))) $$ HiB
  iapply (step_gather1 d L tab nf np hnf hnp cc0_scratch4.sem qT.right (k0_off5 t) (k0_off5_inb t) (2 * t.val + 1) (off5_zero t) _ _ _ _ _ _ _ _ _) $$ [HD_src HtB HiB Hc4]
  · isplitl [HD_src]; · iexact HD_src
    isplitl [HtB]; · iexact HtB
    isplitl [HiB]; · iexact HiB
    iexact Hc4
  iintro HB
  sl_exec
  -- the copy-out of chunk 2k from the first buffer
  ihave Hsp := (pointsTo_rows_split d (lo := 10320 * (wid L).val + 240 * t.val) (mid := 10320 * (wid L).val + 240 * t.val + 120) (hi := 10320 * (wid L).val + 10320) (by omega) (by omega) fullShare o0).1 $$ Hrt
  icases Hsp with ⟨HrC, Hrt⟩
  ihave HrC := (Entails.of_eq (rows_cast d fullShare o0 (show 10320 * (wid L).val + 240 * t.val = 10320 * (wid L).val + 120 * (2 * t.val) by omega) (show 10320 * (wid L).val + 240 * t.val + 120 = 10320 * (wid L).val + 120 * (2 * t.val) + 120 by omega))) $$ HrC
  iapply (step_copy0 d L tab nf np cc0_scratch5.sem (k0_off6 L t) (k0_off6_inb L t) (2 * t.val) (off6_eq' L t) o0 _ _ _ _ _) $$ [Hb0 HrC Hc5]
  · isplitl [Hb0]; · iexact Hb0
    isplitl [HrC]; · iexact HrC
    iexact Hc5
  iintro HC
  sl_exec
  -- the gather of chunk 2k+1 lands in the second buffer
  unfold gFlight1
  iapply (Transfers.wp_waitLocalO countersEmb 𝒱₀ (thr d L) none (default : HIx 1) rfl) $$ [HB HO]
  · isplitl [HB]; · iexact HB
    isplitl [HO]; · iexact HO
    iapply (Transfers.MayWaits.elim (SemLoc.dma cc0_scratch4.sem)) $$ Hmw
  iintro ⟨⟨Hb1, HtB, HiB⟩, Hc4, HO⟩
  sl_exec
  -- the copy-out of chunk 2k has left the first buffer
  unfold cFlight0
  iapply (Transfers.wp_waitLocalO countersEmb 𝒱₀ (thr d L) none (default : HIx 1) rfl) $$ [HC HO]
  · isplitl [HC]; · iexact HC
    isplitl [HO]; · iexact HO
    iapply (Transfers.MayWaits.elim (SemLoc.dma cc0_scratch5.sem)) $$ Hmw
  iintro ⟨⟨HrC, Hb0⟩, Hc5, HO⟩
  sl_exec
  -- the gather of chunk 2k+2 into the first buffer, through window 2k+2 of the list
  ihave Hsp := (pointsTo_idx_split d L (lo := 240 * t.val + 240) (mid := 240 * t.val + 360) (hi := 10320) (by omega) (by omega) fullShare (tileIdx nf np L)).1 $$ Hit
  icases Hsp with ⟨HiA', Hit⟩
  ihave HiA' := (Entails.of_eq (idx_cast d L fullShare _ (show 240 * t.val + 240 = 120 * (2 * t.val + 2) by omega) (show 240 * t.val + 360 = 120 * (2 * t.val + 2) + 120 by omega))) $$ HiA'
  iapply (step_gather0 d L tab nf np hnf hnp cc0_scratch3.sem qT.left (k0_off7 t) (k0_off7_inb t k0_h4) (2 * t.val + 2) (off7_zero t) _ _ _ _ _ _ _ _ _) $$ [Hb0 HtA HiA' Hc3]
  · isplitl [Hb0]; · iexact Hb0
    isplitl [HtA]; · iexact HtA
    isplitl [HiA']; · iexact HiA'
    iexact Hc3
  iintro HA'
  sl_exec
  -- the copy-out of chunk 2k+1 from the second buffer
  ihave Hsp := (pointsTo_rows_split d (lo := 10320 * (wid L).val + 240 * t.val + 120) (mid := 10320 * (wid L).val + 240 * t.val + 240) (hi := 10320 * (wid L).val + 10320) (by omega) (by omega) fullShare o0).1 $$ Hrt
  icases Hsp with ⟨HrD', Hrt⟩
  ihave HrD' := (Entails.of_eq (rows_cast d fullShare o0 (show 10320 * (wid L).val + 240 * t.val + 120 = 10320 * (wid L).val + 120 * (2 * t.val + 1) by omega) (show 10320 * (wid L).val + 240 * t.val + 240 = 10320 * (wid L).val + 120 * (2 * t.val + 1) + 120 by omega))) $$ HrD'
  iapply (step_copy1 d L tab nf np cc0_scratch6.sem (k0_off8 L t) (k0_off8_inb L t) (2 * t.val + 1) (off8_eq' L t) o0 _ _ _ _ _) $$ [Hb1 HrD' HD]
  · isplitl [Hb1]; · iexact Hb1
    isplitl [HrD']; · iexact HrD'
    iexact HD
  iintro HD'
  sl_exec
  sl_step
  unfold gFlight0 cFlight1
  isplitr; · iexact Hmw
  isplitl [HA']; · iexact HA'
  isplitl [HD']; · iexact HD'
  isplitl [HtB]; · iexact HtB
  isplitl [Hid HiA HiB]
  · ihave H1 := (pointsTo_idx_split d L (lo := 0) (mid := 240 * t.val) (hi := 240 * t.val + 120) (by omega) (by omega) fullShare (tileIdx nf np L)).2 $$ [Hid HiA]
    · isplitl [Hid]; · iexact Hid
      iapply (Entails.of_eq (idx_cast d L fullShare _ (show 120 * (2 * t.val) = 240 * t.val by omega) (show 120 * (2 * t.val) + 120 = 240 * t.val + 120 by omega))) $$ HiA
    ihave H2 := (pointsTo_idx_split d L (lo := 0) (mid := 240 * t.val + 120) (hi := 240 * t.val + 240) (by omega) (by omega) fullShare (tileIdx nf np L)).2 $$ [H1 HiB]
    · isplitl [H1]; · iexact H1
      iapply (Entails.of_eq (idx_cast d L fullShare _ (show 120 * (2 * t.val + 1) = 240 * t.val + 120 by omega) (show 120 * (2 * t.val + 1) + 120 = 240 * t.val + 240 by omega))) $$ HiB
    iapply (Entails.of_eq (idx_cast d L fullShare _ (show 0 = 0 by omega) (show 240 * t.val + 240 = 240 * (t.val + 1) by omega))) $$ H2
  isplitl [Hit]
  · iapply (Entails.of_eq (idx_cast d L fullShare _ (show 240 * t.val + 360 = min (240 * (t.val + 1) + 120) 10320 by omega) (show 10320 = 10320 by omega))) $$ Hit
  isplitl [Hrd HD_dst HrC]
  · ihave H0 := (pointsTo_rows_split d (lo := 10320 * (wid L).val) (mid := 10320 * (wid L).val + (240 * t.val - 120)) (hi := 10320 * (wid L).val + 240 * t.val) (by omega) (by omega) fullShare (gathered tab nf np)).2 $$ [Hrd HD_dst]
    · isplitl [Hrd]; · iexact Hrd
      iapply (Entails.of_eq (rows_cast d fullShare _ (show 10320 * (wid L).val + 120 * (2 * t.val - 1) = 10320 * (wid L).val + (240 * t.val - 120) by omega) (show 10320 * (wid L).val + 120 * (2 * t.val - 1) + 120 = 10320 * (wid L).val + 240 * t.val by omega))) $$ HD_dst
    ihave H1 := (pointsTo_rows_split d (lo := 10320 * (wid L).val) (mid := 10320 * (wid L).val + 240 * t.val) (hi := 10320 * (wid L).val + 240 * t.val + 120) (by omega) (by omega) fullShare (gathered tab nf np)).2 $$ [H0 HrC]
    · isplitl [H0]; · iexact H0
      iapply (Entails.of_eq (rows_cast d fullShare _ (show 10320 * (wid L).val + 120 * (2 * t.val) = 10320 * (wid L).val + 240 * t.val by omega) (show 10320 * (wid L).val + 120 * (2 * t.val) + 120 = 10320 * (wid L).val + 240 * t.val + 120 by omega))) $$ HrC
    iapply (Entails.of_eq (rows_cast d fullShare _ (show 10320 * (wid L).val = 10320 * (wid L).val by omega) (show 10320 * (wid L).val + 240 * t.val + 120 = 10320 * (wid L).val + (240 * (t.val + 1) - 120) by omega))) $$ H1
  isplitl [Hrt]
  · iapply (Entails.of_eq (rows_cast d fullShare o0 (show 10320 * (wid L).val + 240 * t.val + 240 = 10320 * (wid L).val + 240 * (t.val + 1) by omega) (show 10320 * (wid L).val + 10320 = 10320 * (wid L).val + 10320 by omega))) $$ Hrt
  isplitl [Hc4]; · iexact Hc4
  isplitl [Hc5]; · iexact Hc5
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp
set_option maxHeartbeats 2000000 in
theorem trip_last (hnf : ∀ i, (nf i).toNat < 50000) (hnp : ∀ i, (np i).toNat < 50000)
    (t : Fin k0_t1_loop.trips) (v2 : BitVec 32) (hk0 : t.val ≠ 0) (hk1 : t.val = 42) :
    inv d L qT tab nf np o0 O W t.val ()
      ⊢ wp frame (wpE (defs₀ (F := F)) 𝒱₀ (thr d L) none) Set.univ
          (k0_t1_body L tV (Memref.isWhole_whole _) nV (Memref.isWhole_whole _) pV (Memref.isWhole_whole _) oV (Memref.isWhole_whole _)
            sI (Memref.isWhole_whole _) b0 (Memref.isWhole_whole _) b1 (Memref.isWhole_whole _)
            cc0_scratch3 cc0_scratch4 cc0_scratch5 cc0_scratch6 cc0_scoped0 cc0_scoped1 cc0_scoped2 v2 t ())
          (inv d L qT tab nf np o0 O W (t.val + 1)) := by
  have ht : t.val < 43 := trips_lt t
  have k0_h3 : k0_cond3 t = 1#1 := by rw [cond3_iff]; omega
  have k0_h4 : ¬ k0_cond4 t = 1#1 := by rw [cond4_iff]; omega
  unfold inv
  rw [Apart_lt d L qT tab nf np ht, Dpart_pos d L tab nf np hk0,
    Apart_ge d L qT tab nf np (k := t.val + 1) (by omega),
    Dpart_pos d L tab nf np (k := t.val + 1) (by omega),
    show 2 * (t.val + 1) - 1 = 2 * t.val + 1 from by omega]
  unfold gFlight0 cFlight1
  iintro ⟨#Hmw, HA, HD, HtB, Hid, Hit, Hrd, Hrt, Hc4, Hc5, %W', %hW', HO⟩
  unfold k0_t1_body
  sl_exec
  -- the gather of chunk 2k lands in the first buffer
  iapply (Transfers.wp_waitLocalO countersEmb 𝒱₀ (thr d L) none (default : HIx 1) rfl) $$ [HA HO]
  · isplitl [HA]; · iexact HA
    isplitl [HO]; · iexact HO
    iapply (Transfers.MayWaits.elim (SemLoc.dma cc0_scratch3.sem)) $$ Hmw
  iintro ⟨⟨Hb0, HtA, HiA⟩, Hc3, HO⟩
  sl_exec
  rw [sem3_eq]
  -- the gather of chunk 2k+1 into the second buffer, through window 2k+1 of the list
  ihave Hsp := (pointsTo_idx_split d L (lo := min (240 * t.val + 120) 10320) (mid := 240 * t.val + 240) (hi := 10320) (by omega) (by omega) fullShare (tileIdx nf np L)).1 $$ Hit
  icases Hsp with ⟨HiB, Hit⟩
  ihave HiB := (Entails.of_eq (idx_cast d L fullShare _ (show min (240 * t.val + 120) 10320 = 120 * (2 * t.val + 1) by omega) (show 240 * t.val + 240 = 120 * (2 * t.val + 1) + 120 by omega))) $$ HiB
  iapply (step_gather1 d L tab nf np hnf hnp cc0_scratch4.sem qT.right (k0_off5 t) (k0_off5_inb t) (2 * t.val + 1) (off5_zero t) _ _ _ _ _ _ _ _ _) $$ [HD_src HtB HiB Hc4]
  · isplitl [HD_src]; · iexact HD_src
    isplitl [HtB]; · iexact HtB
    isplitl [HiB]; · iexact HiB
    iexact Hc4
  iintro HB
  sl_exec
  -- the copy-out of chunk 2k from the first buffer
  ihave Hsp := (pointsTo_rows_split d (lo := 10320 * (wid L).val + 240 * t.val) (mid := 10320 * (wid L).val + 240 * t.val + 120) (hi := 10320 * (wid L).val + 10320) (by omega) (by omega) fullShare o0).1 $$ Hrt
  icases Hsp with ⟨HrC, Hrt⟩
  ihave HrC := (Entails.of_eq (rows_cast d fullShare o0 (show 10320 * (wid L).val + 240 * t.val = 10320 * (wid L).val + 120 * (2 * t.val) by omega) (show 10320 * (wid L).val + 240 * t.val + 120 = 10320 * (wid L).val + 120 * (2 * t.val) + 120 by omega))) $$ HrC
  iapply (step_copy0 d L tab nf np cc0_scratch5.sem (k0_off6 L t) (k0_off6_inb L t) (2 * t.val) (off6_eq' L t) o0 _ _ _ _ _) $$ [Hb0 HrC Hc5]
  · isplitl [Hb0]; · iexact Hb0
    isplitl [HrC]; · iexact HrC
    iexact Hc5
  iintro HC
  sl_exec
  -- the gather of chunk 2k+1 lands in the second buffer
  unfold gFlight1
  iapply (Transfers.wp_waitLocalO countersEmb 𝒱₀ (thr d L) none (default : HIx 1) rfl) $$ [HB HO]
  · isplitl [HB]; · iexact HB
    isplitl [HO]; · iexact HO
    iapply (Transfers.MayWaits.elim (SemLoc.dma cc0_scratch4.sem)) $$ Hmw
  iintro ⟨⟨Hb1, HtB, HiB⟩, Hc4, HO⟩
  sl_exec
  -- the copy-out of chunk 2k has left the first buffer
  unfold cFlight0
  iapply (Transfers.wp_waitLocalO countersEmb 𝒱₀ (thr d L) none (default : HIx 1) rfl) $$ [HC HO]
  · isplitl [HC]; · iexact HC
    isplitl [HO]; · iexact HO
    iapply (Transfers.MayWaits.elim (SemLoc.dma cc0_scratch5.sem)) $$ Hmw
  iintro ⟨⟨HrC, Hb0⟩, Hc5, HO⟩
  sl_exec
  -- the copy-out of chunk 2k+1 from the second buffer
  ihave Hsp := (pointsTo_rows_split d (lo := 10320 * (wid L).val + 240 * t.val + 120) (mid := 10320 * (wid L).val + 240 * t.val + 240) (hi := 10320 * (wid L).val + 10320) (by omega) (by omega) fullShare o0).1 $$ Hrt
  icases Hsp with ⟨HrD', Hrt⟩
  ihave HrD' := (Entails.of_eq (rows_cast d fullShare o0 (show 10320 * (wid L).val + 240 * t.val + 120 = 10320 * (wid L).val + 120 * (2 * t.val + 1) by omega) (show 10320 * (wid L).val + 240 * t.val + 240 = 10320 * (wid L).val + 120 * (2 * t.val + 1) + 120 by omega))) $$ HrD'
  iapply (step_copy1 d L tab nf np cc0_scratch6.sem (k0_off8 L t) (k0_off8_inb L t) (2 * t.val + 1) (off8_eq' L t) o0 _ _ _ _ _) $$ [Hb1 HrD' HD]
  · isplitl [Hb1]; · iexact Hb1
    isplitl [HrD']; · iexact HrD'
    iexact HD
  iintro HD'
  sl_exec
  sl_step
  unfold cFlight1
  isplitr; · iexact Hmw
  isplitl [Hb0 Hc3 HtA]
  · isplitl [Hb0]; · iexists _; iexact Hb0
    isplitl [Hc3]; · iexact Hc3
    iexact HtA
  isplitl [HD']; · iexact HD'
  isplitl [HtB]; · iexact HtB
  isplitl [Hid HiA HiB]
  · ihave H1 := (pointsTo_idx_split d L (lo := 0) (mid := 240 * t.val) (hi := 240 * t.val + 120) (by omega) (by omega) fullShare (tileIdx nf np L)).2 $$ [Hid HiA]
    · isplitl [Hid]; · iexact Hid
      iapply (Entails.of_eq (idx_cast d L fullShare _ (show 120 * (2 * t.val) = 240 * t.val by omega) (show 120 * (2 * t.val) + 120 = 240 * t.val + 120 by omega))) $$ HiA
    ihave H2 := (pointsTo_idx_split d L (lo := 0) (mid := 240 * t.val + 120) (hi := 240 * t.val + 240) (by omega) (by omega) fullShare (tileIdx nf np L)).2 $$ [H1 HiB]
    · isplitl [H1]; · iexact H1
      iapply (Entails.of_eq (idx_cast d L fullShare _ (show 120 * (2 * t.val + 1) = 240 * t.val + 120 by omega) (show 120 * (2 * t.val + 1) + 120 = 240 * t.val + 240 by omega))) $$ HiB
    iapply (Entails.of_eq (idx_cast d L fullShare _ (show 0 = 0 by omega) (show 240 * t.val + 240 = 240 * (t.val + 1) by omega))) $$ H2
  isplitl [Hit]
  · iapply (Entails.of_eq (idx_cast d L fullShare _ (show 240 * t.val + 240 = min (240 * (t.val + 1) + 120) 10320 by omega) (show 10320 = 10320 by omega))) $$ Hit
  isplitl [Hrd HD_dst HrC]
  · ihave H0 := (pointsTo_rows_split d (lo := 10320 * (wid L).val) (mid := 10320 * (wid L).val + (240 * t.val - 120)) (hi := 10320 * (wid L).val + 240 * t.val) (by omega) (by omega) fullShare (gathered tab nf np)).2 $$ [Hrd HD_dst]
    · isplitl [Hrd]; · iexact Hrd
      iapply (Entails.of_eq (rows_cast d fullShare _ (show 10320 * (wid L).val + 120 * (2 * t.val - 1) = 10320 * (wid L).val + (240 * t.val - 120) by omega) (show 10320 * (wid L).val + 120 * (2 * t.val - 1) + 120 = 10320 * (wid L).val + 240 * t.val by omega))) $$ HD_dst
    ihave H1 := (pointsTo_rows_split d (lo := 10320 * (wid L).val) (mid := 10320 * (wid L).val + 240 * t.val) (hi := 10320 * (wid L).val + 240 * t.val + 120) (by omega) (by omega) fullShare (gathered tab nf np)).2 $$ [H0 HrC]
    · isplitl [H0]; · iexact H0
      iapply (Entails.of_eq (rows_cast d fullShare _ (show 10320 * (wid L).val + 120 * (2 * t.val) = 10320 * (wid L).val + 240 * t.val by omega) (show 10320 * (wid L).val + 120 * (2 * t.val) + 120 = 10320 * (wid L).val + 240 * t.val + 120 by omega))) $$ HrC
    iapply (Entails.of_eq (rows_cast d fullShare _ (show 10320 * (wid L).val = 10320 * (wid L).val by omega) (show 10320 * (wid L).val + 240 * t.val + 120 = 10320 * (wid L).val + (240 * (t.val + 1) - 120) by omega))) $$ H1
  isplitl [Hrt]
  · iapply (Entails.of_eq (rows_cast d fullShare o0 (show 10320 * (wid L).val + 240 * t.val + 240 = 10320 * (wid L).val + 240 * (t.val + 1) by omega) (show 10320 * (wid L).val + 10320 = 10320 * (wid L).val + 10320 by omega))) $$ Hrt
  isplitl [Hc4]; · iexact Hc4
  isplitl [Hc5]; · iexact Hc5
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

theorem trips_eq : k0_t1_loop.trips = 43 := by decide

omit [FloatOps F] in
theorem rows_empty_fn (q : PosShare TreeShare) (f g : Buf (Elt F) (oLoc d)) {lo hi : ℕ} (h : hi ≤ lo) :
    (oLoc d ↦[rowsIn lo hi]{q} f : sProp 𝕄) = (oLoc d ↦[rowsIn lo hi]{q} g) :=
  pointsTo_congr fun i hi' => absurd (mem_keyIn.mp hi') (by omega)

theorem sem4_eq (h : 4 < 19) : (⟨4, h⟩ : DmaSem sig) = cc0_scoped0.sem := rfl
theorem sem5_eq (h : 5 < 19) : (⟨5, h⟩ : DmaSem sig) = cc0_scoped1.sem := rfl
theorem sem6_eq (h : 6 < 19) : (⟨6, h⟩ : DmaSem sig) = cc0_scoped2.sem := rfl

set_option maxHeartbeats 4000000 in

/-- The task on vector subcore `(L 0, L 1)`: the list fetched (one copy, or two for the last subcore), then 86 chunks of 120 rows
    gathered and copied out through two buffers, each copy waited for before its buffer or semaphore is used again. -/
theorem tile_body_aux (hF : (K (F := F)).Facts) (qN qP : PosShare TreeShare)
    (hnf : ∀ i, (nf i).toNat < 50000) (hnp : ∀ i, (np i).toNat < 50000) (hO : ∀ g, O g none = 0) :
    iprop(levAts (K (F := F)).L (K (F := F)).lev ∗ emp ∗ tileGo d L qT qN qP tab nf np o0
        ∗ scopedBufs (thr d L) ∗ scopedSems0 (thr d L) ∗ owes (thr d L) O W)
      ⊢ wp frame (wpE (defs₀ (F := F)) 𝒱₀ (thr d L) none) Set.univ
          (cc0__sc_gather_body L tV (Memref.isWhole_whole _) nV (Memref.isWhole_whole _) pV (Memref.isWhole_whole _) oV (Memref.isWhole_whole _)
            sI (Memref.isWhole_whole _) b0 (Memref.isWhole_whole _) b1 (Memref.isWhole_whole _)
            cc0_scratch3 cc0_scratch4 cc0_scratch5 cc0_scratch6 cc0_scoped0 cc0_scoped1 cc0_scoped2)
          fun _ => iprop(tileTd d L qT qN qP tab nf np ∗ scopedBufs (thr d L) ∗ scopedSems0 (thr d L)
            ∗ ∃ W', ⌜∀ p ∈ W', p ∈ W ∨ p.2 = none⌝ ∗ owes (thr d L) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V]
  unfold tileGo tileTd
  iintro ⟨#Hlv, -, ⟨Ht, Hn, Hp, Ho⟩, ⟨⟨⟨%f6, H6⟩, ⟨%f7, H7⟩, ⟨%f8, H8⟩⟩, Hbufs⟩, ⟨⟨Hc3, Hc4, Hc5, Hc6, Hs0, Hs1, Hs2⟩, Hsems⟩, HO⟩
  ihave Hmw := ((K (F := F)).mayWaits_none (thr := thr d L) hO) $$ Hlv
  ihave Hn' := (Entails.of_eq (pts_n (F := F) d L _ _).symm) $$ Hn
  ihave Hp' := (Entails.of_eq (pts_p (F := F) d L _ _).symm) $$ Hp
  ihave H6' := (Entails.of_eq (pts_sI (F := F) d L _ _).symm) $$ H6
  -- the list fetched: one copy, or two on the last subcore; either way the scratch holds the task's words
  by_cases k0_h1 : k0_cond1 L = 1#1
  on_goal 1 =>
    have k0_h2 : ¬ k0_cond2 L = 1#1 := by
      rw [cond2_iff]; have := (cond1_iff L).mp k0_h1; omega
    sl_exec
    sl_unfold_run_names
    rw [sem4_eq]
    ihave H6c := (Entails.of_eq (congrArg (fun g => ((thr d L).loc cc0_scratch0 ↦{fullShare} g : sProp 𝕄))
      ((View.write_whole_univ cc0_scratch0 f6 _).trans (fetch_main L k0_h1 nf np)))) $$ H6'
    ihave HOx : iprop(∃ W1, ⌜∀ p ∈ W1, p ∈ W ∨ p.2 = none⌝ ∗ owes (thr d L) O W1) $$ [HO]
    · iexists _; isplitr
      swap; · iexact HO
      ipureintro; intro p hp
      rcases Finset.mem_insert.mp hp with hp | hp; · exact .inr (hp ▸ rfl)
      exact .inl hp
  on_goal 2 =>
    have k0_h2 : k0_cond2 L = 1#1 := by
      rw [cond2_iff]; have := (cond1_iff L).not.mp k0_h1
      have h0 : (L 0).val < 2 := (L 0).isLt
      have h1 : (L 1).val < 16 := (L 1).isLt
      omega
    sl_exec
    sl_unfold_run_names
    rw [sem5_eq, sem6_eq]
    ihave H6c := (Entails.of_eq (congrArg (fun g => ((thr d L).loc cc0_scratch0 ↦{fullShare} g : sProp 𝕄))
      (fetch_last L k0_h2 nf np _))) $$ H6'
    ihave HOx : iprop(∃ W1, ⌜∀ p ∈ W1, p ∈ W ∨ p.2 = none⌝ ∗ owes (thr d L) O W1) $$ [HO]
    · iexists _; isplitr
      swap; · iexact HO
      ipureintro; intro p hp
      rcases Finset.mem_insert.mp hp with hp | hp; · exact .inr (hp ▸ rfl)
      rcases Finset.mem_insert.mp hp with hp | hp; · exact .inr (hp ▸ rfl)
      exact .inl hp
  all_goals
    icases HOx with ⟨%W1, %hW1, HO⟩
    -- the table's share in two, one per buffer's gathers; the list's windows and the result's rows as intervals
    ihave Hts := (pointsTo_share (PosShare.mem_left_op_right qT)).1 $$ Ht
    icases Hts with ⟨HtA, HtB⟩
    ihave Hi0 := (Entails.of_eq (show ((thr d L).loc cc0_scratch0 ↦{fullShare} tileIdx nf np L : sProp 𝕄)
        = ((thr d L).loc cc0_scratch0 ↦[idxIn 0 10320]{fullShare} tileIdx nf np L) by rw [idxIn_univ])) $$ H6c
    ihave Hsp := (pointsTo_idx_split d L (lo := 0) (mid := 0) (hi := 10320) (by omega) (by omega) fullShare (tileIdx nf np L)).1 $$ Hi0
    icases Hsp with ⟨Hid, Hi0⟩
    ihave Hsp := (pointsTo_idx_split d L (lo := 0) (mid := 120) (hi := 10320) (by omega) (by omega) fullShare (tileIdx nf np L)).1 $$ Hi0
    icases Hsp with ⟨HiA, Hit⟩
    ihave Hr0 := (Entails.of_eq (show (oLoc d ↦[tileRows (wid L)]{fullShare} o0 : sProp 𝕄)
        = (oLoc d ↦[rowsIn (10320 * (wid L).val) (10320 * (wid L).val + 10320)]{fullShare} o0) by rw [tileRows_eq])) $$ Ho
    ihave Hsp := (pointsTo_rows_split d (lo := 10320 * (wid L).val) (mid := 10320 * (wid L).val) (hi := 10320 * (wid L).val + 10320) (by omega) (by omega) fullShare o0).1 $$ Hr0
    icases Hsp with ⟨Hrd0, Hrt⟩
    ihave Hrd1 := (Entails.of_eq (rows_empty_fn d fullShare o0 (gathered tab nf np) (lo := 10320 * (wid L).val) (hi := 10320 * (wid L).val) (le_refl _))) $$ Hrd0
    -- the first gather
    iapply (step_gather0 d L tab nf np hnf hnp cc0_scratch3.sem qT.left ![0] inb_S10320_S120_0 0 rfl _ _ _ _ _ _ _ _ _) $$ [H7 HtA HiA Hc3]
    · isplitl [H7]; · iexact H7
      isplitl [HtA]; · iexact HtA
      isplitl [HiA]; · iexact HiA
      iexact Hc3
    iintro HA
    sl_exec
    sl_for (inv d L qT tab nf np o0 O W1) $$ [Hmw HA H8 Hc6 HtB Hid Hit Hrd1 Hrt Hc4 Hc5 HO]
    case region =>
      intro t acc
      by_cases hk0 : t.val = 0
      · exact trip_first d L qT tab nf np o0 O W1 hnf hnp t _ hk0
      · by_cases hk1 : t.val = 42
        · exact trip_last d L qT tab nf np o0 O W1 hnf hnp t _ hk0 hk1
        · exact trip_mid d L qT tab nf np o0 O W1 hnf hnp t _ hk0 hk1
    · unfold inv
      rw [Apart_lt d L qT tab nf np (show 0 < 43 by decide), Dpart_zero' d L tab nf np rfl]
      isplitr; · iexact Hmw
      isplitl [HA]; · iexact HA
      isplitl [H8 Hc6]
      · isplitl [H8]; · iexists _; iexact H8
        iexact Hc6
      isplitl [HtB]; · iexact HtB
      isplitl [Hid]; · iexact Hid
      isplitl [Hit]; · iexact Hit
      isplitl [Hrd1]
      · iapply (Entails.of_eq (rows_cast d fullShare (gathered tab nf np) (show 10320 * (wid L).val = 10320 * (wid L).val from rfl) (show 10320 * (wid L).val = 10320 * (wid L).val + (240 * 0 - 120) from rfl))) $$ Hrd1
      isplitl [Hrt]
      · iapply (Entails.of_eq (rows_cast d fullShare o0 (show 10320 * (wid L).val = 10320 * (wid L).val + 240 * 0 by omega) (show 10320 * (wid L).val + 10320 = 10320 * (wid L).val + 10320 from rfl))) $$ Hrt
      isplitl [Hc4]; · iexact Hc4
      isplitl [Hc5]; · iexact Hc5
      iexists W1; isplitr
      · ipureintro; exact fun p hp => .inl hp
      · iexact HO
    iintro %_ HI
    unfold inv
    rw [show Scf.trips k0_t1_loop.lb k0_t1_loop.ub k0_t1_loop.st = 43 from trips_eq, Apart_ge d L qT tab nf np (show ¬ 43 < 43 by decide), Dpart_pos d L tab nf np (show 43 ≠ 0 by decide)]
    icases HI with ⟨-, ⟨⟨%g7, H7⟩, Hc3, HtA⟩, HD, HtB, Hid, Hit, Hrd, Hrt, Hc4, Hc5, %W2, %hW2, HO⟩
    sl_exec
    -- the last copy-out has left the second buffer
    unfold cFlight1
    iapply (Transfers.wp_waitLocalO countersEmb 𝒱₀ (thr d L) none (default : HIx 1) rfl) $$ [HD HO]
    · isplitl [HD]; · iexact HD
      isplitl [HO]; · iexact HO
      iapply (Transfers.MayWaits.elim (SemLoc.dma cc0_scratch6.sem)) $$ Hmw
    iintro ⟨⟨HrD, H8⟩, Hc6, HO⟩
    sl_exec
    sl_step
    -- the task's rows, all at the gathered array
    isplitl [HtA HtB Hn' Hp' Hrd Hrt HrD]
    · isplitl [HtA HtB]
      · iapply (pointsTo_share (PosShare.mem_left_op_right qT)).2
        isplitl [HtA]; · iexact HtA
        iexact HtB
      isplitl [Hn']; · iexact Hn'
      isplitl [Hp']; · iexact Hp'
      ihave H1 := (pointsTo_rows_split d (lo := 10320 * (wid L).val) (mid := 10320 * (wid L).val + 10200) (hi := 10320 * (wid L).val + 10320) (by omega) (by omega) fullShare (gathered tab nf np)).2 $$ [Hrd HrD]
      · isplitl [Hrd]
        · iapply (Entails.of_eq (rows_cast d fullShare _ (show 10320 * (wid L).val = 10320 * (wid L).val by omega) (show 10320 * (wid L).val + (240 * 43 - 120) = 10320 * (wid L).val + 10200 by omega))) $$ Hrd
        iapply (Entails.of_eq (rows_cast d fullShare _ (show 10320 * (wid L).val + 120 * (2 * 43 - 1) = 10320 * (wid L).val + 10200 by omega) (show 10320 * (wid L).val + 120 * (2 * 43 - 1) + 120 = 10320 * (wid L).val + 10320 by omega))) $$ HrD
      ihave Hrt' := (Entails.of_eq (rows_empty_fn d fullShare o0 (gathered tab nf np) (lo := 10320 * (wid L).val + 240 * 43) (hi := 10320 * (wid L).val + 10320) (by omega))) $$ Hrt
      ihave H2 := (pointsTo_rows_split d (lo := 10320 * (wid L).val) (mid := 10320 * (wid L).val + 10320) (hi := 10320 * (wid L).val + 10320) (by omega) (by omega) fullShare (gathered tab nf np)).2 $$ [H1 Hrt']
      · isplitl [H1]; · iexact H1
        iapply (Entails.of_eq (rows_cast d fullShare _ (show 10320 * (wid L).val + 240 * 43 = 10320 * (wid L).val + 10320 by omega) (show 10320 * (wid L).val + 10320 = 10320 * (wid L).val + 10320 by omega))) $$ Hrt'
      iapply (Entails.of_eq (show (oLoc d ↦[rowsIn (10320 * (wid L).val) (10320 * (wid L).val + 10320)]{fullShare} gathered tab nf np : sProp 𝕄)
          = (oLoc d ↦[tileRows (wid L)]{fullShare} gathered tab nf np) by rw [tileRows_eq])) $$ H2
    isplitl [Hid Hit H7 H8 Hbufs]
    · isplitl [Hid Hit H7 H8]
      · isplitl [Hid Hit]
        · iexists (tileIdx nf np L)
          ihave H1 := (pointsTo_idx_split d L (lo := 0) (mid := 10320) (hi := 10320) (by omega) (by omega) fullShare (tileIdx nf np L)).2 $$ [Hid Hit]
          · isplitl [Hid]
            · iapply (Entails.of_eq (idx_cast d L fullShare _ (show 0 = 0 by omega) (show 240 * 43 = 10320 by omega))) $$ Hid
            iapply (Entails.of_eq (idx_cast d L fullShare _ (show min (240 * 43 + 120) 10320 = 10320 by omega) (show 10320 = 10320 by omega))) $$ Hit
          iapply (Entails.of_eq (show ((thr d L).loc cc0_scratch0 ↦[idxIn 0 10320]{fullShare} tileIdx nf np L : sProp 𝕄)
              = ((thr d L).loc cc0_scratch0 ↦{fullShare} tileIdx nf np L) by rw [idxIn_univ])) $$ H1
        isplitl [H7]; · iexists _; iexact H7
        iexists _; iexact H8
      iexact Hbufs
    isplitl [Hc3 Hc4 Hc5 Hc6 Hs0 Hs1 Hs2 Hsems]
    · isplitl [Hc3 Hc4 Hc5 Hc6 Hs0 Hs1 Hs2]
      · isplitl [Hc3]; · iexact Hc3
        isplitl [Hc4]; · iexact Hc4
        isplitl [Hc5]; · iexact Hc5
        isplitl [Hc6]; · iexact Hc6
        isplitl [Hs0]; · iexact Hs0
        isplitl [Hs1]; · iexact Hs1
        iexact Hs2
      iexact Hsems
    iexists _; isplitr
    swap; · iexact HO
    ipureintro; intro p hp
    rcases Finset.mem_insert.mp hp with hp | hp; · exact .inr (hp ▸ rfl)
    rcases hW2 p hp with h | h
    · exact hW1 p h
    · exact .inr h

/-- The task's obligation, its binders in the order the launch cites them. -/
theorem tile_body (hF : (K (F := F)).Facts) (dd : Dev nD) (LL : grid0.Coords) (qT' qN qP : PosShare TreeShare)
    (tab' : Buf (Elt F) (tLoc dd)) (nf' : Buf (Elt F) (nLoc dd)) (np' : Buf (Elt F) (pLoc dd)) (o0' : Buf (Elt F) (oLoc dd))
    (hnf : ∀ i, (nf' i).toNat < 50000) (hnp : ∀ i, (np' i).toNat < 50000)
    (O' : CellTallies nD τ sig (HIx 1)) (W' : Waits sig (HIx 1)) (hO : ∀ g, O' g none = 0) :
    iprop(levAts (K (F := F)).L (K (F := F)).lev ∗ emp ∗ tileGo dd LL qT' qN qP tab' nf' np' o0'
        ∗ scopedBufs (V dd (cV LL) (jV LL)) ∗ scopedSems0 (V dd (cV LL) (jV LL)) ∗ owes (V dd (cV LL) (jV LL)) O' W')
      ⊢ wp frame (wpE (defs₀ (F := F)) 𝒱₀ (V dd (cV LL) (jV LL)) none) Set.univ
          (cc0__sc_gather_body LL (Memref.whole main_arg2_scv) (Memref.isWhole_whole _) (Memref.whole main_v10_scv) (Memref.isWhole_whole _)
            (Memref.whole main_v9_scv) (Memref.isWhole_whole _) (Memref.whole main_v11_scv) (Memref.isWhole_whole _)
            (Memref.whole cc0_scratch0) (Memref.isWhole_whole _) (Memref.whole cc0_scratch1) (Memref.isWhole_whole _)
            (Memref.whole cc0_scratch2) (Memref.isWhole_whole _)
            cc0_scratch3 cc0_scratch4 cc0_scratch5 cc0_scratch6 cc0_scoped0 cc0_scoped1 cc0_scoped2)
          fun _ => iprop(tileTd dd LL qT' qN qP tab' nf' np' ∗ scopedBufs (V dd (cV LL) (jV LL)) ∗ scopedSems0 (V dd (cV LL) (jV LL))
            ∗ ∃ W'', ⌜∀ p ∈ W'', p ∈ W' ∨ p.2 = none⌝ ∗ owes (V dd (cV LL) (jV LL)) O' W'') :=
  tile_body_aux dd LL qT' tab' nf' np' o0' O' W' hF qN qP hnf hnp hO

end Cert.KernelIdeal.ScTile
end
-- ==== Proof.TcRegion.lean ====
import proofs.«215990_g90829968376431_cont_sun_c4_571_51_alg».proof.Proof.TcBody
import Idealize.ShloMosaic.Lib.Pipeline.Regions
import Idealize.ShloMosaic.Lib.SparseCore.Threads

set_option maxRecDepth 16384

noncomputable section

namespace Cert.KernelIdeal.TcRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.TcBody
open Idealize.ShloMosaic.SparseCore.Cfg (HIx)

variable {F : FTy → Type} [FloatOps F] {UU : Type} [URA UU]

local notation "𝕄" => MT nD τ sig (HIx 1) (Elt F) ℕ UU ℕ

/-! # The region as a step of the TensorCore's program

The pipeline's region entered from the operand arrays held whole: the gathered rows' share halved between the two
windows that read them and joined again at the exit; the staging cells' invariants allocated from the ghost state the
launch dealt; the thread's debts carried through, every wait of the region at the kernels' own index. -/

section Region

variable [∀ e, Nonempty (Elt F e)]
variable (EP : Emb (URounds (GSem nD τ sig) Unit) (MT nD τ sig (HIx 1) (Elt F) ℕ UU ℕ)) [EP.LandsIn (upEmb : UEmb _ (MT nD τ sig (HIx 1) (Elt F) ℕ UU ℕ))]
variable (𝒱₀ : Variants) (L : GSem nD τ sig → Finset (HIx 1)) (lv : GSem nD τ sig → HIx 1 → ℕ)
variable (g : Vec F S330240x128 .f32) (w1a w1b : Vec F S128x128 .bf16) (b1 : Vec F S1x128 .f32)
  (w2 : Vec F S128x128 .bf16) (b2 w3 : Vec F S1x128 .f32) (o : Vec F S10000x128 .f32)
  (O : CellTallies nD τ sig (HIx 1)) (W : Waits sig (HIx 1))

/-- The pipeline has no prefetched table. -/
abbrev adm : (p : Fin 1) → (pcfgs (F := F) p).Adm := fun p => (cfgs p).toPCfg_adm

/-- The one pipeline's proof data. -/
def pdats : (p : Fin 1) → (c : Dev nD) → Dat τ (Elt F) (HIx 1) ℕ UU ℕ (Pipeline.pin (pcfgs (F := F)) adm p) c
  | ⟨0, _⟩ => fun c => dat (UU := UU) g w1a w1b b1 w2 b2 w3 o O W c

/-- The launch element the staging cells are funded from. -/
def ghost₀ : URounds (GSem nD τ sig) Unit :=
  initOf (Pipeline.cells cfgs cellOf_inj) (Pipeline.launchToks cfgs cellOf_inj)

/-- What the launch deals the TensorCore of device `d` for the pipeline's cells. -/
abbrev regionGhost (d : Dev nD) : sProp 𝕄 :=
  iprop(Pipeline.cellsGhost (Pipeline.pin (pcfgs (F := F)) adm) EP 0 d ∗ Pipeline.toksInit (Pipeline.pin (pcfgs (F := F)) adm) EP 0 d)

theorem fund : (BI.own (EP ghost₀) : sProp 𝕄) ⊢ iprop(|==> bigSep Finset.univ fun d : Dev nD => regionGhost EP d) := by
  have h := Pipeline.fund_ghost (Pipeline.pin (pcfgs (F := F)) adm) EP cellOf_inj
  refine (show (BI.own (EP ghost₀) : sProp 𝕄) ⊢ _ from h).trans (BI.bupd_mono ?_)
  rw [← bigSep_sep']
  refine BI.bigSep_mono fun d _ => ?_
  rw [BI.bigSep_univ_of_subsingleton (0 : Fin 1), BI.bigSep_univ_of_subsingleton (0 : Fin 1)]
  exact BI.Entails.refl _

/-- The operand arrays and the result's, whole, as the thread state holds them. -/
abbrev held (c : Dev nD) (r : Vec F S10000x128 .f32) : sProp 𝕄 :=
  iprop(((SparseCore.T c).loc main_v11 ↦{fullShare} g) ∗ ((SparseCore.T c).loc main_v1 ↦{fullShare} w1a) ∗ ((SparseCore.T c).loc main_v3 ↦{fullShare} w1b) ∗ ((SparseCore.T c).loc main_v5 ↦{fullShare} b1) ∗ ((SparseCore.T c).loc main_v4 ↦{fullShare} w2) ∗ ((SparseCore.T c).loc main_v6 ↦{fullShare} b2) ∗ ((SparseCore.T c).loc main_v7 ↦{fullShare} w3) ∗ ((SparseCore.T c).loc main_v12 ↦{fullShare} r))

/-- The pipeline's arrays at contents `F`, window by window: the gathered rows in two halves. -/
theorem arrays_eq (c : Dev nD) (A : (w : Fin cfg1.W) → Buf (Elt F) ((cfg1.win w).arr.view.loc (c.tc : Thread nD τ))) :
    (dat (UU := UU) g w1a w1b b1 w2 b2 w3 o O W c).arrays A
      = iprop(((SparseCore.T c).loc main_v11 ↦{fullShare.left} A 0) ∗ ((SparseCore.T c).loc main_v11 ↦{fullShare.right} A 1)
          ∗ ((SparseCore.T c).loc main_v1 ↦{fullShare} A 2) ∗ ((SparseCore.T c).loc main_v3 ↦{fullShare} A 3)
          ∗ ((SparseCore.T c).loc main_v5 ↦{fullShare} A 4) ∗ ((SparseCore.T c).loc main_v4 ↦{fullShare} A 5)
          ∗ ((SparseCore.T c).loc main_v6 ↦{fullShare} A 6) ∗ ((SparseCore.T c).loc main_v7 ↦{fullShare} A 7)
          ∗ ((SparseCore.T c).loc main_v12 ↦{fullShare} A 8)) := by
  unfold Dat.arrays
  rw [bigSep_W1]
  rw [(arr_whole1 0).set_eq_univ, (arr_whole1 2).set_eq_univ, (arr_whole1 3).set_eq_univ, (arr_whole1 4).set_eq_univ,
    (arr_whole1 5).set_eq_univ, (arr_whole1 6).set_eq_univ, (arr_whole1 7).set_eq_univ, (arr_whole1 8).set_eq_univ]
  rfl

/-- ENTRY: the operand arrays held whole make the pipeline's arrays at their entry contents. -/
theorem hsplit (c : Dev nD) : held g w1a w1b b1 w2 b2 w3 c o ⊢ (dat (UU := UU) g w1a w1b b1 w2 b2 w3 o O W c).arrays ((dat (UU := UU) g w1a w1b b1 w2 b2 w3 o O W c).arrAt · 0) := by
  rw [arrays_eq]
  show held g w1a w1b b1 w2 b2 w3 c o
    ⊢ iprop(((SparseCore.T c).loc main_v11 ↦{fullShare.left} g) ∗ ((SparseCore.T c).loc main_v11 ↦{fullShare.right} g)
          ∗ ((SparseCore.T c).loc main_v1 ↦{fullShare} w1a) ∗ ((SparseCore.T c).loc main_v3 ↦{fullShare} w1b)
          ∗ ((SparseCore.T c).loc main_v5 ↦{fullShare} b1) ∗ ((SparseCore.T c).loc main_v4 ↦{fullShare} w2)
          ∗ ((SparseCore.T c).loc main_v6 ↦{fullShare} b2) ∗ ((SparseCore.T c).loc main_v7 ↦{fullShare} w3)
          ∗ ((SparseCore.T c).loc main_v12 ↦{fullShare} o))
  unfold held
  iintro ⟨Hg, H1, H3, H5, H4, H6, H7, H12⟩
  ihave Hg2 := (pointsTo_share (PosShare.mem_left_op_right fullShare)).1 $$ Hg
  icases Hg2 with ⟨HgL, HgR⟩
  isplitl [HgL]; · iexact HgL
  isplitl [HgR]; · iexact HgR
  isplitl [H1]; · iexact H1
  isplitl [H3]; · iexact H3
  isplitl [H5]; · iexact H5
  isplitl [H4]; · iexact H4
  isplitl [H6]; · iexact H6
  isplitl [H7]; · iexact H7
  iexact H12

/-- EXIT: the pipeline's arrays at their final contents are the operand arrays as they were and the result at `tcOut`. -/
theorem hjoin (c : Dev nD) : (dat (UU := UU) g w1a w1b b1 w2 b2 w3 o O W c).arrays ((dat (UU := UU) g w1a w1b b1 w2 b2 w3 o O W c).arrAt · cfg1.N) ⊢ held g w1a w1b b1 w2 b2 w3 c (tcOut g w1a w1b b1 w2 b2 w3) := by
  rw [arrays_eq]
  rw [final0, final1, final2, final3, final4, final5, final6, final7, final8]
  show iprop(((SparseCore.T c).loc main_v11 ↦{fullShare.left} g) ∗ ((SparseCore.T c).loc main_v11 ↦{fullShare.right} g)
          ∗ ((SparseCore.T c).loc main_v1 ↦{fullShare} w1a) ∗ ((SparseCore.T c).loc main_v3 ↦{fullShare} w1b)
          ∗ ((SparseCore.T c).loc main_v5 ↦{fullShare} b1) ∗ ((SparseCore.T c).loc main_v4 ↦{fullShare} w2)
          ∗ ((SparseCore.T c).loc main_v6 ↦{fullShare} b2) ∗ ((SparseCore.T c).loc main_v7 ↦{fullShare} w3)
          ∗ ((SparseCore.T c).loc main_v12 ↦{fullShare} (tcOut g w1a w1b b1 w2 b2 w3)))
    ⊢ held g w1a w1b b1 w2 b2 w3 c (tcOut g w1a w1b b1 w2 b2 w3)
  unfold held
  iintro ⟨HgL, HgR, H1, H3, H5, H4, H6, H7, H12⟩
  isplitl [HgL HgR]
  · iapply (pointsTo_share (PosShare.mem_left_op_right fullShare)).2
    isplitl [HgL]; · iexact HgL
    iexact HgR
  isplitl [H1]; · iexact H1
  isplitl [H3]; · iexact H3
  isplitl [H5]; · iexact H5
  isplitl [H4]; · iexact H4
  isplitl [H6]; · iexact H6
  isplitl [H7]; · iexact H7
  iexact H12

/-- What the thread owes after the region: the same debts, its recorded waits those it had and the region's own. -/
abbrev owesAfter (c : Dev nD) : sProp 𝕄 :=
  iprop(∃ W' : Waits sig (HIx 1), ⌜∀ p ∈ W', p ∈ W ∨ p.2 = none⌝ ∗ owes (SparseCore.T c) O W')

set_option backward.isDefEq.respectTransparency.types false in
/-- The region as a record of the library's sequence of regions. -/
def reg (hmw : ∀ (c : Dev nD) (sm : SemLoc sig), (levAts L lv : sProp (MT nD τ sig (HIx 1) (Elt F) ℕ UU ℕ)) ⊢ MayWait (SparseCore.T c) sm none O) :
    Pipeline.RegionSeg (pcfgs (F := F)) adm (pdats (UU := UU) g w1a w1b b1 w2 b2 w3 o O W) none defs₀ 𝒱₀ L lv 0 where
  win := winFacts₀1
  block_pos := block_pos1
  stage_whole := stage_whole1
  K := PEmpty
  osem k := k.elim
  ho := Pipeline.OwnSemFacts.none _
  hbody c := (body_obligation (UU := UU) g w1a w1b b1 w2 b2 w3 o O W 𝒱₀ c).loose
  hwaits c := Pipeline.cellsWaits_intro (Pipeline.pin (pcfgs (F := F)) adm) (pdats (UU := UU) g w1a w1b b1 w2 b2 w3 o O W) none 0 c fun w s t => hmw c _
  pre c := iprop(held g w1a w1b b1 w2 b2 w3 c o ∗ owes (SparseCore.T c) O W)
  post c := iprop(held g w1a w1b b1 w2 b2 w3 c (tcOut g w1a w1b b1 w2 b2 w3) ∗ owesAfter O W c)
  X _ := iprop(emp)
  Y _ := iprop(emp)
  Z _ := iprop(emp)
  hentry c := by
    rw [Pipeline.ownSems0_none]
    iintro ⟨⟨Hh, HO⟩, -, -⟩
    imodintro
    isplitl [Hh]
    · iapply (hsplit (UU := UU) g w1a w1b b1 w2 b2 w3 o O W c); iexact Hh
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl hp
      iexact HO
    isplitr; · iempintro
    iempintro
  hin c := by
    rw [show (pdats (UU := UU) g w1a w1b b1 w2 b2 w3 o O W 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats (UU := UU) g w1a w1b b1 w2 b2 w3 o O W 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    iintro ⟨Ha, HO, -, -⟩
    imodintro
    isplitl [Ha]
    · iapply (hjoin (UU := UU) g w1a w1b b1 w2 b2 w3 o O W c); iexact Ha
    unfold Pipeline.Dat.owesAt Pipeline.owesWithin
    icases HO with ⟨%W', %hW', HO⟩
    iexists W'; isplitr
    · ipureintro
      intro p hp
      rcases hW' hp with h | ⟨w, s, rfl⟩
      · exact Or.inl h
      · exact Or.inr rfl
    iexact HO

/-- The pipeline's entry call, lifted to the SparseCore program's labels, is the line of @main. -/
theorem lift_entry :
    (SparseCore.liftProg (Q := 1) ((.op (.customCall (Pipeline.entry 0) ()) fun _ => .ret ⟨⟩ :
        Prog (TpuEff nD τ sig (Elt F) (Pipeline.Sig Λ₀ (Fin 1) fun p => (pcfgs (F := F) p).Adm) .tc) PUnit)) :
      Prog (TpuEff nD τ sig (Elt F) (SparseCore.Sig (Pipeline.Sig Λ₀ (Fin 1) fun p => (pcfgs (F := F) p).Adm) 1) .tc) PUnit)
      = .op (.customCall (SparseCore.inner (Pipeline.entry 0)) ()) fun _ => .ret ⟨⟩ := rfl

set_option maxHeartbeats 1000000 in
set_option backward.isDefEq.respectTransparency.types false in
/-- The region's step under the pipeline's own body table: the library's rule for one region of a sequence, at the record above. -/
theorem wp_inner (hmw : ∀ (c : Dev nD) (sm : SemLoc sig), (levAts L lv : sProp (MT nD τ sig (HIx 1) (Elt F) ℕ UU ℕ)) ⊢ MayWait (SparseCore.T c) sm none O) (d : Dev nD) (Φ : PUnit → sProp 𝕄) :
    iprop((iprop(boundary (SparseCore.T d) ∗ (reg (UU := UU) 𝒱₀ L lv g w1a w1b b1 w2 b2 w3 o O W hmw).post d) -∗ wp frame (wpE (Pipeline.defs (pcfgs (F := F)) defs₀) (Variants.lift 𝒱₀) (SparseCore.T d) none) Set.univ (.ret ⟨⟩) Φ)
        ∗ boundary (SparseCore.T d) ∗ (reg (UU := UU) 𝒱₀ L lv g w1a w1b b1 w2 b2 w3 o O W hmw).pre d ∗ levAts L lv
        ∗ Pipeline.cellsGhost (Pipeline.pin (pcfgs (F := F)) adm) EP 0 d ∗ Pipeline.toksInit (Pipeline.pin (pcfgs (F := F)) adm) EP 0 d)
      ⊢ wp frame (wpE (Pipeline.defs (pcfgs (F := F)) defs₀) (Variants.lift 𝒱₀) (SparseCore.T d) none) Set.univ ((.op (.customCall (Pipeline.entry 0) ()) fun _ => .ret ⟨⟩ :
        Prog (TpuEff nD τ sig (Elt F) (Pipeline.Sig Λ₀ (Fin 1) fun p => (pcfgs (F := F) p).Adm) .tc) PUnit)) Φ :=
  Pipeline.RegionSeg.wp (pcfgs (F := F)) adm (pdats (UU := UU) g w1a w1b b1 w2 b2 w3 o O W) none cellOf_inj EP defs₀ 𝒱₀ L lv
    (reg (UU := UU) 𝒱₀ L lv g w1a w1b b1 w2 b2 w3 o O W hmw) d none (fun _ h => nomatch h) (fun _ => .ret ⟨⟩) Φ

/-- THE REGION'S STEP inside the SparseCore program's @main, the continuation as a weakest precondition: from the
    region boundary, the operand arrays and the result's held whole, the thread's debts, the level facts and the
    pipeline's ghost state, the call of the pipeline's entry runs to the boundary, the operands as they were, the
    result at `tcOut` of them, and the debts. -/
theorem wp_region' (hmw : ∀ (c : Dev nD) (sm : SemLoc sig), (levAts L lv : sProp (MT nD τ sig (HIx 1) (Elt F) ℕ UU ℕ)) ⊢ MayWait (SparseCore.T c) sm none O) (d : Dev nD) (Φ : PUnit → sProp 𝕄) :
    iprop(boundary (SparseCore.T d) ∗ held g w1a w1b b1 w2 b2 w3 d o ∗ owes (SparseCore.T d) O W ∗ levAts L lv ∗ regionGhost EP d
        ∗ (iprop(boundary (SparseCore.T d) ∗ held g w1a w1b b1 w2 b2 w3 d (tcOut g w1a w1b b1 w2 b2 w3) ∗ owesAfter O W d) -∗ wp frame (wpE ((sc (F := F)).defs (Pipeline.defs (pcfgs (F := F)) defs₀)) (Variants.lift 𝒱₀) (SparseCore.T d) none) Set.univ (.ret ⟨⟩) Φ))
      ⊢ wp frame (wpE ((sc (F := F)).defs (Pipeline.defs (pcfgs (F := F)) defs₀)) (Variants.lift 𝒱₀) (SparseCore.T d) none) Set.univ (.op (.customCall (SparseCore.inner (Pipeline.entry 0)) ()) fun _ => .ret ⟨⟩) Φ := by
  rw [← lift_entry]
  refine .trans ?_ ((sc (F := F)).wp_liftProg (Pipeline.defs (pcfgs (F := F)) defs₀) (Variants.lift 𝒱₀) (SparseCore.T d) Set.univ none _ _)
  refine .trans ?_ (wp_inner EP 𝒱₀ L lv g w1a w1b b1 w2 b2 w3 o O W hmw d Φ)
  rw [wp_ret, wp_ret,
    show (reg (UU := UU) 𝒱₀ L lv g w1a w1b b1 w2 b2 w3 o O W hmw).post d = iprop(held g w1a w1b b1 w2 b2 w3 d (tcOut g w1a w1b b1 w2 b2 w3) ∗ owesAfter O W d) from rfl,
    show (reg (UU := UU) 𝒱₀ L lv g w1a w1b b1 w2 b2 w3 o O W hmw).pre d = iprop(held g w1a w1b b1 w2 b2 w3 d o ∗ owes (SparseCore.T d) O W) from rfl]
  iintro ⟨Hb, Hh, HO, Hlev, ⟨Hcg, Htk⟩, Hk⟩
  isplitl [Hk]
  · iintro ⟨Hb, Hh, HO⟩
    iapply Hk
    isplitl [Hb]; · iexact Hb
    isplitl [Hh]; · iexact Hh
    iexact HO
  isplitl [Hb]; · iexact Hb
  isplitl [Hh HO]
  · isplitl [Hh]; · iexact Hh
    iexact HO
  isplitl [Hlev]; · iexact Hlev
  isplitl [Hcg]; · iexact Hcg
  iexact Htk

/-- The same with the continuation as an assertion. -/
theorem wp_region (hmw : ∀ (c : Dev nD) (sm : SemLoc sig), (levAts L lv : sProp (MT nD τ sig (HIx 1) (Elt F) ℕ UU ℕ)) ⊢ MayWait (SparseCore.T c) sm none O) (d : Dev nD) (Φ : PUnit → sProp 𝕄) :
    iprop(boundary (SparseCore.T d) ∗ held g w1a w1b b1 w2 b2 w3 d o ∗ owes (SparseCore.T d) O W ∗ levAts L lv ∗ regionGhost EP d
        ∗ (iprop(boundary (SparseCore.T d) ∗ held g w1a w1b b1 w2 b2 w3 d (tcOut g w1a w1b b1 w2 b2 w3) ∗ owesAfter O W d) -∗ Φ ⟨⟩))
      ⊢ wp frame (wpE ((sc (F := F)).defs (Pipeline.defs (pcfgs (F := F)) defs₀)) (Variants.lift 𝒱₀) (SparseCore.T d) none) Set.univ (.op (.customCall (SparseCore.inner (Pipeline.entry 0)) ()) fun _ => .ret ⟨⟩) Φ := by
  refine .trans ?_ (wp_region' EP 𝒱₀ L lv g w1a w1b b1 w2 b2 w3 o O W hmw d Φ)
  iintro ⟨Hb, Hh, HO, Hlev, Hg, Hk⟩
  isplitl [Hb]; · iexact Hb
  isplitl [Hh]; · iexact Hh
  isplitl [HO]; · iexact HO
  isplitl [Hlev]; · iexact Hlev
  isplitl [Hg]; · iexact Hg
  iintro H
  iapply (le_wp_ret _ _)
  iapply Hk
  iexact H

end Region

end Cert.KernelIdeal.TcRegion
end
-- ==== Proof.KiRegion.lean ====
/-
  The attention region and its staging cells' ghost state, as the launch of the program uses them.
-/
import proofs.«215990_g90829968376431_cont_sun_c4_571_51_alg».proof.Proof.KiLaunch
import proofs.«215990_g90829968376431_cont_sun_c4_571_51_alg».proof.Proof.TcRegion

noncomputable section

namespace Cert.KernelIdeal.Launch

open Cert.KernelIdeal Cert.KernelIdeal.Gen Cert.KernelIdeal.ScTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The staging cells' launch ghost state, per device. -/
abbrev RG : Dev nD → sProp 𝕄 := fun d => TcRegion.regionGhost (UU := UU) (EP (F := F)) d

/-- The launch element's middle component funds it. -/
theorem hfund [∀ e, Nonempty (Elt F e)] :
    (BI.own (EP (F := F) TcRegion.ghost₀) : sProp 𝕄) ⊢ iprop(|==> bigSep Finset.univ (RG (F := F))) :=
  TcRegion.fund (UU := UU) (EP (F := F))

/-- The attention region, in the form the launch uses it: the operand arrays one by one. -/
theorem regionSpec [∀ e, Nonempty (Elt F e)] : RegionSpec (F := F) (RG (F := F)) := by
  intro d O W hmw g w1a w1b b1 w2 b2 w3 Q
  iintro ⟨Hb, Hv11, Hv1, Hv3, Hv5, Hv4, Hv6, Hv7, ⟨%o, Hv12⟩, HO, Hlev, HG, Hk⟩
  iapply (TcRegion.wp_region' (UU := UU) (EP (F := F)) 𝒱₀ (K (F := F)).L (K (F := F)).lev g w1a w1b b1 w2 b2 w3 o O W
      (fun c sm => by have hcd : c = d := Subsingleton.elim (α := Fin 1) c d; subst hcd; exact hmw sm) d Q) $$ [Hb Hv11 Hv1 Hv3 Hv5 Hv4 Hv6 Hv7 Hv12 HO Hlev HG Hk]
  isplitl [Hb]; · iexact Hb
  isplitl [Hv11 Hv1 Hv3 Hv5 Hv4 Hv6 Hv7 Hv12]
  · unfold TcRegion.held
    isplitl [Hv11]; · iexact Hv11
    isplitl [Hv1]; · iexact Hv1
    isplitl [Hv3]; · iexact Hv3
    isplitl [Hv5]; · iexact Hv5
    isplitl [Hv4]; · iexact Hv4
    isplitl [Hv6]; · iexact Hv6
    isplitl [Hv7]; · iexact Hv7
    iexact Hv12
  isplitl [HO]; · iexact HO
  isplitl [Hlev]; · iexact Hlev
  isplitl [HG]; · iexact HG
  iintro ⟨Hb, Hh, HO⟩
  unfold TcRegion.held
  icases Hh with ⟨Hv11, Hv1, Hv3, Hv5, Hv4, Hv6, Hv7, Hv12⟩
  iapply Hk
  isplitl [Hb]; · iexact Hb
  isplitl [Hv11]; · iexact Hv11
  isplitl [Hv1]; · iexact Hv1
  isplitl [Hv3]; · iexact Hv3
  isplitl [Hv5]; · iexact Hv5
  isplitl [Hv4]; · iexact Hv4
  isplitl [Hv6]; · iexact Hv6
  isplitl [Hv7]; · iexact Hv7
  isplitl [Hv12]; · iexact Hv12
  iexact HO

end Cert.KernelIdeal.Launch

end
-- ==== Proof.TcValue.lean ====
/-
  The dense stage's block function is the specification's attention block.

  The block function takes a block of 2560 gathered neighbour rows (row 32 a + k is neighbour k of the block's node
  a), a block of 80 own rows, the two halves of the first layer's weights, the second layer's weights, the two bias
  rows and the scoring row, and returns 80 rows. With floats read as extended reals every change of format is the
  identity, so each operation reads at an index as follows.

  * Layout: a [2560, 128] array viewed as [80, 32, 128] has entry (a, k, j) at row 32 a + k, and conversely row r is
    (r / 32, r % 32); a one-row array spread over rows reads its entry j everywhere; an array with a unit axis spread
    over that axis reads the entry at coordinate 0.
  * A reduction over one axis is the sum (or, for the maximum from −∞, the supremum) over that axis's coordinate.
  * A product into a zero accumulator is the sum over the contracted coordinate of the products.

  Reading the printed payloads through these gives, at node a, neighbour k, feature j: the second hidden layer
  max ((∑ i, max (A1 k i + HU i) 0 · w2 i j) + b2 j) 0 with A1 and HU the two halves of the first layer; the logit as
  the feature sum of its products with the scoring row; and the result as the sum over neighbours of the neighbour's
  row times exp (logit − largest logit) divided by the sum of those exponentials: the specification, term for term.
-/
import proofs.«215990_g90829968376431_cont_sun_c4_571_51_alg».proof.Proof.TcBody
import proofs.«215990_g90829968376431_cont_sun_c4_571_51_alg».proof.Proof.Spec
import Idealize.ShloMosaic.PureOps.Ideal.Laws
import Idealize.ShloMosaic.Lib.Pipeline.Value
import Idealize.ShloMosaic.Lib.ValueIdx

noncomputable section

open scoped BigOperators

namespace Cert.KernelIdeal.TcValue

open Idealize.ShloMosaic Idealize.ShloMosaic.ValueIdx
open Cert.KernelIdeal.Gen

variable [hK : Cert.KernelIdeal.Facts]

/-! ## Layout operations at an index -/

section Layout
variable {α : Type}

/-- [2560, 128] viewed as [80, 32, 128]: entry (a, k, j) is row 32 a + k. -/
theorem cast_rows_to_nodes (v : S2560x128.Idx → α) (h : S2560x128.ShapeCasts S80x32x128) (a : Fin 80) (k : Fin 32) (j : Fin 128) :
    shapeCast S80x32x128 v h (ix3 a k j) = v (ix2 (⟨32 * a.val + k.val, by omega⟩ : Fin 2560) j) := by
  refine shapeCast_apply v h (ix3 a k j) _ ?_
  rw [Shape.rowMajor_val_two, Shape.rowMajor_val_three]
  show (32 * a.val + k.val) * 128 + j.val = (a.val * 32 + k.val) * 128 + j.val
  omega

/-- [80, 32, 128] viewed as [2560, 128]: row r is (r / 32, r % 32). -/
theorem cast_nodes_to_rows (v : S80x32x128.Idx → α) (h : S80x32x128.ShapeCasts S2560x128) (r : Fin 2560) (j : Fin 128) :
    shapeCast S2560x128 v h (ix2 r j)
      = v (ix3 (⟨r.val / 32, by omega⟩ : Fin 80) (⟨r.val % 32, Nat.mod_lt _ (by norm_num)⟩ : Fin 32) j) := by
  refine shapeCast_apply v h (ix2 r j) _ ?_
  rw [Shape.rowMajor_val_two, Shape.rowMajor_val_three]
  show (r.val / 32 * 32 + r.val % 32) * 128 + j.val = r.val * 128 + j.val
  have : r.val / 32 * 32 + r.val % 32 = r.val := by omega
  rw [this]

/-- A one-row array spread over 80 rows. -/
theorem bc_row80 (b : S1x128.Idx → α) (h : S1x128.Broadcasts S80x128) (a : Fin 80) (j : Fin 128) :
    broadcastTo S80x128 b h (ix2 a j) = b (ix2 (0 : Fin 1) j) := by
  refine broadcastTo_apply b h (ix2 a j) _ ?_
  intro x
  match x with
  | ⟨0, _⟩ => rfl
  | ⟨1, _⟩ => rfl

/-- A one-row array spread over 2560 rows. -/
theorem bc_row2560 (b : S1x128.Idx → α) (h : S1x128.Broadcasts S2560x128) (r : Fin 2560) (j : Fin 128) :
    broadcastTo S2560x128 b h (ix2 r j) = b (ix2 (0 : Fin 1) j) := by
  refine broadcastTo_apply b h (ix2 r j) _ ?_
  intro x
  match x with
  | ⟨0, _⟩ => rfl
  | ⟨1, _⟩ => rfl

/-- An [80, 128] array spread over the 32 neighbours. -/
theorem bc_nodes (v : S80x128.Idx → α) (h1 : S80x128.ShapeCasts S80x1x128) (h2 : S80x1x128.Broadcasts S80x32x128)
    (a : Fin 80) (k : Fin 32) (j : Fin 128) :
    broadcastTo S80x32x128 (shapeCast S80x1x128 v h1) h2 (ix3 a k j) = v (ix2 a j) := by
  refine (broadcastTo_apply _ h2 (ix3 a k j) (ix3 a (0 : Fin 1) j) ?_).trans ?_
  · intro x
    match x with
    | ⟨0, _⟩ => rfl
    | ⟨1, _⟩ => rfl
    | ⟨2, _⟩ => rfl
  · refine shapeCast_apply v h1 (ix3 a (0 : Fin 1) j) _ ?_
    rw [Shape.rowMajor_val_two, Shape.rowMajor_val_three]
    show a.val * 128 + j.val = (a.val * 1 + 0) * 128 + j.val
    omega

/-- A one-row array spread over the 80 nodes and 32 neighbours. -/
theorem bc_w3 (w : S1x128.Idx → α) (h1 : S1x128.ShapeCasts S1x1x128) (h2 : S1x1x128.Broadcasts S80x32x128)
    (a : Fin 80) (k : Fin 32) (j : Fin 128) :
    broadcastTo S80x32x128 (shapeCast S1x1x128 w h1) h2 (ix3 a k j) = w (ix2 (0 : Fin 1) j) := by
  refine (broadcastTo_apply _ h2 (ix3 a k j) (ix3 (0 : Fin 1) (0 : Fin 1) j) ?_).trans ?_
  · intro x
    match x with
    | ⟨0, _⟩ => rfl
    | ⟨1, _⟩ => rfl
    | ⟨2, _⟩ => rfl
  · refine shapeCast_apply w h1 (ix3 (0 : Fin 1) (0 : Fin 1) j) _ ?_
    rw [Shape.rowMajor_val_two, Shape.rowMajor_val_three]
    show 0 * 128 + j.val = (0 * 1 + 0) * 128 + j.val
    omega

/-- [80, 32] with a trailing unit axis. -/
theorem cast_col (v : S80x32.Idx → α) (h : S80x32.ShapeCasts S80x32x1) (a : Fin 80) (k : Fin 32) (z : Fin 1) :
    shapeCast S80x32x1 v h (ix3 a k z) = v (ix2 a k) := by
  refine shapeCast_apply v h (ix3 a k z) _ ?_
  rw [Shape.rowMajor_val_two, Shape.rowMajor_val_three]
  show a.val * 32 + k.val = (a.val * 32 + k.val) * 1 + z.val
  have := z.isLt
  omega

/-- An [80, 1] array spread over the 32 neighbours. -/
theorem bc_col (v : S80x1.Idx → α) (h1 : S80x1.ShapeCasts S80x1x1) (h2 : S80x1x1.Broadcasts S80x32x1)
    (a : Fin 80) (k : Fin 32) (z : Fin 1) :
    broadcastTo S80x32x1 (shapeCast S80x1x1 v h1) h2 (ix3 a k z) = v (ix2 a (0 : Fin 1)) := by
  refine (broadcastTo_apply _ h2 (ix3 a k z) (ix3 a (0 : Fin 1) (0 : Fin 1)) ?_).trans ?_
  · intro x
    match x with
    | ⟨0, _⟩ => rfl
    | ⟨1, _⟩ => rfl
    | ⟨2, _⟩ => rfl
  · refine shapeCast_apply v h1 (ix3 a (0 : Fin 1) (0 : Fin 1)) _ ?_
    rw [Shape.rowMajor_val_two, Shape.rowMajor_val_three]
    show a.val * 1 + 0 = (a.val * 1 + 0) * 1 + 0
    omega

/-- An [80, 32, 1] array spread over the 128 features. -/
theorem bc_lane (v : S80x32x1.Idx → α) (h : S80x32x1.Broadcasts S80x32x128) (a : Fin 80) (k : Fin 32) (d : Fin 128) :
    broadcastTo S80x32x128 v h (ix3 a k d) = v (ix3 a k (0 : Fin 1)) := by
  refine broadcastTo_apply v h (ix3 a k d) _ ?_
  intro x
  match x with
  | ⟨0, _⟩ => rfl
  | ⟨1, _⟩ => rfl
  | ⟨2, _⟩ => rfl

end Layout

/-! ## Reductions at an index -/

/-- The reduced index (a, k) with feature j put back. -/
theorem lift_lane (h : S80x32x128.Reduces [2] S80x32) (a : Fin 80) (k : Fin 32) (j : Fin 128) :
    h.lift (ix2 a k) j = ix3 a k j := by
  funext x; refine Fin.ext ?_
  match x with
  | ⟨0, _⟩ => rfl
  | ⟨1, _⟩ => rfl
  | ⟨2, _⟩ => rfl

/-- The reduced index (a, z) with neighbour k put back. -/
theorem lift_nb1 (h : S80x32x1.Reduces [1] S80x1) (a : Fin 80) (z : Fin 1) (k : Fin 32) :
    h.lift (ix2 a z) k = ix3 a k z := by
  funext x; refine Fin.ext ?_
  match x with
  | ⟨0, _⟩ => rfl
  | ⟨1, _⟩ => rfl
  | ⟨2, _⟩ => rfl

/-- The reduced index (a, d) with neighbour k put back. -/
theorem lift_nb128 (h : S80x32x128.Reduces [1] S80x128) (a : Fin 80) (d : Fin 128) (k : Fin 32) :
    h.lift (ix2 a d) k = ix3 a k d := by
  funext x; refine Fin.ext ?_
  match x with
  | ⟨0, _⟩ => rfl
  | ⟨1, _⟩ => rfl
  | ⟨2, _⟩ => rfl

/-- The sum over the 128 features. -/
theorem red_lane (v : FVec Ideal S80x32x128 .f32) (h : S80x32x128.Reduces [2] S80x32) (hφ : FKind.Formats .f32)
    (hacc : (0x00000000#32 : BitVec 32) = FKind.add.neutral .f32 hφ) (a : Fin 80) (k : Fin 32) :
    multiReduction .add [2] S80x32 v 0x00000000#32 h hφ hacc (ix2 a k) = ∑ j : Fin 128, v (ix3 a k j) := by
  refine (Ideal.multiReduction_add_single v 0x00000000#32 h hφ hacc (ix2 a k)).trans ?_
  exact Finset.sum_congr rfl fun j _ => congrArg v (lift_lane h a k j)

/-- The sum over the 32 neighbours of an [80, 32, 1] array. -/
theorem red_nb1 (v : FVec Ideal S80x32x1 .f32) (h : S80x32x1.Reduces [1] S80x1) (hφ : FKind.Formats .f32)
    (hacc : (0x00000000#32 : BitVec 32) = FKind.add.neutral .f32 hφ) (a : Fin 80) (z : Fin 1) :
    multiReduction .add [1] S80x1 v 0x00000000#32 h hφ hacc (ix2 a z) = ∑ k : Fin 32, v (ix3 a k z) := by
  refine (Ideal.multiReduction_add_single v 0x00000000#32 h hφ hacc (ix2 a z)).trans ?_
  exact Finset.sum_congr rfl fun k _ => congrArg v (lift_nb1 h a z k)

/-- The sum over the 32 neighbours of an [80, 32, 128] array. -/
theorem red_nb128 (v : FVec Ideal S80x32x128 .f32) (h : S80x32x128.Reduces [1] S80x128) (hφ : FKind.Formats .f32)
    (hacc : (0x00000000#32 : BitVec 32) = FKind.add.neutral .f32 hφ) (a : Fin 80) (d : Fin 128) :
    multiReduction .add [1] S80x128 v 0x00000000#32 h hφ hacc (ix2 a d) = ∑ k : Fin 32, v (ix3 a k d) := by
  refine (Ideal.multiReduction_add_single v 0x00000000#32 h hφ hacc (ix2 a d)).trans ?_
  exact Finset.sum_congr rfl fun k _ => congrArg v (lift_nb128 h a d k)

/-- The bit pattern of −∞ reads −∞. -/
theorem ofBits_neg_inf : Ideal.ofBits .f32 0xFF800000#32 = (⊥ : EReal) := by simp [Ideal.ofBits, Ideal.ieee]

/-- The maximum over the 32 neighbours, from −∞: the supremum. -/
theorem red_max (v : FVec Ideal S80x32x1 .f32) (h : S80x32x1.Reduces [1] S80x1) (hφ : FKind.Formats .f32)
    (hacc : (0xFF800000#32 : BitVec 32) = FKind.maximumf.neutral .f32 hφ) (a : Fin 80) (z : Fin 1) :
    multiReduction .maximumf [1] S80x1 v 0xFF800000#32 h hφ hacc (ix2 a z)
      = Finset.univ.sup fun k : Fin 32 => v (ix3 a k z) := by
  refine (Ideal.multiReduction_maximumf_single v 0xFF800000#32 h hφ hacc (ix2 a z)).trans ?_
  have hf : (v ∘ h.lift (ix2 a z)) = fun k : Fin 32 => v (ix3 a k z) := funext fun k => congrArg v (lift_nb1 h a z k)
  have hb : (FloatOps.ofBits (F := Ideal) .f32 0xFF800000#32) = (⊥ : EReal) := ofBits_neg_inf
  rw [hb]
  show Finset.fold max (⊥ : EReal) (v ∘ h.lift (ix2 a z)) (Finset.univ : Finset (Fin 32)) = _
  rw [hf]
  rfl

/-! ## The two contractions at an index -/

/-- A [2560, 128] by [128, 128] product into a zero accumulator. -/
theorem mm_rows {φ₁ φ₂ : FTy} (x : FVec Ideal S2560x128 φ₁) (w : FVec Ideal S128x128 φ₂) (r : Fin 2560) (j : Fin 128) :
    matmul dot_S2560x128_S128x128_S2560x128_1_0_0_1_n_n none x w (constant (F := Ideal) S2560x128 .f32 0x00000000#32) (ix2 r j)
      = ∑ c : Fin 128, x (ix2 r c) * w (ix2 c j) := by
  refine (Ideal.matmul_constant_zero_apply dot_S2560x128_S128x128_S2560x128_1_0_0_1_n_n none x w (ix2 r j)).trans ?_
  refine Fintype.sum_equiv (contrEquiv1 dot_S2560x128_S128x128_S2560x128_1_0_0_1_n_n 128 rfl rfl) _ _ (fun q => ?_)
  have hl : dot_S2560x128_S128x128_S2560x128_1_0_0_1_n_n.lhsIdx (ix2 r j) q
      = ix2 r (contrEquiv1 dot_S2560x128_S128x128_S2560x128_1_0_0_1_n_n 128 rfl rfl q) := by
    funext a; refine Fin.ext ?_
    match a with
    | ⟨0, _⟩ => rfl
    | ⟨1, _⟩ => rfl
  have hr : dot_S2560x128_S128x128_S2560x128_1_0_0_1_n_n.rhsIdx (ix2 r j) q
      = ix2 (contrEquiv1 dot_S2560x128_S128x128_S2560x128_1_0_0_1_n_n 128 rfl rfl q) j := by
    funext a; refine Fin.ext ?_
    match a with
    | ⟨0, _⟩ => rfl
    | ⟨1, _⟩ => rfl
  rw [hl, hr]

/-- An [80, 128] by [128, 128] product into a zero accumulator. -/
theorem mm_nodes {φ₁ φ₂ : FTy} (x : FVec Ideal S80x128 φ₁) (w : FVec Ideal S128x128 φ₂) (a : Fin 80) (j : Fin 128) :
    matmul dot_S80x128_S128x128_S80x128_1_0_0_1_n_n none x w (constant (F := Ideal) S80x128 .f32 0x00000000#32) (ix2 a j)
      = ∑ c : Fin 128, x (ix2 a c) * w (ix2 c j) := by
  refine (Ideal.matmul_constant_zero_apply dot_S80x128_S128x128_S80x128_1_0_0_1_n_n none x w (ix2 a j)).trans ?_
  refine Fintype.sum_equiv (contrEquiv1 dot_S80x128_S128x128_S80x128_1_0_0_1_n_n 128 rfl rfl) _ _ (fun q => ?_)
  have hl : dot_S80x128_S128x128_S80x128_1_0_0_1_n_n.lhsIdx (ix2 a j) q
      = ix2 a (contrEquiv1 dot_S80x128_S128x128_S80x128_1_0_0_1_n_n 128 rfl rfl q) := by
    funext x; refine Fin.ext ?_
    match x with
    | ⟨0, _⟩ => rfl
    | ⟨1, _⟩ => rfl
  have hr : dot_S80x128_S128x128_S80x128_1_0_0_1_n_n.rhsIdx (ix2 a j) q
      = ix2 (contrEquiv1 dot_S80x128_S128x128_S80x128_1_0_0_1_n_n 128 rfl rfl q) j := by
    funext x; refine Fin.ext ?_
    match x with
    | ⟨0, _⟩ => rfl
    | ⟨1, _⟩ => rfl
  rw [hl, hr]

/-! ## The payloads at an index -/

section Layout2
variable {α : Type}

/-- [80, 32, 128] viewed as [2560, 128], at row 32 a + k. -/
theorem cast_nodes_to_rows' (v : S80x32x128.Idx → α) (h : S80x32x128.ShapeCasts S2560x128) (a : Fin 80) (k : Fin 32) (j : Fin 128) :
    shapeCast S2560x128 v h (ix2 (⟨32 * a.val + k.val, by omega⟩ : Fin 2560) j) = v (ix3 a k j) := by
  refine (cast_nodes_to_rows v h _ j).trans ?_
  have h1 : (32 * a.val + k.val) / 32 = a.val := by omega
  have h2 : (32 * a.val + k.val) % 32 = k.val := by omega
  exact congrArg v (by
    funext x
    match x with
    | ⟨0, _⟩ => exact Fin.ext h1
    | ⟨1, _⟩ => exact Fin.ext h2
    | ⟨2, _⟩ => rfl)

end Layout2

/-- The scalar zero reads 0. -/
theorem scalar_zero : (Scalar.ofBits (F := Ideal) .f32 0x00000000#32) = (0 : EReal) := Ideal.ofBits_zero_f32

/-- The gathered neighbour rows pass through unchanged. -/
theorem pay2_eq (e : Vec Ideal S2560x128 .f32) : k1_pay2 (F := Ideal) e = e := by
  unfold k1_pay2
  exact shapeCast_self e _

/-- The scoring row at (a, k, j): entry j. -/
theorem pay4_apply (w3 : Vec Ideal S1x128 .f32) (a : Fin 80) (k : Fin 32) (j : Fin 128) :
    k1_pay4 (F := Ideal) w3 (ix3 a k j) = Cert.Spec.row1 w3 j := by
  unfold k1_pay4
  refine (bc_w3 _ _ _ a k j).trans ?_
  exact congrFun (shapeCast_self w3 _) _

/-- The second hidden layer at (a, k, j). -/
theorem pay3_apply (e : Vec Ideal S2560x128 .f32) (u : Vec Ideal S80x128 .f32) (w1a w1b : Vec Ideal S128x128 .bf16)
    (b1 : Vec Ideal S1x128 .f32) (w2 : Vec Ideal S128x128 .bf16) (b2 : Vec Ideal S1x128 .f32)
    (a : Fin 80) (k : Fin 32) (j : Fin 128) :
    k1_pay3 (F := Ideal) e u w1a w1b b1 w2 b2 (ix3 a k j)
      = Cert.Spec.nodeH2 (Cert.Spec.blkE e a) (Cert.Spec.blkU u a) (Cert.Spec.mat w1a) (Cert.Spec.mat w1b) (Cert.Spec.row1 b1)
          (Cert.Spec.mat w2) (Cert.Spec.row1 b2) k j := by
  unfold k1_pay3
  simp only [pay2_eq, cast_rows_to_nodes, cast_nodes_to_rows', maximumf_apply, addf_apply, mm_rows, mm_nodes, truncf_apply,
    bc_row2560, bc_row80, bc_nodes, shapeCast_self, broadcast_apply, scalar_zero]
  rfl

/-- An exponential at an index is the exponential of the element. -/
theorem exp_apply {s : Shape} {φ : FTy} (x : FVec Ideal s φ) (i : s.Idx) : exp x i = Ideal.exp (x i) := rfl

section Attention

variable (v33 v37 : FVec Ideal S80x32x128 .f32)
  (h2 : S80x32x128.Reduces [2] S80x32) (hφ : FKind.Formats .f32)
  (hacc0 : (0x00000000#32 : BitVec 32) = FKind.add.neutral .f32 hφ)
  (hc : S80x32.ShapeCasts S80x32x1) (h1 : S80x32x1.Reduces [1] S80x1)
  (haccm : (0xFF800000#32 : BitVec 32) = FKind.maximumf.neutral .f32 hφ)
  (hc1 : S80x1.ShapeCasts S80x1x1) (hb : S80x1x1.Broadcasts S80x32x1)

/-- The logit of neighbour k of node a: the feature sum of the products. -/
theorem logit_apply (a : Fin 80) (k : Fin 32) (z : Fin 1) :
    shapeCast S80x32x1 (multiReduction .add [2] S80x32 (mulf v33 v37) 0x00000000#32 h2 hφ hacc0) hc (ix3 a k z)
      = ∑ j : Fin 128, v33 (ix3 a k j) * v37 (ix3 a k j) :=
  (cast_col _ hc a k z).trans (red_lane (mulf v33 v37) h2 hφ hacc0 a k)

/-- The largest logit of node a, spread back over the neighbours. -/
theorem maxlogit_apply (lg : FVec Ideal S80x32x1 .f32) (a : Fin 80) (k : Fin 32) (z : Fin 1) :
    broadcastTo S80x32x1 (shapeCast S80x1x1 (multiReduction .maximumf [1] S80x1 lg 0xFF800000#32 h1 hφ haccm) hc1) hb (ix3 a k z)
      = Finset.univ.sup fun k' : Fin 32 => lg (ix3 a k' (0 : Fin 1)) :=
  (bc_col _ hc1 hb a k z).trans (red_max lg h1 hφ haccm a 0)

/-- The normaliser of node a, spread back over the neighbours. -/
theorem normaliser_apply (p : FVec Ideal S80x32x1 .f32) (a : Fin 80) (k : Fin 32) (z : Fin 1) :
    broadcastTo S80x32x1 (shapeCast S80x1x1 (multiReduction .add [1] S80x1 p 0x00000000#32 h1 hφ hacc0) hc1) hb (ix3 a k z)
      = ∑ k' : Fin 32, p (ix3 a k' (0 : Fin 1)) :=
  (bc_col _ hc1 hb a k z).trans (red_nb1 p h1 hφ hacc0 a 0)

/-- The unnormalised weight of neighbour k of node a. -/
theorem weight_apply (a : Fin 80) (k : Fin 32) (z : Fin 1) :
    exp (subf (shapeCast S80x32x1 (multiReduction .add [2] S80x32 (mulf v33 v37) 0x00000000#32 h2 hφ hacc0) hc)
        (broadcastTo S80x32x1 (shapeCast S80x1x1 (multiReduction .maximumf [1] S80x1
          (shapeCast S80x32x1 (multiReduction .add [2] S80x32 (mulf v33 v37) 0x00000000#32 h2 hφ hacc0) hc)
          0xFF800000#32 h1 hφ haccm) hc1) hb)) (ix3 a k z)
      = Ideal.exp ((∑ j : Fin 128, v33 (ix3 a k j) * v37 (ix3 a k j))
          - Finset.univ.sup fun k' : Fin 32 => ∑ j : Fin 128, v33 (ix3 a k' j) * v37 (ix3 a k' j)) := by
  refine (exp_apply _ _).trans (congrArg Ideal.exp ?_)
  refine (subf_apply _ _ _).trans ?_
  rw [logit_apply v33 v37 h2 hφ hacc0 hc a k z, maxlogit_apply hφ h1 haccm hc1 hb _ a k z]
  exact congrArg (fun f : Fin 32 → EReal => _ - Finset.univ.sup f)
    (funext fun k' => logit_apply v33 v37 h2 hφ hacc0 hc a k' 0)

end Attention

/-- The attention stage at (a, d), over the three arrays it is handed: the logits are the feature sums of the
    products of the last two, the weights their softmax over the 32 neighbours, the result the weighted sum of the
    first array's rows. -/
theorem pay1_apply (v1 : FVec Ideal S2560x128 .f32) (v33 v37 : FVec Ideal S80x32x128 .f32) (a : Fin 80) (d : Fin 128) :
    k1_pay1 (F := Ideal) v1 v33 v37 (ix2 a d)
      = ∑ k : Fin 32, v1 (ix2 (⟨32 * a.val + k.val, by omega⟩ : Fin 2560) d) *
          Ideal.div
            (Ideal.exp ((∑ j : Fin 128, v33 (ix3 a k j) * v37 (ix3 a k j))
              - Finset.univ.sup fun k' : Fin 32 => ∑ j : Fin 128, v33 (ix3 a k' j) * v37 (ix3 a k' j)))
            (∑ k'' : Fin 32, Ideal.exp ((∑ j : Fin 128, v33 (ix3 a k'' j) * v37 (ix3 a k'' j))
              - Finset.univ.sup fun k' : Fin 32 => ∑ j : Fin 128, v33 (ix3 a k' j) * v37 (ix3 a k' j))) := by
  unfold k1_pay1
  refine (red_nb128 _ _ _ _ a d).trans (Finset.sum_congr rfl fun k _ => ?_)
  refine (mulf_apply _ _ _).trans (congrArg₂ (· * ·) (cast_rows_to_nodes _ _ a k d) ?_)
  refine (bc_lane _ _ a k d).trans ?_
  refine (divf_apply _ _ _).trans (congrArg₂ Ideal.div ?_ ?_)
  · exact weight_apply v33 v37 _ _ _ _ _ _ _ _ a k 0
  · refine (normaliser_apply _ _ _ _ _ _ a k 0).trans (Finset.sum_congr rfl fun k'' _ => ?_)
    exact weight_apply v33 v37 _ _ _ _ _ _ _ _ a k'' 0

/-! ## The block function is the specification's -/

/-- THE DENSE STAGE'S BLOCK FUNCTION: at every node a of the block and feature d it is the attention-weighted sum of
    the node's 32 neighbour rows, with the weights the softmax of the two-layer scores. -/
theorem tcPay_eq (e : Vec Ideal S2560x128 .f32) (u : Vec Ideal S80x128 .f32) (w1a w1b : Vec Ideal S128x128 .bf16)
    (b1 : Vec Ideal S1x128 .f32) (w2 : Vec Ideal S128x128 .bf16) (b2 w3 : Vec Ideal S1x128 .f32) :
    Cert.KernelIdeal.TcBody.tcPay (F := Ideal) e u w1a w1b b1 w2 b2 w3 = Cert.Spec.attnBlock e u w1a w1b b1 w2 b2 w3 := by
  funext i
  obtain ⟨a, d, rfl⟩ : ∃ (a : Fin 80) (d : Fin 128), i = ix2 a d := ⟨i 0, i 1, eq_ix2 i⟩
  rw [Cert.Spec.attnBlock_ix2]
  unfold Cert.KernelIdeal.TcBody.tcPay
  rw [pay1_apply]
  simp only [pay2_eq, pay3_apply, pay4_apply]
  rfl

end Cert.KernelIdeal.TcValue

end
-- ==== Proof.RefRun.lean ====
/-
  The reference program's run, read back by hand.

  @main is a straight line of eighty-five StableHLO operations once its five calls are unfolded: the clamped
  row lookup at the neighbour indices (twenty-three operations, one of them the outlined select), the same lookup
  at the node indices (twenty-three), then @main's own thirty-three with the rectifier's three operations
  at each of its two calls. Listed in order (`ops`), the program is their sequence (`main_eq`), and every weakly
  fair execution terminates with each buffer at the fold of the operations' results over the launch contents.
  Read at the result buffer the fold is `term` of the nine argument arrays, one operation per `let` of that
  definition; read at an argument buffer it is the argument, since no operation writes one.
-/
import proofs.«215990_g90829968376431_cont_sun_c4_571_51_alg».proof.Proof.RefTerm
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- @main's eighty-five operations in order, the calls unfolded: each outlined function's operations stand at
    its call site over that call's own buffers. -/
abbrev ops : List (HloOp τ sig (Elt F)) :=
  [ StableHlo.TRef.nullary main_call0.c (constantI S_ 32 0#32),
    StableHlo.TRef.unary main_call0.c main_call0.v0 (broadcastInDim S10000x32 ![] bcast_S_S10000x32),
    StableHlo.TRef.binary (.of main_arg1) main_call0.v0 main_call0.v1 (cmpi .slt),
    StableHlo.TRef.nullary main_call0.c_0 (constantI S_ 32 50000#32),
    StableHlo.TRef.unary main_call0.c_0 main_call0.v2 (broadcastInDim S10000x32 ![] bcast_S_S10000x32),
    StableHlo.TRef.binary (.of main_arg1) main_call0.v2 main_call0.v3 addi,
    StableHlo.TRef.ternary main_call0.v1 main_call0.v3 (.of main_arg1) main_call0.call0.v0 select,
    StableHlo.TRef.unary main_call0.call0.v0 main_call0.v5 (broadcastInDim S10000x32x1 ![0, 1] bcast_S10000x32_S10000x32x1_0_1),
    StableHlo.TRef.nullary main_call0.c_1 (constantI S1 32 49999#32),
    StableHlo.TRef.nullary main_call0.c_2 (constantI S_ 32 0#32),
    StableHlo.TRef.unary main_call0.c_2 main_call0.v6 (broadcastInDim S10000x32x1 ![] bcast_S_S10000x32x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S10000x32x1 ![0, 1, 2] bcast_S1x1x1_S10000x32x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S10000x32x1_S10000x32_d2 h_S_),
    StableHlo.TRef.binary (.of main_arg2) main_call0.v5 main_call0.v13 (fun x i => Host.gather gather_S50000x128_S10000x32x1_S10000x32x128_2_0_n_n_0_2_1128 x i),
    StableHlo.TRef.unary main_call0.v12 main_call0.v14 (broadcastInDim S10000x32x128 ![0, 1] bcast_S10000x32_S10000x32x128_0_1),
    StableHlo.TRef.nullary main_call0.cst (constant S_ .f32 0x7FC00000#32),
    StableHlo.TRef.unary main_call0.cst main_call0.v15 (broadcastInDim S10000x32x128 ![] bcast_S_S10000x32x128),
    StableHlo.TRef.ternary main_call0.v14 main_call0.v13 main_call0.v15 main_call0.v16 select,
    StableHlo.TRef.nullary main_call1.c (constantI S_ 32 0#32),
    StableHlo.TRef.unary main_call1.c main_call1.v0 (broadcastInDim S10000 ![] bcast_S_S10000),
    StableHlo.TRef.binary (.of main_arg0) main_call1.v0 main_call1.v1 (cmpi .slt),
    StableHlo.TRef.nullary main_call1.c_0 (constantI S_ 32 50000#32),
    StableHlo.TRef.unary main_call1.c_0 main_call1.v2 (broadcastInDim S10000 ![] bcast_S_S10000),
    StableHlo.TRef.binary (.of main_arg0) main_call1.v2 main_call1.v3 addi,
    StableHlo.TRef.ternary main_call1.v1 main_call1.v3 (.of main_arg0) main_call1.call0.v0 select,
    StableHlo.TRef.unary main_call1.call0.v0 main_call1.v5 (broadcastInDim S10000x1 ![0] bcast_S10000_S10000x1_0),
    StableHlo.TRef.nullary main_call1.c_1 (constantI S1 32 49999#32),
    StableHlo.TRef.nullary main_call1.c_2 (constantI S_ 32 0#32),
    StableHlo.TRef.unary main_call1.c_2 main_call1.v6 (broadcastInDim S10000x1 ![] bcast_S_S10000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S10000x1 ![0, 1] bcast_S1x1_S10000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S10000x1_S10000_d1 h_S_),
    StableHlo.TRef.binary (.of main_arg2) main_call1.v5 main_call1.v13 (fun x i => Host.gather gather_S50000x128_S10000x1_S10000x128_1_0_n_n_0_1_1128 x i),
    StableHlo.TRef.unary main_call1.v12 main_call1.v14 (broadcastInDim S10000x128 ![0] bcast_S10000_S10000x128_0),
    StableHlo.TRef.nullary main_call1.cst (constant S_ .f32 0x7FC00000#32),
    StableHlo.TRef.unary main_call1.cst main_call1.v15 (broadcastInDim S10000x128 ![] bcast_S_S10000x128),
    StableHlo.TRef.ternary main_call1.v14 main_call1.v13 main_call1.v15 main_call1.v16 select,
    StableHlo.unary main_v1 main_v2 (broadcastInDim S10000x1x128 ![0, 2] bcast_S10000x128_S10000x1x128_0_2 : (⟨S10000x128, .f32⟩ : BufTy).Contents (Elt F) → (⟨S10000x1x128, .f32⟩ : BufTy).Contents (Elt F)),
    StableHlo.unary main_v2 main_v3 (broadcastInDim S10000x32x128 ![0, 1, 2] bcast_S10000x1x128_S10000x32x128_0_1_2 : (⟨S10000x1x128, .f32⟩ : BufTy).Contents (Elt F) → (⟨S10000x32x128, .f32⟩ : BufTy).Contents (Elt F)),
    StableHlo.binary main_v0 main_v3 main_v4 ((fun a b => concatenate S10000x32x256 2 [⟨S10000x32x128, a⟩, ⟨S10000x32x128, b⟩] concatenates_S10000x32x128_S10000x32x128_S10000x32x256_d2) : (⟨S10000x32x128, .f32⟩ : BufTy).Contents (Elt F) → (⟨S10000x32x128, .f32⟩ : BufTy).Contents (Elt F) → (⟨S10000x32x256, .f32⟩ : BufTy).Contents (Elt F)),
    StableHlo.binary main_v4 main_arg3 main_v5 ((fun l r => Host.dotGeneral dot_S10000x32x256_S256x128_S10000x32x128_2_0_01_1_n_n none l r) : (⟨S10000x32x256, .f32⟩ : BufTy).Contents (Elt F) → (⟨S256x128, .f32⟩ : BufTy).Contents (Elt F) → (⟨S10000x32x128, .f32⟩ : BufTy).Contents (Elt F)),
    StableHlo.unary main_arg4 main_v6 (broadcastInDim S1x1x128 ![2] bcast_S128_S1x1x128_2 : (⟨S128, .f32⟩ : BufTy).Contents (Elt F) → (⟨S1x1x128, .f32⟩ : BufTy).Contents (Elt F)),
    StableHlo.unary main_v6 main_v7 (broadcastInDim S10000x32x128 ![0, 1, 2] bcast_S1x1x128_S10000x32x128_0_1_2 : (⟨S1x1x128, .f32⟩ : BufTy).Contents (Elt F) → (⟨S10000x32x128, .f32⟩ : BufTy).Contents (Elt F)),
    StableHlo.binary main_v5 main_v7 main_v8 (addf : (⟨S10000x32x128, .f32⟩ : BufTy).Contents (Elt F) → (⟨S10000x32x128, .f32⟩ : BufTy).Contents (Elt F) → (⟨S10000x32x128, .f32⟩ : BufTy).Contents (Elt F)),
    StableHlo.TRef.nullary main_call2.cst (constant S_ .f32 0x00000000#32),
    StableHlo.TRef.unary main_call2.cst main_call2.v0 (broadcastInDim S10000x32x128 ![] bcast_S_S10000x32x128),
    StableHlo.TRef.binary (.of main_v8) main_call2.v0 main_call2.v1 maximumf,
    StableHlo.binary main_v9 main_arg5 main_v10 ((fun l r => Host.dotGeneral dot_S10000x32x128_S128x128_S10000x32x128_2_0_01_1_n_n none l r) : (⟨S10000x32x128, .f32⟩ : BufTy).Contents (Elt F) → (⟨S128x128, .f32⟩ : BufTy).Contents (Elt F) → (⟨S10000x32x128, .f32⟩ : BufTy).Contents (Elt F)),
    StableHlo.unary main_arg6 main_v11 (broadcastInDim S1x1x128 ![2] bcast_S128_S1x1x128_2 : (⟨S128, .f32⟩ : BufTy).Contents (Elt F) → (⟨S1x1x128, .f32⟩ : BufTy).Contents (Elt F)),
    StableHlo.unary main_v11 main_v12 (broadcastInDim S10000x32x128 ![0, 1, 2] bcast_S1x1x128_S10000x32x128_0_1_2 : (⟨S1x1x128, .f32⟩ : BufTy).Contents (Elt F) → (⟨S10000x32x128, .f32⟩ : BufTy).Contents (Elt F)),
    StableHlo.binary main_v10 main_v12 main_v13 (addf : (⟨S10000x32x128, .f32⟩ : BufTy).Contents (Elt F) → (⟨S10000x32x128, .f32⟩ : BufTy).Contents (Elt F) → (⟨S10000x32x128, .f32⟩ : BufTy).Contents (Elt F)),
    StableHlo.TRef.nullary main_call3.cst (constant S_ .f32 0x00000000#32),
    StableHlo.TRef.unary main_call3.cst main_call3.v0 (broadcastInDim S10000x32x128 ![] bcast_S_S10000x32x128),
    StableHlo.TRef.binary (.of main_v13) main_call3.v0 main_call3.v1 maximumf,
    StableHlo.binary main_v14 main_arg7 main_v15 ((fun l r => Host.dotGeneral dot_S10000x32x128_S128x1_S10000x32x1_2_0_01_1_n_n none l r) : (⟨S10000x32x128, .f32⟩ : BufTy).Contents (Elt F) → (⟨S128x1, .f32⟩ : BufTy).Contents (Elt F) → (⟨S10000x32x1, .f32⟩ : BufTy).Contents (Elt F)),
    StableHlo.unary main_arg8 main_v16 (broadcastInDim S1x1x1 ![2] bcast_S1_S1x1x1_2 : (⟨S1, .f32⟩ : BufTy).Contents (Elt F) → (⟨S1x1x1, .f32⟩ : BufTy).Contents (Elt F)),
    StableHlo.unary main_v16 main_v17 (broadcastInDim S10000x32x1 ![0, 1, 2] bcast_S1x1x1_S10000x32x1_0_1_2 : (⟨S1x1x1, .f32⟩ : BufTy).Contents (Elt F) → (⟨S10000x32x1, .f32⟩ : BufTy).Contents (Elt F)),
    StableHlo.binary main_v15 main_v17 main_v18 (addf : (⟨S10000x32x1, .f32⟩ : BufTy).Contents (Elt F) → (⟨S10000x32x1, .f32⟩ : BufTy).Contents (Elt F) → (⟨S10000x32x1, .f32⟩ : BufTy).Contents (Elt F)),
    StableHlo.nullary main_cst (constant S_ .f32 0xFF800000#32),
    StableHlo.binary main_v18 main_cst main_v19 ((fun x v => Host.reduce FloatOps.maximumf x v reducesTo_S10000x32x1_S10000x1_d1 h_S_) : (⟨S10000x32x1, .f32⟩ : BufTy).Contents (Elt F) → (⟨S_, .f32⟩ : BufTy).Contents (Elt F) → (⟨S10000x1, .f32⟩ : BufTy).Contents (Elt F)),
    StableHlo.nullary main_cst_0 (constant S_ .f32 0xFF800000#32),
    StableHlo.unary main_cst_0 main_v20 (broadcastInDim S10000x1 ![] bcast_S_S10000x1 : (⟨S_, .f32⟩ : BufTy).Contents (Elt F) → (⟨S10000x1, .f32⟩ : BufTy).Contents (Elt F)),
    StableHlo.binary main_v20 main_v19 main_v21 (maximumf : (⟨S10000x1, .f32⟩ : BufTy).Contents (Elt F) → (⟨S10000x1, .f32⟩ : BufTy).Contents (Elt F) → (⟨S10000x1, .f32⟩ : BufTy).Contents (Elt F)),
    StableHlo.unary main_v21 main_v22 (broadcastInDim S10000x1x1 ![0, 2] bcast_S10000x1_S10000x1x1_0_2 : (⟨S10000x1, .f32⟩ : BufTy).Contents (Elt F) → (⟨S10000x1x1, .f32⟩ : BufTy).Contents (Elt F)),
    StableHlo.unary main_v22 main_v23 (broadcastInDim S10000x32x1 ![0, 1, 2] bcast_S10000x1x1_S10000x32x1_0_1_2 : (⟨S10000x1x1, .f32⟩ : BufTy).Contents (Elt F) → (⟨S10000x32x1, .f32⟩ : BufTy).Contents (Elt F)),
    StableHlo.binary main_v18 main_v23 main_v24 (subf : (⟨S10000x32x1, .f32⟩ : BufTy).Contents (Elt F) → (⟨S10000x32x1, .f32⟩ : BufTy).Contents (Elt F) → (⟨S10000x32x1, .f32⟩ : BufTy).Contents (Elt F)),
    StableHlo.unary main_v24 main_v25 (Host.exp : (⟨S10000x32x1, .f32⟩ : BufTy).Contents (Elt F) → (⟨S10000x32x1, .f32⟩ : BufTy).Contents (Elt F)),
    StableHlo.nullary main_cst_1 (constant S_ .f32 0x00000000#32),
    StableHlo.binary main_v25 main_cst_1 main_v26 ((fun x v => Host.reduceAdd x v reducesTo_S10000x32x1_S10000x1_d1 h_S_) : (⟨S10000x32x1, .f32⟩ : BufTy).Contents (Elt F) → (⟨S_, .f32⟩ : BufTy).Contents (Elt F) → (⟨S10000x1, .f32⟩ : BufTy).Contents (Elt F)),
    StableHlo.unary main_v26 main_v27 (broadcastInDim S10000x1x1 ![0, 2] bcast_S10000x1_S10000x1x1_0_2 : (⟨S10000x1, .f32⟩ : BufTy).Contents (Elt F) → (⟨S10000x1x1, .f32⟩ : BufTy).Contents (Elt F)),
    StableHlo.unary main_v27 main_v28 (broadcastInDim S10000x32x1 ![0, 1, 2] bcast_S10000x1x1_S10000x32x1_0_1_2 : (⟨S10000x1x1, .f32⟩ : BufTy).Contents (Elt F) → (⟨S10000x32x1, .f32⟩ : BufTy).Contents (Elt F)),
    StableHlo.binary main_v25 main_v28 main_v29 (Host.divf : (⟨S10000x32x1, .f32⟩ : BufTy).Contents (Elt F) → (⟨S10000x32x1, .f32⟩ : BufTy).Contents (Elt F) → (⟨S10000x32x1, .f32⟩ : BufTy).Contents (Elt F)),
    StableHlo.unary main_v29 main_v30 (broadcastInDim S10000x32x128 ![0, 1, 2] bcast_S10000x32x1_S10000x32x128_0_1_2 : (⟨S10000x32x1, .f32⟩ : BufTy).Contents (Elt F) → (⟨S10000x32x128, .f32⟩ : BufTy).Contents (Elt F)),
    StableHlo.binary main_v0 main_v30 main_v31 (mulf : (⟨S10000x32x128, .f32⟩ : BufTy).Contents (Elt F) → (⟨S10000x32x128, .f32⟩ : BufTy).Contents (Elt F) → (⟨S10000x32x128, .f32⟩ : BufTy).Contents (Elt F)),
    StableHlo.nullary main_cst_2 (constant S_ .f32 0x00000000#32),
    StableHlo.binary main_v31 main_cst_2 main_v32 ((fun x v => Host.reduceAdd x v reducesTo_S10000x32x128_S10000x128_d1 h_S_) : (⟨S10000x32x128, .f32⟩ : BufTy).Contents (Elt F) → (⟨S_, .f32⟩ : BufTy).Contents (Elt F) → (⟨S10000x128, .f32⟩ : BufTy).Contents (Elt F)) ]

-- the sequencing of a free monad computes: with the outlined functions unfolded both sides are the same chain of steps
set_option maxRecDepth 16384 in
/-- @main is that straight line: the outlined functions unfolded at their calls, both sides are one chain of
    operation steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., unary_bufs_sub .., binary_bufs_sub .., nullary_bufs_sub ..,
    binary_bufs_sub ..⟩

/-- Contents moved to a buffer's own type and back along the same equation are the contents. -/
theorem ofBuf_toBuf {T : BufTy} {Val : EltTy → Type} (x : TRef sig T) (v : T.Contents Val) : x.ofBuf (x.toBuf v) = v := by
  obtain ⟨r, h, _, _⟩ := x
  subst h
  rfl

/-- At a buffer whose declared type is the value's type, moving contents from or to the buffer's own type is
    the identity. -/
theorem ofBuf_of (r : Ref sig .tc) {Val : EltTy → Type} (p1 : r.ty = r.ty) (p2 p3) (v : r.ty.Contents Val) :
    (TRef.of r p1 p2 p3 : TRef sig r.ty).ofBuf v = v := rfl
theorem toBuf_of (r : Ref sig .tc) {Val : EltTy → Type} (p1 : r.ty = r.ty) (p2 p3) (v : r.ty.Contents Val) :
    (TRef.of r p1 p2 p3 : TRef sig r.ty).toBuf v = v := rfl

/-- The concatenation of two [10000, 32, 128] arrays along the last axis, as a function of the two: the
    operands stand as arguments here, where a rewrite reaches them (inside the operand list's dependent
    pairs it does not). -/
def cat2 (a b : (⟨S10000x32x128, .f32⟩ : BufTy).Contents (Elt F)) : (⟨S10000x32x256, .f32⟩ : BufTy).Contents (Elt F) :=
  concatenate S10000x32x256 2 [⟨S10000x32x128, a⟩, ⟨S10000x32x128, b⟩] concatenates_S10000x32x128_S10000x32x128_S10000x32x256_d2
theorem cat2_eq (a b : (⟨S10000x32x128, .f32⟩ : BufTy).Contents (Elt F)) :
    concatenate S10000x32x256 2 [⟨S10000x32x128, a⟩, ⟨S10000x32x128, b⟩] concatenates_S10000x32x128_S10000x32x128_S10000x32x256_d2 = cat2 a b := rfl

attribute [local irreducible] Host.reduce Host.gather Host.reduceAdd in
set_option maxRecDepth 16384 in
set_option maxHeartbeats 1000000 in
/-- The fold of the eighty-five operations, read at the result buffer, is `term` of the argument buffers'
    contents: each operation's result at its own buffer is its function's value and every other buffer keeps
    what it held (the concatenation's two operands are reached through `cat2`), the moves of contents
    between a value's type and its buffer's type are identities at these literal buffers, and what remains is
    the `let`-chain of `term` unfolded. The reductions and gathers are kept folded meanwhile: the equation
    never looks inside them. -/
theorem out_eq (V : Valuation τ sig (Elt F)) :
    after ops V (main_v32 : DevRef τ sig) = term (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  after_results_simp
  rw [cat2_eq]
  after_results_simp
  simp only [ofBuf_toBuf, ofBuf_of, toBuf_of, cat2]
  rfl

/-! No operation writes an argument buffer: the fold at each is what the buffer held. -/
section Args
set_option maxRecDepth 16384
set_option maxHeartbeats 1000000
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp
theorem arg7_eq (V : Valuation τ sig (Elt F)) : after ops V (main_arg7 : DevRef τ sig) = V (main_arg7 : DevRef τ sig) := by
  after_results_simp
theorem arg8_eq (V : Valuation τ sig (Elt F)) : after ops V (main_arg8 : DevRef τ sig) = V (main_arg8 : DevRef τ sig) := by
  after_results_simp
end Args

/-- On every device, for any float values, from any memory with zero counters: every weakly fair execution of
    @main terminates with the result buffer at `term` of the argument arrays and the arguments unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_v32) = term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v32).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

end Cert.ReferenceIdeal.RefValue

end
-- ==== Proof.RefTake.lean ====
/-
  The reference's two row lookups read at an index.

  A row lookup wraps a negative index by the table's height, gathers the row, and replaces the row by a fill value
  when the wrapped index lies outside [0, 49999]. For an index word w with 0 <= w (read signed) and w < 50000 nothing
  is wrapped, the clamp of the gather is the identity, the in-range mask is 1, and the lookup reads the table's row
  w: entry (n, k, d) of the first lookup is the table at (row of neigh[n, k], d), entry (n, d) of the second is the
  table at (row of nodes[n], d).
-/
import proofs.«215990_g90829968376431_cont_sun_c4_571_51_alg».proof.Proof.RefTerm
import proofs.«215990_g90829968376431_cont_sun_c4_571_51_alg».proof.Proof.Spec
import Idealize.ShloMosaic.Lib.ValueIdx
import Idealize.ShloMosaic.Lib.ReduceAll
import Idealize.ShloMosaic.Lib.Pipeline.Value

noncomputable section

namespace Cert.ReferenceIdeal.RefValue

open Cert.ReferenceIdeal Idealize.ShloMosaic Idealize.ShloMosaic.ValueIdx
open Cert.ReferenceIdeal.Facts₀ Cert.ReferenceIdeal.Facts

/-! ## An and-reduction of ones -/

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A reduction by `and`, from 1, of an array of ones is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_one x hx _

/-! ## Index words in range -/

/-- An index word is in range: nonnegative read signed, and below the table's height. -/
def InRange (w : BitVec 32) : Prop := 0 ≤ w.toInt ∧ w.toNat < 50000

theorem InRange.toInt_eq {w : BitVec 32} (h : InRange w) : w.toInt = (w.toNat : Int) := by
  have := h.2
  rw [BitVec.toInt_eq_toNat_cond]
  split
  · rfl
  · omega

theorem InRange.clamp {w : BitVec 32} (h : InRange w) : min w.toInt.toNat 49999 = (Cert.Spec.row w).val := by
  rw [Cert.Spec.row_val_of_lt h.2, h.toInt_eq, Int.toNat_natCast]
  have := h.2
  omega

theorem InRange.not_neg {w : BitVec 32} (h : InRange w) : ¬ IntOp.cmpi .slt w 0#32 = 1#1 := by
  rw [IntOp.cmpi_slt]
  have := h.1
  simp only [BitVec.toInt_zero]
  omega

theorem InRange.ge_zero {w : BitVec 32} (h : InRange w) : IntOp.cmpi .sge w 0#32 = 1#1 := by
  rw [IntOp.cmpi_sge]
  simpa using h.1

theorem InRange.le_max {w : BitVec 32} (h : InRange w) : IntOp.cmpi .sle w 49999#32 = 1#1 := by
  rw [IntOp.cmpi_sle, h.toInt_eq]
  have := h.2
  have e : (49999#32 : BitVec 32).toInt = 49999 := by decide
  rw [e]
  omega

/-! ## The two gathers read at an index -/

section Gathers

variable [Cert.ReferenceIdeal.Facts] {α : Type}

local notation "G3" => gather_S50000x128_S10000x32x1_S10000x32x128_2_0_n_n_0_2_1128
local notation "G2" => gather_S50000x128_S10000x1_S10000x128_1_0_n_n_0_1_1128

/-- The gather of rows at start indices [10000, 32, 1]: entry (n, k, d) is the table at the row the start index
    (n, k, 0) names, read signed and clamped into [0, 49999], and column d. -/
theorem gather3_apply (tbl : S50000x128.Idx → α) (si : IVec S10000x32x1 32) (n : Fin 10000) (k : Fin 32) (d : Fin 128) :
    Host.gather G3 tbl si (ix3 n k d)
      = tbl (ix2 (⟨min (si (ix3 n k (0 : Fin 1))).toInt.toNat 49999, by omega⟩ : Fin 50000) d) := by
  unfold Host.gather
  refine congrArg tbl (funext fun a => Fin.ext ?_)
  match a with
  | ⟨0, _⟩ =>
    show (G3).start (ix3 n k d) si 0 + (G3).batchCoord (ix3 n k d) 0 + (G3).offCoord (ix3 n k d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (G3).startIndexMap from List.mem_singleton.mpr rfl)]
    have hsi : (G3).siIdx (ix3 n k d) ⟨List.idxOf (0 : Fin 2) (G3).startIndexMap,
        List.idxOf_lt_length_iff.2 (List.mem_singleton.mpr rfl)⟩ = ix3 n k (0 : Fin 1) := by
      funext b; refine Fin.ext ?_
      match b with
      | ⟨0, _⟩ => rfl
      | ⟨1, _⟩ => rfl
      | ⟨2, _⟩ => rfl
    rw [hsi]
    rfl
  | ⟨1, _⟩ =>
    show (G3).start (ix3 n k d) si 1 + (G3).batchCoord (ix3 n k d) 1 + (G3).offCoord (ix3 n k d) 1 = d.val
    rw [GatherDims.batchCoord_eq_zero _ _ _ List.not_mem_nil]
    have hs : (G3).start (ix3 n k d) si 1 = 0 := by
      unfold GatherDims.start
      rw [dif_neg (show ¬ (1 : Fin 2) ∈ (G3).startIndexMap from (by decide : (1 : Fin 2) ∉ ([0] : List (Fin 2))))]
    have ho : (G3).offCoord (ix3 n k d) 1 = d.val := by
      unfold GatherDims.offCoord
      rw [dif_pos ((GatherDims.mem_sKept _ _).mpr ⟨(by decide : (1 : Fin 2) ∉ ([0] : List (Fin 2))), List.not_mem_nil⟩)]
      rfl
    rw [hs, ho]
    omega

/-- The gather of rows at start indices [10000, 1]: entry (n, d) is the table at the row the start index (n, 0)
    names, read signed and clamped into [0, 49999], and column d. -/
theorem gather2_apply (tbl : S50000x128.Idx → α) (si : IVec S10000x1 32) (n : Fin 10000) (d : Fin 128) :
    Host.gather G2 tbl si (ix2 n d)
      = tbl (ix2 (⟨min (si (ix2 n (0 : Fin 1))).toInt.toNat 49999, by omega⟩ : Fin 50000) d) := by
  unfold Host.gather
  refine congrArg tbl (funext fun a => Fin.ext ?_)
  match a with
  | ⟨0, _⟩ =>
    show (G2).start (ix2 n d) si 0 + (G2).batchCoord (ix2 n d) 0 + (G2).offCoord (ix2 n d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (G2).startIndexMap from List.mem_singleton.mpr rfl)]
    have hsi : (G2).siIdx (ix2 n d) ⟨List.idxOf (0 : Fin 2) (G2).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (G2).start (ix2 n d) si 1 + (G2).batchCoord (ix2 n d) 1 + (G2).offCoord (ix2 n d) 1 = d.val
    rw [GatherDims.batchCoord_eq_zero _ _ _ List.not_mem_nil]
    have hs : (G2).start (ix2 n d) si 1 = 0 := by
      unfold GatherDims.start
      rw [dif_neg (show ¬ (1 : Fin 2) ∈ (G2).startIndexMap from (by decide : (1 : Fin 2) ∉ ([0] : List (Fin 2))))]
    have ho : (G2).offCoord (ix2 n d) 1 = d.val := by
      unfold GatherDims.offCoord
      rw [dif_pos ((GatherDims.mem_sKept _ _).mpr ⟨(by decide : (1 : Fin 2) ∉ ([0] : List (Fin 2))), List.not_mem_nil⟩)]
      rfl
    rw [hs, ho]
    omega

end Gathers

/-! ## The two lookups read at an index -/

section Lookups

variable {F : FTy → Type} [FloatOps F] [Cert.ReferenceIdeal.Facts]

local notation "G3" => gather_S50000x128_S10000x32x1_S10000x32x128_2_0_n_n_0_2_1128
local notation "G2" => gather_S50000x128_S10000x1_S10000x128_1_0_n_n_0_1_1128

/-- The first lookup's index words after the wrap of negative ones, as start indices [10000, 32, 1]. -/
def wrapped3 (idx : IVec S10000x32 32) : IVec S10000x32x1 32 :=
  broadcastInDim S10000x32x1 ![0, 1] bcast_S10000x32_S10000x32x1_0_1
    (select (cmpi .slt idx (broadcastInDim S10000x32 ![] bcast_S_S10000x32 (constantI S_ 32 0#32)))
      (addi idx (broadcastInDim S10000x32 ![] bcast_S_S10000x32 (constantI S_ 32 50000#32))) idx)

/-- The first lookup's in-range mask. -/
def mask3 (idx : IVec S10000x32 32) : IVec S10000x32 1 :=
  Host.reduce IntOp.andi
    (andi (cmpi .sge (wrapped3 idx) (broadcastInDim S10000x32x1 ![] bcast_S_S10000x32x1 (constantI S_ 32 0#32)))
      (cmpi .sle (wrapped3 idx) (broadcastInDim S10000x32x1 ![0, 1, 2] bcast_S1x1x1_S10000x32x1_0_1_2
        (broadcastInDim S1x1x1 ![2] bcast_S1_S1x1x1_2 (constantI S1 32 49999#32)))))
    (constantI S_ 1 1#1) reducesTo_S10000x32x1_S10000x32_d2 h_S_

/-- The first lookup is the select, on the broadcast mask, between the gathered rows and the fill value. -/
theorem take_eq (tbl : S50000x128.Idx → F .f32) (idx : IVec S10000x32 32) :
    take tbl idx = select (broadcastInDim S10000x32x128 ![0, 1] bcast_S10000x32_S10000x32x128_0_1 (mask3 idx))
      (Host.gather G3 tbl (wrapped3 idx))
      (broadcastInDim S10000x32x128 ![] bcast_S_S10000x32x128 (constant S_ .f32 0x7FC00000#32)) := rfl

/-- An in-range index word is not wrapped. -/
theorem wrapped3_apply (idx : IVec S10000x32 32) (n : Fin 10000) (k : Fin 32) (z : Fin 1)
    (h : InRange (idx (ix2 n k))) : wrapped3 idx (ix3 n k z) = idx (ix2 n k) := by
  unfold wrapped3
  rw [broadcastInDim_apply _ _ _ (ix3 n k z) (ix2 n k) (fun a => by match a with | ⟨0, _⟩ => rfl | ⟨1, _⟩ => rfl)]
  show Scalar.select (IntOp.cmpi .slt (idx (ix2 n k)) 0#32) _ (idx (ix2 n k)) = idx (ix2 n k)
  exact if_neg h.not_neg

/-- With every index word in range the mask is 1 everywhere. -/
theorem mask3_apply (idx : IVec S10000x32 32) (h : ∀ i, InRange (idx i)) (j : S10000x32.Idx) : mask3 idx j = 1#1 := by
  unfold mask3
  refine reduce_andi_one _ _ _ _ (fun i => ?_) (fun _ => rfl) j
  obtain ⟨n, k, z, rfl⟩ : ∃ (n : Fin 10000) (k : Fin 32) (z : Fin 1), i = ix3 n k z := ⟨i 0, i 1, i 2, eq_ix3 i⟩
  show IntOp.andi (IntOp.cmpi .sge (wrapped3 idx (ix3 n k z)) 0#32)
    (IntOp.cmpi .sle (wrapped3 idx (ix3 n k z)) 49999#32) = 1#1
  rw [wrapped3_apply idx n k z (h _)]
  exact IntOp.andi_eq_one.mpr ⟨(h _).ge_zero, (h _).le_max⟩

/-- THE FIRST LOOKUP AT (n, k, d), every index word in range: the table at the row that word (n, k) names, column d. -/
theorem take_apply (tbl : S50000x128.Idx → F .f32) (idx : IVec S10000x32 32) (h : ∀ i, InRange (idx i))
    (n : Fin 10000) (k : Fin 32) (d : Fin 128) :
    take tbl idx (ix3 n k d) = tbl (ix2 (Cert.Spec.row (idx (ix2 n k))) d) := by
  rw [take_eq]
  show Scalar.select (broadcastInDim S10000x32x128 ![0, 1] bcast_S10000x32_S10000x32x128_0_1 (mask3 idx) (ix3 n k d))
    (Host.gather G3 tbl (wrapped3 idx) (ix3 n k d)) _ = _
  rw [broadcastInDim_apply _ _ _ (ix3 n k d) (ix2 n k) (fun a => by match a with | ⟨0, _⟩ => rfl | ⟨1, _⟩ => rfl),
    mask3_apply idx h, select_one, gather3_apply]
  refine congrArg tbl (congrArg (fun r => ix2 r d) (Fin.ext ?_))
  show min (wrapped3 idx (ix3 n k 0)).toInt.toNat 49999 = _
  rw [wrapped3_apply idx n k 0 (h _)]
  exact (h _).clamp

/-- The second lookup's index words after the wrap of negative ones, as start indices [10000, 1]. -/
def wrapped2 (idx : IVec S10000 32) : IVec S10000x1 32 :=
  broadcastInDim S10000x1 ![0] bcast_S10000_S10000x1_0
    (select (cmpi .slt idx (broadcastInDim S10000 ![] bcast_S_S10000 (constantI S_ 32 0#32)))
      (addi idx (broadcastInDim S10000 ![] bcast_S_S10000 (constantI S_ 32 50000#32))) idx)

/-- The second lookup's in-range mask. -/
def mask2 (idx : IVec S10000 32) : IVec S10000 1 :=
  Host.reduce IntOp.andi
    (andi (cmpi .sge (wrapped2 idx) (broadcastInDim S10000x1 ![] bcast_S_S10000x1 (constantI S_ 32 0#32)))
      (cmpi .sle (wrapped2 idx) (broadcastInDim S10000x1 ![0, 1] bcast_S1x1_S10000x1_0_1
        (broadcastInDim S1x1 ![1] bcast_S1_S1x1_1 (constantI S1 32 49999#32)))))
    (constantI S_ 1 1#1) reducesTo_S10000x1_S10000_d1 h_S_

/-- The second lookup is the select, on the broadcast mask, between the gathered rows and the fill value. -/
theorem take_0_eq (tbl : S50000x128.Idx → F .f32) (idx : IVec S10000 32) :
    take_0 tbl idx = select (broadcastInDim S10000x128 ![0] bcast_S10000_S10000x128_0 (mask2 idx))
      (Host.gather G2 tbl (wrapped2 idx))
      (broadcastInDim S10000x128 ![] bcast_S_S10000x128 (constant S_ .f32 0x7FC00000#32)) := rfl

/-- An in-range index word is not wrapped. -/
theorem wrapped2_apply (idx : IVec S10000 32) (n : Fin 10000) (z : Fin 1) (h : InRange (idx (ix1 n))) :
    wrapped2 idx (ix2 n z) = idx (ix1 n) := by
  unfold wrapped2
  rw [broadcastInDim_apply _ _ _ (ix2 n z) (ix1 n) (fun a => by match a with | ⟨0, _⟩ => rfl)]
  show Scalar.select (IntOp.cmpi .slt (idx (ix1 n)) 0#32) _ (idx (ix1 n)) = idx (ix1 n)
  exact if_neg h.not_neg

/-- With every index word in range the mask is 1 everywhere. -/
theorem mask2_apply (idx : IVec S10000 32) (h : ∀ i, InRange (idx i)) (j : S10000.Idx) : mask2 idx j = 1#1 := by
  unfold mask2
  refine reduce_andi_one _ _ _ _ (fun i => ?_) (fun _ => rfl) j
  obtain ⟨n, z, rfl⟩ : ∃ (n : Fin 10000) (z : Fin 1), i = ix2 n z := ⟨i 0, i 1, eq_ix2 i⟩
  show IntOp.andi (IntOp.cmpi .sge (wrapped2 idx (ix2 n z)) 0#32)
    (IntOp.cmpi .sle (wrapped2 idx (ix2 n z)) 49999#32) = 1#1
  rw [wrapped2_apply idx n z (h _)]
  exact IntOp.andi_eq_one.mpr ⟨(h _).ge_zero, (h _).le_max⟩

/-- THE SECOND LOOKUP AT (n, d), every index word in range: the table at the row that word n names, column d. -/
theorem take_0_apply (tbl : S50000x128.Idx → F .f32) (idx : IVec S10000 32) (h : ∀ i, InRange (idx i))
    (n : Fin 10000) (d : Fin 128) :
    take_0 tbl idx (ix2 n d) = tbl (ix2 (Cert.Spec.row (idx (ix1 n))) d) := by
  rw [take_0_eq]
  show Scalar.select (broadcastInDim S10000x128 ![0] bcast_S10000_S10000x128_0 (mask2 idx) (ix2 n d))
    (Host.gather G2 tbl (wrapped2 idx) (ix2 n d)) _ = _
  rw [broadcastInDim_apply _ _ _ (ix2 n d) (ix1 n) (fun a => by match a with | ⟨0, _⟩ => rfl),
    mask2_apply idx h, select_one, gather2_apply]
  refine congrArg tbl (congrArg (fun r => ix2 r d) (Fin.ext ?_))
  show min (wrapped2 idx (ix2 n 0)).toInt.toNat 49999 = _
  rw [wrapped2_apply idx n 0 (h _)]
  exact (h _).clamp

end Lookups

end Cert.ReferenceIdeal.RefValue

end
-- ==== Proof.RefStages.lean ====
/-
  The reference's operations read at an index, and its stages named.

  Each contraction over one axis is the sum over that axis's coordinates; the maximum and the sums over the 32
  neighbours are a supremum (from -inf) and sums (from 0); the concatenation along the feature axis reads its first
  piece on the first 128 features and its second piece on the last 128; a broadcast reads its operand at the
  coordinates it keeps. The stages of the reference (the 256-feature rows, the two hidden layers, the shifted logits,
  their largest, the unnormalised weights, the weights) are named so that each can be read at an index by itself.
-/
import proofs.«215990_g90829968376431_cont_sun_c4_571_51_alg».proof.Proof.RefTake
import Idealize.ShloMosaic.PureOps.Ideal.Laws

noncomputable section

open scoped BigOperators

namespace Cert.ReferenceIdeal.RefValue

open Cert.ReferenceIdeal Idealize.ShloMosaic Idealize.ShloMosaic.ValueIdx
open Cert.ReferenceIdeal.Facts₀ Cert.ReferenceIdeal.Facts

variable [Cert.ReferenceIdeal.Facts]

/-! ## The three contractions read at an index -/

/-- The first layer's dimension numbers: [10000, 32, 256] against [256, 128]. -/
abbrev D1 := dot_S10000x32x256_S256x128_S10000x32x128_2_0_01_1_n_n
/-- The second layer's: [10000, 32, 128] against [128, 128]. -/
abbrev D2 := dot_S10000x32x128_S128x128_S10000x32x128_2_0_01_1_n_n
/-- The logits': [10000, 32, 128] against [128, 1]. -/
abbrev D3 := dot_S10000x32x128_S128x1_S10000x32x1_2_0_01_1_n_n

/-- The first contraction at (n, k, j): the sum over the 256 features. -/
theorem dot1_apply (x : FVec Ideal S10000x32x256 .f32) (w : FVec Ideal S256x128 .f32) (n : Fin 10000) (k : Fin 32)
    (j : Fin 128) : Host.dotGeneral D1 none x w (ix3 n k j) = ∑ c : Fin 256, x (ix3 n k c) * w (ix2 c j) := by
  refine (Ideal.dotGeneral_apply D1 none .single x w (ix3 n k j)).trans ?_
  refine Fintype.sum_equiv (contrEquiv1 D1 256 rfl rfl) _ _ (fun q => ?_)
  have hl : D1.lhsIdx (ix3 n k j) q = ix3 n k (contrEquiv1 D1 256 rfl rfl q) := by
    funext a; refine Fin.ext ?_
    match a with
    | ⟨0, _⟩ => rfl
    | ⟨1, _⟩ => rfl
    | ⟨2, _⟩ => rfl
  have hr : D1.rhsIdx (ix3 n k j) q = ix2 (contrEquiv1 D1 256 rfl rfl q) j := by
    funext a; refine Fin.ext ?_
    match a with
    | ⟨0, _⟩ => rfl
    | ⟨1, _⟩ => rfl
  rw [hl, hr]

/-- The second contraction at (n, k, j): the sum over the 128 hidden features. -/
theorem dot2_apply (x : FVec Ideal S10000x32x128 .f32) (w : FVec Ideal S128x128 .f32) (n : Fin 10000) (k : Fin 32)
    (j : Fin 128) : Host.dotGeneral D2 none x w (ix3 n k j) = ∑ c : Fin 128, x (ix3 n k c) * w (ix2 c j) := by
  refine (Ideal.dotGeneral_apply D2 none .single x w (ix3 n k j)).trans ?_
  refine Fintype.sum_equiv (contrEquiv1 D2 128 rfl rfl) _ _ (fun q => ?_)
  have hl : D2.lhsIdx (ix3 n k j) q = ix3 n k (contrEquiv1 D2 128 rfl rfl q) := by
    funext a; refine Fin.ext ?_
    match a with
    | ⟨0, _⟩ => rfl
    | ⟨1, _⟩ => rfl
    | ⟨2, _⟩ => rfl
  have hr : D2.rhsIdx (ix3 n k j) q = ix2 (contrEquiv1 D2 128 rfl rfl q) j := by
    funext a; refine Fin.ext ?_
    match a with
    | ⟨0, _⟩ => rfl
    | ⟨1, _⟩ => rfl
  rw [hl, hr]

/-- The logits' contraction at (n, k, 0): the sum over the 128 hidden features. -/
theorem dot3_apply (x : FVec Ideal S10000x32x128 .f32) (w : FVec Ideal S128x1 .f32) (n : Fin 10000) (k : Fin 32)
    (z : Fin 1) : Host.dotGeneral D3 none x w (ix3 n k z) = ∑ c : Fin 128, x (ix3 n k c) * w (ix2 c z) := by
  refine (Ideal.dotGeneral_apply D3 none .single x w (ix3 n k z)).trans ?_
  refine Fintype.sum_equiv (contrEquiv1 D3 128 rfl rfl) _ _ (fun q => ?_)
  have hl : D3.lhsIdx (ix3 n k z) q = ix3 n k (contrEquiv1 D3 128 rfl rfl q) := by
    funext a; refine Fin.ext ?_
    match a with
    | ⟨0, _⟩ => rfl
    | ⟨1, _⟩ => rfl
    | ⟨2, _⟩ => rfl
  have hr : D3.rhsIdx (ix3 n k z) q = ix2 (contrEquiv1 D3 128 rfl rfl q) z := by
    funext a; refine Fin.ext ?_
    match a with
    | ⟨0, _⟩ => rfl
    | ⟨1, _⟩ => rfl
  rw [hl, hr]

/-! ## The reductions over the neighbour axis read at an index -/

theorem red1 : S10000x32x1.Reduces [1] S10000x1 := by decide
theorem red2 : S10000x32x128.Reduces [1] S10000x128 := by decide

/-- The reduced index (n, z) with neighbour k put back is (n, k, z). -/
theorem lift1 (n : Fin 10000) (z : Fin 1) (k : Fin 32) : red1.lift (ix2 n z) k = ix3 n k z := by
  funext a; refine Fin.ext ?_
  match a with
  | ⟨0, _⟩ => rfl
  | ⟨1, _⟩ => rfl
  | ⟨2, _⟩ => rfl

/-- The reduced index (n, d) with neighbour k put back is (n, k, d). -/
theorem lift2 (n : Fin 10000) (d : Fin 128) (k : Fin 32) : red2.lift (ix2 n d) k = ix3 n k d := by
  funext a; refine Fin.ext ?_
  match a with
  | ⟨0, _⟩ => rfl
  | ⟨1, _⟩ => rfl
  | ⟨2, _⟩ => rfl

/-- The word of -inf reads -inf. -/
theorem ofBits_neg_inf : Ideal.ofBits .f32 0xFF800000#32 = (⊥ : EReal) := by simp [Ideal.ofBits, Ideal.ieee]

/-- The maximum over the neighbours, from -inf, at (n, z): the supremum of the 32 entries. -/
theorem max_apply (x : FVec Ideal S10000x32x1 .f32) (n : Fin 10000) (z : Fin 1) :
    Host.reduce FloatOps.maximumf x (constant (F := Ideal) S_ .f32 0xFF800000#32) reducesTo_S10000x32x1_S10000x1_d1 h_S_
        (ix2 n z)
      = Finset.univ.sup fun k : Fin 32 => x (ix3 n k z) := by
  rw [Host.reduce_eq_fold_single FloatOps.maximumf x _ reducesTo_S10000x32x1_S10000x1_d1 red1 h_S_]
  have hf : (x ∘ red1.lift (ix2 n z)) = fun k : Fin 32 => x (ix3 n k z) := funext fun k => congrArg x (lift1 n z k)
  have hb : (constant (F := Ideal) S_ .f32 0xFF800000#32) (Shape.Idx.first h_S_) = (⊥ : EReal) := ofBits_neg_inf
  rw [hb]
  show Finset.fold max (⊥ : EReal) (x ∘ red1.lift (ix2 n z)) (Finset.univ : Finset (Fin 32)) = _
  rw [hf]
  rfl

/-- The sum over the neighbours, from 0, at (n, z). -/
theorem sum1_apply (x : FVec Ideal S10000x32x1 .f32) (n : Fin 10000) (z : Fin 1) :
    Host.reduceAdd x (constant (F := Ideal) S_ .f32 0x00000000#32) reducesTo_S10000x32x1_S10000x1_d1 h_S_ (ix2 n z)
      = 0 + ∑ k : Fin 32, x (ix3 n k z) := by
  show Ideal.hostReduceAdd reducesTo_S10000x32x1_S10000x1_d1 x (Ideal.ofBits .f32 0x00000000#32) (ix2 n z) = _
  rw [Ideal.hostReduceAdd_single reducesTo_S10000x32x1_S10000x1_d1 red1, Ideal.ofBits_zero_f32]
  exact congrArg (0 + ·) (Finset.sum_congr rfl fun k _ => congrArg x (lift1 n z k))

/-- The sum over the neighbours, from 0, at (n, d). -/
theorem sum2_apply (x : FVec Ideal S10000x32x128 .f32) (n : Fin 10000) (d : Fin 128) :
    Host.reduceAdd x (constant (F := Ideal) S_ .f32 0x00000000#32) reducesTo_S10000x32x128_S10000x128_d1 h_S_ (ix2 n d)
      = 0 + ∑ k : Fin 32, x (ix3 n k d) := by
  show Ideal.hostReduceAdd reducesTo_S10000x32x128_S10000x128_d1 x (Ideal.ofBits .f32 0x00000000#32) (ix2 n d) = _
  rw [Ideal.hostReduceAdd_single reducesTo_S10000x32x128_S10000x128_d1 red2, Ideal.ofBits_zero_f32]
  exact congrArg (0 + ·) (Finset.sum_congr rfl fun k _ => congrArg x (lift2 n d k))

/-! ## The concatenation along the feature axis read at an index -/

/-- The first 128 features of the concatenation are the first piece's. -/
theorem concat_left (a b : FVec Ideal S10000x32x128 .f32) (n : Fin 10000) (k : Fin 32) (d : Fin 128) :
    concatenate S10000x32x256 2 [⟨S10000x32x128, a⟩, ⟨S10000x32x128, b⟩]
        concatenates_S10000x32x128_S10000x32x128_S10000x32x256_d2 (ix3 n k (⟨d.val, by omega⟩ : Fin 256))
      = a (ix3 n k d) :=
  concatenate_pair_apply_left (t := S10000x32x256) (s₁ := S10000x32x128) (s₂ := S10000x32x128) 2 a b
    concatenates_S10000x32x128_S10000x32x128_S10000x32x256_d2 (ix3 n k (⟨d.val, by omega⟩ : Fin 256)) rfl (ix3 n k d)
    (fun c => by match c with | ⟨0, _⟩ => rfl | ⟨1, _⟩ => rfl | ⟨2, _⟩ => rfl)

/-- The last 128 features of the concatenation are the second piece's. -/
theorem concat_right (a b : FVec Ideal S10000x32x128 .f32) (n : Fin 10000) (k : Fin 32) (d : Fin 128) :
    concatenate S10000x32x256 2 [⟨S10000x32x128, a⟩, ⟨S10000x32x128, b⟩]
        concatenates_S10000x32x128_S10000x32x128_S10000x32x256_d2 (ix3 n k (⟨128 + d.val, by omega⟩ : Fin 256))
      = b (ix3 n k d) :=
  concatenate_pair_apply_right (t := S10000x32x256) (s₁ := S10000x32x128) (s₂ := S10000x32x128) 2 a b
    concatenates_S10000x32x128_S10000x32x128_S10000x32x256_d2 (ix3 n k (⟨128 + d.val, by omega⟩ : Fin 256)) rfl rfl
    (ix3 n k d)
    (fun c hc => by match c with | ⟨0, _⟩ => rfl | ⟨1, _⟩ => rfl | ⟨2, _⟩ => exact absurd rfl hc)
    (by show d.val + 128 = 128 + d.val; omega)

/-! ## The broadcasts read at an index -/

/-- A bias [128] broadcast to [10000, 32, 128] reads the bias at the feature. -/
theorem bb_vec (b : FVec Ideal S128 .f32) (n : Fin 10000) (k : Fin 32) (j : Fin 128) :
    broadcastInDim S10000x32x128 ![0, 1, 2] bcast_S1x1x128_S10000x32x128_0_1_2
        (broadcastInDim S1x1x128 ![2] bcast_S128_S1x1x128_2 b) (ix3 n k j) = b (ix1 j) := by
  rw [broadcastInDim_apply _ _ _ (ix3 n k j) (ix3 (0 : Fin 1) (0 : Fin 1) j)
      (fun a => by match a with | ⟨0, _⟩ => rfl | ⟨1, _⟩ => rfl | ⟨2, _⟩ => rfl),
    broadcastInDim_apply _ _ _ (ix3 (0 : Fin 1) (0 : Fin 1) j) (ix1 j) (fun a => by match a with | ⟨0, _⟩ => rfl)]

/-- The last bias [1] broadcast to [10000, 32, 1] reads its one entry. -/
theorem bb_b3 (b : FVec Ideal S1 .f32) (n : Fin 10000) (k : Fin 32) (z : Fin 1) :
    broadcastInDim S10000x32x1 ![0, 1, 2] bcast_S1x1x1_S10000x32x1_0_1_2
        (broadcastInDim S1x1x1 ![2] bcast_S1_S1x1x1_2 b) (ix3 n k z) = b (ix1 (0 : Fin 1)) := by
  rw [broadcastInDim_apply _ _ _ (ix3 n k z) (ix3 (0 : Fin 1) (0 : Fin 1) (0 : Fin 1))
      (fun a => by match a with | ⟨0, _⟩ => rfl | ⟨1, _⟩ => rfl | ⟨2, _⟩ => rfl),
    broadcastInDim_apply _ _ _ (ix3 (0 : Fin 1) (0 : Fin 1) (0 : Fin 1)) (ix1 (0 : Fin 1))
      (fun a => by match a with | ⟨0, _⟩ => rfl)]

/-- The nodes' own rows [10000, 128] broadcast over the neighbours read node n's row. -/
theorem bb_u (v : FVec Ideal S10000x128 .f32) (n : Fin 10000) (k : Fin 32) (d : Fin 128) :
    broadcastInDim S10000x32x128 ![0, 1, 2] bcast_S10000x1x128_S10000x32x128_0_1_2
        (broadcastInDim S10000x1x128 ![0, 2] bcast_S10000x128_S10000x1x128_0_2 v) (ix3 n k d) = v (ix2 n d) := by
  rw [broadcastInDim_apply _ _ _ (ix3 n k d) (ix3 n (0 : Fin 1) d)
      (fun a => by match a with | ⟨0, _⟩ => rfl | ⟨1, _⟩ => rfl | ⟨2, _⟩ => rfl),
    broadcastInDim_apply _ _ _ (ix3 n (0 : Fin 1) d) (ix2 n d)
      (fun a => by match a with | ⟨0, _⟩ => rfl | ⟨1, _⟩ => rfl)]

/-- A per-node column [10000, 1] broadcast over the neighbours reads node n's entry. -/
theorem bb_m (m : FVec Ideal S10000x1 .f32) (n : Fin 10000) (k : Fin 32) (z : Fin 1) :
    broadcastInDim S10000x32x1 ![0, 1, 2] bcast_S10000x1x1_S10000x32x1_0_1_2
        (broadcastInDim S10000x1x1 ![0, 2] bcast_S10000x1_S10000x1x1_0_2 m) (ix3 n k z) = m (ix2 n (0 : Fin 1)) := by
  rw [broadcastInDim_apply _ _ _ (ix3 n k z) (ix3 n (0 : Fin 1) (0 : Fin 1))
      (fun a => by match a with | ⟨0, _⟩ => rfl | ⟨1, _⟩ => rfl | ⟨2, _⟩ => rfl),
    broadcastInDim_apply _ _ _ (ix3 n (0 : Fin 1) (0 : Fin 1)) (ix2 n (0 : Fin 1))
      (fun a => by match a with | ⟨0, _⟩ => rfl | ⟨1, _⟩ => rfl)]

/-- The weights [10000, 32, 1] broadcast over the features read the weight of (n, k). -/
theorem b_att (w : FVec Ideal S10000x32x1 .f32) (n : Fin 10000) (k : Fin 32) (d : Fin 128) :
    broadcastInDim S10000x32x128 ![0, 1, 2] bcast_S10000x32x1_S10000x32x128_0_1_2 w (ix3 n k d)
      = w (ix3 n k (0 : Fin 1)) := by
  rw [broadcastInDim_apply _ _ _ (ix3 n k d) (ix3 n k (0 : Fin 1))
      (fun a => by match a with | ⟨0, _⟩ => rfl | ⟨1, _⟩ => rfl | ⟨2, _⟩ => rfl)]

/-! ## The elementwise host operations read at an index -/

/-- The rectifier is the maximum with a broadcast zero. -/
theorem relu_eq (x : FVec Ideal S10000x32x128 .f32) :
    relu (F := Ideal) x = maximumf x (broadcastInDim S10000x32x128 ![] bcast_S_S10000x32x128
      (constant (F := Ideal) S_ .f32 0x00000000#32)) := rfl

/-- A broadcast float constant reads the value its word denotes. -/
theorem bcast_const (t : Shape) (h : S_.BroadcastsInDim t ![]) (w : BitVec 32) (i : t.Idx) :
    broadcastInDim t ![] h (constant (F := Ideal) S_ .f32 w) i = Ideal.ofBits .f32 w := rfl

/-- The rectifier at an index: the maximum with zero. -/
theorem relu_apply (x : FVec Ideal S10000x32x128 .f32) (i : S10000x32x128.Idx) : relu (F := Ideal) x i = max (x i) 0 := by
  rw [relu_eq, maximumf_apply, bcast_const, Ideal.ofBits_zero_f32]

/-- The host's exponential at an index. -/
theorem hostExp_apply {s : Shape} (x : FVec Ideal s .f32) (i : s.Idx) : Host.exp x i = Ideal.exp (x i) := rfl

/-- The host's quotient at an index. -/
theorem hostDivf_apply {s : Shape} (x y : FVec Ideal s .f32) (i : s.Idx) : Host.divf x y i = Ideal.div (x i) (y i) := rfl

/-! ## The reference's stages -/

section Stages

variable (nodes : IVec S10000 32) (neigh : IVec S10000x32 32) (u2e : FVec Ideal S50000x128 .f32)
  (W1 : FVec Ideal S256x128 .f32) (b1 : FVec Ideal S128 .f32) (W2 : FVec Ideal S128x128 .f32)
  (b2 : FVec Ideal S128 .f32) (W3 : FVec Ideal S128x1 .f32) (b3 : FVec Ideal S1 .f32)

/-- The neighbours' rows beside the node's own row: 256 features. -/
def sX : FVec Ideal S10000x32x256 .f32 :=
  concatenate S10000x32x256 2 [⟨S10000x32x128, take (F := Ideal) u2e neigh⟩,
      ⟨S10000x32x128, broadcastInDim S10000x32x128 ![0, 1, 2] bcast_S10000x1x128_S10000x32x128_0_1_2
        (broadcastInDim S10000x1x128 ![0, 2] bcast_S10000x128_S10000x1x128_0_2 (take_0 (F := Ideal) u2e nodes))⟩]
    concatenates_S10000x32x128_S10000x32x128_S10000x32x256_d2

/-- The first hidden layer. -/
def sH1 : FVec Ideal S10000x32x128 .f32 :=
  relu (addf (Host.dotGeneral D1 none (sX nodes neigh u2e) W1)
    (broadcastInDim S10000x32x128 ![0, 1, 2] bcast_S1x1x128_S10000x32x128_0_1_2
      (broadcastInDim S1x1x128 ![2] bcast_S128_S1x1x128_2 b1)))

/-- The second hidden layer. -/
def sH2 : FVec Ideal S10000x32x128 .f32 :=
  relu (addf (Host.dotGeneral D2 none (sH1 nodes neigh u2e W1 b1) W2)
    (broadcastInDim S10000x32x128 ![0, 1, 2] bcast_S1x1x128_S10000x32x128_0_1_2
      (broadcastInDim S1x1x128 ![2] bcast_S128_S1x1x128_2 b2)))

/-- The shifted logits. -/
def sLg : FVec Ideal S10000x32x1 .f32 :=
  addf (Host.dotGeneral D3 none (sH2 nodes neigh u2e W1 b1 W2 b2) W3)
    (broadcastInDim S10000x32x1 ![0, 1, 2] bcast_S1x1x1_S10000x32x1_0_1_2
      (broadcastInDim S1x1x1 ![2] bcast_S1_S1x1x1_2 b3))

/-- The largest shifted logit of each node. -/
def sMx : FVec Ideal S10000x1 .f32 :=
  maximumf (broadcastInDim S10000x1 ![] bcast_S_S10000x1 (constant (F := Ideal) S_ .f32 0xFF800000#32))
    (Host.reduce FloatOps.maximumf (sLg nodes neigh u2e W1 b1 W2 b2 W3 b3) (constant (F := Ideal) S_ .f32 0xFF800000#32)
      reducesTo_S10000x32x1_S10000x1_d1 h_S_)

/-- The unnormalised weights. -/
def sP : FVec Ideal S10000x32x1 .f32 :=
  Host.exp (subf (sLg nodes neigh u2e W1 b1 W2 b2 W3 b3)
    (broadcastInDim S10000x32x1 ![0, 1, 2] bcast_S10000x1x1_S10000x32x1_0_1_2
      (broadcastInDim S10000x1x1 ![0, 2] bcast_S10000x1_S10000x1x1_0_2 (sMx nodes neigh u2e W1 b1 W2 b2 W3 b3))))

/-- The weights. -/
def sAtt : FVec Ideal S10000x32x1 .f32 :=
  Host.divf (sP nodes neigh u2e W1 b1 W2 b2 W3 b3)
    (broadcastInDim S10000x32x1 ![0, 1, 2] bcast_S10000x1x1_S10000x32x1_0_1_2
      (broadcastInDim S10000x1x1 ![0, 2] bcast_S10000x1_S10000x1x1_0_2
        (Host.reduceAdd (sP nodes neigh u2e W1 b1 W2 b2 W3 b3) (constant (F := Ideal) S_ .f32 0x00000000#32)
          reducesTo_S10000x32x1_S10000x1_d1 h_S_)))

/-- The reference's result is the sum over the neighbours of their rows times the weights. -/
theorem term_eq_stages :
    term (F := Ideal) nodes neigh u2e W1 b1 W2 b2 W3 b3
      = Host.reduceAdd (mulf (take (F := Ideal) u2e neigh)
          (broadcastInDim S10000x32x128 ![0, 1, 2] bcast_S10000x32x1_S10000x32x128_0_1_2
            (sAtt nodes neigh u2e W1 b1 W2 b2 W3 b3)))
        (constant (F := Ideal) S_ .f32 0x00000000#32) reducesTo_S10000x32x128_S10000x128_d1 h_S_ := rfl

end Stages

end Cert.ReferenceIdeal.RefValue

end
-- ==== Proof.LibFiniteReals.lean ====
/-
  A general lemma file: extended reals that are real numbers, and the mean and variance of finitely many of them.

  Over the extended reals sums and products have corners at the infinities, and laws such as distributivity hold only
  away from them. This file keeps track of the entries that ARE real numbers: they are closed under the arithmetic
  operations, finite sums, maxima, quotients by a nonzero real and the reciprocal square root of a positive real, and
  on them every identity of real arithmetic may be used. The identity needed for a batch normalisation is the two ways
  of writing a variance: for `n` real numbers with mean `μ`, the mean of the squared deviations `(y − μ)²` is the mean
  of the squares minus `μ²`.
-/
import Idealize.ShloMosaic.PureOps.Ideal

noncomputable section

namespace Cert.FiniteReals

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.max {x y : EReal} (hx : IsReal x) (hy : IsReal y) : IsReal (max x y) := by
  rcases max_cases x y with ⟨h, _⟩ | ⟨h, _⟩ <;> rw [h] <;> assumption

/-- A finite sum of reals, taken in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real by a nonzero real, in the extended reals' division, is the real quotient. -/
theorem div_coe_coe (x : ℝ) {y : ℝ} (hy : y ≠ 0) : Ideal.div (x : EReal) (y : EReal) = ((x / y : ℝ) : EReal) := by
  rw [Ideal.div_coe hy, ← EReal.coe_mul]
  congr 1
  field_simp

theorem IsReal.div_coe {x : EReal} (hx : IsReal x) {y : ℝ} (hy : y ≠ 0) : IsReal (Ideal.div x (y : EReal)) := by
  obtain ⟨r, rfl⟩ := hx; exact ⟨r / y, div_coe_coe r hy⟩

/-- The reciprocal square root of a positive real is a positive real. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_of_pos {r : ℝ} (h : 0 < r) : IsReal (Ideal.rsqrt (r : EReal)) :=
  ⟨_, rsqrt_coe_pos h⟩

/-! ## Mean and variance of `n` reals -/

/-- For `n` real numbers with sum `S`: the mean of the squared deviations from `S / n` is the mean of the squares minus
    the square of the mean. -/
theorem real_variance (n : ℕ) (hn : (n : ℝ) ≠ 0) (y : Fin n → ℝ) :
    (∑ a, (y a - (∑ a, y a) / n) * (y a - (∑ a, y a) / n)) / n
      = (∑ a, y a * y a) / n - ((∑ a, y a) / n) * ((∑ a, y a) / n) := by
  set S := ∑ a, y a with hS
  have h1 : ∑ a, (y a - S / n) * (y a - S / n) = (∑ a, y a * y a) - 2 * (S / n) * S + n * ((S / n) * (S / n)) := by
    have : ∀ a, (y a - S / n) * (y a - S / n) = y a * y a - 2 * (S / n) * y a + (S / n) * (S / n) := fun a => by ring
    simp only [this, Finset.sum_add_distrib, Finset.sum_sub_distrib, ← Finset.mul_sum, Finset.sum_const, Finset.card_univ,
      Fintype.card_fin, nsmul_eq_mul, ← hS]
    ring
  rw [h1]
  field_simp
  ring

/-- The mean of the squared deviations of real numbers is a nonnegative real. -/
theorem real_variance_nonneg (n : ℕ) (μ : ℝ) (y : Fin n → ℝ) : 0 ≤ (∑ a, (y a - μ) * (y a - μ)) / n :=
  div_nonneg (Finset.sum_nonneg fun a _ => mul_self_nonneg _) (Nat.cast_nonneg n)

variable {n : ℕ}

/-- THE MEAN of `n` real entries, computed in the extended reals: the real mean. -/
theorem mean_coe (hn : (n : ℝ) ≠ 0) (y : Fin n → ℝ) :
    Ideal.div (∑ a, ((y a : ℝ) : EReal)) ((n : ℝ) : EReal) = (((∑ a, y a) / n : ℝ) : EReal) := by
  rw [coe_sum, div_coe_coe _ hn]

/-- THE TWO VARIANCES AGREE on real entries: the mean of `(Y − μ)²` (`μ` the mean) is the mean of `Y²` minus `μ²`, all
    computed in the extended reals with the quotient by `n`. -/
theorem variance_eq (hn : (n : ℝ) ≠ 0) (Y : Fin n → EReal) (hY : ∀ a, IsReal (Y a)) :
    Ideal.div (∑ a, (Y a - Ideal.div (∑ a, Y a) ((n : ℝ) : EReal)) * (Y a - Ideal.div (∑ a, Y a) ((n : ℝ) : EReal))) ((n : ℝ) : EReal)
      = Ideal.div (∑ a, Y a * Y a) ((n : ℝ) : EReal)
        - Ideal.div (∑ a, Y a) ((n : ℝ) : EReal) * Ideal.div (∑ a, Y a) ((n : ℝ) : EReal) := by
  choose y hy using hY
  obtain rfl : Y = fun a => ((y a : ℝ) : EReal) := funext hy
  simp only [mean_coe hn, ← EReal.coe_sub, ← EReal.coe_mul, coe_sum, div_coe_coe _ hn]
  exact congrArg _ (real_variance n hn y)

/-- On real entries the mean is real, -/
theorem isReal_mean (hn : (n : ℝ) ≠ 0) (Y : Fin n → EReal) (hY : ∀ a, IsReal (Y a)) :
    IsReal (Ideal.div (∑ a, Y a) ((n : ℝ) : EReal)) :=
  (IsReal.sum _ _ fun a _ => hY a).div_coe hn

/-- and the variance is a nonnegative real. -/
theorem variance_nonneg (hn : (n : ℝ) ≠ 0) (Y : Fin n → EReal) (hY : ∀ a, IsReal (Y a)) (μ : EReal) (hμ : IsReal μ) :
    ∃ v : ℝ, 0 ≤ v ∧ Ideal.div (∑ a, (Y a - μ) * (Y a - μ)) ((n : ℝ) : EReal) = (v : EReal) := by
  choose y hy using hY
  obtain rfl : Y = fun a => ((y a : ℝ) : EReal) := funext hy
  obtain ⟨m, rfl⟩ := hμ
  refine ⟨(∑ a, (y a - m) * (y a - m)) / n, real_variance_nonneg n m y, ?_⟩
  simp only [← EReal.coe_sub, ← EReal.coe_mul, coe_sum, div_coe_coe _ hn]

end Cert.FiniteReals

end
-- ==== Proof.SpecAlgebra.lean ====
/-
  The laws that join two arrangements of the neighbour-attention aggregation, on extended reals.

  * A sum over 256 coordinates is the sum over the first 128 plus the sum over the last 128 (so one contraction of a
    row made of two halves against a 256-row weight is the sum of the two halves' contractions).
  * The maximum with -inf is the identity, and a finite nonempty supremum commutes with adding a constant.
  * Shift invariance of the softmax: for real logits l k and a real shift b, (l k + b) - sup (l + b) = l k - sup l,
    so the exponentials, their sum and the quotients are the same with and without the shift.
  * Extended reals that are real numbers are closed under the operations the aggregation uses, so every logit is a
    real number when every input entry is.
-/
import proofs.«215990_g90829968376431_cont_sun_c4_571_51_alg».proof.Proof.Spec
import proofs.«215990_g90829968376431_cont_sun_c4_571_51_alg».proof.Proof.LibFiniteReals

noncomputable section

open scoped BigOperators

namespace Cert.SpecAlgebra

open Idealize.ShloMosaic Cert.FiniteReals Cert.Spec

/-! ## Sums over 256 = 128 + 128 coordinates -/

/-- A sum over 256 coordinates is the sum over the first 128 plus the sum over the last 128. -/
theorem sum_fin256_split {M : Type*} [AddCommMonoid M] (f : Fin 256 → M) :
    ∑ i : Fin 256, f i
      = (∑ d : Fin 128, f (⟨d.val, by omega⟩ : Fin 256)) + ∑ d : Fin 128, f (⟨128 + d.val, by omega⟩ : Fin 256) :=
  Fin.sum_univ_add (a := 128) (b := 128) f

/-! ## Maxima -/

/-- The maximum with -inf is the identity. -/
theorem max_bot_eq (x : EReal) : max ⊥ x = x := max_bot_left x

/-- A nonempty finite supremum commutes with adding a constant on the right (no finiteness is needed). -/
theorem sup_add_const {ι : Type*} (s : Finset ι) (hs : s.Nonempty) (f : ι → EReal) (c : EReal) :
    (s.sup fun k => f k + c) = s.sup f + c := by
  obtain ⟨i0, hi0, h0⟩ := Finset.exists_mem_eq_sup s hs f
  apply le_antisymm
  · exact Finset.sup_le fun k hk => add_le_add (Finset.le_sup hk) le_rfl
  · rw [h0]; exact Finset.le_sup (f := fun k => f k + c) hi0

/-- A nonempty finite supremum of real numbers is a real number. -/
theorem isReal_sup {ι : Type*} (s : Finset ι) (hs : s.Nonempty) (f : ι → EReal) (h : ∀ i ∈ s, IsReal (f i)) :
    IsReal (s.sup f) := by
  obtain ⟨i0, hi0, h0⟩ := Finset.exists_mem_eq_sup s hs f
  rw [h0]; exact h i0 hi0

/-- The exponential of a real number is a real number. -/
theorem isReal_exp {x : EReal} (h : IsReal x) : IsReal (Ideal.exp x) := by
  obtain ⟨r, rfl⟩ := h; exact ⟨Real.exp r, rfl⟩

/-- The exponential of a real number is a positive real number. -/
theorem exp_coe_pos (r : ℝ) : ∃ p : ℝ, 0 < p ∧ Ideal.exp (r : EReal) = (p : EReal) := ⟨Real.exp r, Real.exp_pos r, rfl⟩

/-! ## Shift invariance of the softmax -/

/-- On real numbers a common shift cancels in a difference. -/
theorem add_sub_add_right_of_real {x m b : EReal} (hx : IsReal x) (hm : IsReal m) (hb : IsReal b) :
    (x + b) - (m + b) = x - m := by
  obtain ⟨x, rfl⟩ := hx; obtain ⟨m, rfl⟩ := hm; obtain ⟨b, rfl⟩ := hb
  rw [← EReal.coe_add, ← EReal.coe_add, ← EReal.coe_sub, ← EReal.coe_sub]
  exact congrArg _ (by ring)

/-- A shifted real logit less the largest shifted logit (the maximum taken from -inf) is the logit less the largest
    logit. -/
theorem sub_sup_shift {ι : Type*} [Fintype ι] [Nonempty ι] (l : ι → EReal) (hl : ∀ k, IsReal (l k)) (b : EReal)
    (hb : IsReal b) (k : ι) :
    (l k + b) - max ⊥ (Finset.univ.sup fun k' => l k' + b) = l k - Finset.univ.sup l := by
  rw [max_bot_eq, sup_add_const _ Finset.univ_nonempty]
  exact add_sub_add_right_of_real (hl k) (isReal_sup _ Finset.univ_nonempty _ fun i _ => hl i) hb

/-- THE SOFTMAX IS SHIFT INVARIANT on real logits: the weight computed from the shifted logits, with the maximum
    taken from -inf and the sum from 0, is the weight computed from the logits themselves. -/
theorem softmax_shift {ι : Type*} [Fintype ι] [Nonempty ι] (l : ι → EReal) (hl : ∀ k, IsReal (l k)) (b : EReal)
    (hb : IsReal b) (k : ι) :
    Ideal.div (Ideal.exp ((l k + b) - max ⊥ (Finset.univ.sup fun k' => l k' + b)))
        (0 + ∑ k'' : ι, Ideal.exp ((l k'' + b) - max ⊥ (Finset.univ.sup fun k' => l k' + b)))
      = Ideal.div (Ideal.exp (l k - Finset.univ.sup l)) (∑ k'' : ι, Ideal.exp (l k'' - Finset.univ.sup l)) := by
  simp only [sub_sup_shift l hl b hb, zero_add]

/-! ## Every logit is a real number when every input entry is -/

section Node

variable {e : Fin 32 → Fin 128 → EReal} {u : Fin 128 → EReal}
  {w1a w1b : Fin 128 → Fin 128 → EReal} {b1 : Fin 128 → EReal}
  {w2 : Fin 128 → Fin 128 → EReal} {b2 w3 : Fin 128 → EReal}

theorem isReal_nodeA1 (he : ∀ k d, IsReal (e k d)) (hw1a : ∀ d j, IsReal (w1a d j)) (k : Fin 32) (j : Fin 128) :
    IsReal (nodeA1 e w1a k j) :=
  IsReal.sum _ _ fun d _ => (he k d).mul (hw1a d j)

theorem isReal_nodeHU (hu : ∀ d, IsReal (u d)) (hw1b : ∀ d j, IsReal (w1b d j)) (hb1 : ∀ j, IsReal (b1 j))
    (j : Fin 128) : IsReal (nodeHU u w1b b1 j) :=
  (IsReal.sum _ _ fun d _ => (hu d).mul (hw1b d j)).add (hb1 j)

theorem isReal_nodeH1 (he : ∀ k d, IsReal (e k d)) (hu : ∀ d, IsReal (u d)) (hw1a : ∀ d j, IsReal (w1a d j))
    (hw1b : ∀ d j, IsReal (w1b d j)) (hb1 : ∀ j, IsReal (b1 j)) (k : Fin 32) (j : Fin 128) :
    IsReal (nodeH1 e u w1a w1b b1 k j) :=
  ((isReal_nodeA1 he hw1a k j).add (isReal_nodeHU hu hw1b hb1 j)).max isReal_zero

theorem isReal_nodeH2 (he : ∀ k d, IsReal (e k d)) (hu : ∀ d, IsReal (u d)) (hw1a : ∀ d j, IsReal (w1a d j))
    (hw1b : ∀ d j, IsReal (w1b d j)) (hb1 : ∀ j, IsReal (b1 j)) (hw2 : ∀ i j, IsReal (w2 i j))
    (hb2 : ∀ j, IsReal (b2 j)) (k : Fin 32) (j : Fin 128) :
    IsReal (nodeH2 e u w1a w1b b1 w2 b2 k j) :=
  ((IsReal.sum _ _ fun i _ => (isReal_nodeH1 he hu hw1a hw1b hb1 k i).mul (hw2 i j)).add (hb2 j)).max isReal_zero

/-- Every attention logit is a real number. -/
theorem isReal_nodeL (he : ∀ k d, IsReal (e k d)) (hu : ∀ d, IsReal (u d)) (hw1a : ∀ d j, IsReal (w1a d j))
    (hw1b : ∀ d j, IsReal (w1b d j)) (hb1 : ∀ j, IsReal (b1 j)) (hw2 : ∀ i j, IsReal (w2 i j))
    (hb2 : ∀ j, IsReal (b2 j)) (hw3 : ∀ j, IsReal (w3 j)) (k : Fin 32) :
    IsReal (nodeL e u w1a w1b b1 w2 b2 w3 k) :=
  IsReal.sum _ _ fun j _ => (isReal_nodeH2 he hu hw1a hw1b hb1 hw2 hb2 k j).mul (hw3 j)

/-- THE NODE'S RESULT FROM SHIFTED LOGITS: with every logit shifted by one real number b, the maximum taken from
    -inf and both sums from 0, the attention-weighted sum is the node's result. -/
theorem nodeOut_of_shift (he : ∀ k d, IsReal (e k d)) (hu : ∀ d, IsReal (u d)) (hw1a : ∀ d j, IsReal (w1a d j))
    (hw1b : ∀ d j, IsReal (w1b d j)) (hb1 : ∀ j, IsReal (b1 j)) (hw2 : ∀ i j, IsReal (w2 i j))
    (hb2 : ∀ j, IsReal (b2 j)) (hw3 : ∀ j, IsReal (w3 j)) (b : EReal) (hb : IsReal b) (d : Fin 128) :
    (0 + ∑ k : Fin 32, e k d *
        Ideal.div
          (Ideal.exp ((nodeL e u w1a w1b b1 w2 b2 w3 k + b)
            - max ⊥ (Finset.univ.sup fun k' : Fin 32 => nodeL e u w1a w1b b1 w2 b2 w3 k' + b)))
          (0 + ∑ k'' : Fin 32, Ideal.exp ((nodeL e u w1a w1b b1 w2 b2 w3 k'' + b)
            - max ⊥ (Finset.univ.sup fun k' : Fin 32 => nodeL e u w1a w1b b1 w2 b2 w3 k' + b))))
      = nodeOut e u w1a w1b b1 w2 b2 w3 d := by
  rw [zero_add]
  unfold nodeOut nodeAtt nodeZ nodeP nodeM
  refine Finset.sum_congr rfl fun k _ => ?_
  rw [softmax_shift _ (isReal_nodeL he hu hw1a hw1b hb1 hw2 hb2 hw3) b hb k]

end Node

end Cert.SpecAlgebra

end
-- ==== Proof.RefIsSpec.lean ====
/-
  The reference's result is the specification's.

  The reference gathers the neighbours' rows E and the nodes' own rows U out of the table, lays E beside a copy of U
  along the feature axis (256 features), and contracts that with the 256-row first weight, adds the bias and
  rectifies; the second layer and the logits follow, each logit shifted by the last bias b3; the softmax over the 32
  neighbours subtracts the largest shifted logit (a maximum taken from -inf), exponentiates, and divides by the sum
  (taken from 0); the result is the sum over the neighbours of E times the weight (taken from 0).

  Read at an index this is the specification's arrangement by three laws: a sum over 256 coordinates is the sum over
  the first 128 plus the sum over the last 128 (the neighbour's half against the first 128 weight rows, the node's
  own half against the last 128), addition is associative, and the softmax of real logits does not change when all
  of them are shifted by one real number. The last law is where the hypotheses that every float entry is a real
  number are used; the index hypotheses make each lookup read the row its index word names.
-/
import proofs.«215990_g90829968376431_cont_sun_c4_571_51_alg».proof.Proof.RefStages
import proofs.«215990_g90829968376431_cont_sun_c4_571_51_alg».proof.Proof.SpecAlgebra
import Idealize.ShloMosaic.PureOps.Ideal.Laws

noncomputable section

open scoped BigOperators

namespace Cert.ReferenceIdeal.RefValue

open Cert.ReferenceIdeal Idealize.ShloMosaic Idealize.ShloMosaic.ValueIdx
open Cert.ReferenceIdeal.Facts₀ Cert.ReferenceIdeal.Facts
open Cert.FiniteReals

variable [Cert.ReferenceIdeal.Facts]

/-! ## The stages read at an index -/

section Read

variable (nodes : IVec S10000 32) (neigh : IVec S10000x32 32) (u2e : FVec Ideal S50000x128 .f32)
  (W1 : FVec Ideal S256x128 .f32) (b1 : FVec Ideal S128 .f32) (W2 : FVec Ideal S128x128 .f32)
  (b2 : FVec Ideal S128 .f32) (W3 : FVec Ideal S128x1 .f32) (b3 : FVec Ideal S1 .f32)
  (hN : ∀ i, InRange (nodes i)) (hG : ∀ i, InRange (neigh i))

include hN hG

/-- The first 128 features are the neighbour's row. -/
theorem sX_left (n : Fin 10000) (k : Fin 32) (d : Fin 128) :
    sX nodes neigh u2e (ix3 n k (⟨d.val, by omega⟩ : Fin 256)) = Spec.E neigh u2e n k d := by
  unfold sX
  rw [concat_left, take_apply (F := Ideal) u2e neigh hG]
  rfl

/-- The last 128 features are the node's own row. -/
theorem sX_right (n : Fin 10000) (k : Fin 32) (d : Fin 128) :
    sX nodes neigh u2e (ix3 n k (⟨128 + d.val, by omega⟩ : Fin 256)) = Spec.U nodes u2e n d := by
  unfold sX
  rw [concat_right, bb_u, take_0_apply (F := Ideal) u2e nodes hN]
  rfl

/-- The first hidden layer is the specification's: the contraction over 256 features splits into the neighbour's
    half and the node's own half, and the bias joins the latter. -/
theorem sH1_apply (n : Fin 10000) (k : Fin 32) (j : Fin 128) :
    sH1 nodes neigh u2e W1 b1 (ix3 n k j)
      = Spec.nodeH1 (Spec.E neigh u2e n) (Spec.U nodes u2e n) (Spec.W1a W1) (Spec.W1b W1) (Spec.vec b1) k j := by
  unfold sH1
  rw [relu_apply, addf_apply, dot1_apply, bb_vec, SpecAlgebra.sum_fin256_split]
  simp only [sX_left nodes neigh u2e hN hG, sX_right nodes neigh u2e hN hG]
  rw [add_assoc]
  unfold Spec.nodeH1 Spec.nodeA1 Spec.nodeHU Spec.W1a Spec.W1b Spec.vec
  rfl

/-- The second hidden layer is the specification's. -/
theorem sH2_apply (n : Fin 10000) (k : Fin 32) (j : Fin 128) :
    sH2 nodes neigh u2e W1 b1 W2 b2 (ix3 n k j)
      = Spec.nodeH2 (Spec.E neigh u2e n) (Spec.U nodes u2e n) (Spec.W1a W1) (Spec.W1b W1) (Spec.vec b1) (Spec.mat W2)
          (Spec.vec b2) k j := by
  unfold sH2
  rw [relu_apply, addf_apply, dot2_apply, bb_vec]
  simp only [sH1_apply nodes neigh u2e W1 b1 hN hG]
  unfold Spec.nodeH2 Spec.mat Spec.vec
  rfl

/-- The shifted logit is the specification's logit plus the last bias. -/
theorem sLg_apply (n : Fin 10000) (k : Fin 32) :
    sLg nodes neigh u2e W1 b1 W2 b2 W3 b3 (ix3 n k (0 : Fin 1))
      = Spec.nodeL (Spec.E neigh u2e n) (Spec.U nodes u2e n) (Spec.W1a W1) (Spec.W1b W1) (Spec.vec b1) (Spec.mat W2)
          (Spec.vec b2) (Spec.col W3) k + b3 (ix1 (0 : Fin 1)) := by
  unfold sLg
  rw [addf_apply, dot3_apply, bb_b3]
  simp only [sH2_apply nodes neigh u2e W1 b1 W2 b2 hN hG]
  unfold Spec.nodeL Spec.col
  rfl

/-- The largest shifted logit, the maximum taken from -inf. -/
theorem sMx_apply (n : Fin 10000) :
    sMx nodes neigh u2e W1 b1 W2 b2 W3 b3 (ix2 n (0 : Fin 1))
      = max ⊥ (Finset.univ.sup fun k : Fin 32 =>
          Spec.nodeL (Spec.E neigh u2e n) (Spec.U nodes u2e n) (Spec.W1a W1) (Spec.W1b W1) (Spec.vec b1) (Spec.mat W2)
            (Spec.vec b2) (Spec.col W3) k + b3 (ix1 (0 : Fin 1))) := by
  unfold sMx
  rw [maximumf_apply, bcast_const, ofBits_neg_inf, max_apply]
  simp only [sLg_apply nodes neigh u2e W1 b1 W2 b2 W3 b3 hN hG]

/-- The unnormalised weight. -/
theorem sP_apply (n : Fin 10000) (k : Fin 32) :
    sP nodes neigh u2e W1 b1 W2 b2 W3 b3 (ix3 n k (0 : Fin 1))
      = Ideal.exp ((Spec.nodeL (Spec.E neigh u2e n) (Spec.U nodes u2e n) (Spec.W1a W1) (Spec.W1b W1) (Spec.vec b1)
            (Spec.mat W2) (Spec.vec b2) (Spec.col W3) k + b3 (ix1 (0 : Fin 1)))
          - max ⊥ (Finset.univ.sup fun k' : Fin 32 =>
              Spec.nodeL (Spec.E neigh u2e n) (Spec.U nodes u2e n) (Spec.W1a W1) (Spec.W1b W1) (Spec.vec b1)
                (Spec.mat W2) (Spec.vec b2) (Spec.col W3) k' + b3 (ix1 (0 : Fin 1)))) := by
  unfold sP
  rw [hostExp_apply, subf_apply, bb_m, sLg_apply nodes neigh u2e W1 b1 W2 b2 W3 b3 hN hG,
    sMx_apply nodes neigh u2e W1 b1 W2 b2 W3 b3 hN hG]

omit hN hG in
/-- The weight: the unnormalised weight over the sum, taken from 0, of the node's 32 unnormalised weights. -/
theorem sAtt_apply (n : Fin 10000) (k : Fin 32) :
    sAtt nodes neigh u2e W1 b1 W2 b2 W3 b3 (ix3 n k (0 : Fin 1))
      = Ideal.div (sP nodes neigh u2e W1 b1 W2 b2 W3 b3 (ix3 n k (0 : Fin 1)))
          (0 + ∑ k'' : Fin 32, sP nodes neigh u2e W1 b1 W2 b2 W3 b3 (ix3 n k'' (0 : Fin 1))) := by
  rw [sAtt, hostDivf_apply, bb_m, sum1_apply]

/-- THE REFERENCE'S RESULT AT (n, d) is the specification's, when every index word is in range and every float entry
    is a real number. -/
theorem term_apply (hu2e : ∀ i, IsReal (u2e i)) (hW1 : ∀ i, IsReal (W1 i)) (hb1 : ∀ i, IsReal (b1 i))
    (hW2 : ∀ i, IsReal (W2 i)) (hb2 : ∀ i, IsReal (b2 i)) (hW3 : ∀ i, IsReal (W3 i)) (hb3 : ∀ i, IsReal (b3 i))
    (n : Fin 10000) (d : Fin 128) :
    term (F := Ideal) nodes neigh u2e W1 b1 W2 b2 W3 b3 (ix2 n d) = Spec.outAt nodes neigh u2e W1 b1 W2 b2 W3 n d := by
  rw [term_eq_stages, sum2_apply]
  have h : ∀ k : Fin 32,
      mulf (take (F := Ideal) u2e neigh)
          (broadcastInDim S10000x32x128 ![0, 1, 2] bcast_S10000x32x1_S10000x32x128_0_1_2
            (sAtt nodes neigh u2e W1 b1 W2 b2 W3 b3)) (ix3 n k d)
        = Spec.E neigh u2e n k d * sAtt nodes neigh u2e W1 b1 W2 b2 W3 b3 (ix3 n k (0 : Fin 1)) := fun k => by
    rw [mulf_apply, take_apply (F := Ideal) u2e neigh hG, b_att]
    rfl
  simp only [h, sAtt_apply, sP_apply nodes neigh u2e W1 b1 W2 b2 W3 b3 hN hG]
  exact SpecAlgebra.nodeOut_of_shift
    (fun k d' => hu2e (ix2 (Spec.row (neigh (ix2 n k))) d'))
    (fun d' => hu2e (ix2 (Spec.row (nodes (ix1 n))) d'))
    (fun d' j => hW1 (ix2 (⟨d'.val, by omega⟩ : Fin 256) j))
    (fun d' j => hW1 (ix2 (⟨128 + d'.val, by omega⟩ : Fin 256) j))
    (fun j => hb1 (ix1 j)) (fun i j => hW2 (ix2 i j)) (fun j => hb2 (ix1 j)) (fun j => hW3 (ix2 j (0 : Fin 1)))
    (b3 (ix1 (0 : Fin 1))) (hb3 _) d

end Read

/-! ## The statement in the form the assembly uses -/

/-- THE REFERENCE IS THE SPECIFICATION: at the ideal values, with every float argument entry a real number and every
    index word nonnegative (read signed) and below 50000, the reference's result, as a pure function of its nine
    arguments, is the specification's result of the first eight (the last bias shifts every logit of a node by the
    same real number, which the softmax does not see). -/
theorem term_eq_spec (a0 : IVec S10000 32) (a1 : IVec S10000x32 32) (a2 : FVec Ideal S50000x128 .f32)
    (a3 : FVec Ideal S256x128 .f32) (a4 : FVec Ideal S128 .f32) (a5 : FVec Ideal S128x128 .f32)
    (a6 : FVec Ideal S128 .f32) (a7 : FVec Ideal S128x1 .f32) (a8 : FVec Ideal S1 .f32)
    (hr2 : ∀ i, ∃ x : ℝ, a2 i = (x : EReal)) (hr3 : ∀ i, ∃ x : ℝ, a3 i = (x : EReal))
    (hr4 : ∀ i, ∃ x : ℝ, a4 i = (x : EReal)) (hr5 : ∀ i, ∃ x : ℝ, a5 i = (x : EReal))
    (hr6 : ∀ i, ∃ x : ℝ, a6 i = (x : EReal)) (hr7 : ∀ i, ∃ x : ℝ, a7 i = (x : EReal))
    (hr8 : ∀ i, ∃ x : ℝ, a8 i = (x : EReal))
    (h0 : ∀ i, 0 ≤ (a0 i).toInt ∧ (a0 i).toNat < 50000) (h1 : ∀ i, 0 ≤ (a1 i).toInt ∧ (a1 i).toNat < 50000) :
    term (F := Ideal) a0 a1 a2 a3 a4 a5 a6 a7 a8 = Cert.Spec.out a0 a1 a2 a3 a4 a5 a6 a7 := by
  funext i
  obtain ⟨n, d, rfl⟩ : ∃ (n : Fin 10000) (d : Fin 128), i = ix2 n d := ⟨i 0, i 1, eq_ix2 i⟩
  rw [Spec.out_ix2]
  exact term_apply a0 a1 a2 a3 a4 a5 a6 a7 a8 h0 h1 hr2 hr3 hr4 hr5 hr6 hr7 hr8 n d

end Cert.ReferenceIdeal.RefValue

end
-- ==== Proof.KCommon.lean ====
/-
  The program as the SparseCore launch theorem sees it, and the resource algebra of the proof: the handshake
  cells' rounds, the TensorCore pipeline's staging cells' rounds, and the local transfers' counters, side by side.
-/
import proofs.«215990_g90829968376431_cont_sun_c4_571_51_alg».proof.Kernel
import proofs.«215990_g90829968376431_cont_sun_c4_571_51_alg».proof.Proof.Gen.Kernel
import Idealize.ShloMosaic.Lib.SparseCore.Launch
import Idealize.ShloMosaic.Lib.StableHlo.Run
import Idealize.ShloMosaic.Lib.Pipeline.Kit
import Idealize.ShloMosaic.Lib.Transfers
import Idealize.ShloMosaic.Lib.Tactic

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UR : Type := URounds (GSem nD τ sig) Unit
abbrev UU : Type := UH × (UR × Counters)

/-- The handshakes' rounds: the left factor. -/
abbrev EH : Emb UH (MT nD τ sig (HIx 1) (Elt F) ℕ UU ℕ) := embL

/-- The pipeline's staging cells' rounds: the middle factor. -/
def EP : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb

instance EP_landsIn : (EP : Emb UR (MT nD τ sig (HIx 1) (Elt F) ℕ UU ℕ)).LandsIn (upEmb : UEmb _ (MT nD τ sig (HIx 1) (Elt F) ℕ UU ℕ)) := by
  unfold EP; infer_instance

example : CountersIn UU := inferInstance

end Cert.Kernel.Launch

end
-- ==== Proof.KHost.lean ====
import proofs.«215990_g90829968376431_cont_sun_c4_571_51_alg».proof.Proof.KCommon

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## @main's arrays on the TensorCore -/

/-- Every unscoped buffer the TensorCore names: @main's arrays. -/
def S23 : Finset (DevRef τ sig) := (Finset.univ.filter fun b : Ref sig .tc => ¬ b.isScoped).map ⟨Proc.devRef .tc, Proc.devRef_injective _⟩

omit [FloatOps F] in
theorem mem_S23 (b : Ref sig .tc) (h : ¬ b.isScoped) : Proc.devRef .tc b ∈ S23 :=
  Finset.mem_map.mpr ⟨b, Finset.mem_filter.mpr ⟨Finset.mem_univ _, h⟩, rfl⟩

theorem sub1 (y : Ref sig .tc) (hy : ¬ y.isScoped) : ({Proc.devRef .tc y} : Finset (DevRef τ sig)) ⊆ S23 :=
  Finset.singleton_subset_iff.mpr (mem_S23 y hy)
theorem sub2 (x y : Ref sig .tc) (hx : ¬ x.isScoped) (hy : ¬ y.isScoped) : ({Proc.devRef .tc x, Proc.devRef .tc y} : Finset (DevRef τ sig)) ⊆ S23 :=
  Finset.insert_subset (mem_S23 x hx) (sub1 y hy)
theorem sub3 (a b y : Ref sig .tc) (ha : ¬ a.isScoped) (hb : ¬ b.isScoped) (hy : ¬ y.isScoped) :
    ({Proc.devRef .tc a, Proc.devRef .tc b, Proc.devRef .tc y} : Finset (DevRef τ sig)) ⊆ S23 :=
  Finset.insert_subset (mem_S23 a ha) (sub2 b y hb hy)

/-- The launch valuation of device `d`. -/
def V0 (d : Dev nD) : Valuation τ sig (Elt F) := fun b => m (d, b)

omit [FloatOps F] in
theorem unscoped_held (d : Dev nD) : (unscopedBufs d (fun b => m ((SparseCore.T d).loc b)) : sProp 𝕄) = held (T d) S23 (V0 m d) := by
  unfold unscopedBufs held S23
  rw [bigSep_map]; rfl

/-! ## The host operations before the SparseCore call -/

abbrev op0 : HloOp τ sig (Elt F) := StableHlo.unary main_arg3 main_v0 ((extractStridedSlice S128x128 ![0, 0] · Facts₀.slices_S256x128_S128x128_0_0) : (⟨S256x128, .f32⟩ : BufTy).Contents (Elt F) → (⟨S128x128, .f32⟩ : BufTy).Contents (Elt F))
abbrev op1 : HloOp τ sig (Elt F) := StableHlo.unary main_v0 main_v1 ((truncf .bf16 · Facts₀.bitsLt_bf16_f32) : (⟨S128x128, .f32⟩ : BufTy).Contents (Elt F) → (⟨S128x128, .bf16⟩ : BufTy).Contents (Elt F))
abbrev op2 : HloOp τ sig (Elt F) := StableHlo.unary main_arg3 main_v2 ((extractStridedSlice S128x128 ![128, 0] · Facts₀.slices_S256x128_S128x128_128_0) : (⟨S256x128, .f32⟩ : BufTy).Contents (Elt F) → (⟨S128x128, .f32⟩ : BufTy).Contents (Elt F))
abbrev op3 : HloOp τ sig (Elt F) := StableHlo.unary main_v2 main_v3 ((truncf .bf16 · Facts₀.bitsLt_bf16_f32) : (⟨S128x128, .f32⟩ : BufTy).Contents (Elt F) → (⟨S128x128, .bf16⟩ : BufTy).Contents (Elt F))
abbrev op4 : HloOp τ sig (Elt F) := StableHlo.unary main_arg5 main_v4 ((truncf .bf16 · Facts₀.bitsLt_bf16_f32) : (⟨S128x128, .f32⟩ : BufTy).Contents (Elt F) → (⟨S128x128, .bf16⟩ : BufTy).Contents (Elt F))
abbrev op5 : HloOp τ sig (Elt F) := StableHlo.reshape main_arg4 main_v5 rfl Facts₀.shapeCasts_S128_S1x128
abbrev op6 : HloOp τ sig (Elt F) := StableHlo.reshape main_arg6 main_v6 rfl Facts₀.shapeCasts_S128_S1x128
abbrev op7 : HloOp τ sig (Elt F) := StableHlo.reshape main_arg7 main_v7 rfl Facts₀.shapeCasts_S128x1_S1x128
abbrev op8 : HloOp τ sig (Elt F) := StableHlo.nullary main_c (constantI S_ 32 0#32)
abbrev op9 : HloOp τ sig (Elt F) := StableHlo.unary main_c main_v8 (broadcastInDim S240 ![] Facts₀.bcast_S_S240 : (⟨S_, .i32⟩ : BufTy).Contents (Elt F) → (⟨S240, .i32⟩ : BufTy).Contents (Elt F))
abbrev op10 : HloOp τ sig (Elt F) := StableHlo.binary main_arg0 main_v8 main_v9 ((fun a b => concatenate S10240 0 [⟨S10000, a⟩, ⟨S240, b⟩] Facts₀.concatenates_S10000_S240_S10240_d0) : (⟨S10000, .i32⟩ : BufTy).Contents (Elt F) → (⟨S240, .i32⟩ : BufTy).Contents (Elt F) → (⟨S10240, .i32⟩ : BufTy).Contents (Elt F))
abbrev op11 : HloOp τ sig (Elt F) := StableHlo.reshape main_arg1 main_v10 rfl Facts₀.shapeCasts_S10000x32_S320000

/-- The host operations before the SparseCore call, in order. -/
abbrev hostOps : List (HloOp τ sig (Elt F)) := [op0, op1, op2, op3, op4, op5, op6, op7, op8, op9, op10, op11]

/-- The valuation after them. -/
def V12 (d : Dev nD) : Valuation τ sig (Elt F) := StableHlo.after hostOps (V0 m d)

/-! ## What the arrays hold after the host operations -/

theorem V12_arg0 (d : Dev nD) : V12 m d (Proc.devRef .tc main_arg0) = m ((SparseCore.T d).loc main_arg0) := by
  unfold V12; after_results; rfl
theorem V12_arg1 (d : Dev nD) : V12 m d (Proc.devRef .tc main_arg1) = m ((SparseCore.T d).loc main_arg1) := by
  unfold V12; after_results; rfl
theorem V12_arg2 (d : Dev nD) : V12 m d (Proc.devRef .tc main_arg2) = m ((SparseCore.T d).loc main_arg2) := by
  unfold V12; after_results; rfl
theorem V12_arg3 (d : Dev nD) : V12 m d (Proc.devRef .tc main_arg3) = m ((SparseCore.T d).loc main_arg3) := by
  unfold V12; after_results; rfl
theorem V12_arg4 (d : Dev nD) : V12 m d (Proc.devRef .tc main_arg4) = m ((SparseCore.T d).loc main_arg4) := by
  unfold V12; after_results; rfl
theorem V12_arg5 (d : Dev nD) : V12 m d (Proc.devRef .tc main_arg5) = m ((SparseCore.T d).loc main_arg5) := by
  unfold V12; after_results; rfl
theorem V12_arg6 (d : Dev nD) : V12 m d (Proc.devRef .tc main_arg6) = m ((SparseCore.T d).loc main_arg6) := by
  unfold V12; after_results; rfl
theorem V12_arg7 (d : Dev nD) : V12 m d (Proc.devRef .tc main_arg7) = m ((SparseCore.T d).loc main_arg7) := by
  unfold V12; after_results; rfl
theorem V12_arg8 (d : Dev nD) : V12 m d (Proc.devRef .tc main_arg8) = m ((SparseCore.T d).loc main_arg8) := by
  unfold V12; after_results; rfl
theorem V12_v11 (d : Dev nD) : V12 m d (Proc.devRef .tc main_v11) = m ((SparseCore.T d).loc main_v11) := by
  unfold V12; after_results; rfl
theorem V12_v12 (d : Dev nD) : V12 m d (Proc.devRef .tc main_v12) = m ((SparseCore.T d).loc main_v12) := by
  unfold V12; after_results; rfl

/-- The first weight's upper half, in the narrow format. -/
def hv1 (a3 : (⟨S256x128, .f32⟩ : BufTy).Contents (Elt F)) : (⟨S128x128, .bf16⟩ : BufTy).Contents (Elt F) :=
  truncf .bf16 (extractStridedSlice S128x128 ![0, 0] a3 Facts₀.slices_S256x128_S128x128_0_0) Facts₀.bitsLt_bf16_f32
/-- The first weight's lower half, in the narrow format. -/
def hv3 (a3 : (⟨S256x128, .f32⟩ : BufTy).Contents (Elt F)) : (⟨S128x128, .bf16⟩ : BufTy).Contents (Elt F) :=
  truncf .bf16 (extractStridedSlice S128x128 ![128, 0] a3 Facts₀.slices_S256x128_S128x128_128_0) Facts₀.bitsLt_bf16_f32
/-- The second weight, in the narrow format. -/
def hv4 (a5 : (⟨S128x128, .f32⟩ : BufTy).Contents (Elt F)) : (⟨S128x128, .bf16⟩ : BufTy).Contents (Elt F) :=
  truncf .bf16 a5 Facts₀.bitsLt_bf16_f32
/-- The node list padded with 240 zeros. -/
def hv9 (a0 : (⟨S10000, .i32⟩ : BufTy).Contents (Elt F)) : (⟨S10240, .i32⟩ : BufTy).Contents (Elt F) :=
  concatenate S10240 0 [⟨S10000, a0⟩, ⟨S240, (broadcastInDim S240 ![] Facts₀.bcast_S_S240 (constantI S_ 32 0#32) : (⟨S240, .i32⟩ : BufTy).Contents (Elt F))⟩] Facts₀.concatenates_S10000_S240_S10240_d0

theorem V12_v1 (d : Dev nD) : V12 m d (Proc.devRef .tc main_v1) = hv1 (m ((SparseCore.T d).loc main_arg3)) := by
  unfold V12 hv1; after_results; rfl
theorem V12_v3 (d : Dev nD) : V12 m d (Proc.devRef .tc main_v3) = hv3 (m ((SparseCore.T d).loc main_arg3)) := by
  unfold V12 hv3; after_results; rfl
theorem V12_v4 (d : Dev nD) : V12 m d (Proc.devRef .tc main_v4) = hv4 (m ((SparseCore.T d).loc main_arg5)) := by
  unfold V12 hv4; after_results; rfl
theorem V12_v9 (d : Dev nD) : V12 m d (Proc.devRef .tc main_v9) = hv9 (m ((SparseCore.T d).loc main_arg0)) := by
  unfold V12 hv9; after_results; rfl

end Cert.Kernel.Launch

end
-- ==== Proof.KScTileDefs.lean ====
/-
  The SparseCore gather task: what a vector subcore is handed and hands back, and the value it leaves.

  Subcore `(c, s)` has number `w = 2 s + c`.  Its index list is words `[10320 w, 10320 w + 10320)` of the
  concatenation of the two index arrays (320000 neighbour words, then 10240 node words); row `r` of the result is the
  table's row named by word `r` of that concatenation.  A task reads the table and both index arrays (a read share of
  each, whole) and owns its 10320 rows of the result.
-/
import proofs.«215990_g90829968376431_cont_sun_c4_571_51_alg».proof.Proof.KCommon
import Idealize.ShloMosaic.Lib.ValueIdx
import Idealize.ShloMosaic.Lib.SparseCore.Stream

noncomputable section

namespace Cert.Kernel.ScTile

open Cert.Kernel Cert.Kernel.Gen Cert.Kernel.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The value: one whole-array function of the three arrays read -/

/-- Word `r` of the concatenated index list: the neighbour words, then the node words. -/
def cat (nf : S320000.Idx → Elt F .i32) (np : S10240.Idx → Elt F .i32) (r : ℕ) : Elt F .i32 :=
  if h : r < 320000 then nf (ValueIdx.ix1 (⟨r, h⟩ : Fin 320000))
  else np (ValueIdx.ix1 (⟨(r - 320000) % 10240, Nat.mod_lt _ (by decide)⟩ : Fin 10240))

/-- The table row a word names (reduced into the table's extent; under the range hypotheses it is the word). -/
def rowOfWord (w : BitVec 32) : Fin 50000 := ⟨w.toNat % 50000, Nat.mod_lt _ (by decide)⟩

/-- The gathered array: row `r` is the table's row named by word `r` of the concatenated list. -/
def gathered (tab : S50000x128.Idx → Elt F .f32) (nf : S320000.Idx → Elt F .i32) (np : S10240.Idx → Elt F .i32) :
    S330240x128.Idx → Elt F .f32 :=
  fun i => tab (ValueIdx.ix2 (rowOfWord (cat nf np (i 0).val)) (i 1))

/-! ## The arrays, the thread, the task's rows -/

abbrev tLoc (d : Dev nD) : Loc nD τ sig := (SparseCore.T d).loc main_arg2
abbrev nLoc (d : Dev nD) : Loc nD τ sig := (SparseCore.T d).loc main_v10
abbrev pLoc (d : Dev nD) : Loc nD τ sig := (SparseCore.T d).loc main_v9
abbrev oLoc (d : Dev nD) : Loc nD τ sig := (SparseCore.T d).loc main_v11

abbrev cV (L : grid0.Coords) : Fin τ.nSC := (L 0).castLE hcore0
abbrev jV (L : grid0.Coords) : Fin τ.nSub := (L 1).castLE hsub0

/-- The subcore's number, `2 s + c`. -/
def wid (L : grid0.Coords) : Fin 32 :=
  ⟨2 * (L 1).val + (L 0).val, by
    have h0 : (L 0).val < 2 := (L 0).isLt
    have h1 : (L 1).val < 16 := (L 1).isLt
    omega⟩

theorem hdiv32 : 32 ∣ S330240x128.size 0 := ⟨10320, rfl⟩

/-- Rows `[10320 w, 10320 w + 10320)` of the result, all columns. -/
abbrev tileRect (w : Fin 32) : Rect S330240x128 := Rect.part (s := S330240x128) (a₀ := 0) hdiv32 w
abbrev tileRows (w : Fin 32) : Finset S330240x128.Idx := (tileRect w).set

section Task
variable [FloatOps F]

/-- What a task is handed: a read share of the table and of each index array, and its rows of the result at the
    launch contents. -/
def tileGo (d : Dev nD) (L : grid0.Coords) (qT qN qP : PosShare TreeShare)
    (tab : Buf (Elt F) (tLoc d)) (nf : Buf (Elt F) (nLoc d)) (np : Buf (Elt F) (pLoc d)) (o0 : Buf (Elt F) (oLoc d)) : sProp 𝕄 :=
  iprop((tLoc d ↦{qT} tab) ∗ (nLoc d ↦{qN} nf) ∗ (pLoc d ↦{qP} np) ∗ (oLoc d ↦[tileRows (wid L)]{fullShare} o0))

/-- What it hands back: the shares, and its rows of the result at the gathered contents. -/
def tileTd (d : Dev nD) (L : grid0.Coords) (qT qN qP : PosShare TreeShare)
    (tab : Buf (Elt F) (tLoc d)) (nf : Buf (Elt F) (nLoc d)) (np : Buf (Elt F) (pLoc d)) : sProp 𝕄 :=
  iprop((tLoc d ↦{qT} tab) ∗ (nLoc d ↦{qN} nf) ∗ (pLoc d ↦{qP} np) ∗ (oLoc d ↦[tileRows (wid L)]{fullShare} gathered tab nf np))

end Task

/-! ## Intervals of a key -/

/-- The elements whose key lies in `[lo, hi)`. -/
def keyIn {ι : Type} [Fintype ι] (key : ι → ℕ) (lo hi : ℕ) : Finset ι := Finset.univ.filter fun i => lo ≤ key i ∧ key i < hi

theorem mem_keyIn {ι : Type} [Fintype ι] {key : ι → ℕ} {lo hi : ℕ} {i : ι} : i ∈ keyIn key lo hi ↔ lo ≤ key i ∧ key i < hi := by
  simp [keyIn]

theorem keyIn_disjoint {ι : Type} [Fintype ι] (key : ι → ℕ) (lo mid hi : ℕ) : Disjoint (keyIn key lo mid) (keyIn key mid hi) :=
  Finset.disjoint_left.mpr fun i h1 h2 => by rw [mem_keyIn] at h1 h2; omega

theorem keyIn_union {ι : Type} [Fintype ι] [DecidableEq ι] (key : ι → ℕ) {lo mid hi : ℕ} (h1 : lo ≤ mid) (h2 : mid ≤ hi) :
    keyIn key lo mid ∪ keyIn key mid hi = keyIn key lo hi := by
  ext i; simp only [Finset.mem_union, mem_keyIn]; omega

/-- Rows `[lo, hi)` of the result. -/
abbrev rowsIn (lo hi : ℕ) : Finset S330240x128.Idx := keyIn (fun i : S330240x128.Idx => (i 0).val) lo hi

theorem pointsTo_rows_split (dd : Dev nD) {lo mid hi : ℕ} (h1 : lo ≤ mid) (h2 : mid ≤ hi) (q : PosShare TreeShare) (f : Buf (Elt F) (oLoc dd)) :
    (oLoc dd ↦[rowsIn lo hi]{q} f : sProp 𝕄) ⊣⊢ iprop((oLoc dd ↦[rowsIn lo mid]{q} f) ∗ oLoc dd ↦[rowsIn mid hi]{q} f) := by
  have hd : Disjoint (rowsIn lo mid) (rowsIn mid hi) := keyIn_disjoint _ _ _ _
  have hu : (oLoc dd ↦[rowsIn lo mid ∪ rowsIn mid hi]{q} f : sProp 𝕄) ⊣⊢ iprop((oLoc dd ↦[rowsIn lo mid]{q} f) ∗ oLoc dd ↦[rowsIn mid hi]{q} f) := pointsTo_union hd
  have e : rowsIn lo mid ∪ rowsIn mid hi = rowsIn lo hi := by
    ext i; simp only [Finset.mem_union, mem_keyIn]; omega
  rw [e] at hu
  exact hu

theorem tileRows_eq (w : Fin 32) : tileRows w = rowsIn (10320 * w.val) (10320 * w.val + 10320) := by
  ext i
  rw [mem_keyIn]
  show i ∈ (Rect.part (s := S330240x128) (a₀ := 0) hdiv32 w).set ↔ _
  rw [Rect.mem_set_unit, Fin.forall_fin_two]
  have h1 : (i 1).val < 128 := (i 1).isLt
  simp only [Shape.partIx, Shape.partSize]
  constructor
  · rintro ⟨⟨a, b⟩, _⟩
    simp at a b
    omega
  · intro ⟨a, b⟩
    refine ⟨⟨?_, ?_⟩, ⟨?_, ?_⟩⟩ <;> simp <;> omega

/-! ## The index scratch -/

abbrev thr (dd : Dev nD) (L : grid0.Coords) : Thread nD τ := V dd (cV L) (jV L)

/-- Words `[lo, hi)` of the index scratch. -/
abbrev idxIn (lo hi : ℕ) : Finset S10320.Idx := keyIn (fun j : S10320.Idx => (j 0).val) lo hi

theorem pointsTo_idx_split (dd : Dev nD) (L : grid0.Coords) {lo mid hi : ℕ} (h1 : lo ≤ mid) (h2 : mid ≤ hi) (q : PosShare TreeShare)
    (f : Buf (Elt F) ((thr dd L).loc cc0_scratch0)) :
    ((thr dd L).loc cc0_scratch0 ↦[idxIn lo hi]{q} f : sProp 𝕄)
      ⊣⊢ iprop(((thr dd L).loc cc0_scratch0 ↦[idxIn lo mid]{q} f) ∗ (thr dd L).loc cc0_scratch0 ↦[idxIn mid hi]{q} f) := by
  have hd : Disjoint (idxIn lo mid) (idxIn mid hi) := keyIn_disjoint _ _ _ _
  have hu : ((thr dd L).loc cc0_scratch0 ↦[idxIn lo mid ∪ idxIn mid hi]{q} f : sProp 𝕄)
      ⊣⊢ iprop(((thr dd L).loc cc0_scratch0 ↦[idxIn lo mid]{q} f) ∗ (thr dd L).loc cc0_scratch0 ↦[idxIn mid hi]{q} f) := pointsTo_union hd
  have e : idxIn lo mid ∪ idxIn mid hi = idxIn lo hi := by
    ext i; simp only [Finset.mem_union, mem_keyIn]; omega
  rw [e] at hu
  exact hu

theorem idxIn_univ : idxIn 0 10320 = Finset.univ := by
  ext j; simp only [mem_keyIn, Finset.mem_univ, iff_true]; exact ⟨Nat.zero_le _, (j 0).isLt⟩

/-- The list a task works from: words `[10320 w, 10320 w + 10320)` of the concatenation. -/
def tileIdx (nf : S320000.Idx → Elt F .i32) (np : S10240.Idx → Elt F .i32) (L : grid0.Coords) : S10320.Idx → Elt F .i32 :=
  fun j => cat nf np (10320 * (wid L).val + (j 0).val)

theorem cat_lt {nf : S320000.Idx → Elt F .i32} {np : S10240.Idx → Elt F .i32}
    (hnf : ∀ i, (nf i).toNat < 50000) (hnp : ∀ i, (np i).toNat < 50000) (r : ℕ) : (cat nf np r).toNat < 50000 := by
  unfold cat; split
  · exact hnf _
  · exact hnp _

/-- A 120-word window of the index scratch, as the body slices it. -/
abbrev ich (off : Fin 1 → ℕ) (inb : ∀ a, off a + S120.size a ≤ S10320.size a) : Memref sig .scVector .vmem S120 .i32 :=
  (Memref.whole cc0_scratch0).slice (Rect.unit (s := S10320) off S120.size inb) (fun _ => rfl)

theorem ich_set (off : Fin 1 → ℕ) (inb : ∀ a, off a + S120.size a ≤ S10320.size a) : (ich off inb).view.set = idxIn (off 0) (off 0 + 120) := by
  show ((View.whole cc0_scratch0).slice (Rect.unit (s := S10320) off S120.size inb)).set = _
  rw [View.set_slice_whole]
  ext j
  rw [Rect.mem_set_unit, mem_keyIn]
  show (∀ a : Fin 1, off a ≤ (j a).val ∧ (j a).val < off a + S120.size a) ↔ _
  rw [Fin.forall_fin_one]
  exact Iff.rfl

theorem ich_read (off : Fin 1 → ℕ) (inb : ∀ a, off a + S120.size a ≤ S10320.size a) (g : S10320.Idx → Elt F .i32) (x : S120.Idx) :
    (ich off inb).view.read (Elt F) g x = g (ValueIdx.ix1 (⟨off 0 + (x 0).val, by have h : off 0 + 120 ≤ 10320 := inb 0; have hx : (x 0).val < 120 := (x 0).isLt; omega⟩ : Fin 10320)) := by
  refine ((View.read_apply _ _).trans (cast_eq _ _)).trans (congrArg g ?_)
  funext a
  match a with
  | ⟨0, _⟩ => exact Fin.ext (by show off 0 + 1 * (x 0).val = _; simp)

/-! ## The result's chunks and the table -/

/-- A 120-row window of the result, as the body slices it. -/
abbrev och (off : Fin 2 → ℕ) (inb : ∀ a, off a + S120x128.size a ≤ S330240x128.size a) : Memref sig .scVector .hbm S120x128 .f32 :=
  (Memref.whole main_v11_scv).slice (Rect.unit (s := S330240x128) off S120x128.size inb) (fun _ => rfl)

theorem och_set (off : Fin 2 → ℕ) (inb : ∀ a, off a + S120x128.size a ≤ S330240x128.size a) (h1 : off 1 = 0) :
    (och off inb).view.set = rowsIn (off 0) (off 0 + 120) := by
  show ((View.whole main_v11_scv).slice (Rect.unit (s := S330240x128) off S120x128.size inb)).set = _
  rw [View.set_slice_whole]
  ext i
  rw [Rect.mem_set_unit, mem_keyIn]
  show (∀ a : Fin 2, off a ≤ (i a).val ∧ (i a).val < off a + S120x128.size a) ↔ _
  rw [Fin.forall_fin_two, h1]
  have hi : (i 1).val < 128 := (i 1).isLt
  constructor
  · exact fun h => h.1
  · exact fun h => ⟨h, Nat.zero_le _, by show (i 1).val < 0 + 128; omega⟩

/-- The table as the body slices it (whole). -/
abbrev tsl : Memref sig .scVector .hbm S50000x128 .f32 :=
  (Memref.whole main_arg2_scv).slice (Rect.unit (s := S50000x128) ![0, 0] S50000x128.size inb_S50000x128_S50000x128_0_0) (fun _ => rfl)

theorem tsl_set : (tsl).view.set = Finset.univ := by
  show ((View.whole main_arg2_scv).slice (Rect.unit (s := S50000x128) ![0, 0] S50000x128.size inb_S50000x128_S50000x128_0_0)).set = _
  rw [View.set_slice_whole]
  ext z
  rw [Rect.mem_set_unit]
  simp only [Finset.mem_univ, iff_true]
  show ∀ a : Fin 2, (![0, 0] : Fin 2 → ℕ) a ≤ (z a).val ∧ (z a).val < (![0, 0] : Fin 2 → ℕ) a + S50000x128.size a
  rw [Fin.forall_fin_two]
  have h0 : (z 0).val < 50000 := (z 0).isLt
  have h1 : (z 1).val < 128 := (z 1).isLt
  exact ⟨⟨Nat.zero_le _, by show (z 0).val < 0 + 50000; omega⟩, ⟨Nat.zero_le _, by show (z 1).val < 0 + 128; omega⟩⟩

theorem tsl_read (tab : S50000x128.Idx → Elt F .f32) : (tsl).view.read (Elt F) tab = tab := by
  funext z
  refine ((View.read_apply _ _).trans (cast_eq _ _)).trans (congrArg tab ?_)
  funext a
  match a with
  | ⟨0, _⟩ => exact Fin.ext (by show 0 + 1 * (z 0).val = _; simp)
  | ⟨1, _⟩ => exact Fin.ext (by show 0 + 1 * (z 1).val = _; simp)

/-- Rows `[r0, r0 + 120)` of the gathered array, as a chunk buffer holds them. -/
def chunkVal (tab : S50000x128.Idx → Elt F .f32) (nf : S320000.Idx → Elt F .i32) (np : S10240.Idx → Elt F .i32) (r0 : ℕ) :
    S120x128.Idx → Elt F .f32 :=
  fun y => tab (ValueIdx.ix2 (rowOfWord (cat nf np (r0 + (y 0).val))) (y 1))

/-- What an indirect gather through a 120-word window of the task's list delivers: the chunk of the gathered array. -/
theorem gather_val (L : grid0.Coords) (tab : S50000x128.Idx → Elt F .f32) (nf : S320000.Idx → Elt F .i32) (np : S10240.Idx → Elt F .i32)
    (hnf : ∀ i, (nf i).toNat < 50000) (hnp : ∀ i, (np i).toNat < 50000)
    (off : Fin 1 → ℕ) (inb : ∀ a, off a + S120.size a ≤ S10320.size a)
    (hn : S120.numel = S120x128.size (gathers_S50000x128_S120x128).axis')
    (hin : ∀ x, ((ich off inb).view.read (Elt F) (tileIdx nf np L) x).toNat < S50000x128.size (gathers_S50000x128_S120x128).axis) :
    SparseCore.gatherPayload gathers_S50000x128_S120x128 ((tsl).view.read (Elt F) tab)
        (SparseCore.rows ((ich off inb).view.read (Elt F) (tileIdx nf np L)) hn hin)
      = chunkVal tab nf np (10320 * (wid L).val + off 0) := by
  rw [tsl_read]
  funext y
  unfold SparseCore.gatherPayload chunkVal
  refine congrArg tab ?_
  funext a
  match a with
  | ⟨0, h0⟩ =>
    apply Fin.ext
    have e := congrArg Fin.val (Shape.Gathers.idx_axis gathers_S50000x128_S120x128
      (SparseCore.rows ((ich off inb).view.read (Elt F) (tileIdx nf np L)) hn hin) y)
    refine e.trans ?_
    unfold SparseCore.rows
    show ((ich off inb).view.read (Elt F) (tileIdx nf np L) _).toNat = (cat nf np _).toNat % 50000
    rw [ich_read, Nat.mod_eq_of_lt (cat_lt hnf hnp _)]
    unfold tileIdx
    have hk : ∀ k : Fin S120.numel, ((S120.rowMajor.symm k) 0).val = k.val := fun k => by
      have := Shape.rowMajor_val_one (S120.rowMajor.symm k)
      rw [Equiv.apply_symm_apply] at this
      exact this.symm
    show (cat nf np (10320 * (wid L).val + (off 0 + ((S120.rowMajor.symm _) 0).val))).toNat = _
    rw [hk]
    show (cat nf np (10320 * (wid L).val + (off 0 + (y 0).val))).toNat = _
    rw [Nat.add_assoc]
  | ⟨1, h1⟩ =>
    apply Fin.ext
    exact Shape.Gathers.idx_of_ne gathers_S50000x128_S120x128 _ y ⟨1, h1⟩ (show (1 : ℕ) ≠ 0 by decide)

/-- The credit of a copy into a 120-row window of the result. -/
abbrev NC : ℕ := sig.dmaCredit .scVector (Kind.scVector.table .hbm) (main_v11_scv : Ref sig .scVector).idx S120x128 .f32
theorem NC_pos : 0 < NC := sig.dmaCredit_pos _ _ _ _ _ (by decide)

/-- A chunk buffer copied into its window of the result leaves the gathered array's rows there. -/
theorem copy_val (tab : S50000x128.Idx → Elt F .f32) (nf : S320000.Idx → Elt F .i32) (np : S10240.Idx → Elt F .i32)
    (off : Fin 2 → ℕ) (inb : ∀ a, off a + S120x128.size a ≤ S330240x128.size a) (h1 : off 1 = 0)
    (o0 : S330240x128.Idx → Elt F .f32) (i : S330240x128.Idx) (hi : i ∈ (och off inb).view.set) :
    (och off inb).view.write (Elt F) o0 (chunkVal tab nf np (off 0)) Finset.univ i = gathered tab nf np i := by
  obtain ⟨y, -, rfl⟩ := Finset.mem_map.mp hi
  refine ((View.write_emb_of_mem (v := (och off inb).view) o0 (chunkVal tab nf np (off 0)) (M := Finset.univ) (Finset.mem_univ y)).trans (cast_eq _ _)).trans ?_
  unfold chunkVal gathered
  refine congrArg tab ?_
  funext a
  match a with
  | ⟨0, _⟩ =>
    show rowOfWord (cat nf np (off 0 + (y 0).val)) = rowOfWord (cat nf np (off 0 + 1 * (y 0).val))
    rw [Nat.one_mul]
  | ⟨1, _⟩ =>
    apply Fin.ext
    show (y 1).val = off 1 + 1 * (y 1).val
    rw [h1]; simp

/-! ## What the task's first copies leave in the index scratch -/

theorem cond1_iff : ∀ i : grid0.Coords, k0_cond1 i = 1#1 ↔ 2 * (i 1).val + (i 0).val < 31 := by decide +kernel
theorem cond2_iff : ∀ i : grid0.Coords, k0_cond2 i = 1#1 ↔ 2 * (i 1).val + (i 0).val = 31 := by decide +kernel

/-- Every task but the last copies its 10320 neighbour words. -/
theorem fetch_main (L : grid0.Coords) (k0_h1 : k0_cond1 L = 1#1) (nf : S320000.Idx → Elt F .i32) (np : S10240.Idx → Elt F .i32) :
    (ReadAs.same (Val := Elt F)).apply (View.read (Elt F) ((Memref.whole main_v10_scv : Memref sig .scVector .hbm S320000 .i32).slice
        (Rect.unit (s := S320000) (k0_off1 L) S10320.size (k0_off1_inb L k0_h1)) (fun _ => rfl)).view nf) = tileIdx nf np L := by
  rw [ReadAs.apply_same]
  funext j
  refine ((View.read_apply _ _).trans (cast_eq _ _)).trans ?_
  have hw : 2 * (L 1).val + (L 0).val < 31 := (cond1_iff L).mp k0_h1
  have hj : (j 0).val < 10320 := (j 0).isLt
  unfold tileIdx cat
  have hlt : 10320 * (wid L).val + (j 0).val < 320000 := by
    show 10320 * (2 * (L 1).val + (L 0).val) + (j 0).val < 320000
    omega
  rw [dif_pos hlt]
  refine congrArg nf ?_
  funext a
  match a with
  | ⟨0, _⟩ =>
    apply Fin.ext
    have e1 : k0_off1 L 0 = 20640 * (L 1).val + 10320 * (L 0).val := by rw [k0_off1_eq]; rfl
    show k0_off1 L 0 + 1 * (j 0).val = 10320 * (2 * (L 1).val + (L 0).val) + (j 0).val
    omega

/-- The last task copies the last 80 neighbour words, then the 10240 node words. -/
theorem fetch_last (L : grid0.Coords) (k0_h2 : k0_cond2 L = 1#1) (nf : S320000.Idx → Elt F .i32) (np : S10240.Idx → Elt F .i32)
    (f0 : S10320.Idx → Elt F .i32) :
    (View.whole cc0_scratch0).writes (Elt F) f0
      [⟨Rect.unit (s := S10320) ![80] S10240.size inb_S10320_S10240_80,
          (ReadAs.same (Val := Elt F)).apply (View.read (Elt F) ((Memref.whole main_v9_scv : Memref sig .scVector .hbm S10240 .i32).slice
            (Rect.unit (s := S10240) ![0] S10240.size inb_S10240_S10240_0) (fun _ => rfl)).view np)⟩,
        ⟨Rect.unit (s := S10320) ![0] S80.size inb_S10320_S80_0,
          (ReadAs.same (Val := Elt F)).apply (View.read (Elt F) ((Memref.whole main_v10_scv : Memref sig .scVector .hbm S320000 .i32).slice
            (Rect.unit (s := S320000) (k0_off2 L) S80.size (k0_off2_inb L k0_h2)) (fun _ => rfl)).view nf)⟩]
      = tileIdx nf np L := by
  have hw : 2 * (L 1).val + (L 0).val = 31 := (cond2_iff L).mp k0_h2
  have hwid : (wid L).val = 31 := hw
  funext j
  have hj : (j 0).val < 10320 := (j 0).isLt
  refine (congrFun (View.read_whole cc0_scratch0 _).symm j).trans ?_
  refine View.read_writes_apply_of_pieces (View.whole cc0_scratch0) f0 (tileIdx nf np L) _ ?_ j ?_
  · intro p hp x
    simp only [List.mem_cons, List.mem_nil_iff, or_false] at hp
    rcases hp with rfl | rfl
    · -- the node words
      have hx : (x 0).val < 10240 := (x 0).isLt
      dsimp only
      rw [ReadAs.apply_same]
      refine ((View.read_apply _ _).trans (cast_eq _ _)).trans ?_
      unfold tileIdx cat
      have e0 : ((Rect.unit (s := S10320) ![80] S10240.size inb_S10320_S10240_80).emb x 0).val = 80 + (x 0).val := by
        show 80 + 1 * (x 0).val = _; omega
      rw [e0, hwid, dif_neg (by omega)]
      refine congrArg np ?_
      funext a
      match a with
      | ⟨0, _⟩ =>
        apply Fin.ext
        show 0 + 1 * (x 0).val = (10320 * 31 + (80 + (x 0).val) - 320000) % 10240
        have : 10320 * 31 + (80 + (x 0).val) - 320000 = (x 0).val := by omega
        rw [this, Nat.mod_eq_of_lt hx]; omega
    · -- the last neighbour words
      have hx : (x 0).val < 80 := (x 0).isLt
      dsimp only
      rw [ReadAs.apply_same]
      refine ((View.read_apply _ _).trans (cast_eq _ _)).trans ?_
      unfold tileIdx cat
      have e0 : ((Rect.unit (s := S10320) ![0] S80.size inb_S10320_S80_0).emb x 0).val = (x 0).val := by
        show 0 + 1 * (x 0).val = _; omega
      rw [e0, hwid, dif_pos (by omega)]
      refine congrArg nf ?_
      funext a
      match a with
      | ⟨0, _⟩ =>
        apply Fin.ext
        have e1 : k0_off2 L 0 = 20640 * (L 1).val + 10320 * (L 0).val := by rw [k0_off2_eq]; rfl
        show k0_off2 L 0 + 1 * (x 0).val = 10320 * 31 + (x 0).val
        omega
  · by_cases h : (j 0).val < 80
    · refine ⟨_, List.mem_cons_of_mem _ List.mem_cons_self, ?_⟩
      rw [Rect.mem_set_unit]
      show ∀ a : Fin 1, (![0] : Fin 1 → ℕ) a ≤ (j a).val ∧ (j a).val < (![0] : Fin 1 → ℕ) a + S80.size a
      rw [Fin.forall_fin_one]
      exact ⟨Nat.zero_le _, by show (j 0).val < 0 + 80; omega⟩
    · refine ⟨_, List.mem_cons_self, ?_⟩
      rw [Rect.mem_set_unit]
      show ∀ a : Fin 1, (![80] : Fin 1 → ℕ) a ≤ (j a).val ∧ (j a).val < (![80] : Fin 1 → ℕ) a + S10240.size a
      rw [Fin.forall_fin_one]
      exact ⟨by show 80 ≤ (j 0).val; omega, by show (j 0).val < 80 + 10240; omega⟩

theorem cond3_iff : ∀ t : Fin k0_t1_loop.trips, k0_cond3 t = 1#1 ↔ 0 < t.val := by decide +kernel
theorem cond4_iff : ∀ t : Fin k0_t1_loop.trips, k0_cond4 t = 1#1 ↔ t.val + 1 < 43 := by decide +kernel
theorem trips_lt (t : Fin k0_t1_loop.trips) : t.val < 43 := lt_of_lt_of_le t.isLt k0_t1_abs.2.1

theorem off5_zero (t : Fin k0_t1_loop.trips) : k0_off5 t 0 = 120 * (2 * t.val + 1) := by
  rw [k0_off5_eq]; show 240 * t.val + 120 = _; omega
theorem off7_zero (t : Fin k0_t1_loop.trips) : k0_off7 t 0 = 120 * (2 * t.val + 2) := by
  rw [k0_off7_eq]; show 240 * t.val + 240 = _; omega
theorem off6_eq' (L : grid0.Coords) (t : Fin k0_t1_loop.trips) : k0_off6 L t = ![10320 * (wid L).val + 120 * (2 * t.val), 0] := by
  rw [k0_off6_eq]
  have e : 20640 * (L 1).val + 10320 * (L 0).val + 240 * t.val = 10320 * (wid L).val + 120 * (2 * t.val) := by
    show _ = 10320 * (2 * (L 1).val + (L 0).val) + 120 * (2 * t.val); omega
  rw [e]
theorem off8_eq' (L : grid0.Coords) (t : Fin k0_t1_loop.trips) : k0_off8 L t = ![10320 * (wid L).val + 120 * (2 * t.val + 1), 0] := by
  rw [k0_off8_eq]
  have e : 20640 * (L 1).val + 10320 * (L 0).val + 240 * t.val + 120 = 10320 * (wid L).val + 120 * (2 * t.val + 1) := by
    show _ = 10320 * (2 * (L 1).val + (L 0).val) + 120 * (2 * t.val + 1); omega
  rw [e]

section Steps
variable [FloatOps F]

/-- The gather's flight on semaphore `sem` into chunk buffer 0: at its wait it hands back the buffer at chunk `j` of the
    gathered array, the table share and window `j` of the list. -/
def gFlight0 (dd : Dev nD) (L : grid0.Coords) (tab : S50000x128.Idx → Elt F .f32) (nf : S320000.Idx → Elt F .i32) (np : S10240.Idx → Elt F .i32)
    (sem : DmaSem sig) (q : PosShare TreeShare) (j : ℕ) : sProp 𝕄 :=
  Transfers.Flight countersEmb (thr dd L) (.dma sem) (default : HIx 1) (Memref.whole cc0_scratch1 : Memref sig .scVector .vmem S120x128 .f32).view.dmaCredit
    iprop(((thr dd L).loc cc0_scratch1 ↦{fullShare} chunkVal tab nf np (10320 * (wid L).val + 120 * j)) ∗ (tLoc dd ↦{q} tab)
      ∗ ((thr dd L).loc cc0_scratch0 ↦[idxIn (120 * j) (120 * j + 120)]{fullShare} tileIdx nf np L))

theorem step_gather0 (dd : Dev nD) (L : grid0.Coords) (tab : S50000x128.Idx → Elt F .f32) (nf : S320000.Idx → Elt F .i32) (np : S10240.Idx → Elt F .i32)
    (hnf : ∀ i, (nf i).toNat < 50000) (hnp : ∀ i, (np i).toNat < 50000)
    (sem : DmaSem sig) (q : PosShare TreeShare) (off : Fin 1 → ℕ) (inb : ∀ a, off a + S120.size a ≤ S10320.size a) (j : ℕ) (hj : off 0 = 120 * j)
    (f : Buf (Elt F) ((thr dd L).loc cc0_scratch1)) {α : Type} (k : PUnit → Prog (TpuEff nD τ sig (Elt F) Λ₀ (thr dd L).2) α) (Q : α → sProp 𝕄)
    (hp : (thr dd L).2.kind = .scVector) (hn : S120.numel = S120x128.size (gathers_S50000x128_S120x128).axis')
    (hsrc : (tsl).view.WordExact) (he : EltTy.f32.bits = 32) (hsp : Space.hbm = .hbm ∨ Space.hbm = .shared) (hr : S50000x128.StreamRows 0) :
    iprop(((thr dd L).loc cc0_scratch1 ↦{fullShare} f) ∗ (tLoc dd ↦{q} tab)
        ∗ ((thr dd L).loc cc0_scratch0 ↦[idxIn (120 * j) (120 * j + 120)]{fullShare} tileIdx nf np L) ∗ semVal (thr dd L, SemLoc.dma sem) 0)
      ⊢ iprop((gFlight0 dd L tab nf np sem q j -∗ wp frame (wpE (defs₀ (F := F)) 𝒱₀ (thr dd L) none) Set.univ (k ⟨⟩) Q)
          -∗ wp frame (wpE (defs₀ (F := F)) 𝒱₀ (thr dd L) none) Set.univ
              (SparseCore.enqueueIndirectGather hp (tsl) (Memref.whole cc0_scratch1) gathers_S50000x128_S120x128 (ich off inb) hn sem hsrc he hsp hr >>= k) Q) := by
  have hin : ∀ x, ((ich off inb).view.read (Elt F) (tileIdx nf np L) x).toNat < S50000x128.size (gathers_S50000x128_S120x128).axis := fun x => by
    rw [ich_read]; exact cat_lt hnf hnp _
  have hbs : (Memref.whole cc0_scratch1 : Memref sig .scVector .vmem S120x128 .f32).view.set = Finset.univ := by
    simp only [Memref.view_whole, View.set_whole]
  iintro ⟨Hb, Ht, Hi, Hs⟩ Hk
  ihave Hb' := (Entails.of_eq (show ((thr dd L).loc cc0_scratch1 ↦{fullShare} f : sProp 𝕄)
      = (Memref.whole cc0_scratch1 : Memref sig .scVector .vmem S120x128 .f32).view.loc (thr dd L) ↦[(Memref.whole cc0_scratch1 : Memref sig .scVector .vmem S120x128 .f32).view.set]{fullShare} f by rw [hbs])) $$ Hb
  ihave Ht' := (Entails.of_eq (show (tLoc dd ↦{q} tab : sProp 𝕄) = (tsl).view.loc (thr dd L) ↦[(tsl).view.set]{q} tab by rw [tsl_set])) $$ Ht
  ihave Hi' := (Entails.of_eq (show ((thr dd L).loc cc0_scratch0 ↦[idxIn (120 * j) (120 * j + 120)]{fullShare} tileIdx nf np L : sProp 𝕄)
      = (ich off inb).view.loc (thr dd L) ↦[(ich off inb).view.set]{fullShare} tileIdx nf np L by rw [ich_set, hj])) $$ Hi
  iapply (SparseCore.wp_indirectGatherLocal countersEmb 𝒱₀ (thr dd L) none (hg := gathers_S50000x128_S120x128) (default : HIx 1)
      (Memref.whole cc0_scratch1 : Memref sig .scVector .vmem S120x128 .f32).view.dmaCredit
      (SparseCore.sum_rowCredit_eq_dmaCredit _ _ (fun _ => rfl)) (by decide) hin) $$ [Ht' Hb' Hi' Hs]
  · isplitl [Ht']; · iexact Ht'
    isplitl [Hb']; · iexact Hb'
    isplitl [Hi']; · iexact Hi'
    iexact Hs
  iintro Hfl
  iapply Hk
  unfold gFlight0
  iapply (Transfers.Flight_mono countersEmb (thr dd L) ?_) $$ Hfl
  iintro ⟨Hd, Hs, Ho⟩
  isplitl [Hd]
  · rw [hbs, ← hj, ← gather_val L tab nf np hnf hnp off inb hn hin]
    iapply (Entails.of_eq (congrArg (fun g => ((thr dd L).loc cc0_scratch1 ↦{fullShare} g : sProp 𝕄)) (View.write_whole_univ cc0_scratch1 f _))) $$ Hd
  isplitl [Hs]
  · iapply (Entails.of_eq (show ((tsl).view.loc (thr dd L) ↦[(tsl).view.set]{q} tab : sProp 𝕄) = (tLoc dd ↦{q} tab) by rw [tsl_set])) $$ Hs
  · iapply (Entails.of_eq (show ((ich off inb).view.loc (thr dd L) ↦[(ich off inb).view.set]{fullShare} tileIdx nf np L : sProp 𝕄)
      = ((thr dd L).loc cc0_scratch0 ↦[idxIn (120 * j) (120 * j + 120)]{fullShare} tileIdx nf np L) by rw [ich_set, hj])) $$ Ho

/-- The gather's flight on semaphore `sem` into chunk buffer 1: at its wait it hands back the buffer at chunk `j` of the
    gathered array, the table share and window `j` of the list. -/
def gFlight1 (dd : Dev nD) (L : grid0.Coords) (tab : S50000x128.Idx → Elt F .f32) (nf : S320000.Idx → Elt F .i32) (np : S10240.Idx → Elt F .i32)
    (sem : DmaSem sig) (q : PosShare TreeShare) (j : ℕ) : sProp 𝕄 :=
  Transfers.Flight countersEmb (thr dd L) (.dma sem) (default : HIx 1) (Memref.whole cc0_scratch2 : Memref sig .scVector .vmem S120x128 .f32).view.dmaCredit
    iprop(((thr dd L).loc cc0_scratch2 ↦{fullShare} chunkVal tab nf np (10320 * (wid L).val + 120 * j)) ∗ (tLoc dd ↦{q} tab)
      ∗ ((thr dd L).loc cc0_scratch0 ↦[idxIn (120 * j) (120 * j + 120)]{fullShare} tileIdx nf np L))

theorem step_gather1 (dd : Dev nD) (L : grid0.Coords) (tab : S50000x128.Idx → Elt F .f32) (nf : S320000.Idx → Elt F .i32) (np : S10240.Idx → Elt F .i32)
    (hnf : ∀ i, (nf i).toNat < 50000) (hnp : ∀ i, (np i).toNat < 50000)
    (sem : DmaSem sig) (q : PosShare TreeShare) (off : Fin 1 → ℕ) (inb : ∀ a, off a + S120.size a ≤ S10320.size a) (j : ℕ) (hj : off 0 = 120 * j)
    (f : Buf (Elt F) ((thr dd L).loc cc0_scratch2)) {α : Type} (k : PUnit → Prog (TpuEff nD τ sig (Elt F) Λ₀ (thr dd L).2) α) (Q : α → sProp 𝕄)
    (hp : (thr dd L).2.kind = .scVector) (hn : S120.numel = S120x128.size (gathers_S50000x128_S120x128).axis')
    (hsrc : (tsl).view.WordExact) (he : EltTy.f32.bits = 32) (hsp : Space.hbm = .hbm ∨ Space.hbm = .shared) (hr : S50000x128.StreamRows 0) :
    iprop(((thr dd L).loc cc0_scratch2 ↦{fullShare} f) ∗ (tLoc dd ↦{q} tab)
        ∗ ((thr dd L).loc cc0_scratch0 ↦[idxIn (120 * j) (120 * j + 120)]{fullShare} tileIdx nf np L) ∗ semVal (thr dd L, SemLoc.dma sem) 0)
      ⊢ iprop((gFlight1 dd L tab nf np sem q j -∗ wp frame (wpE (defs₀ (F := F)) 𝒱₀ (thr dd L) none) Set.univ (k ⟨⟩) Q)
          -∗ wp frame (wpE (defs₀ (F := F)) 𝒱₀ (thr dd L) none) Set.univ
              (SparseCore.enqueueIndirectGather hp (tsl) (Memref.whole cc0_scratch2) gathers_S50000x128_S120x128 (ich off inb) hn sem hsrc he hsp hr >>= k) Q) := by
  have hin : ∀ x, ((ich off inb).view.read (Elt F) (tileIdx nf np L) x).toNat < S50000x128.size (gathers_S50000x128_S120x128).axis := fun x => by
    rw [ich_read]; exact cat_lt hnf hnp _
  have hbs : (Memref.whole cc0_scratch2 : Memref sig .scVector .vmem S120x128 .f32).view.set = Finset.univ := by
    simp only [Memref.view_whole, View.set_whole]
  iintro ⟨Hb, Ht, Hi, Hs⟩ Hk
  ihave Hb' := (Entails.of_eq (show ((thr dd L).loc cc0_scratch2 ↦{fullShare} f : sProp 𝕄)
      = (Memref.whole cc0_scratch2 : Memref sig .scVector .vmem S120x128 .f32).view.loc (thr dd L) ↦[(Memref.whole cc0_scratch2 : Memref sig .scVector .vmem S120x128 .f32).view.set]{fullShare} f by rw [hbs])) $$ Hb
  ihave Ht' := (Entails.of_eq (show (tLoc dd ↦{q} tab : sProp 𝕄) = (tsl).view.loc (thr dd L) ↦[(tsl).view.set]{q} tab by rw [tsl_set])) $$ Ht
  ihave Hi' := (Entails.of_eq (show ((thr dd L).loc cc0_scratch0 ↦[idxIn (120 * j) (120 * j + 120)]{fullShare} tileIdx nf np L : sProp 𝕄)
      = (ich off inb).view.loc (thr dd L) ↦[(ich off inb).view.set]{fullShare} tileIdx nf np L by rw [ich_set, hj])) $$ Hi
  iapply (SparseCore.wp_indirectGatherLocal countersEmb 𝒱₀ (thr dd L) none (hg := gathers_S50000x128_S120x128) (default : HIx 1)
      (Memref.whole cc0_scratch2 : Memref sig .scVector .vmem S120x128 .f32).view.dmaCredit
      (SparseCore.sum_rowCredit_eq_dmaCredit _ _ (fun _ => rfl)) (by decide) hin) $$ [Ht' Hb' Hi' Hs]
  · isplitl [Ht']; · iexact Ht'
    isplitl [Hb']; · iexact Hb'
    isplitl [Hi']; · iexact Hi'
    iexact Hs
  iintro Hfl
  iapply Hk
  unfold gFlight1
  iapply (Transfers.Flight_mono countersEmb (thr dd L) ?_) $$ Hfl
  iintro ⟨Hd, Hs, Ho⟩
  isplitl [Hd]
  · rw [hbs, ← hj, ← gather_val L tab nf np hnf hnp off inb hn hin]
    iapply (Entails.of_eq (congrArg (fun g => ((thr dd L).loc cc0_scratch2 ↦{fullShare} g : sProp 𝕄)) (View.write_whole_univ cc0_scratch2 f _))) $$ Hd
  isplitl [Hs]
  · iapply (Entails.of_eq (show ((tsl).view.loc (thr dd L) ↦[(tsl).view.set]{q} tab : sProp 𝕄) = (tLoc dd ↦{q} tab) by rw [tsl_set])) $$ Hs
  · iapply (Entails.of_eq (show ((ich off inb).view.loc (thr dd L) ↦[(ich off inb).view.set]{fullShare} tileIdx nf np L : sProp 𝕄)
      = ((thr dd L).loc cc0_scratch0 ↦[idxIn (120 * j) (120 * j + 120)]{fullShare} tileIdx nf np L) by rw [ich_set, hj])) $$ Ho

/-- The copy-out's flight on semaphore `sem` from chunk buffer 0: at its wait it hands back rows of chunk `j` of the result at
    the gathered contents, and the buffer. -/
def cFlight0 (dd : Dev nD) (L : grid0.Coords) (tab : S50000x128.Idx → Elt F .f32) (nf : S320000.Idx → Elt F .i32) (np : S10240.Idx → Elt F .i32)
    (sem : DmaSem sig) (j : ℕ) : sProp 𝕄 :=
  Transfers.Flight countersEmb (thr dd L) (.dma sem) (default : HIx 1) NC
    iprop((oLoc dd ↦[rowsIn (10320 * (wid L).val + 120 * j) (10320 * (wid L).val + 120 * j + 120)]{fullShare} gathered tab nf np)
      ∗ ((thr dd L).loc cc0_scratch1 ↦{fullShare} chunkVal tab nf np (10320 * (wid L).val + 120 * j)))

theorem step_copy0 (dd : Dev nD) (L : grid0.Coords) (tab : S50000x128.Idx → Elt F .f32) (nf : S320000.Idx → Elt F .i32) (np : S10240.Idx → Elt F .i32)
    (sem : DmaSem sig) (off : Fin 2 → ℕ) (inb : ∀ a, off a + S120x128.size a ≤ S330240x128.size a) (j : ℕ)
    (hj : off = ![10320 * (wid L).val + 120 * j, 0]) (o0 : Buf (Elt F) (oLoc dd))
    {α : Type} (k : PUnit → Prog (TpuEff nD τ sig (Elt F) Λ₀ (thr dd L).2) α) (Q : α → sProp 𝕄)
    (hsrc : (Memref.whole cc0_scratch1 : Memref sig .scVector .vmem S120x128 .f32).view.WordExact) (hdst : (och off inb).view.WordExact)
    (hsem : DmaTarget.Typed (nD := nD) (p := (thr dd L).2) Space.vmem (SemLoc.dma sem) (.here (och off inb))) :
    iprop(((thr dd L).loc cc0_scratch1 ↦{fullShare} chunkVal tab nf np (10320 * (wid L).val + 120 * j))
        ∗ (oLoc dd ↦[rowsIn (10320 * (wid L).val + 120 * j) (10320 * (wid L).val + 120 * j + 120)]{fullShare} o0) ∗ semVal (thr dd L, SemLoc.dma sem) 0)
      ⊢ iprop((cFlight0 dd L tab nf np sem j -∗ wp frame (wpE (defs₀ (F := F)) 𝒱₀ (thr dd L) none) Set.univ (k ⟨⟩) Q)
          -∗ wp frame (wpE (defs₀ (F := F)) 𝒱₀ (thr dd L) none) Set.univ
              (.op (.enqueueDma (Memref.whole cc0_scratch1 : Memref sig .scVector .vmem S120x128 .f32) (.here (och off inb)) (.dma sem) hsrc hdst hsem) k) Q) := by
  have h0 : off 0 = 10320 * (wid L).val + 120 * j := by rw [hj]; rfl
  have h1 : off 1 = 0 := by rw [hj]; rfl
  have hbs : (Memref.whole cc0_scratch1 : Memref sig .scVector .vmem S120x128 .f32).view.set = Finset.univ := by
    simp only [Memref.view_whole, View.set_whole]
  have hos : (och off inb).view.set = rowsIn (10320 * (wid L).val + 120 * j) (10320 * (wid L).val + 120 * j + 120) := by
    rw [och_set off inb h1, h0]
  iintro ⟨Hb, Ho, Hs⟩ Hk
  ihave Hb' := (Entails.of_eq (show ((thr dd L).loc cc0_scratch1 ↦{fullShare} chunkVal tab nf np (10320 * (wid L).val + 120 * j) : sProp 𝕄)
      = (Memref.whole cc0_scratch1 : Memref sig .scVector .vmem S120x128 .f32).view.loc (thr dd L) ↦[(Memref.whole cc0_scratch1 : Memref sig .scVector .vmem S120x128 .f32).view.set]{fullShare}
          chunkVal tab nf np (10320 * (wid L).val + 120 * j) by rw [hbs])) $$ Hb
  ihave Ho' := (Entails.of_eq (show (oLoc dd ↦[rowsIn (10320 * (wid L).val + 120 * j) (10320 * (wid L).val + 120 * j + 120)]{fullShare} o0 : sProp 𝕄)
      = (och off inb).view.loc (thr dd L) ↦[(och off inb).view.set]{fullShare} o0 by rw [hos])) $$ Ho
  iapply (Transfers.wp_dmaLocal countersEmb 𝒱₀ (thr dd L) none (default : HIx 1) NC rfl NC_pos (Finset.Subset.refl _)) $$ [Hb' Ho' Hs]
  · isplitl [Hb']; · iexact Hb'
    isplitl [Ho']; · iexact Ho'
    iexact Hs
  iintro Hfl
  iapply Hk
  unfold cFlight0
  iapply (Transfers.Flight_mono countersEmb (thr dd L) ?_) $$ Hfl
  iintro ⟨Hd, Hsrc⟩
  isplitl [Hd]
  · rw [← hos]
    iapply (Entails.of_eq (pointsTo_congr fun i hi => ?_)) $$ Hd
    have e : (ReadAs.same (Val := Elt F)).apply (View.read (Elt F) (Memref.whole cc0_scratch1 : Memref sig .scVector .vmem S120x128 .f32).view (chunkVal tab nf np (10320 * (wid L).val + 120 * j)))
        = chunkVal tab nf np (off 0) := by
      rw [h0]; exact View.read_whole cc0_scratch1 _
    rw [e]
    exact copy_val tab nf np off inb h1 o0 i hi
  · iapply (Entails.of_eq (show ((Memref.whole cc0_scratch1 : Memref sig .scVector .vmem S120x128 .f32).view.loc (thr dd L) ↦[(Memref.whole cc0_scratch1 : Memref sig .scVector .vmem S120x128 .f32).view.set]{fullShare}
          chunkVal tab nf np (10320 * (wid L).val + 120 * j) : sProp 𝕄)
      = ((thr dd L).loc cc0_scratch1 ↦{fullShare} chunkVal tab nf np (10320 * (wid L).val + 120 * j)) by rw [hbs])) $$ Hsrc

/-- The copy-out's flight on semaphore `sem` from chunk buffer 1: at its wait it hands back rows of chunk `j` of the result at
    the gathered contents, and the buffer. -/
def cFlight1 (dd : Dev nD) (L : grid0.Coords) (tab : S50000x128.Idx → Elt F .f32) (nf : S320000.Idx → Elt F .i32) (np : S10240.Idx → Elt F .i32)
    (sem : DmaSem sig) (j : ℕ) : sProp 𝕄 :=
  Transfers.Flight countersEmb (thr dd L) (.dma sem) (default : HIx 1) NC
    iprop((oLoc dd ↦[rowsIn (10320 * (wid L).val + 120 * j) (10320 * (wid L).val + 120 * j + 120)]{fullShare} gathered tab nf np)
      ∗ ((thr dd L).loc cc0_scratch2 ↦{fullShare} chunkVal tab nf np (10320 * (wid L).val + 120 * j)))

theorem step_copy1 (dd : Dev nD) (L : grid0.Coords) (tab : S50000x128.Idx → Elt F .f32) (nf : S320000.Idx → Elt F .i32) (np : S10240.Idx → Elt F .i32)
    (sem : DmaSem sig) (off : Fin 2 → ℕ) (inb : ∀ a, off a + S120x128.size a ≤ S330240x128.size a) (j : ℕ)
    (hj : off = ![10320 * (wid L).val + 120 * j, 0]) (o0 : Buf (Elt F) (oLoc dd))
    {α : Type} (k : PUnit → Prog (TpuEff nD τ sig (Elt F) Λ₀ (thr dd L).2) α) (Q : α → sProp 𝕄)
    (hsrc : (Memref.whole cc0_scratch2 : Memref sig .scVector .vmem S120x128 .f32).view.WordExact) (hdst : (och off inb).view.WordExact)
    (hsem : DmaTarget.Typed (nD := nD) (p := (thr dd L).2) Space.vmem (SemLoc.dma sem) (.here (och off inb))) :
    iprop(((thr dd L).loc cc0_scratch2 ↦{fullShare} chunkVal tab nf np (10320 * (wid L).val + 120 * j))
        ∗ (oLoc dd ↦[rowsIn (10320 * (wid L).val + 120 * j) (10320 * (wid L).val + 120 * j + 120)]{fullShare} o0) ∗ semVal (thr dd L, SemLoc.dma sem) 0)
      ⊢ iprop((cFlight1 dd L tab nf np sem j -∗ wp frame (wpE (defs₀ (F := F)) 𝒱₀ (thr dd L) none) Set.univ (k ⟨⟩) Q)
          -∗ wp frame (wpE (defs₀ (F := F)) 𝒱₀ (thr dd L) none) Set.univ
              (.op (.enqueueDma (Memref.whole cc0_scratch2 : Memref sig .scVector .vmem S120x128 .f32) (.here (och off inb)) (.dma sem) hsrc hdst hsem) k) Q) := by
  have h0 : off 0 = 10320 * (wid L).val + 120 * j := by rw [hj]; rfl
  have h1 : off 1 = 0 := by rw [hj]; rfl
  have hbs : (Memref.whole cc0_scratch2 : Memref sig .scVector .vmem S120x128 .f32).view.set = Finset.univ := by
    simp only [Memref.view_whole, View.set_whole]
  have hos : (och off inb).view.set = rowsIn (10320 * (wid L).val + 120 * j) (10320 * (wid L).val + 120 * j + 120) := by
    rw [och_set off inb h1, h0]
  iintro ⟨Hb, Ho, Hs⟩ Hk
  ihave Hb' := (Entails.of_eq (show ((thr dd L).loc cc0_scratch2 ↦{fullShare} chunkVal tab nf np (10320 * (wid L).val + 120 * j) : sProp 𝕄)
      = (Memref.whole cc0_scratch2 : Memref sig .scVector .vmem S120x128 .f32).view.loc (thr dd L) ↦[(Memref.whole cc0_scratch2 : Memref sig .scVector .vmem S120x128 .f32).view.set]{fullShare}
          chunkVal tab nf np (10320 * (wid L).val + 120 * j) by rw [hbs])) $$ Hb
  ihave Ho' := (Entails.of_eq (show (oLoc dd ↦[rowsIn (10320 * (wid L).val + 120 * j) (10320 * (wid L).val + 120 * j + 120)]{fullShare} o0 : sProp 𝕄)
      = (och off inb).view.loc (thr dd L) ↦[(och off inb).view.set]{fullShare} o0 by rw [hos])) $$ Ho
  iapply (Transfers.wp_dmaLocal countersEmb 𝒱₀ (thr dd L) none (default : HIx 1) NC rfl NC_pos (Finset.Subset.refl _)) $$ [Hb' Ho' Hs]
  · isplitl [Hb']; · iexact Hb'
    isplitl [Ho']; · iexact Ho'
    iexact Hs
  iintro Hfl
  iapply Hk
  unfold cFlight1
  iapply (Transfers.Flight_mono countersEmb (thr dd L) ?_) $$ Hfl
  iintro ⟨Hd, Hsrc⟩
  isplitl [Hd]
  · rw [← hos]
    iapply (Entails.of_eq (pointsTo_congr fun i hi => ?_)) $$ Hd
    have e : (ReadAs.same (Val := Elt F)).apply (View.read (Elt F) (Memref.whole cc0_scratch2 : Memref sig .scVector .vmem S120x128 .f32).view (chunkVal tab nf np (10320 * (wid L).val + 120 * j)))
        = chunkVal tab nf np (off 0) := by
      rw [h0]; exact View.read_whole cc0_scratch2 _
    rw [e]
    exact copy_val tab nf np off inb h1 o0 i hi
  · iapply (Entails.of_eq (show ((Memref.whole cc0_scratch2 : Memref sig .scVector .vmem S120x128 .f32).view.loc (thr dd L) ↦[(Memref.whole cc0_scratch2 : Memref sig .scVector .vmem S120x128 .f32).view.set]{fullShare}
          chunkVal tab nf np (10320 * (wid L).val + 120 * j) : sProp 𝕄)
      = ((thr dd L).loc cc0_scratch2 ↦{fullShare} chunkVal tab nf np (10320 * (wid L).val + 120 * j)) by rw [hbs])) $$ Hsrc

end Steps

end Cert.Kernel.ScTile

end
-- ==== Proof.KPay.lean ====
import proofs.«215990_g90829968376431_cont_sun_c4_571_51_alg».proof.Proof.KHost
import proofs.«215990_g90829968376431_cont_sun_c4_571_51_alg».proof.Proof.KScTileDefs

noncomputable section

namespace Cert.Kernel.Launch

open Cert.Kernel Cert.Kernel.Gen Cert.Kernel.ScTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The tasks: 32 of them, task `(c, i)` numbered `2 i + c` -/

def coordsV (c : Fin (grid0.bound 0)) (s : Fin (grid0.bound 1)) : grid0.Coords :=
  fun | 0 => c | 1 => s | ⟨_ + 2, h⟩ => absurd h (Nat.not_lt.2 (Nat.le_add_left _ _))

/-- Task `w`'s read token of a whole array's full share. -/
abbrev tk (w : Fin 32) : PosShare TreeShare := Transfers.shareTok fullShare 32 w
/-- What the TensorCore keeps of each read array while the tasks run. -/
abbrev rest32 : PosShare TreeShare := Transfers.shareDrop fullShare 32

/-- Task `w`'s holdings with the result rows at `fo`: its tokens of the three arrays read and its rows of the result. -/
def taskAt (d : Dev nD) (tab : Buf (Elt F) (tLoc d)) (nf : Buf (Elt F) (nLoc d)) (np : Buf (Elt F) (pLoc d)) (fo : Buf (Elt F) (oLoc d))
    (w : Fin 32) : sProp 𝕄 :=
  iprop((tLoc d ↦{tk w} tab) ∗ (nLoc d ↦{tk w} nf) ∗ (pLoc d ↦{tk w} np) ∗ (oLoc d ↦[tileRows w]{fullShare} fo))

omit [FloatOps F] in
theorem tileGo_eq (d : Dev nD) (L : grid0.Coords) (tab : Buf (Elt F) (tLoc d)) (nf : Buf (Elt F) (nLoc d)) (np : Buf (Elt F) (pLoc d)) (o0 : Buf (Elt F) (oLoc d)) :
    tileGo d L (tk (wid L)) (tk (wid L)) (tk (wid L)) tab nf np o0 = taskAt d tab nf np o0 (wid L) := rfl
omit [FloatOps F] in
theorem tileTd_eq (d : Dev nD) (L : grid0.Coords) (tab : Buf (Elt F) (tLoc d)) (nf : Buf (Elt F) (nLoc d)) (np : Buf (Elt F) (pLoc d)) :
    tileTd d L (tk (wid L)) (tk (wid L)) (tk (wid L)) tab nf np = taskAt d tab nf np (gathered tab nf np) (wid L) := rfl

omit [FloatOps F] in
/-- Over the 32 tasks is over the 2 cores and their 16 subcores. -/
theorem bigSep_tasks32 (Φ : Fin 32 → sProp 𝕄) :
    bigSep (Finset.univ : Finset (Fin 32)) Φ
      = bigSep (Finset.univ : Finset (Fin 2)) fun c => bigSep (Finset.univ : Finset (Fin 16)) fun i => Φ (wid (coordsV c i)) := by
  rw [bigSep_univ_equiv (finProdFinEquiv : Fin 16 × Fin 2 ≃ Fin (16 * 2)) Φ, bigSep_univ_prod, bigSep_univ_comm]
  refine bigSep_congr fun c _ => bigSep_congr fun i _ => congrArg Φ (Fin.ext ?_)
  simp only [finProdFinEquiv, Equiv.coe_fn_mk, wid, coordsV]
  omega

omit [FloatOps F] in
theorem rows_disjoint : ∀ i ∈ (Finset.univ : Finset (Fin 32)), ∀ j ∈ (Finset.univ : Finset (Fin 32)), i ≠ j → Disjoint (tileRows i) (tileRows j) :=
  fun i _ j _ h => Rect.part_disjoint hdiv32 h
omit [FloatOps F] in
theorem rows_cover : (Finset.univ : Finset (Fin 32)).biUnion tileRows = Finset.univ := Rect.biUnion_part hdiv32

omit [FloatOps F] in
theorem oPts_rows (d : Dev nD) (f : Buf (Elt F) (oLoc d)) :
    (oLoc d ↦{fullShare} f : sProp 𝕄) = bigSep Finset.univ fun w : Fin 32 => oLoc d ↦[tileRows w]{fullShare} f := by
  rw [← pointsTo_biUnion Finset.univ (ℓ := oLoc d) tileRows rows_disjoint, rows_cover]; try rfl

omit [FloatOps F] in
/-- The three arrays read and the result, whole, are what the TensorCore keeps and the 32 tasks' holdings. -/
theorem deal_iff (d : Dev nD) (tab : Buf (Elt F) (tLoc d)) (nf : Buf (Elt F) (nLoc d)) (np : Buf (Elt F) (pLoc d)) (fo : Buf (Elt F) (oLoc d)) :
    (iprop((tLoc d ↦{fullShare} tab) ∗ (nLoc d ↦{fullShare} nf) ∗ (pLoc d ↦{fullShare} np) ∗ (oLoc d ↦{fullShare} fo)) : sProp 𝕄)
      ⊣⊢ iprop(((tLoc d ↦{rest32} tab) ∗ (nLoc d ↦{rest32} nf) ∗ (pLoc d ↦{rest32} np))
          ∗ bigSep (Finset.univ : Finset (Fin 2)) fun c => bigSep (Finset.univ : Finset (Fin 16)) fun i => taskAt d tab nf np fo (wid (coordsV c i))) := by
  rw [← bigSep_tasks32 (fun w => taskAt d tab nf np fo w)]
  unfold taskAt
  rw [bigSep_sep', bigSep_sep', bigSep_sep', ← oPts_rows]
  constructor
  · iintro ⟨Ht, Hn, Hp, Ho⟩
    ihave Ht' := (Transfers.pointsTo_toks_split fullShare 32) $$ Ht
    ihave Hn' := (Transfers.pointsTo_toks_split fullShare 32) $$ Hn
    ihave Hp' := (Transfers.pointsTo_toks_split fullShare 32) $$ Hp
    icases Ht' with ⟨Ht0, Ht⟩
    icases Hn' with ⟨Hn0, Hn⟩
    icases Hp' with ⟨Hp0, Hp⟩
    isplitl [Ht0 Hn0 Hp0]
    · isplitl [Ht0]; · iexact Ht0
      isplitl [Hn0]; · iexact Hn0
      iexact Hp0
    isplitl [Ht]; · iexact Ht
    isplitl [Hn]; · iexact Hn
    isplitl [Hp]; · iexact Hp
    iexact Ho
  · iintro ⟨⟨Ht0, Hn0, Hp0⟩, Ht, Hn, Hp, Ho⟩
    isplitl [Ht0 Ht]
    · iapply (Transfers.pointsTo_toks_join fullShare 32); isplitl [Ht0]; · iexact Ht0
      iexact Ht
    isplitl [Hn0 Hn]
    · iapply (Transfers.pointsTo_toks_join fullShare 32); isplitl [Hn0]; · iexact Hn0
      iexact Hn
    isplitl [Hp0 Hp]
    · iapply (Transfers.pointsTo_toks_join fullShare 32); isplitl [Hp0]; · iexact Hp0
      iexact Hp
    iexact Ho

/-! ## What the handshakes carry -/

/-- The arrays the call reads and writes, as they stand when it starts. -/
abbrev tabOf (d : Dev nD) : Buf (Elt F) (tLoc d) := m (tLoc d)
abbrev nfOf (d : Dev nD) : Buf (Elt F) (nLoc d) := V12 m d (Proc.devRef .tc main_v10)
abbrev npOf (d : Dev nD) : Buf (Elt F) (pLoc d) := V12 m d (Proc.devRef .tc main_v9)
abbrev o0Of (d : Dev nD) : Buf (Elt F) (oLoc d) := m (oLoc d)

/-- The grid point of task `i` of SparseCore `c` of the call. -/
abbrev LV (c : Fin ((K (F := F)).nCore 0)) (i : Fin ((K (F := F)).nSub 0)) : grid0.Coords :=
  coordsV ⟨c.val, c.isLt⟩ ⟨i.val, i.isLt⟩

/-- A task is handed its tokens and rows and hands them back with the rows gathered; a SparseCore, its sixteen tasks'. -/
def P : (K (F := F)).Pay (nD := nD) (Val := Elt F) (Name := ℕ) (U := UU) where
  st := fun q d c => match q with
    | 0 => bigSep Finset.univ fun i : Fin ((K (F := F)).nSub 0) => taskAt d (tabOf m d) (nfOf m d) (npOf m d) (o0Of m d) (wid (LV c i))
  dn := fun q d c => match q with
    | 0 => bigSep Finset.univ fun i : Fin ((K (F := F)).nSub 0) => taskAt d (tabOf m d) (nfOf m d) (npOf m d) (gathered (tabOf m d) (nfOf m d) (npOf m d)) (wid (LV c i))
  go := fun q d c i => match q with
    | 0 => taskAt d (tabOf m d) (nfOf m d) (npOf m d) (o0Of m d) (wid (LV c i))
  td := fun q d c i => match q with
    | 0 => taskAt d (tabOf m d) (nfOf m d) (npOf m d) (gathered (tabOf m d) (nfOf m d) (npOf m d)) (wid (LV c i))
  x := fun _ _ => iprop(emp)

instance taskAt_storable (d : Dev nD) (tab : Buf (Elt F) (tLoc d)) (nf : Buf (Elt F) (nLoc d)) (np : Buf (Elt F) (pLoc d)) (fo : Buf (Elt F) (oLoc d)) (w : Fin 32) :
    BI.Storable (upEmb : UEmb _ 𝕄) (taskAt d tab nf np fo w) := by
  unfold taskAt; infer_instance

instance P_storable : (P (F := F) m).IsStorable where
  st q d c := match q with | 0 => (by unfold P; infer_instance)
  dn q d c := match q with | 0 => (by unfold P; infer_instance)
  go q d c i := match q with | 0 => (by unfold P; infer_instance)
  td q d c i := match q with | 0 => (by unfold P; infer_instance)

theorem vecSplit : (K (F := F)).VecSplit' (P m) 0 := by
  intro d c
  have hst : (P m).st 0 d c = bigSep Finset.univ fun i : Fin ((K (F := F)).nSub 0) => (P m).go 0 d c i := rfl
  have hdn : (P m).dn 0 d c = bigSep Finset.univ fun i : Fin ((K (F := F)).nSub 0) => (P m).td 0 d c i := rfl
  rw [hst, hdn]
  iintro H; imodintro
  isplitl [H]; · iexact H
  iintro H; iexact H

end Cert.Kernel.Launch

end
-- ==== Proof.KTcBody.lean ====
import proofs.«215990_g90829968376431_cont_sun_c4_571_51_alg».proof.Proof.Gen.Kernel.Launch
import proofs.«215990_g90829968376431_cont_sun_c4_571_51_alg».proof.Proof.Gen.Kernel.Skeleton
import proofs.«215990_g90829968376431_cont_sun_c4_571_51_alg».proof.Proof.Gen.Kernel.Points
import Idealize.ShloMosaic.Lib.Pipeline.FrameBody
import Idealize.ShloMosaic.Lib.Pipeline.Value
import Idealize.ShloMosaic.Lib.SparseCore.Cells
import Idealize.ShloMosaic.Lib.ValueIdx
import Idealize.ShloMosaic.Lib.Tactic

set_option maxRecDepth 16384

noncomputable section

namespace Cert.Kernel.TcBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Idealize.ShloMosaic.SparseCore.Cfg (HIx)

variable {F : FTy → Type} [FloatOps F] {UU : Type} [URA UU]

local notation "𝕄" => MT nD τ sig (HIx 1) (Elt F) ℕ UU ℕ

/-! # The TensorCore region's body

The one TensorCore kernel of the program reads, at grid point `t`, eight blocks — the 2560 gathered neighbour rows
of its 80 nodes, the 80 gathered node rows, and the five weight arrays whole — and stores one block, the 80 attention-
weighted sums. Its arithmetic is one pure function of the eight blocks (`tcPay`); the result array is that function
block by block (`tcOut`). -/

abbrev rE : Rect S2560x128 := Rect.unit (s := S2560x128) ![0, 0] S2560x128.size inb_S2560x128_S2560x128_0_0
abbrev rU : Rect S80x128 := Rect.unit (s := S80x128) ![0, 0] S80x128.size inb_S80x128_S80x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

theorem hz : (![0, 0] : Fin 2 → Nat) = fun _ => 0 := funext fun a => by fin_cases a <;> rfl

/-- The block the body stores, from the eight blocks it loads: neighbour rows, node rows, the first layer's two
    weight halves and bias, the second layer's weights and bias, the scoring row. -/
def tcPay (e : Vec F S2560x128 .f32) (u : Vec F S80x128 .f32) (w1a w1b : Vec F S128x128 .bf16) (b1 : Vec F S1x128 .f32)
    (w2 : Vec F S128x128 .bf16) (b2 w3 : Vec F S1x128 .f32) : Vec F S80x128 .f32 :=
  k1_pay1 (k1_pay2 e) (k1_pay3 e u w1a w1b b1 w2 b2) (k1_pay4 w3)

/-- The one store covers the output block. -/
theorem cover_out [∀ e, Nonempty (Elt F e)] (p0 : Vec F S80x128 .f32) (y : S80x128.Idx) :
    ∃ pc ∈ ([⟨rU, p0⟩] : List (View.Piece (Elt F) S80x128 .f32)), y ∈ pc.1.set :=
  View.cover_of_tiled [⟨rU, p0⟩] S80x128.size (by rfl) y

set_option maxHeartbeats 2000000 in
/-- The body on whole staging memrefs: the eight inputs read and left as they were, the output's buffer left at
    `tcPay` of them. -/
theorem sound_kernel [∀ e, Nonempty (Elt F e)] (𝒱₀ : Variants) (c : Dev nD) (E : Set ℕ) (i : grid1.Coords)
    (arg1 : Memref sig .tc .vmem S2560x128 .f32) (harg1 : arg1.IsWhole) (arg2 : Memref sig .tc .vmem S80x128 .f32) (harg2 : arg2.IsWhole)
    (arg3 : Memref sig .tc .vmem S128x128 .bf16) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S80x128 .f32) (harg9 : arg9.IsWhole)
    (x0 : Vec F S2560x128 .f32) (x1 : Vec F S80x128 .f32) (x2 x3 : Vec F S128x128 .bf16) (x4 : Vec F S1x128 .f32) (x5 : Vec F S128x128 .bf16) (x6 x7 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (tcPay x0 x1 x2 x3 x4 x5 x6 x7)) -∗ K ⟨⟩))
      ⊢ wp frame (wpE (defs₀ (F := F)) 𝒱₀ c none) E (cc1__tc_mlp_body i arg1 harg1 arg2 harg2 arg3 harg3 arg4 harg4 arg5 harg5 arg6 harg6 arg7 harg7 arg8 harg8 arg9 harg9) K := by
  simp only [cc1__tc_mlp_body_eq_skeleton]; unfold cc1__tc_mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (cover_out _), View.canon_unit_zero hz]
  sl_unfold_run_names
  unfold tcPay
  simp only [View.readAt_eq_ld, View.ld_unit_zero (S := S2560x128) hz, View.ld_unit_zero (S := S80x128) hz,
    View.ld_unit_zero (S := S128x128) hz, View.ld_unit_zero (S := S1x128) hz]

/-! ## The result array as one function of the operand arrays -/

open ValueIdx in
/-- Block `t` of the gathered rows as the neighbour window reads it: rows `2560 t .. 2560 t + 2560`. -/
def eBlk (g : Vec F S330240x128 .f32) (t : Fin 125) : Vec F S2560x128 .f32 :=
  fun y => g (ix2 (⟨2560 * t.val + (y 0).val, by have := idx2_lt0 y; have := t.isLt; show _ < 330240; omega⟩ : Fin 330240) (⟨(y 1).val, idx2_lt1 y⟩ : Fin 128))

open ValueIdx in
/-- Block `t` of the gathered rows as the node window reads it: rows `320000 + 80 t .. + 80`. -/
def uBlk (g : Vec F S330240x128 .f32) (t : Fin 125) : Vec F S80x128 .f32 :=
  fun y => g (ix2 (⟨320000 + 80 * t.val + (y 0).val, by have := idx2_lt0 y; have := t.isLt; show _ < 330240; omega⟩ : Fin 330240) (⟨(y 1).val, idx2_lt1 y⟩ : Fin 128))

open ValueIdx in
/-- The kernel's result, whole: row `r` is row `r % 80` of `tcPay` of the blocks at point `r / 80`. -/
def tcOut (g : Vec F S330240x128 .f32) (w1a w1b : Vec F S128x128 .bf16) (b1 : Vec F S1x128 .f32)
    (w2 : Vec F S128x128 .bf16) (b2 w3 : Vec F S1x128 .f32) : Vec F S10000x128 .f32 :=
  fun i => tcPay (eBlk g ⟨(i 0).val / 80, by have := idx2_lt0 i; show _ < 125; omega⟩) (uBlk g ⟨(i 0).val / 80, by have := idx2_lt0 i; show _ < 125; omega⟩)
    w1a w1b b1 w2 b2 w3 (ix2 (⟨(i 0).val % 80, Nat.mod_lt _ (by decide)⟩ : Fin 80) (⟨(i 1).val, idx2_lt1 i⟩ : Fin 128))

open ValueIdx in
theorem tcOut_ix2 (g : Vec F S330240x128 .f32) (w1a w1b : Vec F S128x128 .bf16) (b1 : Vec F S1x128 .f32)
    (w2 : Vec F S128x128 .bf16) (b2 w3 : Vec F S1x128 .f32) (t : Fin 125) (a : Fin 80) (d : Fin 128) :
    tcOut g w1a w1b b1 w2 b2 w3 (ix2 (⟨80 * t.val + a.val, by have := t.isLt; have := a.isLt; omega⟩ : Fin 10000) d)
      = tcPay (eBlk g t) (uBlk g t) w1a w1b b1 w2 b2 w3 (ix2 a d) := by
  have h1 : (80 * t.val + a.val) / 80 = t.val := by have := a.isLt; omega
  have h2 : (80 * t.val + a.val) % 80 = a.val := by have := a.isLt; omega
  have e1 : ∀ h, (⟨(80 * t.val + a.val) / 80, h⟩ : Fin 125) = t := fun _ => Fin.ext h1
  have e2 : ∀ h, (⟨(80 * t.val + a.val) % 80, h⟩ : Fin 80) = a := fun _ => Fin.ext h2
  show tcPay (eBlk g ⟨(80 * t.val + a.val) / 80, _⟩) (uBlk g ⟨(80 * t.val + a.val) / 80, _⟩) w1a w1b b1 w2 b2 w3
      (ix2 (⟨(80 * t.val + a.val) % 80, _⟩ : Fin 80) (⟨d.val, _⟩ : Fin 128)) = _
  rw [e1, e2]

/-! # The region's proof data

The windows' arrays as the region finds them, what the body leaves in each staging buffer at each point, and the
body obligation. Windows 0 and 1 read one array, the gathered rows; each holds half of its share. -/

section Data

variable (g : Vec F S330240x128 .f32) (w1a w1b : Vec F S128x128 .bf16) (b1 : Vec F S1x128 .f32)
  (w2 : Vec F S128x128 .bf16) (b2 w3 : Vec F S1x128 .f32) (o : Vec F S10000x128 .f32)
  (O : CellTallies nD τ sig (HIx 1)) (W : Waits sig (HIx 1))

/-- Each window's array at the region's entry. -/
def arrA (c : Dev nD) : (w : Fin cfg1.W) → Buf (Elt F) ((cfg1.win w).arr.view.loc (c.tc : Thread nD τ))
  | ⟨0, _⟩ => g | ⟨1, _⟩ => g | ⟨2, _⟩ => w1a | ⟨3, _⟩ => w1b | ⟨4, _⟩ => b1
  | ⟨5, _⟩ => w2 | ⟨6, _⟩ => b2 | ⟨7, _⟩ => w3 | ⟨8, _⟩ => o

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (arrA g w1a w1b b1 w2 b2 w3 o c w)

/-- The proof data: each input's buffer holds its block, the output's the body's value of the input blocks; the
    invariant is the scoped buffers no window stages (none); the thread owes `O` throughout, its recorded waits
    within `W` and the loop's own. -/
def dat (c : Dev nD) : Dat τ (Elt F) (HIx 1) ℕ UU ℕ cfg1 c where
  A := arrA g w1a w1b b1 w2 b2 w3 o c
  after w t := match w with
    | ⟨0, _⟩ => iblk g w1a w1b b1 w2 b2 w3 o c 0 t
    | ⟨1, _⟩ => iblk g w1a w1b b1 w2 b2 w3 o c 1 t
    | ⟨2, _⟩ => iblk g w1a w1b b1 w2 b2 w3 o c 2 t
    | ⟨3, _⟩ => iblk g w1a w1b b1 w2 b2 w3 o c 3 t
    | ⟨4, _⟩ => iblk g w1a w1b b1 w2 b2 w3 o c 4 t
    | ⟨5, _⟩ => iblk g w1a w1b b1 w2 b2 w3 o c 5 t
    | ⟨6, _⟩ => iblk g w1a w1b b1 w2 b2 w3 o c 6 t
    | ⟨7, _⟩ => iblk g w1a w1b b1 w2 b2 w3 o c 7 t
    | ⟨8, _⟩ => tcPay (iblk g w1a w1b b1 w2 b2 w3 o c 0 t) (iblk g w1a w1b b1 w2 b2 w3 o c 1 t) (iblk g w1a w1b b1 w2 b2 w3 o c 2 t) (iblk g w1a w1b b1 w2 b2 w3 o c 3 t) (iblk g w1a w1b b1 w2 b2 w3 o c 4 t) (iblk g w1a w1b b1 w2 b2 w3 o c 5 t) (iblk g w1a w1b b1 w2 b2 w3 o c 6 t) (iblk g w1a w1b b1 w2 b2 w3 o c 7 t)
  Φ _ := Pipeline.scopedRest (Ix := HIx 1) (Name := ℕ) (U := UU) (Lvl := ℕ) (Val := Elt F) spec1 c
  q w := match w with
    | ⟨0, _⟩ => fullShare.left | ⟨1, _⟩ => fullShare.right | ⟨2, _⟩ => fullShare | ⟨3, _⟩ => fullShare | ⟨4, _⟩ => fullShare
    | ⟨5, _⟩ => fullShare | ⟨6, _⟩ => fullShare | ⟨7, _⟩ => fullShare | ⟨8, _⟩ => fullShare
  owed _ := O
  recorded _ := (↑W : Set (SemLoc sig × HIx 1))

theorem after_0 (c : Dev nD) (t : Fin cfg1.N) : (dat (UU := UU) g w1a w1b b1 w2 b2 w3 o O W c).after 0 t = iblk g w1a w1b b1 w2 b2 w3 o c 0 t := by dsimp only [dat]
theorem after_1 (c : Dev nD) (t : Fin cfg1.N) : (dat (UU := UU) g w1a w1b b1 w2 b2 w3 o O W c).after 1 t = iblk g w1a w1b b1 w2 b2 w3 o c 1 t := by dsimp only [dat]
theorem after_2 (c : Dev nD) (t : Fin cfg1.N) : (dat (UU := UU) g w1a w1b b1 w2 b2 w3 o O W c).after 2 t = iblk g w1a w1b b1 w2 b2 w3 o c 2 t := by dsimp only [dat]
theorem after_3 (c : Dev nD) (t : Fin cfg1.N) : (dat (UU := UU) g w1a w1b b1 w2 b2 w3 o O W c).after 3 t = iblk g w1a w1b b1 w2 b2 w3 o c 3 t := by dsimp only [dat]
theorem after_4 (c : Dev nD) (t : Fin cfg1.N) : (dat (UU := UU) g w1a w1b b1 w2 b2 w3 o O W c).after 4 t = iblk g w1a w1b b1 w2 b2 w3 o c 4 t := by dsimp only [dat]
theorem after_5 (c : Dev nD) (t : Fin cfg1.N) : (dat (UU := UU) g w1a w1b b1 w2 b2 w3 o O W c).after 5 t = iblk g w1a w1b b1 w2 b2 w3 o c 5 t := by dsimp only [dat]
theorem after_6 (c : Dev nD) (t : Fin cfg1.N) : (dat (UU := UU) g w1a w1b b1 w2 b2 w3 o O W c).after 6 t = iblk g w1a w1b b1 w2 b2 w3 o c 6 t := by dsimp only [dat]
theorem after_7 (c : Dev nD) (t : Fin cfg1.N) : (dat (UU := UU) g w1a w1b b1 w2 b2 w3 o O W c).after 7 t = iblk g w1a w1b b1 w2 b2 w3 o c 7 t := by dsimp only [dat]
theorem after_8 (c : Dev nD) (t : Fin cfg1.N) : (dat (UU := UU) g w1a w1b b1 w2 b2 w3 o O W c).after 8 t = tcPay (iblk g w1a w1b b1 w2 b2 w3 o c 0 t) (iblk g w1a w1b b1 w2 b2 w3 o c 1 t) (iblk g w1a w1b b1 w2 b2 w3 o c 2 t) (iblk g w1a w1b b1 w2 b2 w3 o c 3 t) (iblk g w1a w1b b1 w2 b2 w3 o c 4 t) (iblk g w1a w1b b1 w2 b2 w3 o c 5 t) (iblk g w1a w1b b1 w2 b2 w3 o c 6 t) (iblk g w1a w1b b1 w2 b2 w3 o c 7 t) := by dsimp only [dat]

/-- Input window 0's current buffer holds its block at every point, fetched there or not. -/
theorem before_0 (c : Dev nD) (t : Fin cfg1.N) (d) : (dat (UU := UU) g w1a w1b b1 w2 b2 w3 o O W c).before 0 t d = iblk g w1a w1b b1 w2 b2 w3 o c 0 t :=
  ((dat (UU := UU) g w1a w1b b1 w2 b2 w3 o O W c).before_in_eq_fetched 0 rfl (fun _ => rfl) (fun _ _ _ => rfl) (fun t => by rw [after_0]; rfl) t d).trans
    (by unfold Dat.fetched Dat.blockOf iblk; rfl)
/-- Input window 1's current buffer holds its block at every point, fetched there or not. -/
theorem before_1 (c : Dev nD) (t : Fin cfg1.N) (d) : (dat (UU := UU) g w1a w1b b1 w2 b2 w3 o O W c).before 1 t d = iblk g w1a w1b b1 w2 b2 w3 o c 1 t :=
  ((dat (UU := UU) g w1a w1b b1 w2 b2 w3 o O W c).before_in_eq_fetched 1 rfl (fun _ => rfl) (fun _ _ _ => rfl) (fun t => by rw [after_1]; rfl) t d).trans
    (by unfold Dat.fetched Dat.blockOf iblk; rfl)
/-- Input window 2's current buffer holds its block at every point, fetched there or not. -/
theorem before_2 (c : Dev nD) (t : Fin cfg1.N) (d) : (dat (UU := UU) g w1a w1b b1 w2 b2 w3 o O W c).before 2 t d = iblk g w1a w1b b1 w2 b2 w3 o c 2 t :=
  ((dat (UU := UU) g w1a w1b b1 w2 b2 w3 o O W c).before_in_eq_fetched 2 rfl (fun _ => rfl) (fun _ _ _ => rfl) (fun t => by rw [after_2]; rfl) t d).trans
    (by unfold Dat.fetched Dat.blockOf iblk; rfl)
/-- Input window 3's current buffer holds its block at every point, fetched there or not. -/
theorem before_3 (c : Dev nD) (t : Fin cfg1.N) (d) : (dat (UU := UU) g w1a w1b b1 w2 b2 w3 o O W c).before 3 t d = iblk g w1a w1b b1 w2 b2 w3 o c 3 t :=
  ((dat (UU := UU) g w1a w1b b1 w2 b2 w3 o O W c).before_in_eq_fetched 3 rfl (fun _ => rfl) (fun _ _ _ => rfl) (fun t => by rw [after_3]; rfl) t d).trans
    (by unfold Dat.fetched Dat.blockOf iblk; rfl)
/-- Input window 4's current buffer holds its block at every point, fetched there or not. -/
theorem before_4 (c : Dev nD) (t : Fin cfg1.N) (d) : (dat (UU := UU) g w1a w1b b1 w2 b2 w3 o O W c).before 4 t d = iblk g w1a w1b b1 w2 b2 w3 o c 4 t :=
  ((dat (UU := UU) g w1a w1b b1 w2 b2 w3 o O W c).before_in_eq_fetched 4 rfl (fun _ => rfl) (fun _ _ _ => rfl) (fun t => by rw [after_4]; rfl) t d).trans
    (by unfold Dat.fetched Dat.blockOf iblk; rfl)
/-- Input window 5's current buffer holds its block at every point, fetched there or not. -/
theorem before_5 (c : Dev nD) (t : Fin cfg1.N) (d) : (dat (UU := UU) g w1a w1b b1 w2 b2 w3 o O W c).before 5 t d = iblk g w1a w1b b1 w2 b2 w3 o c 5 t :=
  ((dat (UU := UU) g w1a w1b b1 w2 b2 w3 o O W c).before_in_eq_fetched 5 rfl (fun _ => rfl) (fun _ _ _ => rfl) (fun t => by rw [after_5]; rfl) t d).trans
    (by unfold Dat.fetched Dat.blockOf iblk; rfl)
/-- Input window 6's current buffer holds its block at every point, fetched there or not. -/
theorem before_6 (c : Dev nD) (t : Fin cfg1.N) (d) : (dat (UU := UU) g w1a w1b b1 w2 b2 w3 o O W c).before 6 t d = iblk g w1a w1b b1 w2 b2 w3 o c 6 t :=
  ((dat (UU := UU) g w1a w1b b1 w2 b2 w3 o O W c).before_in_eq_fetched 6 rfl (fun _ => rfl) (fun _ _ _ => rfl) (fun t => by rw [after_6]; rfl) t d).trans
    (by unfold Dat.fetched Dat.blockOf iblk; rfl)
/-- Input window 7's current buffer holds its block at every point, fetched there or not. -/
theorem before_7 (c : Dev nD) (t : Fin cfg1.N) (d) : (dat (UU := UU) g w1a w1b b1 w2 b2 w3 o O W c).before 7 t d = iblk g w1a w1b b1 w2 b2 w3 o c 7 t :=
  ((dat (UU := UU) g w1a w1b b1 w2 b2 w3 o O W c).before_in_eq_fetched 7 rfl (fun _ => rfl) (fun _ _ _ => rfl) (fun t => by rw [after_7]; rfl) t d).trans
    (by unfold Dat.fetched Dat.blockOf iblk; rfl)

/-- What the body is called with at point `t`, -/
def bodyPre (c : Dev nD) (t : Fin cfg1.N) : sProp 𝕄 :=
  iprop((dat (UU := UU) g w1a w1b b1 w2 b2 w3 o O W c).Φ t.castSucc ∗ (dat (UU := UU) g w1a w1b b1 w2 b2 w3 o O W c).owesAt none t.castSucc
    ∗ (∃ d, owns (c : Thread nD τ) (st1_0 t) fullShare ((dat (UU := UU) g w1a w1b b1 w2 b2 w3 o O W c).before 0 t d))
    ∗ (∃ d, owns (c : Thread nD τ) (st1_1 t) fullShare ((dat (UU := UU) g w1a w1b b1 w2 b2 w3 o O W c).before 1 t d))
    ∗ (∃ d, owns (c : Thread nD τ) (st1_2 t) fullShare ((dat (UU := UU) g w1a w1b b1 w2 b2 w3 o O W c).before 2 t d))
    ∗ (∃ d, owns (c : Thread nD τ) (st1_3 t) fullShare ((dat (UU := UU) g w1a w1b b1 w2 b2 w3 o O W c).before 3 t d))
    ∗ (∃ d, owns (c : Thread nD τ) (st1_4 t) fullShare ((dat (UU := UU) g w1a w1b b1 w2 b2 w3 o O W c).before 4 t d))
    ∗ (∃ d, owns (c : Thread nD τ) (st1_5 t) fullShare ((dat (UU := UU) g w1a w1b b1 w2 b2 w3 o O W c).before 5 t d))
    ∗ (∃ d, owns (c : Thread nD τ) (st1_6 t) fullShare ((dat (UU := UU) g w1a w1b b1 w2 b2 w3 o O W c).before 6 t d))
    ∗ (∃ d, owns (c : Thread nD τ) (st1_7 t) fullShare ((dat (UU := UU) g w1a w1b b1 w2 b2 w3 o O W c).before 7 t d))
    ∗ (∃ d, owns (c : Thread nD τ) (st1_8 t) fullShare ((dat (UU := UU) g w1a w1b b1 w2 b2 w3 o O W c).before 8 t d)))

/-- and what it returns. -/
def bodyPost (c : Dev nD) (t : Fin cfg1.N) : sProp 𝕄 :=
  iprop((dat (UU := UU) g w1a w1b b1 w2 b2 w3 o O W c).Φ t.succ ∗ (dat (UU := UU) g w1a w1b b1 w2 b2 w3 o O W c).owesAt none t.succ
    ∗ owns (c : Thread nD τ) (st1_0 t) fullShare ((dat (UU := UU) g w1a w1b b1 w2 b2 w3 o O W c).after 0 t)
    ∗ owns (c : Thread nD τ) (st1_1 t) fullShare ((dat (UU := UU) g w1a w1b b1 w2 b2 w3 o O W c).after 1 t)
    ∗ owns (c : Thread nD τ) (st1_2 t) fullShare ((dat (UU := UU) g w1a w1b b1 w2 b2 w3 o O W c).after 2 t)
    ∗ owns (c : Thread nD τ) (st1_3 t) fullShare ((dat (UU := UU) g w1a w1b b1 w2 b2 w3 o O W c).after 3 t)
    ∗ owns (c : Thread nD τ) (st1_4 t) fullShare ((dat (UU := UU) g w1a w1b b1 w2 b2 w3 o O W c).after 4 t)
    ∗ owns (c : Thread nD τ) (st1_5 t) fullShare ((dat (UU := UU) g w1a w1b b1 w2 b2 w3 o O W c).after 5 t)
    ∗ owns (c : Thread nD τ) (st1_6 t) fullShare ((dat (UU := UU) g w1a w1b b1 w2 b2 w3 o O W c).after 6 t)
    ∗ owns (c : Thread nD τ) (st1_7 t) fullShare ((dat (UU := UU) g w1a w1b b1 w2 b2 w3 o O W c).after 7 t)
    ∗ owns (c : Thread nD τ) (st1_8 t) fullShare ((dat (UU := UU) g w1a w1b b1 w2 b2 w3 o O W c).after 8 t))

variable (𝒱₀ : Variants)

/-- The body at any point: the inputs' buffers hold their blocks, so the body's triple applies; the invariant and the
    thread's debts pass through unread. -/
theorem sound_body [∀ e, Nonempty (Elt F e)] (c : Dev nD) (t : Fin cfg1.N) :
    bodyPre (UU := UU) g w1a w1b b1 w2 b2 w3 o O W c t ⊢ wp frame (wpE (defs₀ (F := F)) 𝒱₀ c none) Set.univ (bodyAt1 t) (fun _ => bodyPost (UU := UU) g w1a w1b b1 w2 b2 w3 o O W c t) := by
  unfold bodyPre bodyPost bodyAt1
  simp only [before_0, before_1, before_2, before_3, before_4, before_5, before_6, before_7]
  rw [show (dat (UU := UU) g w1a w1b b1 w2 b2 w3 o O W c).Φ t.succ = (dat (UU := UU) g w1a w1b b1 w2 b2 w3 o O W c).Φ t.castSucc from rfl,
    show (dat (UU := UU) g w1a w1b b1 w2 b2 w3 o O W c).owesAt none t.succ = (dat (UU := UU) g w1a w1b b1 w2 b2 w3 o O W c).owesAt none t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel 𝒱₀ c Set.univ _ _ _ _ _ _ _ _ _ _ _ _ _ _ _ _ _ _ _ (iblk g w1a w1b b1 w2 b2 w3 o c 0 t) (iblk g w1a w1b b1 w2 b2 w3 o c 1 t) (iblk g w1a w1b b1 w2 b2 w3 o c 2 t) (iblk g w1a w1b b1 w2 b2 w3 o c 3 t) (iblk g w1a w1b b1 w2 b2 w3 o c 4 t) (iblk g w1a w1b b1 w2 b2 w3 o c 5 t) (iblk g w1a w1b b1 w2 b2 w3 o c 6 t) (iblk g w1a w1b b1 w2 b2 w3 o c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation [∀ e, Nonempty (Elt F e)] (c : Dev nD) :
    BodyObligation (dat (F := F) (UU := UU) g w1a w1b b1 w2 b2 w3 o O W c) (defs₀ (F := F)) 𝒱₀ none Set.univ := fun t => by
  rw [bigSep_W1, bigSep_W1]
  exact sound_body (UU := UU) g w1a w1b b1 w2 b2 w3 o O W 𝒱₀ c t

end Data

/-! # The result array after the region

The printed index maps decided once over the grid; each input block read where the output's block says; the output's
blocks tile the array, so it ends holding `tcOut` of the operand arrays. -/

section Final

variable (g : Vec F S330240x128 .f32) (w1a w1b : Vec F S128x128 .bf16) (b1 : Vec F S1x128 .f32)
  (w2 : Vec F S128x128 .bf16) (b2 w3 : Vec F S1x128 .f32) (o : Vec F S10000x128 .f32)
  (O : CellTallies nD τ sig (HIx 1)) (W : Waits sig (HIx 1))

theorem idx_facts : ∀ t : Fin cfg1.N,
    win1_0.index t (0 : Fin 2) = t.val ∧ win1_0.index t (1 : Fin 2) = 0
    ∧ win1_1.index t (0 : Fin 2) = 4000 + t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- A grid point as a number below 125. -/
abbrev pt (t : Fin cfg1.N) : Fin 125 := ⟨t.val, lt_of_lt_of_eq t.isLt N_1⟩

open ValueIdx in
theorem iblk0_eq (c : Dev nD) (t : Fin cfg1.N) : iblk g w1a w1b b1 w2 b2 w3 o c 0 t = eBlk g (pt t) := by
  obtain ⟨e0, e1, -⟩ := idx_facts t
  funext y
  show g (((cfg1.win 0).blk t).view.emb y) = g (ix2 _ _)
  refine congrArg g ?_
  funext a; apply Fin.ext
  match a with
  | ⟨0, _⟩ => show win1_0.index t (0 : Fin 2) * 2560 + 1 * (y 0).val = 2560 * t.val + (y 0).val; omega
  | ⟨1, _⟩ => show win1_0.index t (1 : Fin 2) * 128 + 1 * (y 1).val = (y 1).val; omega

open ValueIdx in
theorem iblk1_eq (c : Dev nD) (t : Fin cfg1.N) : iblk g w1a w1b b1 w2 b2 w3 o c 1 t = uBlk g (pt t) := by
  obtain ⟨-, -, e0, e1, -⟩ := idx_facts t
  funext y
  show g (((cfg1.win 1).blk t).view.emb y) = g (ix2 _ _)
  refine congrArg g ?_
  funext a; apply Fin.ext
  match a with
  | ⟨0, _⟩ => show win1_1.index t (0 : Fin 2) * 80 + 1 * (y 0).val = 320000 + 80 * t.val + (y 0).val; omega
  | ⟨1, _⟩ => show win1_1.index t (1 : Fin 2) * 128 + 1 * (y 1).val = (y 1).val; omega

theorem iblk2_eq (c : Dev nD) (t : Fin cfg1.N) : iblk g w1a w1b b1 w2 b2 w3 o c 2 t = w1a := by
  obtain ⟨-, -, -, -, e0, e1, -⟩ := idx_facts t
  funext y
  show w1a (((cfg1.win 2).blk t).view.emb y) = w1a y
  refine congrArg w1a ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem iblk3_eq (c : Dev nD) (t : Fin cfg1.N) : iblk g w1a w1b b1 w2 b2 w3 o c 3 t = w1b := by
  obtain ⟨-, -, -, -, -, -, e0, e1, -⟩ := idx_facts t
  funext y
  show w1b (((cfg1.win 3).blk t).view.emb y) = w1b y
  refine congrArg w1b ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem iblk4_eq (c : Dev nD) (t : Fin cfg1.N) : iblk g w1a w1b b1 w2 b2 w3 o c 4 t = b1 := by
  obtain ⟨-, -, -, -, -, -, -, -, e0, e1, -⟩ := idx_facts t
  funext y
  show b1 (((cfg1.win 4).blk t).view.emb y) = b1 y
  refine congrArg b1 ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem iblk5_eq (c : Dev nD) (t : Fin cfg1.N) : iblk g w1a w1b b1 w2 b2 w3 o c 5 t = w2 := by
  obtain ⟨-, -, -, -, -, -, -, -, -, -, e0, e1, -⟩ := idx_facts t
  funext y
  show w2 (((cfg1.win 5).blk t).view.emb y) = w2 y
  refine congrArg w2 ?_
  funext a; apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem iblk6_eq (c : Dev nD) (t : Fin cfg1.N) : iblk g w1a w1b b1 w2 b2 w3 o c 6 t = b2 := by
  obtain ⟨-, -, -, -, -, -, -, -, -, -, -, -, e0, e1, -⟩ := idx_facts t
  funext y
  show b2 (((cfg1.win 6).blk t).view.emb y) = b2 y
  refine congrArg b2 ?_
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

theorem iblk7_eq (c : Dev nD) (t : Fin cfg1.N) : iblk g w1a w1b b1 w2 b2 w3 o c 7 t = w3 := by
  obtain ⟨-, -, -, -, -, -, -, -, -, -, -, -, -, -, e0, e1, -⟩ := idx_facts t
  funext y
  show w3 (((cfg1.win 7).blk t).view.emb y) = w3 y
  refine congrArg w3 ?_
  funext a; apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

open ValueIdx in
/-- What point `t` writes back is block `t` of `tcOut` of the operand arrays. -/
theorem flushed_eq (c : Dev nD) (t : Fin cfg1.N) :
    (dat (UU := UU) g w1a w1b b1 w2 b2 w3 o O W c).flushed 8 t = ((cfg1.win 8).blk t).view.read (Elt F) (tcOut g w1a w1b b1 w2 b2 w3) := by
  show (cfg1.win 8).cut (grid1.coords t) ((dat (UU := UU) g w1a w1b b1 w2 b2 w3 o O W c).after 8 t) = _
  rw [after_8, iblk0_eq, iblk1_eq, iblk2_eq, iblk3_eq, iblk4_eq, iblk5_eq, iblk6_eq, iblk7_eq]
  obtain ⟨-, -, -, -, -, -, -, -, -, -, -, -, -, -, -, -, e0, e1⟩ := idx_facts t
  funext j
  have hj0 : (j 0).val < 80 := (j 0).isLt
  have hj1 : (j 1).val < 128 := (j 1).isLt
  have hi : ((cfg1.win 8).blk t).view.emb j
      = ix2 (⟨80 * (pt t).val + (⟨(j 0).val, hj0⟩ : Fin 80).val, by have := (pt t).isLt; show _ < 10000; omega⟩ : Fin 10000) (⟨(j 1).val, hj1⟩ : Fin 128) := by
    funext a; apply Fin.ext
    match a with
    | ⟨0, _⟩ => show win1_8.index t (0 : Fin 2) * 80 + 1 * (j 0).val = 80 * t.val + (j 0).val; omega
    | ⟨1, _⟩ => show win1_8.index t (1 : Fin 2) * 128 + 1 * (j 1).val = (j 1).val; omega
  show tcPay (eBlk g (pt t)) (uBlk g (pt t)) w1a w1b b1 w2 b2 w3 _ = (tcOut g w1a w1b b1 w2 b2 w3) (((cfg1.win 8).blk t).view.emb j)
  rw [hi, tcOut_ix2]
  refine congrArg _ ?_
  funext a
  match a with
  | ⟨0, _⟩ => rfl
  | ⟨1, _⟩ => rfl

/-- An index of the result array is in point `t`'s block iff each coordinate is in the block's range. -/
theorem mem_blk (t : Fin cfg1.N) (i : S10000x128.Idx) :
    i ∈ ((cfg1.win 8).blk t).view.set ↔ ∀ a : Fin 2, win1_8.index t a * S80x128.size a ≤ (i a).val ∧ (i a).val < win1_8.index t a * S80x128.size a + S80x128.size a := by
  show i ∈ ((View.whole main_v12).slice (win1_8.rect t)).set ↔ _
  rw [View.set_slice_whole, Rect.mem_set_unit]
  exact Iff.rfl

open ValueIdx in
/-- Every row of the result lies in the block of the point `row / 80`. -/
theorem cover (i : S10000x128.Idx) : ∃ t : Fin cfg1.N, (cfg1.win 8).flush t = true ∧ i ∈ ((cfg1.win 8).blk t).view.set := by
  have hi0 := idx2_lt0 i
  have hi1 := idx2_lt1 i
  have hN : cfg1.N = 125 := N_1
  refine ⟨⟨(i 0).val / 80, by rw [hN]; omega⟩, flush1_8 _, ?_⟩
  obtain ⟨-, -, -, -, -, -, -, -, -, -, -, -, -, -, -, -, e0, e1⟩ := idx_facts ⟨(i 0).val / 80, by rw [hN]; omega⟩
  rw [mem_blk]
  intro a
  match a with
  | ⟨0, _⟩ =>
    show win1_8.index _ (0 : Fin 2) * 80 ≤ (i 0).val ∧ (i 0).val < win1_8.index _ (0 : Fin 2) * 80 + 80
    rw [e0]; show (i 0).val / 80 * 80 ≤ (i 0).val ∧ (i 0).val < (i 0).val / 80 * 80 + 80; omega
  | ⟨1, _⟩ =>
    show win1_8.index _ (1 : Fin 2) * 128 ≤ (i 1).val ∧ (i 1).val < win1_8.index _ (1 : Fin 2) * 128 + 128
    rw [e1]; omega

/-- The result array after the region. -/
theorem final8 (c : Dev nD) : (dat (UU := UU) g w1a w1b b1 w2 b2 w3 o O W c).arrAt 8 cfg1.N = tcOut g w1a w1b b1 w2 b2 w3 :=
  (dat (UU := UU) g w1a w1b b1 w2 b2 w3 o O W c).arrAt_eq_of_cover 8 (tcOut g w1a w1b b1 w2 b2 w3) (fun t _ => flushed_eq g w1a w1b b1 w2 b2 w3 o O W c t) cover

theorem final0 (c : Dev nD) (n : Nat) : (dat (UU := UU) g w1a w1b b1 w2 b2 w3 o O W c).arrAt 0 n = arrA g w1a w1b b1 w2 b2 w3 o c 0 := (dat (UU := UU) g w1a w1b b1 w2 b2 w3 o O W c).arrAt_in 0 rfl n
theorem final1 (c : Dev nD) (n : Nat) : (dat (UU := UU) g w1a w1b b1 w2 b2 w3 o O W c).arrAt 1 n = arrA g w1a w1b b1 w2 b2 w3 o c 1 := (dat (UU := UU) g w1a w1b b1 w2 b2 w3 o O W c).arrAt_in 1 rfl n
theorem final2 (c : Dev nD) (n : Nat) : (dat (UU := UU) g w1a w1b b1 w2 b2 w3 o O W c).arrAt 2 n = arrA g w1a w1b b1 w2 b2 w3 o c 2 := (dat (UU := UU) g w1a w1b b1 w2 b2 w3 o O W c).arrAt_in 2 rfl n
theorem final3 (c : Dev nD) (n : Nat) : (dat (UU := UU) g w1a w1b b1 w2 b2 w3 o O W c).arrAt 3 n = arrA g w1a w1b b1 w2 b2 w3 o c 3 := (dat (UU := UU) g w1a w1b b1 w2 b2 w3 o O W c).arrAt_in 3 rfl n
theorem final4 (c : Dev nD) (n : Nat) : (dat (UU := UU) g w1a w1b b1 w2 b2 w3 o O W c).arrAt 4 n = arrA g w1a w1b b1 w2 b2 w3 o c 4 := (dat (UU := UU) g w1a w1b b1 w2 b2 w3 o O W c).arrAt_in 4 rfl n
theorem final5 (c : Dev nD) (n : Nat) : (dat (UU := UU) g w1a w1b b1 w2 b2 w3 o O W c).arrAt 5 n = arrA g w1a w1b b1 w2 b2 w3 o c 5 := (dat (UU := UU) g w1a w1b b1 w2 b2 w3 o O W c).arrAt_in 5 rfl n
theorem final6 (c : Dev nD) (n : Nat) : (dat (UU := UU) g w1a w1b b1 w2 b2 w3 o O W c).arrAt 6 n = arrA g w1a w1b b1 w2 b2 w3 o c 6 := (dat (UU := UU) g w1a w1b b1 w2 b2 w3 o O W c).arrAt_in 6 rfl n
theorem final7 (c : Dev nD) (n : Nat) : (dat (UU := UU) g w1a w1b b1 w2 b2 w3 o O W c).arrAt 7 n = arrA g w1a w1b b1 w2 b2 w3 o c 7 := (dat (UU := UU) g w1a w1b b1 w2 b2 w3 o O W c).arrAt_in 7 rfl n

end Final

end Cert.Kernel.TcBody
end
-- ==== Proof.KHostVals.lean ====
/-
  The host operations that prepare the kernel's operands, read at an index.

  Before the two kernels run, the program slices the first layer's 256 x 128 weight matrix into its upper and lower
  128 x 128 halves and narrows them (and the second layer's matrix) to a 16-bit format; lays the two bias vectors and
  the last layer's one column out as one-row arrays; flattens the 10000 x 32 neighbour ids to a list of 320000 words;
  and appends 240 zero words to the 10000 node ids. All of this is data movement: every entry of a result is one
  entry of an argument (or the constant 0), and with floats read as extended reals the change of format is the
  identity.

  * at extended reals, each float result is the specification's corresponding array (whole-array equalities);
  * the flattened neighbour list at position r is neighbour r % 32 of node r / 32; the padded node list at position
    r is node r below 10000 and the zero word from there on;
  * the two lists, the neighbour list first, are the specification's flat list of 330240 index words;
  * when the node and neighbour ids are row numbers of the 50000-row table, so is every word of both lists
    (the padding word 0 is row 0).
-/
import proofs.«215990_g90829968376431_cont_sun_c4_571_51_alg».proof.Kernel
import proofs.«215990_g90829968376431_cont_sun_c4_571_51_alg».proof.Proof.Spec
import proofs.«215990_g90829968376431_cont_sun_c4_571_51_alg».proof.Proof.PreFacts
import Idealize.ShloMosaic.Lib.Pipeline.Value
import Idealize.ShloMosaic.Lib.ValueIdx

noncomputable section

namespace Cert.Kernel.HostVals

open Idealize.ShloMosaic Idealize.ShloMosaic.ValueIdx

variable [hK : Cert.Kernel.Facts]

/-! ## The float operands, at extended reals -/

/-- The upper half of the first layer's weights, narrowed: entry (p, q) is entry (p, q) of the matrix. -/
theorem v1_eq (a3 : FVec Ideal S256x128 .f32) :
    (truncf .bf16 (extractStridedSlice S128x128 ![0, 0] a3 Facts₀.slices_S256x128_S128x128_0_0) Facts₀.bitsLt_bf16_f32 : FVec Ideal S128x128 .bf16) = Cert.Spec.w1aArr a3 := by
  funext i
  obtain ⟨p, q, rfl⟩ : ∃ (p : Fin 128) (q : Fin 128), i = ix2 p q := ⟨i 0, i 1, eq_ix2 i⟩
  refine (extractStridedSlice_apply ![0, 0] a3 Facts₀.slices_S256x128_S128x128_0_0 (ix2 p q)
    (ix2 (⟨p.val, by omega⟩ : Fin 256) q) ?_).trans rfl
  intro a
  match a with
  | ⟨0, _⟩ => show p.val = 0 + p.val; omega
  | ⟨1, _⟩ => show q.val = 0 + q.val; omega

/-- The lower half of the first layer's weights, narrowed: entry (p, q) is entry (128 + p, q) of the matrix. -/
theorem v3_eq (a3 : FVec Ideal S256x128 .f32) :
    (truncf .bf16 (extractStridedSlice S128x128 ![128, 0] a3 Facts₀.slices_S256x128_S128x128_128_0) Facts₀.bitsLt_bf16_f32 : FVec Ideal S128x128 .bf16) = Cert.Spec.w1bArr a3 := by
  funext i
  obtain ⟨p, q, rfl⟩ : ∃ (p : Fin 128) (q : Fin 128), i = ix2 p q := ⟨i 0, i 1, eq_ix2 i⟩
  refine (extractStridedSlice_apply ![128, 0] a3 Facts₀.slices_S256x128_S128x128_128_0 (ix2 p q)
    (ix2 (⟨128 + p.val, by omega⟩ : Fin 256) q) ?_).trans rfl
  intro a
  match a with
  | ⟨0, _⟩ => show 128 + p.val = 128 + p.val; rfl
  | ⟨1, _⟩ => show q.val = 0 + q.val; omega

/-- The second layer's weights, narrowed: unchanged. -/
theorem v4_eq (a5 : FVec Ideal S128x128 .f32) :
    (truncf .bf16 a5 Facts₀.bitsLt_bf16_f32 : FVec Ideal S128x128 .bf16) = (a5 : S128x128.Idx → EReal) := rfl

/-- A 128-vector laid out as one row: entry (0, q) is entry q. -/
theorem v5_eq (a4 : FVec Ideal S128 .f32) :
    (shapeCast S1x128 a4 Facts₀.shapeCasts_S128_S1x128 : FVec Ideal S1x128 .f32) = Cert.Spec.rowArr a4 := by
  funext i
  obtain ⟨p, q, rfl⟩ : ∃ (p : Fin 1) (q : Fin 128), i = ix2 p q := ⟨i 0, i 1, eq_ix2 i⟩
  refine (shapeCast_apply a4 Facts₀.shapeCasts_S128_S1x128 (ix2 p q) (ix1 q) ?_).trans rfl
  rw [Shape.rowMajor_val_one, Shape.rowMajor_val_two]
  show q.val = p.val * 128 + q.val
  have := p.isLt
  omega

/-- The second bias vector laid out as one row: the same statement at another argument. -/
theorem v6_eq (a6 : FVec Ideal S128 .f32) :
    (shapeCast S1x128 a6 Facts₀.shapeCasts_S128_S1x128 : FVec Ideal S1x128 .f32) = Cert.Spec.rowArr a6 := v5_eq a6

/-- A 128 x 1 column laid out as one row: entry (0, q) is entry (q, 0). -/
theorem v7_eq (a7 : FVec Ideal S128x1 .f32) :
    (shapeCast S1x128 a7 Facts₀.shapeCasts_S128x1_S1x128 : FVec Ideal S1x128 .f32) = Cert.Spec.colArr a7 := by
  funext i
  obtain ⟨p, q, rfl⟩ : ∃ (p : Fin 1) (q : Fin 128), i = ix2 p q := ⟨i 0, i 1, eq_ix2 i⟩
  refine (shapeCast_apply a7 Facts₀.shapeCasts_S128x1_S1x128 (ix2 p q) (ix2 q (0 : Fin 1)) ?_).trans rfl
  rw [Shape.rowMajor_val_two, Shape.rowMajor_val_two]
  show q.val * 1 + 0 = p.val * 128 + q.val
  have := p.isLt
  omega

/-! ## The two index lists -/

/-- The flattened neighbour ids at position r: neighbour r % 32 of node r / 32. -/
theorem v10_apply (a1 : IVec S10000x32 32) (r : Fin 320000) :
    (shapeCast S320000 a1 Facts₀.shapeCasts_S10000x32_S320000) (ix1 r) =
      a1 (ix2 (⟨r.val / 32, by omega⟩ : Fin 10000) (⟨r.val % 32, Nat.mod_lt _ (by norm_num)⟩ : Fin 32)) := by
  refine shapeCast_apply a1 Facts₀.shapeCasts_S10000x32_S320000 (ix1 r) _ ?_
  rw [Shape.rowMajor_val_one, Shape.rowMajor_val_two]
  show r.val / 32 * 32 + r.val % 32 = r.val
  omega

/-- The padding: 240 zero words. -/
theorem v8_apply (i : S240.Idx) : (broadcastInDim S240 ![] Facts₀.bcast_S_S240 (constantI S_ 32 0#32)) i = 0#32 := rfl

/-- The padded node ids below position 10000: the node ids. -/
theorem v9_apply_lt (a0 : IVec S10000 32) (r : Fin 10240) (h : r.val < 10000) :
    (concatenate S10240 0 [⟨S10000, a0⟩, ⟨S240, (broadcastInDim S240 ![] Facts₀.bcast_S_S240 (constantI S_ 32 0#32))⟩] Facts₀.concatenates_S10000_S240_S10240_d0) (ix1 r) = a0 (ix1 (⟨r.val, h⟩ : Fin 10000)) := by
  refine concatenate_pair_apply_left (0 : Fin S10240.rank) a0 (broadcastInDim S240 ![] Facts₀.bcast_S_S240 (constantI S_ 32 0#32))
    Facts₀.concatenates_S10000_S240_S10240_d0 (ix1 r) rfl (ix1 (⟨r.val, h⟩ : Fin 10000)) ?_
  intro b
  match b with
  | ⟨0, _⟩ => rfl

/-- The padded node ids from position 10000 on: the zero word. -/
theorem v9_apply_ge (a0 : IVec S10000 32) (r : Fin 10240) (h : 10000 ≤ r.val) :
    (concatenate S10240 0 [⟨S10000, a0⟩, ⟨S240, (broadcastInDim S240 ![] Facts₀.bcast_S_S240 (constantI S_ 32 0#32))⟩] Facts₀.concatenates_S10000_S240_S10240_d0) (ix1 r) = 0#32 := by
  refine (concatenate_pair_apply_right (0 : Fin S10240.rank) a0 (broadcastInDim S240 ![] Facts₀.bcast_S_S240 (constantI S_ 32 0#32))
    Facts₀.concatenates_S10000_S240_S10240_d0 (ix1 r) rfl rfl (ix1 (⟨r.val - 10000, by omega⟩ : Fin 240)) ?_ ?_).trans rfl
  · intro b hb
    match b with
    | ⟨0, _⟩ => exact absurd rfl hb
  · show r.val - 10000 + 10000 = r.val
    omega

/-! ## The two lists are the specification's flat list -/

/-- Positions below 320000 of the flat list: the flattened neighbour ids. -/
theorem cat_eq_v10 (a0 : IVec S10000 32) (a1 : IVec S10000x32 32) (r : Fin 330240) (h : r.val < 320000) :
    Cert.Spec.cat a0 a1 r = (shapeCast S320000 a1 Facts₀.shapeCasts_S10000x32_S320000) (ix1 (⟨r.val, h⟩ : Fin 320000)) := by
  rw [Cert.Spec.cat_of_lt a0 a1 r h, v10_apply]

/-- Positions from 320000 on: the padded node ids. -/
theorem cat_eq_v9 (a0 : IVec S10000 32) (a1 : IVec S10000x32 32) (r : Fin 330240) (h : 320000 ≤ r.val) :
    Cert.Spec.cat a0 a1 r = (concatenate S10240 0 [⟨S10000, a0⟩, ⟨S240, (broadcastInDim S240 ![] Facts₀.bcast_S_S240 (constantI S_ 32 0#32))⟩] Facts₀.concatenates_S10000_S240_S10240_d0) (ix1 (⟨r.val - 320000, by omega⟩ : Fin 10240)) := by
  by_cases h2 : r.val < 330000
  · rw [Cert.Spec.cat_of_mid a0 a1 r h h2, v9_apply_lt a0 _ (by show r.val - 320000 < 10000; omega)]
  · rw [Cert.Spec.cat_of_ge a0 a1 r (by omega), v9_apply_ge a0 _ (by show 10000 ≤ r.val - 320000; omega)]

/-! ## Every word of both lists names a row of the table -/

theorem v10_lt (a1 : IVec S10000x32 32) (h1 : ∀ i, 0 ≤ (a1 i).toInt ∧ (a1 i).toNat < 50000) (i : S320000.Idx) :
    ((shapeCast S320000 a1 Facts₀.shapeCasts_S10000x32_S320000) i).toNat < 50000 := by
  obtain ⟨r, rfl⟩ : ∃ r : Fin 320000, i = ix1 r := ⟨i 0, eq_ix1 i⟩
  rw [v10_apply]
  exact (h1 _).2

theorem v9_lt (a0 : IVec S10000 32) (h0 : ∀ i, 0 ≤ (a0 i).toInt ∧ (a0 i).toNat < 50000) (i : S10240.Idx) :
    ((concatenate S10240 0 [⟨S10000, a0⟩, ⟨S240, (broadcastInDim S240 ![] Facts₀.bcast_S_S240 (constantI S_ 32 0#32))⟩] Facts₀.concatenates_S10000_S240_S10240_d0) i).toNat < 50000 := by
  obtain ⟨r, rfl⟩ : ∃ r : Fin 10240, i = ix1 r := ⟨i 0, eq_ix1 i⟩
  by_cases h : r.val < 10000
  · rw [v9_apply_lt a0 r h]
    exact (h0 _).2
  · rw [v9_apply_ge a0 r (by omega)]
    decide

end Cert.Kernel.HostVals

end
-- ==== Proof.KValue.lean ====
/-
  The kernel's result is the specification's.

  The program's result is assembled in two steps. The vector subcores leave a gathered array: row r is the table row
  named by word r of the concatenation of the flattened neighbour ids and the padded node ids. The dense stage then
  computes, for each of 125 blocks of 80 nodes, one block function of rows [2560 t, 2560 t + 2560) (the 32 neighbour
  rows of each of the block's nodes) and rows [320000 + 80 t, 320000 + 80 t + 80) (the nodes' own rows) of the
  gathered array and of the prepared weights.

  * the concatenation of the two prepared lists is the specification's flat list of index words, so the gathered
    array is the specification's gathered array;
  * its two families of row blocks are the specification's neighbour blocks and own-row blocks;
  * given that the block function is the specification's attention block, row 80 t + a of the result is row a of
    that block at block t, which is row 80 t + a of the specification's result; every row is of this form with
    t = r / 80 and a = r % 80.
-/
import proofs.«215990_g90829968376431_cont_sun_c4_571_51_alg».proof.Proof.KScTileDefs
import proofs.«215990_g90829968376431_cont_sun_c4_571_51_alg».proof.Proof.KHostVals
import proofs.«215990_g90829968376431_cont_sun_c4_571_51_alg».proof.Proof.KTcBody

noncomputable section

namespace Cert.Kernel.KValue

open Idealize.ShloMosaic Idealize.ShloMosaic.ValueIdx

variable [hK : Cert.Kernel.Facts]

/-! ## The gathered array -/

/-- Word r of the concatenation of the two prepared index lists is word r of the specification's flat list. -/
theorem cat_eq (a0 : IVec S10000 32) (a1 : IVec S10000x32 32) (r : Fin 330240) :
    ScTile.cat (F := Ideal) (shapeCast S320000 a1 Facts₀.shapeCasts_S10000x32_S320000) (concatenate S10240 0 [⟨S10000, a0⟩, ⟨S240, (broadcastInDim S240 ![] Facts₀.bcast_S_S240 (constantI S_ 32 0#32))⟩] Facts₀.concatenates_S10000_S240_S10240_d0) r.val = Cert.Spec.cat a0 a1 r := by
  by_cases h : r.val < 320000
  · rw [HostVals.cat_eq_v10 a0 a1 r h]
    exact dif_pos h
  · have h' : 320000 ≤ r.val := by omega
    have hlt : r.val < 330240 := r.isLt
    rw [HostVals.cat_eq_v9 a0 a1 r h']
    unfold ScTile.cat
    rw [dif_neg h]
    refine congrArg (fun k : Fin 10240 => (concatenate S10240 0 [⟨S10000, a0⟩, ⟨S240, (broadcastInDim S240 ![] Facts₀.bcast_S_S240 (constantI S_ 32 0#32))⟩] Facts₀.concatenates_S10000_S240_S10240_d0) (ix1 k)) (Fin.ext ?_)
    exact Nat.mod_eq_of_lt (by omega)

/-- The gathered array the subcores leave is the specification's. -/
theorem gathered_eq (a0 : IVec S10000 32) (a1 : IVec S10000x32 32) (a2 : FVec Ideal S50000x128 .f32) :
    ScTile.gathered (F := Ideal) a2 (shapeCast S320000 a1 Facts₀.shapeCasts_S10000x32_S320000) (concatenate S10240 0 [⟨S10000, a0⟩, ⟨S240, (broadcastInDim S240 ![] Facts₀.bcast_S_S240 (constantI S_ 32 0#32))⟩] Facts₀.concatenates_S10000_S240_S10240_d0) = Cert.Spec.gath a0 a1 a2 := by
  funext i
  show a2 (ix2 (ScTile.rowOfWord (ScTile.cat (F := Ideal) _ _ (i 0).val)) (i 1)) = a2 (ix2 (Cert.Spec.row (Cert.Spec.cat a0 a1 (i 0))) (i 1))
  rw [cat_eq a0 a1 (i 0)]
  rfl

/-! ## Its row blocks -/

/-- Rows [2560 t, 2560 t + 2560) of the gathered array are block t of the neighbour rows. -/
theorem eBlk_gath (a0 : IVec S10000 32) (a1 : IVec S10000x32 32) (a2 : FVec Ideal S50000x128 .f32) (t : Fin 125) :
    TcBody.eBlk (F := Ideal) (Cert.Spec.gath a0 a1 a2) t = Cert.Spec.eBlock a1 a2 t := by
  funext y
  obtain ⟨r, d, rfl⟩ : ∃ (r : Fin 2560) (d : Fin 128), y = ix2 r d := ⟨y 0, y 1, eq_ix2 y⟩
  exact (Cert.Spec.eBlock_eq_gath a0 a1 a2 t r d).symm

/-- Rows [320000 + 80 t, 320000 + 80 t + 80) of the gathered array are block t of the nodes' own rows. -/
theorem uBlk_gath (a0 : IVec S10000 32) (a1 : IVec S10000x32 32) (a2 : FVec Ideal S50000x128 .f32) (t : Fin 125) :
    TcBody.uBlk (F := Ideal) (Cert.Spec.gath a0 a1 a2) t = Cert.Spec.uBlock a0 a2 t := by
  funext y
  obtain ⟨a, d, rfl⟩ : ∃ (a : Fin 80) (d : Fin 128), y = ix2 a d := ⟨y 0, y 1, eq_ix2 y⟩
  exact (Cert.Spec.uBlock_eq_gath a0 a1 a2 t a d).symm

/-! ## The assembly -/

section Assembly

variable (htc : ∀ (e : Vec Ideal S2560x128 .f32) (u : Vec Ideal S80x128 .f32) (w1a w1b : Vec Ideal S128x128 .bf16)
    (b1 : Vec Ideal S1x128 .f32) (w2 : Vec Ideal S128x128 .bf16) (b2 w3 : Vec Ideal S1x128 .f32),
    TcBody.tcPay (F := Ideal) e u w1a w1b b1 w2 b2 w3 = Cert.Spec.attnBlock e u w1a w1b b1 w2 b2 w3)
  (a0 : IVec S10000 32) (a1 : IVec S10000x32 32) (a2 : FVec Ideal S50000x128 .f32) (a3 : FVec Ideal S256x128 .f32)
  (a4 : FVec Ideal S128 .f32) (a5 : FVec Ideal S128x128 .f32) (a6 : FVec Ideal S128 .f32) (a7 : FVec Ideal S128x1 .f32)

include htc in
/-- Row 80 t + a of the kernel's result is row 80 t + a of the specification's. -/
theorem kernel_value_row (t : Fin 125) (a : Fin 80) (d : Fin 128) :
    TcBody.tcOut (F := Ideal) (ScTile.gathered (F := Ideal) a2 (shapeCast S320000 a1 Facts₀.shapeCasts_S10000x32_S320000) (concatenate S10240 0 [⟨S10000, a0⟩, ⟨S240, (broadcastInDim S240 ![] Facts₀.bcast_S_S240 (constantI S_ 32 0#32))⟩] Facts₀.concatenates_S10000_S240_S10240_d0))
        (truncf .bf16 (extractStridedSlice S128x128 ![0, 0] a3 Facts₀.slices_S256x128_S128x128_0_0) Facts₀.bitsLt_bf16_f32 : FVec Ideal S128x128 .bf16) (truncf .bf16 (extractStridedSlice S128x128 ![128, 0] a3 Facts₀.slices_S256x128_S128x128_128_0) Facts₀.bitsLt_bf16_f32 : FVec Ideal S128x128 .bf16) (shapeCast S1x128 a4 Facts₀.shapeCasts_S128_S1x128 : FVec Ideal S1x128 .f32) (truncf .bf16 a5 Facts₀.bitsLt_bf16_f32 : FVec Ideal S128x128 .bf16) (shapeCast S1x128 a6 Facts₀.shapeCasts_S128_S1x128 : FVec Ideal S1x128 .f32) (shapeCast S1x128 a7 Facts₀.shapeCasts_S128x1_S1x128 : FVec Ideal S1x128 .f32)
        (ix2 (⟨80 * t.val + a.val, by omega⟩ : Fin 10000) d)
      = Cert.Spec.out a0 a1 a2 a3 a4 a5 a6 a7 (ix2 (⟨80 * t.val + a.val, by omega⟩ : Fin 10000) d) := by
  rw [TcBody.tcOut_ix2, htc, Cert.Spec.out_block a0 a1 a2 a3 a4 a5 a6 a7 t a d, gathered_eq a0 a1 a2,
    eBlk_gath a0 a1 a2 t, uBlk_gath a0 a1 a2 t, HostVals.v1_eq a3, HostVals.v3_eq a3, HostVals.v4_eq a5,
    HostVals.v5_eq a4, HostVals.v5_eq a6, HostVals.v7_eq a7]

include htc in
/-- THE KERNEL'S RESULT, as one function of the eight arrays it depends on, is the specification's. -/
theorem kernel_value :
    TcBody.tcOut (F := Ideal) (ScTile.gathered (F := Ideal) a2 (shapeCast S320000 a1 Facts₀.shapeCasts_S10000x32_S320000) (concatenate S10240 0 [⟨S10000, a0⟩, ⟨S240, (broadcastInDim S240 ![] Facts₀.bcast_S_S240 (constantI S_ 32 0#32))⟩] Facts₀.concatenates_S10000_S240_S10240_d0))
        (truncf .bf16 (extractStridedSlice S128x128 ![0, 0] a3 Facts₀.slices_S256x128_S128x128_0_0) Facts₀.bitsLt_bf16_f32 : FVec Ideal S128x128 .bf16) (truncf .bf16 (extractStridedSlice S128x128 ![128, 0] a3 Facts₀.slices_S256x128_S128x128_128_0) Facts₀.bitsLt_bf16_f32 : FVec Ideal S128x128 .bf16) (shapeCast S1x128 a4 Facts₀.shapeCasts_S128_S1x128 : FVec Ideal S1x128 .f32) (truncf .bf16 a5 Facts₀.bitsLt_bf16_f32 : FVec Ideal S128x128 .bf16) (shapeCast S1x128 a6 Facts₀.shapeCasts_S128_S1x128 : FVec Ideal S1x128 .f32) (shapeCast S1x128 a7 Facts₀.shapeCasts_S128x1_S1x128 : FVec Ideal S1x128 .f32)
      = Cert.Spec.out a0 a1 a2 a3 a4 a5 a6 a7 := by
  funext i
  obtain ⟨n, d, rfl⟩ : ∃ (n : Fin 10000) (d : Fin 128), i = ix2 n d := ⟨i 0, i 1, eq_ix2 i⟩
  have hn : n = (⟨80 * (⟨n.val / 80, by omega⟩ : Fin 125).val + (⟨n.val % 80, Nat.mod_lt _ (by norm_num)⟩ : Fin 80).val,
      by show 80 * (n.val / 80) + n.val % 80 < 10000; omega⟩ : Fin 10000) :=
    Fin.ext (by show n.val = 80 * (n.val / 80) + n.val % 80; omega)
  rw [hn]
  exact kernel_value_row htc a0 a1 a2 a3 a4 a5 a6 a7 _ _ d

end Assembly

end Cert.Kernel.KValue

end
-- ==== Proof.KOut.lean ====
/-
  The kernel's result as one function of the launch memory, and the two facts the launch needs about it.

  After the host operations that prepare the operands, the vector subcores gather table rows into one array and the
  dense stage turns that array and the prepared weights into the result. `kOut` is that composite, stated over what the
  arrays hold after the host operations. `IdxOK` says every word of the two prepared index lists names a row of the
  50000-row table, which is what lets every indexed copy complete.

  * the prepared one-row arrays and the flattened neighbour list are reshapes of the corresponding arguments;
  * when the node and neighbour ids are row numbers of the table, so is every word of the two prepared lists
    (for any reading of floats);
  * with floats read as extended reals, and given that the dense stage's block function is the specification's
    attention block, `kOut` is the specification's result at the eight argument arrays.
-/
import proofs.«215990_g90829968376431_cont_sun_c4_571_51_alg».proof.Proof.KPay
import proofs.«215990_g90829968376431_cont_sun_c4_571_51_alg».proof.Proof.KTcBody
import proofs.«215990_g90829968376431_cont_sun_c4_571_51_alg».proof.Proof.KHostVals
import proofs.«215990_g90829968376431_cont_sun_c4_571_51_alg».proof.Proof.KValue
import proofs.«215990_g90829968376431_cont_sun_c4_571_51_alg».proof.Proof.PreFacts

noncomputable section

namespace Cert.Kernel.Launch

open Cert.Kernel Cert.Kernel.Gen Cert.Kernel.ScTile

open Idealize.ShloMosaic
open Idealize.ShloMosaic.SparseCore (S V T)
open Idealize.SL.Sem
open Idealize.ShloMosaic.Tactic

variable {F : FTy → Type} (m : (ℓ : Loc nD τ sig) → Buf (Elt F) ℓ) [FloatOps F]

/-! ## The result, and the range condition on the prepared index lists -/

def kOut (d : Dev nD) : Vec F S10000x128 .f32 := TcBody.tcOut (F := F) (gathered (tabOf m d) (nfOf m d) (npOf m d)) (V12 m d (Proc.devRef .tc main_v1)) (V12 m d (Proc.devRef .tc main_v3)) (V12 m d (Proc.devRef .tc main_v5)) (V12 m d (Proc.devRef .tc main_v4)) (V12 m d (Proc.devRef .tc main_v6)) (V12 m d (Proc.devRef .tc main_v7))

def IdxOK : Prop := ∀ d : Dev nD, (∀ i, (nfOf m d i).toNat < 50000) ∧ (∀ i, (npOf m d i).toNat < 50000)

/-! ## The remaining arrays after the host operations -/

theorem V12_v5 (d : Dev nD) :
    V12 m d (Proc.devRef .tc main_v5) = shapeCast S1x128 (m ((SparseCore.T d).loc main_arg4)) Facts₀.shapeCasts_S128_S1x128 := by
  unfold V12; after_results; rfl
theorem V12_v6 (d : Dev nD) :
    V12 m d (Proc.devRef .tc main_v6) = shapeCast S1x128 (m ((SparseCore.T d).loc main_arg6)) Facts₀.shapeCasts_S128_S1x128 := by
  unfold V12; after_results; rfl
theorem V12_v7 (d : Dev nD) :
    V12 m d (Proc.devRef .tc main_v7) = shapeCast S1x128 (m ((SparseCore.T d).loc main_arg7)) Facts₀.shapeCasts_S128x1_S1x128 := by
  unfold V12; after_results; rfl
theorem V12_v10 (d : Dev nD) :
    V12 m d (Proc.devRef .tc main_v10) = shapeCast S320000 (m ((SparseCore.T d).loc main_arg1)) Facts₀.shapeCasts_S10000x32_S320000 := by
  unfold V12; after_results; rfl

/-! ## Every word of the prepared lists names a table row -/

theorem idxOK
    (h : ∀ d : Dev nD,
      (∀ i, 0 ≤ (m ((SparseCore.T d).loc main_arg0) i).toInt ∧ (m ((SparseCore.T d).loc main_arg0) i).toNat < 50000)
      ∧ (∀ i, 0 ≤ (m ((SparseCore.T d).loc main_arg1) i).toInt ∧ (m ((SparseCore.T d).loc main_arg1) i).toNat < 50000)) :
    IdxOK m := by
  intro d
  refine ⟨fun i => ?_, fun i => ?_⟩
  · show (V12 m d (Proc.devRef .tc main_v10) i).toNat < 50000
    rw [V12_v10]
    exact HostVals.v10_lt _ (h d).2 i
  · show (V12 m d (Proc.devRef .tc main_v9) i).toNat < 50000
    rw [V12_v9]
    unfold hv9
    exact HostVals.v9_lt _ (h d).1 i

/-! ## The result is the specification's -/

theorem kOut_eq_spec
    (htc : ∀ (e : Vec Ideal S2560x128 .f32) (u : Vec Ideal S80x128 .f32) (w1a w1b : Vec Ideal S128x128 .bf16)
      (b1 : Vec Ideal S1x128 .f32) (w2 : Vec Ideal S128x128 .bf16) (b2 w3 : Vec Ideal S1x128 .f32),
      TcBody.tcPay (F := Ideal) e u w1a w1b b1 w2 b2 w3 = Cert.Spec.attnBlock e u w1a w1b b1 w2 b2 w3)
    (m : (ℓ : Loc nD τ sig) → Buf (Elt Ideal) ℓ) (d : Dev nD) :
    kOut (F := Ideal) m d
      = Cert.Spec.out (m ((SparseCore.T d).loc main_arg0)) (m ((SparseCore.T d).loc main_arg1)) (m ((SparseCore.T d).loc main_arg2)) (m ((SparseCore.T d).loc main_arg3))
          (m ((SparseCore.T d).loc main_arg4)) (m ((SparseCore.T d).loc main_arg5)) (m ((SparseCore.T d).loc main_arg6)) (m ((SparseCore.T d).loc main_arg7)) := by
  unfold kOut nfOf npOf tabOf
  rw [V12_v1, V12_v3, V12_v4, V12_v5, V12_v6, V12_v7, V12_v10, V12_v9]
  unfold hv1 hv3 hv4 hv9
  exact KValue.kernel_value htc _ _ _ _ _ _ _ _

end Cert.Kernel.Launch

end
-- ==== Proof.KLaunch.lean ====
/-
  The launch of the program: what the handshakes carry between the TensorCore, the sequencers and the 32 gather tasks;
  @main on the TensorCore (twelve host operations, the gather call, the attention region); the launch element; and the
  program's run, with the result named and the nine arguments unchanged. The gather task's body and the attention
  region enter as their statements (`TileBodySpec`, `RegionSpec`).
-/
import proofs.«215990_g90829968376431_cont_sun_c4_571_51_alg».proof.Proof.KOut

noncomputable section

namespace Cert.Kernel.Launch

open Cert.Kernel Cert.Kernel.Gen Cert.Kernel.ScTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## @main's arrays, one by one -/

abbrev L23 : List (DevRef τ sig) := [Proc.devRef .tc main_arg0, Proc.devRef .tc main_arg1, Proc.devRef .tc main_arg2, Proc.devRef .tc main_arg3, Proc.devRef .tc main_arg4, Proc.devRef .tc main_arg5, Proc.devRef .tc main_arg6, Proc.devRef .tc main_arg7, Proc.devRef .tc main_arg8, Proc.devRef .tc main_v0, Proc.devRef .tc main_v1, Proc.devRef .tc main_v2, Proc.devRef .tc main_v3, Proc.devRef .tc main_v4, Proc.devRef .tc main_v5, Proc.devRef .tc main_v6, Proc.devRef .tc main_v7, Proc.devRef .tc main_c, Proc.devRef .tc main_v8, Proc.devRef .tc main_v9, Proc.devRef .tc main_v10, Proc.devRef .tc main_v11, Proc.devRef .tc main_v12]

omit [FloatOps F] in
theorem S23_eq : (S23 : Finset (DevRef τ sig)) = L23.toFinset := by decide

omit [FloatOps F] in
theorem held_chain (d : Dev nD) (W : Valuation τ sig (Elt F)) :
    (held (T d) S23 W : sProp 𝕄) = iprop((((SparseCore.T d).loc main_arg0) ↦{fullShare} W (Proc.devRef .tc main_arg0)) ∗ (((SparseCore.T d).loc main_arg1) ↦{fullShare} W (Proc.devRef .tc main_arg1)) ∗ (((SparseCore.T d).loc main_arg2) ↦{fullShare} W (Proc.devRef .tc main_arg2)) ∗ (((SparseCore.T d).loc main_arg3) ↦{fullShare} W (Proc.devRef .tc main_arg3)) ∗ (((SparseCore.T d).loc main_arg4) ↦{fullShare} W (Proc.devRef .tc main_arg4)) ∗ (((SparseCore.T d).loc main_arg5) ↦{fullShare} W (Proc.devRef .tc main_arg5)) ∗ (((SparseCore.T d).loc main_arg6) ↦{fullShare} W (Proc.devRef .tc main_arg6)) ∗ (((SparseCore.T d).loc main_arg7) ↦{fullShare} W (Proc.devRef .tc main_arg7)) ∗ (((SparseCore.T d).loc main_arg8) ↦{fullShare} W (Proc.devRef .tc main_arg8)) ∗ (((SparseCore.T d).loc main_v0) ↦{fullShare} W (Proc.devRef .tc main_v0)) ∗ (((SparseCore.T d).loc main_v1) ↦{fullShare} W (Proc.devRef .tc main_v1)) ∗ (((SparseCore.T d).loc main_v2) ↦{fullShare} W (Proc.devRef .tc main_v2)) ∗ (((SparseCore.T d).loc main_v3) ↦{fullShare} W (Proc.devRef .tc main_v3)) ∗ (((SparseCore.T d).loc main_v4) ↦{fullShare} W (Proc.devRef .tc main_v4)) ∗ (((SparseCore.T d).loc main_v5) ↦{fullShare} W (Proc.devRef .tc main_v5)) ∗ (((SparseCore.T d).loc main_v6) ↦{fullShare} W (Proc.devRef .tc main_v6)) ∗ (((SparseCore.T d).loc main_v7) ↦{fullShare} W (Proc.devRef .tc main_v7)) ∗ (((SparseCore.T d).loc main_c) ↦{fullShare} W (Proc.devRef .tc main_c)) ∗ (((SparseCore.T d).loc main_v8) ↦{fullShare} W (Proc.devRef .tc main_v8)) ∗ (((SparseCore.T d).loc main_v9) ↦{fullShare} W (Proc.devRef .tc main_v9)) ∗ (((SparseCore.T d).loc main_v10) ↦{fullShare} W (Proc.devRef .tc main_v10)) ∗ (((SparseCore.T d).loc main_v11) ↦{fullShare} W (Proc.devRef .tc main_v11)) ∗ (((SparseCore.T d).loc main_v12) ↦{fullShare} W (Proc.devRef .tc main_v12))) :=
  bigSep_eq_bigSepL_of_eq L23 S23_eq (by decide) _

theorem st0_eq (d : Dev nD) :
    (bigSep Finset.univ fun c : Fin ((K (F := F)).nCore 0) => (P m).st 0 d c)
      = bigSep (Finset.univ : Finset (Fin 2)) fun c => bigSep (Finset.univ : Finset (Fin 16)) fun i =>
          taskAt d (tabOf m d) (nfOf m d) (npOf m d) (o0Of m d) (wid (coordsV c i)) := rfl
theorem dn0_eq (d : Dev nD) :
    (bigSep Finset.univ fun c : Fin ((K (F := F)).nCore 0) => (P m).dn 0 d c)
      = bigSep (Finset.univ : Finset (Fin 2)) fun c => bigSep (Finset.univ : Finset (Fin 16)) fun i =>
          taskAt d (tabOf m d) (nfOf m d) (npOf m d) (gathered (tabOf m d) (nfOf m d) (npOf m d)) (wid (coordsV c i)) := rfl

/-! ## The two bodies' statements, as the launch uses them -/

/-- One gather task, at a symbolic grid point: from its tokens and rows to the rows gathered. -/
def TileBodySpec : Prop :=
  ∀ (d : Dev nD) (L : grid0.Coords) (qT qN qP : PosShare TreeShare)
    (tab : Buf (Elt F) (tLoc d)) (nf : Buf (Elt F) (nLoc d)) (np : Buf (Elt F) (pLoc d)) (o0 : Buf (Elt F) (oLoc d))
    (_ : ∀ i, (nf i).toNat < 50000) (_ : ∀ i, (np i).toNat < 50000)
    (O : CellTallies nD τ sig (HIx 1)) (W : Waits sig (HIx 1)) (_ : ∀ g, O g none = 0),
    (iprop(levAts (K (F := F)).L (K (F := F)).lev ∗ emp ∗ tileGo d L qT qN qP tab nf np o0
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L (Memref.whole main_arg2_scv) (Memref.isWhole_whole _) (Memref.whole main_v10_scv) (Memref.isWhole_whole _) (Memref.whole main_v9_scv) (Memref.isWhole_whole _) (Memref.whole main_v11_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scoped0 cc0_scoped1 cc0_scoped2)
          fun _ => iprop(tileTd d L qT qN qP tab nf np ∗ scopedBufs (V d (cV L) (jV L)) ∗ scopedSems0 (V d (cV L) (jV L))
            ∗ ∃ W', ⌜∀ p ∈ W', p ∈ W ∨ p.2 = none⌝ ∗ owes (V d (cV L) (jV L)) O W')

/-- The attention region entered from @main on the TensorCore: from its seven operands, the result's array, the region
    boundary and the staging cells' ghost state `RG d`, to the operands unchanged and the result at the blockwise value. -/
def RegionSpec (RG : Dev nD → sProp 𝕄) : Prop :=
  ∀ (d : Dev nD) (O : CellTallies nD τ sig (HIx 1)) (W : Waits sig (HIx 1))
    (_ : ∀ sm : SemLoc sig, (levAts (K (F := F)).L (K (F := F)).lev : sProp 𝕄) ⊢ MayWait (SparseCore.T d) sm none O)
    (g : Vec F S330240x128 .f32) (w1a w1b : Vec F S128x128 .bf16) (b1 : Vec F S1x128 .f32) (w2 : Vec F S128x128 .bf16) (b2 w3 : Vec F S1x128 .f32)
    (Q : PUnit → sProp 𝕄),
    (iprop(boundary (SparseCore.T d) ∗ (((SparseCore.T d).loc main_v11) ↦{fullShare} g) ∗ (((SparseCore.T d).loc main_v1) ↦{fullShare} w1a) ∗ (((SparseCore.T d).loc main_v3) ↦{fullShare} w1b) ∗ (((SparseCore.T d).loc main_v5) ↦{fullShare} b1) ∗ (((SparseCore.T d).loc main_v4) ↦{fullShare} w2) ∗ (((SparseCore.T d).loc main_v6) ↦{fullShare} b2) ∗ (((SparseCore.T d).loc main_v7) ↦{fullShare} w3)
        ∗ (∃ o, ((SparseCore.T d).loc main_v12) ↦{fullShare} o)
        ∗ owes (SparseCore.T d) O W ∗ levAts (K (F := F)).L (K (F := F)).lev ∗ RG d
        ∗ (iprop(boundary (SparseCore.T d) ∗ (((SparseCore.T d).loc main_v11) ↦{fullShare} g) ∗ (((SparseCore.T d).loc main_v1) ↦{fullShare} w1a) ∗ (((SparseCore.T d).loc main_v3) ↦{fullShare} w1b) ∗ (((SparseCore.T d).loc main_v5) ↦{fullShare} b1) ∗ (((SparseCore.T d).loc main_v4) ↦{fullShare} w2) ∗ (((SparseCore.T d).loc main_v6) ↦{fullShare} b2) ∗ (((SparseCore.T d).loc main_v7) ↦{fullShare} w3)
              ∗ (((SparseCore.T d).loc main_v12) ↦{fullShare} TcBody.tcOut (F := F) g w1a w1b b1 w2 b2 w3)
              ∗ ∃ W', ⌜∀ p ∈ W', p ∈ W ∨ p.2 = none⌝ ∗ owes (SparseCore.T d) O W')
            -∗ wp frame (wpE ((K (F := F)).defs (D (F := F))) 𝒱 (SparseCore.T d) none) Set.univ (.ret ⟨⟩) Q)) : sProp 𝕄)
      ⊢ wp frame (wpE ((K (F := F)).defs (D (F := F))) 𝒱 (SparseCore.T d) none) Set.univ
          (.op (.customCall (SparseCore.inner (Pipeline.entry 0)) ()) fun _ => .ret ⟨⟩) Q

/-! ## What @main leaves the claim -/

/-- The result and the nine arguments, whole, at the kernel's value and the launch contents. -/
abbrev FIN (d : Dev nD) : sProp 𝕄 := iprop((((SparseCore.T d).loc main_v12) ↦{fullShare} kOut m d) ∗ (((SparseCore.T d).loc main_arg0) ↦{fullShare} m ((SparseCore.T d).loc main_arg0)) ∗ (((SparseCore.T d).loc main_arg1) ↦{fullShare} m ((SparseCore.T d).loc main_arg1)) ∗ (((SparseCore.T d).loc main_arg2) ↦{fullShare} m ((SparseCore.T d).loc main_arg2)) ∗ (((SparseCore.T d).loc main_arg3) ↦{fullShare} m ((SparseCore.T d).loc main_arg3)) ∗ (((SparseCore.T d).loc main_arg4) ↦{fullShare} m ((SparseCore.T d).loc main_arg4)) ∗ (((SparseCore.T d).loc main_arg5) ↦{fullShare} m ((SparseCore.T d).loc main_arg5)) ∗ (((SparseCore.T d).loc main_arg6) ↦{fullShare} m ((SparseCore.T d).loc main_arg6)) ∗ (((SparseCore.T d).loc main_arg7) ↦{fullShare} m ((SparseCore.T d).loc main_arg7)) ∗ (((SparseCore.T d).loc main_arg8) ↦{fullShare} m ((SparseCore.T d).loc main_arg8)))

def fq (d : Dev nD) (s' : Phys nD τ sig (Elt F)) : Prop := s'.mem.mem ((SparseCore.T d).loc main_v12) = kOut m d ∧ s'.mem.mem ((SparseCore.T d).loc main_arg0) = m ((SparseCore.T d).loc main_arg0) ∧ s'.mem.mem ((SparseCore.T d).loc main_arg1) = m ((SparseCore.T d).loc main_arg1) ∧ s'.mem.mem ((SparseCore.T d).loc main_arg2) = m ((SparseCore.T d).loc main_arg2) ∧ s'.mem.mem ((SparseCore.T d).loc main_arg3) = m ((SparseCore.T d).loc main_arg3) ∧ s'.mem.mem ((SparseCore.T d).loc main_arg4) = m ((SparseCore.T d).loc main_arg4) ∧ s'.mem.mem ((SparseCore.T d).loc main_arg5) = m ((SparseCore.T d).loc main_arg5) ∧ s'.mem.mem ((SparseCore.T d).loc main_arg6) = m ((SparseCore.T d).loc main_arg6) ∧ s'.mem.mem ((SparseCore.T d).loc main_arg7) = m ((SparseCore.T d).loc main_arg7) ∧ s'.mem.mem ((SparseCore.T d).loc main_arg8) = m ((SparseCore.T d).loc main_arg8)

theorem hfin (d : Dev nD) (s' : Phys nD τ sig (Elt F)) : iprop(FIN m d ∗ SI s') ⊢ (⌜fq m d s'⌝ : sProp 𝕄) := by
  iintro ⟨⟨H0, H1, H2, H3, H4, H5, H6, H7, H8, H9⟩, HSI⟩
  ihave H := (persistent_entails_right (SI_pointsTo_agree (st := s') (ℓ := (SparseCore.T d).loc main_v12) (I := Finset.univ) (q := fullShare) (f := kOut m d))) $$ [HSI H0]
  · isplitl [HSI] <;> iassumption
  icases H with ⟨%h0, HSI, -⟩
  ihave H := (persistent_entails_right (SI_pointsTo_agree (st := s') (ℓ := (SparseCore.T d).loc main_arg0) (I := Finset.univ) (q := fullShare) (f := m ((SparseCore.T d).loc main_arg0)))) $$ [HSI H1]
  · isplitl [HSI] <;> iassumption
  icases H with ⟨%h1, HSI, -⟩
  ihave H := (persistent_entails_right (SI_pointsTo_agree (st := s') (ℓ := (SparseCore.T d).loc main_arg1) (I := Finset.univ) (q := fullShare) (f := m ((SparseCore.T d).loc main_arg1)))) $$ [HSI H2]
  · isplitl [HSI] <;> iassumption
  icases H with ⟨%h2, HSI, -⟩
  ihave H := (persistent_entails_right (SI_pointsTo_agree (st := s') (ℓ := (SparseCore.T d).loc main_arg2) (I := Finset.univ) (q := fullShare) (f := m ((SparseCore.T d).loc main_arg2)))) $$ [HSI H3]
  · isplitl [HSI] <;> iassumption
  icases H with ⟨%h3, HSI, -⟩
  ihave H := (persistent_entails_right (SI_pointsTo_agree (st := s') (ℓ := (SparseCore.T d).loc main_arg3) (I := Finset.univ) (q := fullShare) (f := m ((SparseCore.T d).loc main_arg3)))) $$ [HSI H4]
  · isplitl [HSI] <;> iassumption
  icases H with ⟨%h4, HSI, -⟩
  ihave H := (persistent_entails_right (SI_pointsTo_agree (st := s') (ℓ := (SparseCore.T d).loc main_arg4) (I := Finset.univ) (q := fullShare) (f := m ((SparseCore.T d).loc main_arg4)))) $$ [HSI H5]
  · isplitl [HSI] <;> iassumption
  icases H with ⟨%h5, HSI, -⟩
  ihave H := (persistent_entails_right (SI_pointsTo_agree (st := s') (ℓ := (SparseCore.T d).loc main_arg5) (I := Finset.univ) (q := fullShare) (f := m ((SparseCore.T d).loc main_arg5)))) $$ [HSI H6]
  · isplitl [HSI] <;> iassumption
  icases H with ⟨%h6, HSI, -⟩
  ihave H := (persistent_entails_right (SI_pointsTo_agree (st := s') (ℓ := (SparseCore.T d).loc main_arg6) (I := Finset.univ) (q := fullShare) (f := m ((SparseCore.T d).loc main_arg6)))) $$ [HSI H7]
  · isplitl [HSI] <;> iassumption
  icases H with ⟨%h7, HSI, -⟩
  ihave H := (persistent_entails_right (SI_pointsTo_agree (st := s') (ℓ := (SparseCore.T d).loc main_arg7) (I := Finset.univ) (q := fullShare) (f := m ((SparseCore.T d).loc main_arg7)))) $$ [HSI H8]
  · isplitl [HSI] <;> iassumption
  icases H with ⟨%h8, HSI, -⟩
  ihave H := (SI_pointsTo_agree (st := s') (ℓ := (SparseCore.T d).loc main_arg8) (I := Finset.univ) (q := fullShare) (f := m ((SparseCore.T d).loc main_arg8))) $$ [HSI H9]
  · isplitl [HSI] <;> iassumption
  icases H with %h9
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i), funext fun i => h8 i (Finset.mem_univ i), funext fun i => h9 i (Finset.mem_univ i)⟩

def QC : PUnit × MemSt nD τ sig (Elt F) → Prop := fun r => ∀ c : Dev nD, r.2.mem ((SparseCore.T c).loc main_v12) = kOut m c ∧ r.2.mem ((SparseCore.T c).loc main_arg0) = m ((SparseCore.T c).loc main_arg0) ∧ r.2.mem ((SparseCore.T c).loc main_arg1) = m ((SparseCore.T c).loc main_arg1) ∧ r.2.mem ((SparseCore.T c).loc main_arg2) = m ((SparseCore.T c).loc main_arg2) ∧ r.2.mem ((SparseCore.T c).loc main_arg3) = m ((SparseCore.T c).loc main_arg3) ∧ r.2.mem ((SparseCore.T c).loc main_arg4) = m ((SparseCore.T c).loc main_arg4) ∧ r.2.mem ((SparseCore.T c).loc main_arg5) = m ((SparseCore.T c).loc main_arg5) ∧ r.2.mem ((SparseCore.T c).loc main_arg6) = m ((SparseCore.T c).loc main_arg6) ∧ r.2.mem ((SparseCore.T c).loc main_arg7) = m ((SparseCore.T c).loc main_arg7) ∧ r.2.mem ((SparseCore.T c).loc main_arg8) = m ((SparseCore.T c).loc main_arg8)

/-! ## @main on the TensorCore -/

theorem Otc1_none (d : Dev nD) : ∀ g, ((K (F := F)).Otc d 1) g none = 0 := by
  intro g; rw [(K (F := F)).Otc_end d le_rfl]; rfl

theorem hmain (RG : Dev nD → sProp 𝕄) (hreg : RegionSpec (F := F) RG) (κ : GSem nD τ sig → ℕ) (d : Dev nD) :
    iprop((K (F := F)).ctx EH (P m) κ ∗ (K (F := F)).tcSt EH d 0 ∗ (K (F := F)).tcRes m ρ d ∗ RG d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  iapply (wp_hlo_within 𝒱 (SparseCore.T d) none Set.univ (op := op0) (S := S23) (sub2 main_arg3 main_v0 (by decide) (by decide)) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S23) (sub2 main_v0 main_v1 (by decide) (by decide)) (V := StableHlo.after [op0] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2) (S := S23) (sub2 main_arg3 main_v2 (by decide) (by decide)) (V := StableHlo.after [op0, op1] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S23) (sub2 main_v2 main_v3 (by decide) (by decide)) (V := StableHlo.after [op0, op1, op2] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op4) (S := S23) (sub2 main_arg5 main_v4 (by decide) (by decide)) (V := StableHlo.after [op0, op1, op2, op3] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op5) (S := S23) (sub2 main_arg4 main_v5 (by decide) (by decide)) (V := StableHlo.after [op0, op1, op2, op3, op4] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op6) (S := S23) (sub2 main_arg6 main_v6 (by decide) (by decide)) (V := StableHlo.after [op0, op1, op2, op3, op4, op5] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op7) (S := S23) (sub2 main_arg7 main_v7 (by decide) (by decide)) (V := StableHlo.after [op0, op1, op2, op3, op4, op5, op6] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op8) (S := S23) (sub1 main_c (by decide)) (V := StableHlo.after [op0, op1, op2, op3, op4, op5, op6, op7] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op9) (S := S23) (sub2 main_c main_v8 (by decide) (by decide)) (V := StableHlo.after [op0, op1, op2, op3, op4, op5, op6, op7, op8] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op10) (S := S23) (sub3 main_arg0 main_v8 main_v9 (by decide) (by decide) (by decide)) (V := StableHlo.after [op0, op1, op2, op3, op4, op5, op6, op7, op8, op9] (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op11) (S := S23) (sub2 main_arg1 main_v10 (by decide) (by decide)) (V := StableHlo.after [op0, op1, op2, op3, op4, op5, op6, op7, op8, op9, op10] (V0 m d))) $$ [Hb Hheld]
  · isplitl [Hb]; · iexact Hb
    iexact Hheld
  iintro ⟨Hb, Hheld⟩
  rw [wp_ret]; imodintro
  ihave Hheld' := (Entails.of_eq (show (held (T d) S23 (op11.result (StableHlo.after [op0, op1, op2, op3, op4, op5, op6, op7, op8, op9, op10] (V0 m d))) : sProp 𝕄) = held (T d) S23 (V12 m d) from rfl)) $$ Hheld
  ihave Hh := (Entails.of_eq (held_chain (F := F) d (V12 m d))) $$ Hheld'
  icases Hh with ⟨Harg0, Harg1, Harg2, Harg3, Harg4, Harg5, Harg6, Harg7, Harg8, Hv0, Hv1, Hv2, Hv3, Hv4, Hv5, Hv6, Hv7, Hc, Hv8, Hv9, Hv10, Hv11, Hv12⟩
  rw [V12_arg0, V12_arg1, V12_arg2, V12_arg3, V12_arg4, V12_arg5, V12_arg6, V12_arg7, V12_arg8, V12_v11, V12_v12]
  -- the call: the table and the two index lists out as read tokens, the result's rows to their tasks; all back, the rows gathered
  ihave Hdeal := (deal_iff (F := F) d (tabOf m d) (nfOf m d) (npOf m d) (o0Of m d)).1 $$ [Harg2 Hv10 Hv9 Hv11]
  · isplitl [Harg2]; · iexact Harg2
    isplitl [Hv10]; · iexact Hv10
    isplitl [Hv9]; · iexact Hv9
    iexact Hv11
  icases Hdeal with ⟨⟨Ht0, Hn0, Hp0⟩, Htasks⟩
  iapply ((K (F := F)).wp_run (D (F := F)) 𝒱 (EH := EH) (P := P m) κ d 0) $$ [Hst Htasks Hb Ht0 Hn0 Hp0 HG Harg0 Harg1 Harg3 Harg4 Harg5 Harg6 Harg7 Harg8 Hv0 Hv1 Hv2 Hv3 Hv4 Hv5 Hv6 Hv7 Hc Hv8 Hv12]
  isplitr; · iexact Hctx
  isplitl [Hst]; · iexact Hst
  isplitl [Htasks]
  · rw [st0_eq]; iexact Htasks
  iintro ⟨Hst, Hdn⟩
  ihave Hdn' := (Entails.of_eq (dn0_eq m d)) $$ Hdn
  ihave Hback := (deal_iff (F := F) d (tabOf m d) (nfOf m d) (npOf m d) (gathered (tabOf m d) (nfOf m d) (npOf m d))).2 $$ [Ht0 Hn0 Hp0 Hdn']
  · isplitl [Ht0 Hn0 Hp0]
    · isplitl [Ht0]; · iexact Ht0
      isplitl [Hn0]; · iexact Hn0
      iexact Hp0
    iexact Hdn'
  icases Hback with ⟨Harg2, Hv10, Hv9, Hv11⟩
  -- the attention region
  ihave Hlev := ((K (F := F)).ctx_levAts (EH := EH) (P := P m) κ) $$ Hctx
  ihave Hst' := (Entails.of_eq (show (K (F := F)).tcSt EH d ((0 : Fin 1).val + 1) = (K (F := F)).tcSt EH d 1 from rfl)) $$ Hst
  unfold SparseCore.Cfg.tcSt
  icases Hst' with ⟨⟨%W, %hW, HO⟩, Hrest⟩
  iapply (hreg d ((K (F := F)).Otc d 1) W (fun sm => (K (F := F)).mayWait_none sm (Otc1_none d)) _ _ _ _ _ _ _ _) $$ [Hb Hv11 Hv1 Hv3 Hv5 Hv4 Hv6 Hv7 Hv12 HO Hlev HG Hrest Harg0 Harg1 Harg2 Harg3 Harg4 Harg5 Harg6 Harg7 Harg8]
  isplitl [Hb]; · iexact Hb
  isplitl [Hv11]; · iexact Hv11
  isplitl [Hv1]; · iexact Hv1
  isplitl [Hv3]; · iexact Hv3
  isplitl [Hv5]; · iexact Hv5
  isplitl [Hv4]; · iexact Hv4
  isplitl [Hv6]; · iexact Hv6
  isplitl [Hv7]; · iexact Hv7
  isplitl [Hv12]; · iexists _; iexact Hv12
  isplitl [HO]; · iexact HO
  isplitl [Hlev]; · iexact Hlev
  isplitl [HG]; · iexact HG
  iintro ⟨Hb, Hv11, Hv1, Hv3, Hv5, Hv4, Hv6, Hv7, Hv12, %W', %hW', HO⟩
  rw [wp_ret]; imodintro; imodintro
  isplitl [HO Hrest]
  · isplitl [HO]
    · iexists W'; isplitr
      · ipureintro
        intro p hp
        rcases hW' p hp with h | h
        · exact hW p h
        · rw [h]; exact Nat.zero_le _
      · iexact HO
    · iexact Hrest
  isplitl [Hv12]; · iexact Hv12
  isplitl [Harg0]; · iexact Harg0
  isplitl [Harg1]; · iexact Harg1
  isplitl [Harg2]; · iexact Harg2
  isplitl [Harg3]; · iexact Harg3
  isplitl [Harg4]; · iexact Harg4
  isplitl [Harg5]; · iexact Harg5
  isplitl [Harg6]; · iexact Harg6
  isplitl [Harg7]; · iexact Harg7
  iexact Harg8

/-! ## The launch theorem's obligations -/

theorem defs₀_vector (c : Fin τ.nSC) (s : Fin τ.nSub) :
    defs₀ (F := F) (.scVector c s) 0 ()
      = SparseCore.onTile hcore0 hsub0 (fun c s => cc0__sc_gather_body (coordsV c s) (Memref.whole main_arg2_scv) (Memref.isWhole_whole _) (Memref.whole main_v10_scv) (Memref.isWhole_whole _) (Memref.whole main_v9_scv) (Memref.isWhole_whole _) (Memref.whole main_v11_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (htb : TileBodySpec (F := F)) (hidx : IdxOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htb d (coordsV ⟨_, hc.1⟩ ⟨_, hc.2⟩) _ _ _ (tabOf m d) (nfOf m d) (npOf m d) (o0Of m d) (hidx d).1 (hidx d).2 O W hO).trans
    (wp_mono frame _ _ fun _ => obl_post)

/-! ## The launch element -/

def u₀ (g₀ : UR) : UU := (initOf (K (F := F)).hsCells (K (F := F)).hsToks, (g₀, 1))

omit [FloatOps F] in
theorem bigSep_emp' {I : Type} (s : Finset I) : (bigSep s fun _ => iprop(emp)) = (iprop(emp) : sProp 𝕄) := bigSep_emp_const s

theorem hu₀ (g₀ : UR) (RG : Dev nD → sProp 𝕄) (hfund : (BI.own (EP g₀) : sProp 𝕄) ⊢ iprop(|==> bigSep Finset.univ RG)) :
    (ownU (u₀ (F := F) g₀) : sProp 𝕄)
      ⊢ |={Set.univ}=> iprop(BI.own (EH (initOf (K (F := F)).hsCells (K (F := F)).hsToks)) ∗ (bigSep Finset.univ RG)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR (A := UH) (B := UR × Counters) (nD := nD) (τ := τ) (sig := sig) (Ix := HIx 1) (Val := Elt F) (Name := ℕ) (Lvl := ℕ)) g₀ (1 : Counters)) $$ HR
  icases H2 with ⟨HP, -⟩
  ihave HP' := (Entails.of_eq (show (BI.own (((Emb.inl : Emb UR (UR × Counters)).trans (embR (A := UH) (B := UR × Counters) (nD := nD) (τ := τ) (sig := sig) (Ix := HIx 1) (Val := Elt F) (Name := ℕ) (Lvl := ℕ))) g₀) : sProp 𝕄) = BI.own (EP g₀) from rfl)) $$ HP
  imod hfund $$ HP' with HG
  imodintro
  isplitl [HH]; · iexact HH
  isplitl [HG]; · iexact HG
  rw [show (bigSep Finset.univ fun thr : Thread nD τ => bigSep Finset.univ fun q : Fin 1 => (P m).x q thr) = (iprop(emp) : sProp 𝕄) from by
    rw [show (fun thr : Thread nD τ => bigSep Finset.univ fun q : Fin 1 => (P m).x q thr) = fun _ : Thread nD τ => (iprop(emp) : sProp 𝕄) from
      funext fun _ => bigSep_emp' _, bigSep_emp']]
  iempintro

/-! ## The program's run -/

theorem run_main [∀ e, Nonempty (Elt F e)] (htb : TileBodySpec (F := F)) (hidx : IdxOK m)
    (g₀ : UR) (RG : Dev nD → sProp 𝕄) (hfund : (BI.own (EP g₀) : sProp 𝕄) ⊢ iprop(|==> bigSep Finset.univ RG)) (hreg : RegionSpec (F := F) RG) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m htb hidx)
    (fun q _ => match q with | 0 => SparseCore.Cfg.VecSplit.of_plain (vecSplit m))
    m ρ main RG (FIN m) (u₀ (F := F) g₀) (sep_elim_left.trans (hu₀ m g₀ RG hfund)) (hmain m ρ RG hreg) (fq m) (hfin m) (QC m) (fun _ h => h)

end Cert.Kernel.Launch

end
-- ==== Proof.KScTile.lean ====
/-
  The SparseCore gather task's body: a vector subcore fetches its 10320 index words (one copy; two on the last subcore, whose
  list straddles the two index arrays), then gathers 86 chunks of 120 table rows and copies each out to its rows of the result,
  alternating two buffers: while one buffer's rows are copied out the other is being gathered into.  Four DMA semaphores carry
  the loop's transfers, each with one transfer outstanding at a time, so that every wait hands back exactly what its one transfer
  delivers.  The loop's invariant counts in chunks: before trip `k` chunk `2 k`'s gather and chunk `2 k - 1`'s copy-out are under
  way, the rows of chunks below `2 k - 1` hold the gathered array, and the list's windows below `2 k` are back.  What is handed
  back at the end is the task's rows at the one whole-array function `gathered`.
-/
import proofs.«215990_g90829968376431_cont_sun_c4_571_51_alg».proof.Proof.KScTileDefs
import proofs.«215990_g90829968376431_cont_sun_c4_571_51_alg».proof.Proof.Gen.Kernel.Skeleton
import Idealize.ShloMosaic.Lib.SparseCore.Stream
import Idealize.ShloMosaic.Lib.Tactic

noncomputable section

namespace Cert.Kernel.ScTile

open Cert.Kernel Cert.Kernel.Gen Cert.Kernel.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-! ## The thread's own semaphores and buffers -/

abbrev cell (s : DmaSems sig S_) : GSem nD τ sig := (thr d L, .dma s.sem)

def kCells : Finset (GSem nD τ sig) :=
  {cell d L cc0_scratch3, cell d L cc0_scratch4, cell d L cc0_scratch5, cell d L cc0_scratch6,
   cell d L cc0_scoped0, cell d L cc0_scoped1, cell d L cc0_scoped2}

theorem kCells_sub : kCells d L ⊆ ownCells (thr d L) := by
  intro g hg
  simp only [kCells, Finset.mem_insert, Finset.mem_singleton] at hg
  rcases hg with rfl | rfl | rfl | rfl | rfl | rfl | rfl
  · exact mem_ownCells.mpr ⟨rfl, by show (SemLoc.dma cc0_scratch3.sem : SemLoc sig).isScoped .scVector = true; decide⟩
  · exact mem_ownCells.mpr ⟨rfl, by show (SemLoc.dma cc0_scratch4.sem : SemLoc sig).isScoped .scVector = true; decide⟩
  · exact mem_ownCells.mpr ⟨rfl, by show (SemLoc.dma cc0_scratch5.sem : SemLoc sig).isScoped .scVector = true; decide⟩
  · exact mem_ownCells.mpr ⟨rfl, by show (SemLoc.dma cc0_scratch6.sem : SemLoc sig).isScoped .scVector = true; decide⟩
  · exact mem_ownCells.mpr ⟨rfl, by show (SemLoc.dma cc0_scoped0.sem : SemLoc sig).isScoped .scVector = true; decide⟩
  · exact mem_ownCells.mpr ⟨rfl, by show (SemLoc.dma cc0_scoped1.sem : SemLoc sig).isScoped .scVector = true; decide⟩
  · exact mem_ownCells.mpr ⟨rfl, by show (SemLoc.dma cc0_scoped2.sem : SemLoc sig).isScoped .scVector = true; decide⟩

theorem ownSems0_V :
    (ownSems0 (thr d L) : sProp 𝕄)
      = iprop((semVal (cell d L cc0_scratch3) 0 ∗ semVal (cell d L cc0_scratch4) 0 ∗ semVal (cell d L cc0_scratch5) 0 ∗ semVal (cell d L cc0_scratch6) 0
          ∗ semVal (cell d L cc0_scoped0) 0 ∗ semVal (cell d L cc0_scoped1) 0 ∗ semVal (cell d L cc0_scoped2) 0)
          ∗ bigSep (ownCells (thr d L) \ kCells d L) fun g => semVal g 0) := by
  unfold SparseCore.Cfg.ownSems0
  rw [SparseCore.bigSep_sdiff_split' (kCells_sub d L)]
  unfold kCells
  rw [SparseCore.bigSep_insert' (by simp only [Finset.mem_insert, Finset.mem_singleton, Prod.mk.injEq, true_and, SemLoc.dma.injEq, not_or]; decide),
    SparseCore.bigSep_insert' (by simp only [Finset.mem_insert, Finset.mem_singleton, Prod.mk.injEq, true_and, SemLoc.dma.injEq, not_or]; decide),
    SparseCore.bigSep_insert' (by simp only [Finset.mem_insert, Finset.mem_singleton, Prod.mk.injEq, true_and, SemLoc.dma.injEq, not_or]; decide),
    SparseCore.bigSep_insert' (by simp only [Finset.mem_insert, Finset.mem_singleton, Prod.mk.injEq, true_and, SemLoc.dma.injEq, not_or]; decide),
    SparseCore.bigSep_insert' (by simp only [Finset.mem_insert, Finset.mem_singleton, Prod.mk.injEq, true_and, SemLoc.dma.injEq, not_or]; decide),
    SparseCore.bigSep_insert' (by simp only [Finset.mem_singleton, Prod.mk.injEq, true_and, SemLoc.dma.injEq]; decide),
    bigSep_singleton]

def kRefs : Finset (DevRef τ sig) :=
  {(Proc.scVector (cV L) (jV L)).devRef cc0_scratch0, (Proc.scVector (cV L) (jV L)).devRef cc0_scratch1, (Proc.scVector (cV L) (jV L)).devRef cc0_scratch2}

theorem kRefs_sub : kRefs L ⊆ ownRefs (τ := τ) (.scVector (cV L) (jV L)) := by
  intro b hb
  simp only [kRefs, Finset.mem_insert, Finset.mem_singleton] at hb
  rcases hb with rfl | rfl | rfl <;> exact SparseCore.Cfg.mem_ownRefs_of_owner (p := Proc.scVector (cV L) (jV L)) rfl

theorem ownBufs_V :
    (ownBufs (thr d L) : sProp 𝕄)
      = iprop(((∃ f, (thr d L).loc cc0_scratch0 ↦{fullShare} f) ∗ (∃ f, (thr d L).loc cc0_scratch1 ↦{fullShare} f) ∗ (∃ f, (thr d L).loc cc0_scratch2 ↦{fullShare} f))
          ∗ bigSep (ownRefs (τ := τ) (.scVector (cV L) (jV L)) \ kRefs L) fun b => iprop(∃ f, ((d, b) : Loc nD τ sig) ↦{fullShare} f)) := by
  unfold SparseCore.Cfg.ownBufs
  rw [SparseCore.bigSep_sdiff_split' (kRefs_sub L)]
  unfold kRefs
  rw [SparseCore.bigSep_insert' (by
        simp only [Finset.mem_insert, Finset.mem_singleton, not_or]
        exact ⟨fun e => absurd (Proc.devRef_injective _ e) (show (cc0_scratch0 : Ref sig .scVector) ≠ cc0_scratch1 by decide),
          fun e => absurd (Proc.devRef_injective _ e) (show (cc0_scratch0 : Ref sig .scVector) ≠ cc0_scratch2 by decide)⟩),
    SparseCore.bigSep_insert' (by
        simp only [Finset.mem_singleton]
        exact fun e => absurd (Proc.devRef_injective _ e) (show (cc0_scratch1 : Ref sig .scVector) ≠ cc0_scratch2 by decide)),
    bigSep_singleton]

/-! ## The memrefs as the body table passes them -/

local notation "tV" => (Memref.whole Cert.Kernel.main_arg2_scv : Memref Cert.Kernel.sig Kind.scVector Space.hbm Cert.Kernel.S50000x128 EltTy.f32)
local notation "nV" => (Memref.whole Cert.Kernel.main_v10_scv : Memref Cert.Kernel.sig Kind.scVector Space.hbm Cert.Kernel.S320000 EltTy.i32)
local notation "pV" => (Memref.whole Cert.Kernel.main_v9_scv : Memref Cert.Kernel.sig Kind.scVector Space.hbm Cert.Kernel.S10240 EltTy.i32)
local notation "oV" => (Memref.whole Cert.Kernel.main_v11_scv : Memref Cert.Kernel.sig Kind.scVector Space.hbm Cert.Kernel.S330240x128 EltTy.f32)
local notation "sI" => (Memref.whole Cert.Kernel.cc0_scratch0 : Memref Cert.Kernel.sig Kind.scVector Space.vmem Cert.Kernel.S10320 EltTy.i32)
local notation "b0" => (Memref.whole Cert.Kernel.cc0_scratch1 : Memref Cert.Kernel.sig Kind.scVector Space.vmem Cert.Kernel.S120x128 EltTy.f32)
local notation "b1" => (Memref.whole Cert.Kernel.cc0_scratch2 : Memref Cert.Kernel.sig Kind.scVector Space.vmem Cert.Kernel.S120x128 EltTy.f32)

theorem pts_n (q : PosShare TreeShare) (f : Buf (Elt F) (nLoc d)) : ((nV).view.loc (thr d L) ↦{q} f : sProp 𝕄) = nLoc d ↦{q} f := rfl
theorem pts_p (q : PosShare TreeShare) (f : Buf (Elt F) (pLoc d)) : ((pV).view.loc (thr d L) ↦{q} f : sProp 𝕄) = pLoc d ↦{q} f := rfl
theorem pts_sI (q : PosShare TreeShare) (f : Buf (Elt F) ((thr d L).loc cc0_scratch0)) : ((sI).view.loc (thr d L) ↦{q} f : sProp 𝕄) = (thr d L).loc cc0_scratch0 ↦{q} f := rfl

variable [FloatOps F]
variable (qT : PosShare TreeShare) (tab : Buf (Elt F) (tLoc d)) (nf : Buf (Elt F) (nLoc d)) (np : Buf (Elt F) (pLoc d)) (o0 : Buf (Elt F) (oLoc d))
variable (O : CellTallies nD τ sig (HIx 1)) (W : Waits sig (HIx 1))

/-! ## The loop's invariant

Before trip `k` of the 43: the gather of chunk `2 k` is in flight into the first buffer (none after the last trip); the copy-out of
chunk `2 k - 1` is in flight from the second buffer (none before the first trip); windows `< 2 k` of the list are back, windows
`> 2 k` not yet lent; rows of chunks `< 2 k - 1` hold the gathered array, rows of chunks `≥ 2 k` their launch contents. -/

def Apart (k : ℕ) : sProp 𝕄 :=
  if k < 43 then gFlight0 d L tab nf np cc0_scratch3.sem qT.left (2 * k)
  else iprop((∃ f, (thr d L).loc cc0_scratch1 ↦{fullShare} f) ∗ semVal (cell d L cc0_scratch3) 0 ∗ (tLoc d ↦{qT.left} tab))

def Dpart (k : ℕ) : sProp 𝕄 :=
  if k = 0 then iprop((∃ f, (thr d L).loc cc0_scratch2 ↦{fullShare} f) ∗ semVal (cell d L cc0_scratch6) 0)
  else cFlight1 d L tab nf np cc0_scratch6.sem (2 * k - 1)

theorem Apart_lt {k : ℕ} (h : k < 43) : Apart d L qT tab nf np k = gFlight0 d L tab nf np cc0_scratch3.sem qT.left (2 * k) := if_pos h
theorem Apart_ge {k : ℕ} (h : ¬ k < 43) : Apart d L qT tab nf np k
    = iprop((∃ f, (thr d L).loc cc0_scratch1 ↦{fullShare} f) ∗ semVal (cell d L cc0_scratch3) 0 ∗ (tLoc d ↦{qT.left} tab)) := if_neg h
theorem Dpart_zero' {k : ℕ} (h : k = 0) : Dpart d L tab nf np k = iprop((∃ f, (thr d L).loc cc0_scratch2 ↦{fullShare} f) ∗ semVal (cell d L cc0_scratch6) 0) := if_pos h
theorem Dpart_pos {k : ℕ} (h : k ≠ 0) : Dpart d L tab nf np k = cFlight1 d L tab nf np cc0_scratch6.sem (2 * k - 1) := if_neg h

def inv (k : ℕ) (_ : Unit) : sProp 𝕄 :=
  iprop(Transfers.MayWaits (thr d L) (none : HIx 1) O ∗ Apart d L qT tab nf np k ∗ Dpart d L tab nf np k
    ∗ (tLoc d ↦{qT.right} tab)
    ∗ ((thr d L).loc cc0_scratch0 ↦[idxIn 0 (240 * k)]{fullShare} tileIdx nf np L)
    ∗ ((thr d L).loc cc0_scratch0 ↦[idxIn (min (240 * k + 120) 10320) 10320]{fullShare} tileIdx nf np L)
    ∗ (oLoc d ↦[rowsIn (10320 * (wid L).val) (10320 * (wid L).val + (240 * k - 120))]{fullShare} gathered tab nf np)
    ∗ (oLoc d ↦[rowsIn (10320 * (wid L).val + 240 * k) (10320 * (wid L).val + 10320)]{fullShare} o0)
    ∗ semVal (cell d L cc0_scratch4) 0 ∗ semVal (cell d L cc0_scratch5) 0
    ∗ ∃ W', ⌜∀ p ∈ W', p ∈ W ∨ p.2 = none⌝ ∗ owes (thr d L) O W')

omit [FloatOps F] in
theorem rows_cast {lo hi lo' hi' : ℕ} (q : PosShare TreeShare) (f : Buf (Elt F) (oLoc d)) (h1 : lo = lo') (h2 : hi = hi') :
    (oLoc d ↦[rowsIn lo hi]{q} f : sProp 𝕄) = (oLoc d ↦[rowsIn lo' hi']{q} f) := by rw [h1, h2]
omit [FloatOps F] in
theorem idx_cast {lo hi lo' hi' : ℕ} (q : PosShare TreeShare) (f : Buf (Elt F) ((thr d L).loc cc0_scratch0)) (h1 : lo = lo') (h2 : hi = hi') :
    ((thr d L).loc cc0_scratch0 ↦[idxIn lo hi]{q} f : sProp 𝕄) = ((thr d L).loc cc0_scratch0 ↦[idxIn lo' hi']{q} f) := by rw [h1, h2]

theorem sem3_eq (h : 3 < 19) : (⟨3, h⟩ : DmaSem sig) = cc0_scratch6.sem := rfl
set_option maxHeartbeats 2000000 in
theorem trip_first (hnf : ∀ i, (nf i).toNat < 50000) (hnp : ∀ i, (np i).toNat < 50000)
    (t : Fin k0_t1_loop.trips) (v2 : BitVec 32) (hk0 : t.val = 0) :
    inv d L qT tab nf np o0 O W t.val ()
      ⊢ wp frame (wpE (defs₀ (F := F)) 𝒱₀ (thr d L) none) Set.univ
          (k0_t1_body L tV (Memref.isWhole_whole _) nV (Memref.isWhole_whole _) pV (Memref.isWhole_whole _) oV (Memref.isWhole_whole _)
            sI (Memref.isWhole_whole _) b0 (Memref.isWhole_whole _) b1 (Memref.isWhole_whole _)
            cc0_scratch3 cc0_scratch4 cc0_scratch5 cc0_scratch6 cc0_scoped0 cc0_scoped1 cc0_scoped2 v2 t ())
          (inv d L qT tab nf np o0 O W (t.val + 1)) := by
  have ht : t.val < 43 := trips_lt t
  have k0_h3 : ¬ k0_cond3 t = 1#1 := by rw [cond3_iff]; omega
  have k0_h4 : k0_cond4 t = 1#1 := by rw [cond4_iff]; omega
  unfold inv
  rw [Apart_lt d L qT tab nf np ht, Dpart_zero' d L tab nf np hk0,
    Apart_lt d L qT tab nf np (k := t.val + 1) (by omega),
    Dpart_pos d L tab nf np (k := t.val + 1) (by omega),
    show 2 * (t.val + 1) - 1 = 2 * t.val + 1 from by omega, show 2 * (t.val + 1) = 2 * t.val + 2 from by omega]
  unfold gFlight0 cFlight1
  iintro ⟨#Hmw, HA, ⟨⟨%f8, H8⟩, Hc6⟩, HtB, Hid, Hit, Hrd, Hrt, Hc4, Hc5, %W', %hW', HO⟩
  unfold k0_t1_body
  sl_exec
  -- the gather of chunk 2k lands in the first buffer
  iapply (Transfers.wp_waitLocalO countersEmb 𝒱₀ (thr d L) none (default : HIx 1) rfl) $$ [HA HO]
  · isplitl [HA]; · iexact HA
    isplitl [HO]; · iexact HO
    iapply (Transfers.MayWaits.elim (SemLoc.dma cc0_scratch3.sem)) $$ Hmw
  iintro ⟨⟨Hb0, HtA, HiA⟩, Hc3, HO⟩
  sl_exec
  -- the gather of chunk 2k+1 into the second buffer, through window 2k+1 of the list
  ihave Hsp := (pointsTo_idx_split d L (lo := min (240 * t.val + 120) 10320) (mid := 240 * t.val + 240) (hi := 10320) (by omega) (by omega) fullShare (tileIdx nf np L)).1 $$ Hit
  icases Hsp with ⟨HiB, Hit⟩
  ihave HiB := (Entails.of_eq (idx_cast d L fullShare _ (show min (240 * t.val + 120) 10320 = 120 * (2 * t.val + 1) by omega) (show 240 * t.val + 240 = 120 * (2 * t.val + 1) + 120 by omega))) $$ HiB
  iapply (step_gather1 d L tab nf np hnf hnp cc0_scratch4.sem qT.right (k0_off5 t) (k0_off5_inb t) (2 * t.val + 1) (off5_zero t) _ _ _ _ _ _ _ _ _) $$ [H8 HtB HiB Hc4]
  · isplitl [H8]; · iexact H8
    isplitl [HtB]; · iexact HtB
    isplitl [HiB]; · iexact HiB
    iexact Hc4
  iintro HB
  sl_exec
  -- the copy-out of chunk 2k from the first buffer
  ihave Hsp := (pointsTo_rows_split d (lo := 10320 * (wid L).val + 240 * t.val) (mid := 10320 * (wid L).val + 240 * t.val + 120) (hi := 10320 * (wid L).val + 10320) (by omega) (by omega) fullShare o0).1 $$ Hrt
  icases Hsp with ⟨HrC, Hrt⟩
  ihave HrC := (Entails.of_eq (rows_cast d fullShare o0 (show 10320 * (wid L).val + 240 * t.val = 10320 * (wid L).val + 120 * (2 * t.val) by omega) (show 10320 * (wid L).val + 240 * t.val + 120 = 10320 * (wid L).val + 120 * (2 * t.val) + 120 by omega))) $$ HrC
  iapply (step_copy0 d L tab nf np cc0_scratch5.sem (k0_off6 L t) (k0_off6_inb L t) (2 * t.val) (off6_eq' L t) o0 _ _ _ _ _) $$ [Hb0 HrC Hc5]
  · isplitl [Hb0]; · iexact Hb0
    isplitl [HrC]; · iexact HrC
    iexact Hc5
  iintro HC
  sl_exec
  -- the gather of chunk 2k+1 lands in the second buffer
  unfold gFlight1
  iapply (Transfers.wp_waitLocalO countersEmb 𝒱₀ (thr d L) none (default : HIx 1) rfl) $$ [HB HO]
  · isplitl [HB]; · iexact HB
    isplitl [HO]; · iexact HO
    iapply (Transfers.MayWaits.elim (SemLoc.dma cc0_scratch4.sem)) $$ Hmw
  iintro ⟨⟨Hb1, HtB, HiB⟩, Hc4, HO⟩
  sl_exec
  -- the copy-out of chunk 2k has left the first buffer
  unfold cFlight0
  iapply (Transfers.wp_waitLocalO countersEmb 𝒱₀ (thr d L) none (default : HIx 1) rfl) $$ [HC HO]
  · isplitl [HC]; · iexact HC
    isplitl [HO]; · iexact HO
    iapply (Transfers.MayWaits.elim (SemLoc.dma cc0_scratch5.sem)) $$ Hmw
  iintro ⟨⟨HrC, Hb0⟩, Hc5, HO⟩
  sl_exec
  -- the gather of chunk 2k+2 into the first buffer, through window 2k+2 of the list
  ihave Hsp := (pointsTo_idx_split d L (lo := 240 * t.val + 240) (mid := 240 * t.val + 360) (hi := 10320) (by omega) (by omega) fullShare (tileIdx nf np L)).1 $$ Hit
  icases Hsp with ⟨HiA', Hit⟩
  ihave HiA' := (Entails.of_eq (idx_cast d L fullShare _ (show 240 * t.val + 240 = 120 * (2 * t.val + 2) by omega) (show 240 * t.val + 360 = 120 * (2 * t.val + 2) + 120 by omega))) $$ HiA'
  iapply (step_gather0 d L tab nf np hnf hnp cc0_scratch3.sem qT.left (k0_off7 t) (k0_off7_inb t k0_h4) (2 * t.val + 2) (off7_zero t) _ _ _ _ _ _ _ _ _) $$ [Hb0 HtA HiA' Hc3]
  · isplitl [Hb0]; · iexact Hb0
    isplitl [HtA]; · iexact HtA
    isplitl [HiA']; · iexact HiA'
    iexact Hc3
  iintro HA'
  sl_exec
  -- the copy-out of chunk 2k+1 from the second buffer
  ihave Hsp := (pointsTo_rows_split d (lo := 10320 * (wid L).val + 240 * t.val + 120) (mid := 10320 * (wid L).val + 240 * t.val + 240) (hi := 10320 * (wid L).val + 10320) (by omega) (by omega) fullShare o0).1 $$ Hrt
  icases Hsp with ⟨HrD', Hrt⟩
  ihave HrD' := (Entails.of_eq (rows_cast d fullShare o0 (show 10320 * (wid L).val + 240 * t.val + 120 = 10320 * (wid L).val + 120 * (2 * t.val + 1) by omega) (show 10320 * (wid L).val + 240 * t.val + 240 = 10320 * (wid L).val + 120 * (2 * t.val + 1) + 120 by omega))) $$ HrD'
  iapply (step_copy1 d L tab nf np cc0_scratch6.sem (k0_off8 L t) (k0_off8_inb L t) (2 * t.val + 1) (off8_eq' L t) o0 _ _ _ _ _) $$ [Hb1 HrD' Hc6]
  · isplitl [Hb1]; · iexact Hb1
    isplitl [HrD']; · iexact HrD'
    iexact Hc6
  iintro HD'
  sl_exec
  sl_step
  unfold gFlight0 cFlight1
  isplitr; · iexact Hmw
  isplitl [HA']; · iexact HA'
  isplitl [HD']; · iexact HD'
  isplitl [HtB]; · iexact HtB
  isplitl [Hid HiA HiB]
  · ihave H1 := (pointsTo_idx_split d L (lo := 0) (mid := 240 * t.val) (hi := 240 * t.val + 120) (by omega) (by omega) fullShare (tileIdx nf np L)).2 $$ [Hid HiA]
    · isplitl [Hid]; · iexact Hid
      iapply (Entails.of_eq (idx_cast d L fullShare _ (show 120 * (2 * t.val) = 240 * t.val by omega) (show 120 * (2 * t.val) + 120 = 240 * t.val + 120 by omega))) $$ HiA
    ihave H2 := (pointsTo_idx_split d L (lo := 0) (mid := 240 * t.val + 120) (hi := 240 * t.val + 240) (by omega) (by omega) fullShare (tileIdx nf np L)).2 $$ [H1 HiB]
    · isplitl [H1]; · iexact H1
      iapply (Entails.of_eq (idx_cast d L fullShare _ (show 120 * (2 * t.val + 1) = 240 * t.val + 120 by omega) (show 120 * (2 * t.val + 1) + 120 = 240 * t.val + 240 by omega))) $$ HiB
    iapply (Entails.of_eq (idx_cast d L fullShare _ (show 0 = 0 by omega) (show 240 * t.val + 240 = 240 * (t.val + 1) by omega))) $$ H2
  isplitl [Hit]
  · iapply (Entails.of_eq (idx_cast d L fullShare _ (show 240 * t.val + 360 = min (240 * (t.val + 1) + 120) 10320 by omega) (show 10320 = 10320 by omega))) $$ Hit
  isplitl [Hrd HrC]
  · ihave H1 := (pointsTo_rows_split d (lo := 10320 * (wid L).val) (mid := 10320 * (wid L).val + 240 * t.val) (hi := 10320 * (wid L).val + 240 * t.val + 120) (by omega) (by omega) fullShare (gathered tab nf np)).2 $$ [Hrd HrC]
    · isplitl [Hrd]
      · iapply (Entails.of_eq (rows_cast d fullShare _ (show 10320 * (wid L).val = 10320 * (wid L).val by omega) (show 10320 * (wid L).val + (240 * t.val - 120) = 10320 * (wid L).val + 240 * t.val by omega))) $$ Hrd
      iapply (Entails.of_eq (rows_cast d fullShare _ (show 10320 * (wid L).val + 120 * (2 * t.val) = 10320 * (wid L).val + 240 * t.val by omega) (show 10320 * (wid L).val + 120 * (2 * t.val) + 120 = 10320 * (wid L).val + 240 * t.val + 120 by omega))) $$ HrC
    iapply (Entails.of_eq (rows_cast d fullShare _ (show 10320 * (wid L).val = 10320 * (wid L).val by omega) (show 10320 * (wid L).val + 240 * t.val + 120 = 10320 * (wid L).val + (240 * (t.val + 1) - 120) by omega))) $$ H1
  isplitl [Hrt]
  · iapply (Entails.of_eq (rows_cast d fullShare o0 (show 10320 * (wid L).val + 240 * t.val + 240 = 10320 * (wid L).val + 240 * (t.val + 1) by omega) (show 10320 * (wid L).val + 10320 = 10320 * (wid L).val + 10320 by omega))) $$ Hrt
  isplitl [Hc4]; · iexact Hc4
  isplitl [Hc5]; · iexact Hc5
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp
set_option maxHeartbeats 2000000 in
theorem trip_mid (hnf : ∀ i, (nf i).toNat < 50000) (hnp : ∀ i, (np i).toNat < 50000)
    (t : Fin k0_t1_loop.trips) (v2 : BitVec 32) (hk0 : t.val ≠ 0) (hk1 : t.val ≠ 42) :
    inv d L qT tab nf np o0 O W t.val ()
      ⊢ wp frame (wpE (defs₀ (F := F)) 𝒱₀ (thr d L) none) Set.univ
          (k0_t1_body L tV (Memref.isWhole_whole _) nV (Memref.isWhole_whole _) pV (Memref.isWhole_whole _) oV (Memref.isWhole_whole _)
            sI (Memref.isWhole_whole _) b0 (Memref.isWhole_whole _) b1 (Memref.isWhole_whole _)
            cc0_scratch3 cc0_scratch4 cc0_scratch5 cc0_scratch6 cc0_scoped0 cc0_scoped1 cc0_scoped2 v2 t ())
          (inv d L qT tab nf np o0 O W (t.val + 1)) := by
  have ht : t.val < 43 := trips_lt t
  have k0_h3 : k0_cond3 t = 1#1 := by rw [cond3_iff]; omega
  have k0_h4 : k0_cond4 t = 1#1 := by rw [cond4_iff]; omega
  unfold inv
  rw [Apart_lt d L qT tab nf np ht, Dpart_pos d L tab nf np hk0,
    Apart_lt d L qT tab nf np (k := t.val + 1) (by omega),
    Dpart_pos d L tab nf np (k := t.val + 1) (by omega),
    show 2 * (t.val + 1) - 1 = 2 * t.val + 1 from by omega, show 2 * (t.val + 1) = 2 * t.val + 2 from by omega]
  unfold gFlight0 cFlight1
  iintro ⟨#Hmw, HA, HD, HtB, Hid, Hit, Hrd, Hrt, Hc4, Hc5, %W', %hW', HO⟩
  unfold k0_t1_body
  sl_exec
  -- the gather of chunk 2k lands in the first buffer
  iapply (Transfers.wp_waitLocalO countersEmb 𝒱₀ (thr d L) none (default : HIx 1) rfl) $$ [HA HO]
  · isplitl [HA]; · iexact HA
    isplitl [HO]; · iexact HO
    iapply (Transfers.MayWaits.elim (SemLoc.dma cc0_scratch3.sem)) $$ Hmw
  iintro ⟨⟨Hb0, HtA, HiA⟩, Hc3, HO⟩
  sl_exec
  rw [sem3_eq]
  -- the gather of chunk 2k+1 into the second buffer, through window 2k+1 of the list
  ihave Hsp := (pointsTo_idx_split d L (lo := min (240 * t.val + 120) 10320) (mid := 240 * t.val + 240) (hi := 10320) (by omega) (by omega) fullShare (tileIdx nf np L)).1 $$ Hit
  icases Hsp with ⟨HiB, Hit⟩
  ihave HiB := (Entails.of_eq (idx_cast d L fullShare _ (show min (240 * t.val + 120) 10320 = 120 * (2 * t.val + 1) by omega) (show 240 * t.val + 240 = 120 * (2 * t.val + 1) + 120 by omega))) $$ HiB
  iapply (step_gather1 d L tab nf np hnf hnp cc0_scratch4.sem qT.right (k0_off5 t) (k0_off5_inb t) (2 * t.val + 1) (off5_zero t) _ _ _ _ _ _ _ _ _) $$ [HD_src HtB HiB Hc4]
  · isplitl [HD_src]; · iexact HD_src
    isplitl [HtB]; · iexact HtB
    isplitl [HiB]; · iexact HiB
    iexact Hc4
  iintro HB
  sl_exec
  -- the copy-out of chunk 2k from the first buffer
  ihave Hsp := (pointsTo_rows_split d (lo := 10320 * (wid L).val + 240 * t.val) (mid := 10320 * (wid L).val + 240 * t.val + 120) (hi := 10320 * (wid L).val + 10320) (by omega) (by omega) fullShare o0).1 $$ Hrt
  icases Hsp with ⟨HrC, Hrt⟩
  ihave HrC := (Entails.of_eq (rows_cast d fullShare o0 (show 10320 * (wid L).val + 240 * t.val = 10320 * (wid L).val + 120 * (2 * t.val) by omega) (show 10320 * (wid L).val + 240 * t.val + 120 = 10320 * (wid L).val + 120 * (2 * t.val) + 120 by omega))) $$ HrC
  iapply (step_copy0 d L tab nf np cc0_scratch5.sem (k0_off6 L t) (k0_off6_inb L t) (2 * t.val) (off6_eq' L t) o0 _ _ _ _ _) $$ [Hb0 HrC Hc5]
  · isplitl [Hb0]; · iexact Hb0
    isplitl [HrC]; · iexact HrC
    iexact Hc5
  iintro HC
  sl_exec
  -- the gather of chunk 2k+1 lands in the second buffer
  unfold gFlight1
  iapply (Transfers.wp_waitLocalO countersEmb 𝒱₀ (thr d L) none (default : HIx 1) rfl) $$ [HB HO]
  · isplitl [HB]; · iexact HB
    isplitl [HO]; · iexact HO
    iapply (Transfers.MayWaits.elim (SemLoc.dma cc0_scratch4.sem)) $$ Hmw
  iintro ⟨⟨Hb1, HtB, HiB⟩, Hc4, HO⟩
  sl_exec
  -- the copy-out of chunk 2k has left the first buffer
  unfold cFlight0
  iapply (Transfers.wp_waitLocalO countersEmb 𝒱₀ (thr d L) none (default : HIx 1) rfl) $$ [HC HO]
  · isplitl [HC]; · iexact HC
    isplitl [HO]; · iexact HO
    iapply (Transfers.MayWaits.elim (SemLoc.dma cc0_scratch5.sem)) $$ Hmw
  iintro ⟨⟨HrC, Hb0⟩, Hc5, HO⟩
  sl_exec
  -- the gather of chunk 2k+2 into the first buffer, through window 2k+2 of the list
  ihave Hsp := (pointsTo_idx_split d L (lo := 240 * t.val + 240) (mid := 240 * t.val + 360) (hi := 10320) (by omega) (by omega) fullShare (tileIdx nf np L)).1 $$ Hit
  icases Hsp with ⟨HiA', Hit⟩
  ihave HiA' := (Entails.of_eq (idx_cast d L fullShare _ (show 240 * t.val + 240 = 120 * (2 * t.val + 2) by omega) (show 240 * t.val + 360 = 120 * (2 * t.val + 2) + 120 by omega))) $$ HiA'
  iapply (step_gather0 d L tab nf np hnf hnp cc0_scratch3.sem qT.left (k0_off7 t) (k0_off7_inb t k0_h4) (2 * t.val + 2) (off7_zero t) _ _ _ _ _ _ _ _ _) $$ [Hb0 HtA HiA' Hc3]
  · isplitl [Hb0]; · iexact Hb0
    isplitl [HtA]; · iexact HtA
    isplitl [HiA']; · iexact HiA'
    iexact Hc3
  iintro HA'
  sl_exec
  -- the copy-out of chunk 2k+1 from the second buffer
  ihave Hsp := (pointsTo_rows_split d (lo := 10320 * (wid L).val + 240 * t.val + 120) (mid := 10320 * (wid L).val + 240 * t.val + 240) (hi := 10320 * (wid L).val + 10320) (by omega) (by omega) fullShare o0).1 $$ Hrt
  icases Hsp with ⟨HrD', Hrt⟩
  ihave HrD' := (Entails.of_eq (rows_cast d fullShare o0 (show 10320 * (wid L).val + 240 * t.val + 120 = 10320 * (wid L).val + 120 * (2 * t.val + 1) by omega) (show 10320 * (wid L).val + 240 * t.val + 240 = 10320 * (wid L).val + 120 * (2 * t.val + 1) + 120 by omega))) $$ HrD'
  iapply (step_copy1 d L tab nf np cc0_scratch6.sem (k0_off8 L t) (k0_off8_inb L t) (2 * t.val + 1) (off8_eq' L t) o0 _ _ _ _ _) $$ [Hb1 HrD' HD]
  · isplitl [Hb1]; · iexact Hb1
    isplitl [HrD']; · iexact HrD'
    iexact HD
  iintro HD'
  sl_exec
  sl_step
  unfold gFlight0 cFlight1
  isplitr; · iexact Hmw
  isplitl [HA']; · iexact HA'
  isplitl [HD']; · iexact HD'
  isplitl [HtB]; · iexact HtB
  isplitl [Hid HiA HiB]
  · ihave H1 := (pointsTo_idx_split d L (lo := 0) (mid := 240 * t.val) (hi := 240 * t.val + 120) (by omega) (by omega) fullShare (tileIdx nf np L)).2 $$ [Hid HiA]
    · isplitl [Hid]; · iexact Hid
      iapply (Entails.of_eq (idx_cast d L fullShare _ (show 120 * (2 * t.val) = 240 * t.val by omega) (show 120 * (2 * t.val) + 120 = 240 * t.val + 120 by omega))) $$ HiA
    ihave H2 := (pointsTo_idx_split d L (lo := 0) (mid := 240 * t.val + 120) (hi := 240 * t.val + 240) (by omega) (by omega) fullShare (tileIdx nf np L)).2 $$ [H1 HiB]
    · isplitl [H1]; · iexact H1
      iapply (Entails.of_eq (idx_cast d L fullShare _ (show 120 * (2 * t.val + 1) = 240 * t.val + 120 by omega) (show 120 * (2 * t.val + 1) + 120 = 240 * t.val + 240 by omega))) $$ HiB
    iapply (Entails.of_eq (idx_cast d L fullShare _ (show 0 = 0 by omega) (show 240 * t.val + 240 = 240 * (t.val + 1) by omega))) $$ H2
  isplitl [Hit]
  · iapply (Entails.of_eq (idx_cast d L fullShare _ (show 240 * t.val + 360 = min (240 * (t.val + 1) + 120) 10320 by omega) (show 10320 = 10320 by omega))) $$ Hit
  isplitl [Hrd HD_dst HrC]
  · ihave H0 := (pointsTo_rows_split d (lo := 10320 * (wid L).val) (mid := 10320 * (wid L).val + (240 * t.val - 120)) (hi := 10320 * (wid L).val + 240 * t.val) (by omega) (by omega) fullShare (gathered tab nf np)).2 $$ [Hrd HD_dst]
    · isplitl [Hrd]; · iexact Hrd
      iapply (Entails.of_eq (rows_cast d fullShare _ (show 10320 * (wid L).val + 120 * (2 * t.val - 1) = 10320 * (wid L).val + (240 * t.val - 120) by omega) (show 10320 * (wid L).val + 120 * (2 * t.val - 1) + 120 = 10320 * (wid L).val + 240 * t.val by omega))) $$ HD_dst
    ihave H1 := (pointsTo_rows_split d (lo := 10320 * (wid L).val) (mid := 10320 * (wid L).val + 240 * t.val) (hi := 10320 * (wid L).val + 240 * t.val + 120) (by omega) (by omega) fullShare (gathered tab nf np)).2 $$ [H0 HrC]
    · isplitl [H0]; · iexact H0
      iapply (Entails.of_eq (rows_cast d fullShare _ (show 10320 * (wid L).val + 120 * (2 * t.val) = 10320 * (wid L).val + 240 * t.val by omega) (show 10320 * (wid L).val + 120 * (2 * t.val) + 120 = 10320 * (wid L).val + 240 * t.val + 120 by omega))) $$ HrC
    iapply (Entails.of_eq (rows_cast d fullShare _ (show 10320 * (wid L).val = 10320 * (wid L).val by omega) (show 10320 * (wid L).val + 240 * t.val + 120 = 10320 * (wid L).val + (240 * (t.val + 1) - 120) by omega))) $$ H1
  isplitl [Hrt]
  · iapply (Entails.of_eq (rows_cast d fullShare o0 (show 10320 * (wid L).val + 240 * t.val + 240 = 10320 * (wid L).val + 240 * (t.val + 1) by omega) (show 10320 * (wid L).val + 10320 = 10320 * (wid L).val + 10320 by omega))) $$ Hrt
  isplitl [Hc4]; · iexact Hc4
  isplitl [Hc5]; · iexact Hc5
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp
set_option maxHeartbeats 2000000 in
theorem trip_last (hnf : ∀ i, (nf i).toNat < 50000) (hnp : ∀ i, (np i).toNat < 50000)
    (t : Fin k0_t1_loop.trips) (v2 : BitVec 32) (hk0 : t.val ≠ 0) (hk1 : t.val = 42) :
    inv d L qT tab nf np o0 O W t.val ()
      ⊢ wp frame (wpE (defs₀ (F := F)) 𝒱₀ (thr d L) none) Set.univ
          (k0_t1_body L tV (Memref.isWhole_whole _) nV (Memref.isWhole_whole _) pV (Memref.isWhole_whole _) oV (Memref.isWhole_whole _)
            sI (Memref.isWhole_whole _) b0 (Memref.isWhole_whole _) b1 (Memref.isWhole_whole _)
            cc0_scratch3 cc0_scratch4 cc0_scratch5 cc0_scratch6 cc0_scoped0 cc0_scoped1 cc0_scoped2 v2 t ())
          (inv d L qT tab nf np o0 O W (t.val + 1)) := by
  have ht : t.val < 43 := trips_lt t
  have k0_h3 : k0_cond3 t = 1#1 := by rw [cond3_iff]; omega
  have k0_h4 : ¬ k0_cond4 t = 1#1 := by rw [cond4_iff]; omega
  unfold inv
  rw [Apart_lt d L qT tab nf np ht, Dpart_pos d L tab nf np hk0,
    Apart_ge d L qT tab nf np (k := t.val + 1) (by omega),
    Dpart_pos d L tab nf np (k := t.val + 1) (by omega),
    show 2 * (t.val + 1) - 1 = 2 * t.val + 1 from by omega]
  unfold gFlight0 cFlight1
  iintro ⟨#Hmw, HA, HD, HtB, Hid, Hit, Hrd, Hrt, Hc4, Hc5, %W', %hW', HO⟩
  unfold k0_t1_body
  sl_exec
  -- the gather of chunk 2k lands in the first buffer
  iapply (Transfers.wp_waitLocalO countersEmb 𝒱₀ (thr d L) none (default : HIx 1) rfl) $$ [HA HO]
  · isplitl [HA]; · iexact HA
    isplitl [HO]; · iexact HO
    iapply (Transfers.MayWaits.elim (SemLoc.dma cc0_scratch3.sem)) $$ Hmw
  iintro ⟨⟨Hb0, HtA, HiA⟩, Hc3, HO⟩
  sl_exec
  rw [sem3_eq]
  -- the gather of chunk 2k+1 into the second buffer, through window 2k+1 of the list
  ihave Hsp := (pointsTo_idx_split d L (lo := min (240 * t.val + 120) 10320) (mid := 240 * t.val + 240) (hi := 10320) (by omega) (by omega) fullShare (tileIdx nf np L)).1 $$ Hit
  icases Hsp with ⟨HiB, Hit⟩
  ihave HiB := (Entails.of_eq (idx_cast d L fullShare _ (show min (240 * t.val + 120) 10320 = 120 * (2 * t.val + 1) by omega) (show 240 * t.val + 240 = 120 * (2 * t.val + 1) + 120 by omega))) $$ HiB
  iapply (step_gather1 d L tab nf np hnf hnp cc0_scratch4.sem qT.right (k0_off5 t) (k0_off5_inb t) (2 * t.val + 1) (off5_zero t) _ _ _ _ _ _ _ _ _) $$ [HD_src HtB HiB Hc4]
  · isplitl [HD_src]; · iexact HD_src
    isplitl [HtB]; · iexact HtB
    isplitl [HiB]; · iexact HiB
    iexact Hc4
  iintro HB
  sl_exec
  -- the copy-out of chunk 2k from the first buffer
  ihave Hsp := (pointsTo_rows_split d (lo := 10320 * (wid L).val + 240 * t.val) (mid := 10320 * (wid L).val + 240 * t.val + 120) (hi := 10320 * (wid L).val + 10320) (by omega) (by omega) fullShare o0).1 $$ Hrt
  icases Hsp with ⟨HrC, Hrt⟩
  ihave HrC := (Entails.of_eq (rows_cast d fullShare o0 (show 10320 * (wid L).val + 240 * t.val = 10320 * (wid L).val + 120 * (2 * t.val) by omega) (show 10320 * (wid L).val + 240 * t.val + 120 = 10320 * (wid L).val + 120 * (2 * t.val) + 120 by omega))) $$ HrC
  iapply (step_copy0 d L tab nf np cc0_scratch5.sem (k0_off6 L t) (k0_off6_inb L t) (2 * t.val) (off6_eq' L t) o0 _ _ _ _ _) $$ [Hb0 HrC Hc5]
  · isplitl [Hb0]; · iexact Hb0
    isplitl [HrC]; · iexact HrC
    iexact Hc5
  iintro HC
  sl_exec
  -- the gather of chunk 2k+1 lands in the second buffer
  unfold gFlight1
  iapply (Transfers.wp_waitLocalO countersEmb 𝒱₀ (thr d L) none (default : HIx 1) rfl) $$ [HB HO]
  · isplitl [HB]; · iexact HB
    isplitl [HO]; · iexact HO
    iapply (Transfers.MayWaits.elim (SemLoc.dma cc0_scratch4.sem)) $$ Hmw
  iintro ⟨⟨Hb1, HtB, HiB⟩, Hc4, HO⟩
  sl_exec
  -- the copy-out of chunk 2k has left the first buffer
  unfold cFlight0
  iapply (Transfers.wp_waitLocalO countersEmb 𝒱₀ (thr d L) none (default : HIx 1) rfl) $$ [HC HO]
  · isplitl [HC]; · iexact HC
    isplitl [HO]; · iexact HO
    iapply (Transfers.MayWaits.elim (SemLoc.dma cc0_scratch5.sem)) $$ Hmw
  iintro ⟨⟨HrC, Hb0⟩, Hc5, HO⟩
  sl_exec
  -- the copy-out of chunk 2k+1 from the second buffer
  ihave Hsp := (pointsTo_rows_split d (lo := 10320 * (wid L).val + 240 * t.val + 120) (mid := 10320 * (wid L).val + 240 * t.val + 240) (hi := 10320 * (wid L).val + 10320) (by omega) (by omega) fullShare o0).1 $$ Hrt
  icases Hsp with ⟨HrD', Hrt⟩
  ihave HrD' := (Entails.of_eq (rows_cast d fullShare o0 (show 10320 * (wid L).val + 240 * t.val + 120 = 10320 * (wid L).val + 120 * (2 * t.val + 1) by omega) (show 10320 * (wid L).val + 240 * t.val + 240 = 10320 * (wid L).val + 120 * (2 * t.val + 1) + 120 by omega))) $$ HrD'
  iapply (step_copy1 d L tab nf np cc0_scratch6.sem (k0_off8 L t) (k0_off8_inb L t) (2 * t.val + 1) (off8_eq' L t) o0 _ _ _ _ _) $$ [Hb1 HrD' HD]
  · isplitl [Hb1]; · iexact Hb1
    isplitl [HrD']; · iexact HrD'
    iexact HD
  iintro HD'
  sl_exec
  sl_step
  unfold cFlight1
  isplitr; · iexact Hmw
  isplitl [Hb0 Hc3 HtA]
  · isplitl [Hb0]; · iexists _; iexact Hb0
    isplitl [Hc3]; · iexact Hc3
    iexact HtA
  isplitl [HD']; · iexact HD'
  isplitl [HtB]; · iexact HtB
  isplitl [Hid HiA HiB]
  · ihave H1 := (pointsTo_idx_split d L (lo := 0) (mid := 240 * t.val) (hi := 240 * t.val + 120) (by omega) (by omega) fullShare (tileIdx nf np L)).2 $$ [Hid HiA]
    · isplitl [Hid]; · iexact Hid
      iapply (Entails.of_eq (idx_cast d L fullShare _ (show 120 * (2 * t.val) = 240 * t.val by omega) (show 120 * (2 * t.val) + 120 = 240 * t.val + 120 by omega))) $$ HiA
    ihave H2 := (pointsTo_idx_split d L (lo := 0) (mid := 240 * t.val + 120) (hi := 240 * t.val + 240) (by omega) (by omega) fullShare (tileIdx nf np L)).2 $$ [H1 HiB]
    · isplitl [H1]; · iexact H1
      iapply (Entails.of_eq (idx_cast d L fullShare _ (show 120 * (2 * t.val + 1) = 240 * t.val + 120 by omega) (show 120 * (2 * t.val + 1) + 120 = 240 * t.val + 240 by omega))) $$ HiB
    iapply (Entails.of_eq (idx_cast d L fullShare _ (show 0 = 0 by omega) (show 240 * t.val + 240 = 240 * (t.val + 1) by omega))) $$ H2
  isplitl [Hit]
  · iapply (Entails.of_eq (idx_cast d L fullShare _ (show 240 * t.val + 240 = min (240 * (t.val + 1) + 120) 10320 by omega) (show 10320 = 10320 by omega))) $$ Hit
  isplitl [Hrd HD_dst HrC]
  · ihave H0 := (pointsTo_rows_split d (lo := 10320 * (wid L).val) (mid := 10320 * (wid L).val + (240 * t.val - 120)) (hi := 10320 * (wid L).val + 240 * t.val) (by omega) (by omega) fullShare (gathered tab nf np)).2 $$ [Hrd HD_dst]
    · isplitl [Hrd]; · iexact Hrd
      iapply (Entails.of_eq (rows_cast d fullShare _ (show 10320 * (wid L).val + 120 * (2 * t.val - 1) = 10320 * (wid L).val + (240 * t.val - 120) by omega) (show 10320 * (wid L).val + 120 * (2 * t.val - 1) + 120 = 10320 * (wid L).val + 240 * t.val by omega))) $$ HD_dst
    ihave H1 := (pointsTo_rows_split d (lo := 10320 * (wid L).val) (mid := 10320 * (wid L).val + 240 * t.val) (hi := 10320 * (wid L).val + 240 * t.val + 120) (by omega) (by omega) fullShare (gathered tab nf np)).2 $$ [H0 HrC]
    · isplitl [H0]; · iexact H0
      iapply (Entails.of_eq (rows_cast d fullShare _ (show 10320 * (wid L).val + 120 * (2 * t.val) = 10320 * (wid L).val + 240 * t.val by omega) (show 10320 * (wid L).val + 120 * (2 * t.val) + 120 = 10320 * (wid L).val + 240 * t.val + 120 by omega))) $$ HrC
    iapply (Entails.of_eq (rows_cast d fullShare _ (show 10320 * (wid L).val = 10320 * (wid L).val by omega) (show 10320 * (wid L).val + 240 * t.val + 120 = 10320 * (wid L).val + (240 * (t.val + 1) - 120) by omega))) $$ H1
  isplitl [Hrt]
  · iapply (Entails.of_eq (rows_cast d fullShare o0 (show 10320 * (wid L).val + 240 * t.val + 240 = 10320 * (wid L).val + 240 * (t.val + 1) by omega) (show 10320 * (wid L).val + 10320 = 10320 * (wid L).val + 10320 by omega))) $$ Hrt
  isplitl [Hc4]; · iexact Hc4
  isplitl [Hc5]; · iexact Hc5
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

theorem trips_eq : k0_t1_loop.trips = 43 := by decide

omit [FloatOps F] in
theorem rows_empty_fn (q : PosShare TreeShare) (f g : Buf (Elt F) (oLoc d)) {lo hi : ℕ} (h : hi ≤ lo) :
    (oLoc d ↦[rowsIn lo hi]{q} f : sProp 𝕄) = (oLoc d ↦[rowsIn lo hi]{q} g) :=
  pointsTo_congr fun i hi' => absurd (mem_keyIn.mp hi') (by omega)

theorem sem4_eq (h : 4 < 19) : (⟨4, h⟩ : DmaSem sig) = cc0_scoped0.sem := rfl
theorem sem5_eq (h : 5 < 19) : (⟨5, h⟩ : DmaSem sig) = cc0_scoped1.sem := rfl
theorem sem6_eq (h : 6 < 19) : (⟨6, h⟩ : DmaSem sig) = cc0_scoped2.sem := rfl

set_option maxHeartbeats 4000000 in

/-- The task on vector subcore `(L 0, L 1)`: the list fetched (one copy, or two for the last subcore), then 86 chunks of 120 rows
    gathered and copied out through two buffers, each copy waited for before its buffer or semaphore is used again. -/
theorem tile_body_aux (hF : (K (F := F)).Facts) (qN qP : PosShare TreeShare)
    (hnf : ∀ i, (nf i).toNat < 50000) (hnp : ∀ i, (np i).toNat < 50000) (hO : ∀ g, O g none = 0) :
    iprop(levAts (K (F := F)).L (K (F := F)).lev ∗ emp ∗ tileGo d L qT qN qP tab nf np o0
        ∗ scopedBufs (thr d L) ∗ scopedSems0 (thr d L) ∗ owes (thr d L) O W)
      ⊢ wp frame (wpE (defs₀ (F := F)) 𝒱₀ (thr d L) none) Set.univ
          (cc0__sc_gather_body L tV (Memref.isWhole_whole _) nV (Memref.isWhole_whole _) pV (Memref.isWhole_whole _) oV (Memref.isWhole_whole _)
            sI (Memref.isWhole_whole _) b0 (Memref.isWhole_whole _) b1 (Memref.isWhole_whole _)
            cc0_scratch3 cc0_scratch4 cc0_scratch5 cc0_scratch6 cc0_scoped0 cc0_scoped1 cc0_scoped2)
          fun _ => iprop(tileTd d L qT qN qP tab nf np ∗ scopedBufs (thr d L) ∗ scopedSems0 (thr d L)
            ∗ ∃ W', ⌜∀ p ∈ W', p ∈ W ∨ p.2 = none⌝ ∗ owes (thr d L) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V]
  unfold tileGo tileTd
  iintro ⟨#Hlv, -, ⟨Ht, Hn, Hp, Ho⟩, ⟨⟨⟨%f6, H6⟩, ⟨%f7, H7⟩, ⟨%f8, H8⟩⟩, Hbufs⟩, ⟨⟨Hc3, Hc4, Hc5, Hc6, Hs0, Hs1, Hs2⟩, Hsems⟩, HO⟩
  ihave Hmw := ((K (F := F)).mayWaits_none (thr := thr d L) hO) $$ Hlv
  ihave Hn' := (Entails.of_eq (pts_n (F := F) d L _ _).symm) $$ Hn
  ihave Hp' := (Entails.of_eq (pts_p (F := F) d L _ _).symm) $$ Hp
  ihave H6' := (Entails.of_eq (pts_sI (F := F) d L _ _).symm) $$ H6
  -- the list fetched: one copy, or two on the last subcore; either way the scratch holds the task's words
  by_cases k0_h1 : k0_cond1 L = 1#1
  on_goal 1 =>
    have k0_h2 : ¬ k0_cond2 L = 1#1 := by
      rw [cond2_iff]; have := (cond1_iff L).mp k0_h1; omega
    sl_exec
    sl_unfold_run_names
    rw [sem4_eq]
    ihave H6c := (Entails.of_eq (congrArg (fun g => ((thr d L).loc cc0_scratch0 ↦{fullShare} g : sProp 𝕄))
      ((View.write_whole_univ cc0_scratch0 f6 _).trans (fetch_main L k0_h1 nf np)))) $$ H6'
    ihave HOx : iprop(∃ W1, ⌜∀ p ∈ W1, p ∈ W ∨ p.2 = none⌝ ∗ owes (thr d L) O W1) $$ [HO]
    · iexists _; isplitr
      swap; · iexact HO
      ipureintro; intro p hp
      rcases Finset.mem_insert.mp hp with hp | hp; · exact .inr (hp ▸ rfl)
      exact .inl hp
  on_goal 2 =>
    have k0_h2 : k0_cond2 L = 1#1 := by
      rw [cond2_iff]; have := (cond1_iff L).not.mp k0_h1
      have h0 : (L 0).val < 2 := (L 0).isLt
      have h1 : (L 1).val < 16 := (L 1).isLt
      omega
    sl_exec
    sl_unfold_run_names
    rw [sem5_eq, sem6_eq]
    ihave H6c := (Entails.of_eq (congrArg (fun g => ((thr d L).loc cc0_scratch0 ↦{fullShare} g : sProp 𝕄))
      (fetch_last L k0_h2 nf np _))) $$ H6'
    ihave HOx : iprop(∃ W1, ⌜∀ p ∈ W1, p ∈ W ∨ p.2 = none⌝ ∗ owes (thr d L) O W1) $$ [HO]
    · iexists _; isplitr
      swap; · iexact HO
      ipureintro; intro p hp
      rcases Finset.mem_insert.mp hp with hp | hp; · exact .inr (hp ▸ rfl)
      rcases Finset.mem_insert.mp hp with hp | hp; · exact .inr (hp ▸ rfl)
      exact .inl hp
  all_goals
    icases HOx with ⟨%W1, %hW1, HO⟩
    -- the table's share in two, one per buffer's gathers; the list's windows and the result's rows as intervals
    ihave Hts := (pointsTo_share (PosShare.mem_left_op_right qT)).1 $$ Ht
    icases Hts with ⟨HtA, HtB⟩
    ihave Hi0 := (Entails.of_eq (show ((thr d L).loc cc0_scratch0 ↦{fullShare} tileIdx nf np L : sProp 𝕄)
        = ((thr d L).loc cc0_scratch0 ↦[idxIn 0 10320]{fullShare} tileIdx nf np L) by rw [idxIn_univ])) $$ H6c
    ihave Hsp := (pointsTo_idx_split d L (lo := 0) (mid := 0) (hi := 10320) (by omega) (by omega) fullShare (tileIdx nf np L)).1 $$ Hi0
    icases Hsp with ⟨Hid, Hi0⟩
    ihave Hsp := (pointsTo_idx_split d L (lo := 0) (mid := 120) (hi := 10320) (by omega) (by omega) fullShare (tileIdx nf np L)).1 $$ Hi0
    icases Hsp with ⟨HiA, Hit⟩
    ihave Hr0 := (Entails.of_eq (show (oLoc d ↦[tileRows (wid L)]{fullShare} o0 : sProp 𝕄)
        = (oLoc d ↦[rowsIn (10320 * (wid L).val) (10320 * (wid L).val + 10320)]{fullShare} o0) by rw [tileRows_eq])) $$ Ho
    ihave Hsp := (pointsTo_rows_split d (lo := 10320 * (wid L).val) (mid := 10320 * (wid L).val) (hi := 10320 * (wid L).val + 10320) (by omega) (by omega) fullShare o0).1 $$ Hr0
    icases Hsp with ⟨Hrd0, Hrt⟩
    ihave Hrd1 := (Entails.of_eq (rows_empty_fn d fullShare o0 (gathered tab nf np) (lo := 10320 * (wid L).val) (hi := 10320 * (wid L).val) (le_refl _))) $$ Hrd0
    -- the first gather
    iapply (step_gather0 d L tab nf np hnf hnp cc0_scratch3.sem qT.left ![0] inb_S10320_S120_0 0 rfl _ _ _ _ _ _ _ _ _) $$ [H7 HtA HiA Hc3]
    · isplitl [H7]; · iexact H7
      isplitl [HtA]; · iexact HtA
      isplitl [HiA]; · iexact HiA
      iexact Hc3
    iintro HA
    sl_exec
    sl_for (inv d L qT tab nf np o0 O W1) $$ [Hmw HA H8 Hc6 HtB Hid Hit Hrd1 Hrt Hc4 Hc5 HO]
    case region =>
      intro t acc
      by_cases hk0 : t.val = 0
      · exact trip_first d L qT tab nf np o0 O W1 hnf hnp t _ hk0
      · by_cases hk1 : t.val = 42
        · exact trip_last d L qT tab nf np o0 O W1 hnf hnp t _ hk0 hk1
        · exact trip_mid d L qT tab nf np o0 O W1 hnf hnp t _ hk0 hk1
    · unfold inv
      rw [Apart_lt d L qT tab nf np (show 0 < 43 by decide), Dpart_zero' d L tab nf np rfl]
      isplitr; · iexact Hmw
      isplitl [HA]; · iexact HA
      isplitl [H8 Hc6]
      · isplitl [H8]; · iexists _; iexact H8
        iexact Hc6
      isplitl [HtB]; · iexact HtB
      isplitl [Hid]; · iexact Hid
      isplitl [Hit]; · iexact Hit
      isplitl [Hrd1]
      · iapply (Entails.of_eq (rows_cast d fullShare (gathered tab nf np) (show 10320 * (wid L).val = 10320 * (wid L).val from rfl) (show 10320 * (wid L).val = 10320 * (wid L).val + (240 * 0 - 120) from rfl))) $$ Hrd1
      isplitl [Hrt]
      · iapply (Entails.of_eq (rows_cast d fullShare o0 (show 10320 * (wid L).val = 10320 * (wid L).val + 240 * 0 by omega) (show 10320 * (wid L).val + 10320 = 10320 * (wid L).val + 10320 from rfl))) $$ Hrt
      isplitl [Hc4]; · iexact Hc4
      isplitl [Hc5]; · iexact Hc5
      iexists W1; isplitr
      · ipureintro; exact fun p hp => .inl hp
      · iexact HO
    iintro %_ HI
    unfold inv
    rw [show Scf.trips k0_t1_loop.lb k0_t1_loop.ub k0_t1_loop.st = 43 from trips_eq, Apart_ge d L qT tab nf np (show ¬ 43 < 43 by decide), Dpart_pos d L tab nf np (show 43 ≠ 0 by decide)]
    icases HI with ⟨-, ⟨⟨%g7, H7⟩, Hc3, HtA⟩, HD, HtB, Hid, Hit, Hrd, Hrt, Hc4, Hc5, %W2, %hW2, HO⟩
    sl_exec
    -- the last copy-out has left the second buffer
    unfold cFlight1
    iapply (Transfers.wp_waitLocalO countersEmb 𝒱₀ (thr d L) none (default : HIx 1) rfl) $$ [HD HO]
    · isplitl [HD]; · iexact HD
      isplitl [HO]; · iexact HO
      iapply (Transfers.MayWaits.elim (SemLoc.dma cc0_scratch6.sem)) $$ Hmw
    iintro ⟨⟨HrD, H8⟩, Hc6, HO⟩
    sl_exec
    sl_step
    -- the task's rows, all at the gathered array
    isplitl [HtA HtB Hn' Hp' Hrd Hrt HrD]
    · isplitl [HtA HtB]
      · iapply (pointsTo_share (PosShare.mem_left_op_right qT)).2
        isplitl [HtA]; · iexact HtA
        iexact HtB
      isplitl [Hn']; · iexact Hn'
      isplitl [Hp']; · iexact Hp'
      ihave H1 := (pointsTo_rows_split d (lo := 10320 * (wid L).val) (mid := 10320 * (wid L).val + 10200) (hi := 10320 * (wid L).val + 10320) (by omega) (by omega) fullShare (gathered tab nf np)).2 $$ [Hrd HrD]
      · isplitl [Hrd]
        · iapply (Entails.of_eq (rows_cast d fullShare _ (show 10320 * (wid L).val = 10320 * (wid L).val by omega) (show 10320 * (wid L).val + (240 * 43 - 120) = 10320 * (wid L).val + 10200 by omega))) $$ Hrd
        iapply (Entails.of_eq (rows_cast d fullShare _ (show 10320 * (wid L).val + 120 * (2 * 43 - 1) = 10320 * (wid L).val + 10200 by omega) (show 10320 * (wid L).val + 120 * (2 * 43 - 1) + 120 = 10320 * (wid L).val + 10320 by omega))) $$ HrD
      ihave Hrt' := (Entails.of_eq (rows_empty_fn d fullShare o0 (gathered tab nf np) (lo := 10320 * (wid L).val + 240 * 43) (hi := 10320 * (wid L).val + 10320) (by omega))) $$ Hrt
      ihave H2 := (pointsTo_rows_split d (lo := 10320 * (wid L).val) (mid := 10320 * (wid L).val + 10320) (hi := 10320 * (wid L).val + 10320) (by omega) (by omega) fullShare (gathered tab nf np)).2 $$ [H1 Hrt']
      · isplitl [H1]; · iexact H1
        iapply (Entails.of_eq (rows_cast d fullShare _ (show 10320 * (wid L).val + 240 * 43 = 10320 * (wid L).val + 10320 by omega) (show 10320 * (wid L).val + 10320 = 10320 * (wid L).val + 10320 by omega))) $$ Hrt'
      iapply (Entails.of_eq (show (oLoc d ↦[rowsIn (10320 * (wid L).val) (10320 * (wid L).val + 10320)]{fullShare} gathered tab nf np : sProp 𝕄)
          = (oLoc d ↦[tileRows (wid L)]{fullShare} gathered tab nf np) by rw [tileRows_eq])) $$ H2
    isplitl [Hid Hit H7 H8 Hbufs]
    · isplitl [Hid Hit H7 H8]
      · isplitl [Hid Hit]
        · iexists (tileIdx nf np L)
          ihave H1 := (pointsTo_idx_split d L (lo := 0) (mid := 10320) (hi := 10320) (by omega) (by omega) fullShare (tileIdx nf np L)).2 $$ [Hid Hit]
          · isplitl [Hid]
            · iapply (Entails.of_eq (idx_cast d L fullShare _ (show 0 = 0 by omega) (show 240 * 43 = 10320 by omega))) $$ Hid
            iapply (Entails.of_eq (idx_cast d L fullShare _ (show min (240 * 43 + 120) 10320 = 10320 by omega) (show 10320 = 10320 by omega))) $$ Hit
          iapply (Entails.of_eq (show ((thr d L).loc cc0_scratch0 ↦[idxIn 0 10320]{fullShare} tileIdx nf np L : sProp 𝕄)
              = ((thr d L).loc cc0_scratch0 ↦{fullShare} tileIdx nf np L) by rw [idxIn_univ])) $$ H1
        isplitl [H7]; · iexists _; iexact H7
        iexists _; iexact H8
      iexact Hbufs
    isplitl [Hc3 Hc4 Hc5 Hc6 Hs0 Hs1 Hs2 Hsems]
    · isplitl [Hc3 Hc4 Hc5 Hc6 Hs0 Hs1 Hs2]
      · isplitl [Hc3]; · iexact Hc3
        isplitl [Hc4]; · iexact Hc4
        isplitl [Hc5]; · iexact Hc5
        isplitl [Hc6]; · iexact Hc6
        isplitl [Hs0]; · iexact Hs0
        isplitl [Hs1]; · iexact Hs1
        iexact Hs2
      iexact Hsems
    iexists _; isplitr
    swap; · iexact HO
    ipureintro; intro p hp
    rcases Finset.mem_insert.mp hp with hp | hp; · exact .inr (hp ▸ rfl)
    rcases hW2 p hp with h | h
    · exact hW1 p h
    · exact .inr h

/-- The task's obligation, its binders in the order the launch cites them. -/
theorem tile_body (hF : (K (F := F)).Facts) (dd : Dev nD) (LL : grid0.Coords) (qT' qN qP : PosShare TreeShare)
    (tab' : Buf (Elt F) (tLoc dd)) (nf' : Buf (Elt F) (nLoc dd)) (np' : Buf (Elt F) (pLoc dd)) (o0' : Buf (Elt F) (oLoc dd))
    (hnf : ∀ i, (nf' i).toNat < 50000) (hnp : ∀ i, (np' i).toNat < 50000)
    (O' : CellTallies nD τ sig (HIx 1)) (W' : Waits sig (HIx 1)) (hO : ∀ g, O' g none = 0) :
    iprop(levAts (K (F := F)).L (K (F := F)).lev ∗ emp ∗ tileGo dd LL qT' qN qP tab' nf' np' o0'
        ∗ scopedBufs (V dd (cV LL) (jV LL)) ∗ scopedSems0 (V dd (cV LL) (jV LL)) ∗ owes (V dd (cV LL) (jV LL)) O' W')
      ⊢ wp frame (wpE (defs₀ (F := F)) 𝒱₀ (V dd (cV LL) (jV LL)) none) Set.univ
          (cc0__sc_gather_body LL (Memref.whole main_arg2_scv) (Memref.isWhole_whole _) (Memref.whole main_v10_scv) (Memref.isWhole_whole _)
            (Memref.whole main_v9_scv) (Memref.isWhole_whole _) (Memref.whole main_v11_scv) (Memref.isWhole_whole _)
            (Memref.whole cc0_scratch0) (Memref.isWhole_whole _) (Memref.whole cc0_scratch1) (Memref.isWhole_whole _)
            (Memref.whole cc0_scratch2) (Memref.isWhole_whole _)
            cc0_scratch3 cc0_scratch4 cc0_scratch5 cc0_scratch6 cc0_scoped0 cc0_scoped1 cc0_scoped2)
          fun _ => iprop(tileTd dd LL qT' qN qP tab' nf' np' ∗ scopedBufs (V dd (cV LL) (jV LL)) ∗ scopedSems0 (V dd (cV LL) (jV LL))
            ∗ ∃ W'', ⌜∀ p ∈ W'', p ∈ W' ∨ p.2 = none⌝ ∗ owes (V dd (cV LL) (jV LL)) O' W'') :=
  tile_body_aux dd LL qT' tab' nf' np' o0' O' W' hF qN qP hnf hnp hO

end Cert.Kernel.ScTile
end
-- ==== Proof.KTcRegion.lean ====
import proofs.«215990_g90829968376431_cont_sun_c4_571_51_alg».proof.Proof.KTcBody
import Idealize.ShloMosaic.Lib.Pipeline.Regions
import Idealize.ShloMosaic.Lib.SparseCore.Threads

set_option maxRecDepth 16384

noncomputable section

namespace Cert.Kernel.TcRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.TcBody
open Idealize.ShloMosaic.SparseCore.Cfg (HIx)

variable {F : FTy → Type} [FloatOps F] {UU : Type} [URA UU]

local notation "𝕄" => MT nD τ sig (HIx 1) (Elt F) ℕ UU ℕ

/-! # The region as a step of the TensorCore's program

The pipeline's region entered from the operand arrays held whole: the gathered rows' share halved between the two
windows that read them and joined again at the exit; the staging cells' invariants allocated from the ghost state the
launch dealt; the thread's debts carried through, every wait of the region at the kernels' own index. -/

section Region

variable [∀ e, Nonempty (Elt F e)]
variable (EP : Emb (URounds (GSem nD τ sig) Unit) (MT nD τ sig (HIx 1) (Elt F) ℕ UU ℕ)) [EP.LandsIn (upEmb : UEmb _ (MT nD τ sig (HIx 1) (Elt F) ℕ UU ℕ))]
variable (𝒱₀ : Variants) (L : GSem nD τ sig → Finset (HIx 1)) (lv : GSem nD τ sig → HIx 1 → ℕ)
variable (g : Vec F S330240x128 .f32) (w1a w1b : Vec F S128x128 .bf16) (b1 : Vec F S1x128 .f32)
  (w2 : Vec F S128x128 .bf16) (b2 w3 : Vec F S1x128 .f32) (o : Vec F S10000x128 .f32)
  (O : CellTallies nD τ sig (HIx 1)) (W : Waits sig (HIx 1))

/-- The pipeline has no prefetched table. -/
abbrev adm : (p : Fin 1) → (pcfgs (F := F) p).Adm := fun p => (cfgs p).toPCfg_adm

/-- The one pipeline's proof data. -/
def pdats : (p : Fin 1) → (c : Dev nD) → Dat τ (Elt F) (HIx 1) ℕ UU ℕ (Pipeline.pin (pcfgs (F := F)) adm p) c
  | ⟨0, _⟩ => fun c => dat (UU := UU) g w1a w1b b1 w2 b2 w3 o O W c

/-- The launch element the staging cells are funded from. -/
def ghost₀ : URounds (GSem nD τ sig) Unit :=
  initOf (Pipeline.cells cfgs cellOf_inj) (Pipeline.launchToks cfgs cellOf_inj)

/-- What the launch deals the TensorCore of device `d` for the pipeline's cells. -/
abbrev regionGhost (d : Dev nD) : sProp 𝕄 :=
  iprop(Pipeline.cellsGhost (Pipeline.pin (pcfgs (F := F)) adm) EP 0 d ∗ Pipeline.toksInit (Pipeline.pin (pcfgs (F := F)) adm) EP 0 d)

theorem fund : (BI.own (EP ghost₀) : sProp 𝕄) ⊢ iprop(|==> bigSep Finset.univ fun d : Dev nD => regionGhost EP d) := by
  have h := Pipeline.fund_ghost (Pipeline.pin (pcfgs (F := F)) adm) EP cellOf_inj
  refine (show (BI.own (EP ghost₀) : sProp 𝕄) ⊢ _ from h).trans (BI.bupd_mono ?_)
  rw [← bigSep_sep']
  refine BI.bigSep_mono fun d _ => ?_
  rw [BI.bigSep_univ_of_subsingleton (0 : Fin 1), BI.bigSep_univ_of_subsingleton (0 : Fin 1)]
  exact BI.Entails.refl _

/-- The operand arrays and the result's, whole, as the thread state holds them. -/
abbrev held (c : Dev nD) (r : Vec F S10000x128 .f32) : sProp 𝕄 :=
  iprop(((SparseCore.T c).loc main_v11 ↦{fullShare} g) ∗ ((SparseCore.T c).loc main_v1 ↦{fullShare} w1a) ∗ ((SparseCore.T c).loc main_v3 ↦{fullShare} w1b) ∗ ((SparseCore.T c).loc main_v5 ↦{fullShare} b1) ∗ ((SparseCore.T c).loc main_v4 ↦{fullShare} w2) ∗ ((SparseCore.T c).loc main_v6 ↦{fullShare} b2) ∗ ((SparseCore.T c).loc main_v7 ↦{fullShare} w3) ∗ ((SparseCore.T c).loc main_v12 ↦{fullShare} r))

/-- The pipeline's arrays at contents `F`, window by window: the gathered rows in two halves. -/
theorem arrays_eq (c : Dev nD) (A : (w : Fin cfg1.W) → Buf (Elt F) ((cfg1.win w).arr.view.loc (c.tc : Thread nD τ))) :
    (dat (UU := UU) g w1a w1b b1 w2 b2 w3 o O W c).arrays A
      = iprop(((SparseCore.T c).loc main_v11 ↦{fullShare.left} A 0) ∗ ((SparseCore.T c).loc main_v11 ↦{fullShare.right} A 1)
          ∗ ((SparseCore.T c).loc main_v1 ↦{fullShare} A 2) ∗ ((SparseCore.T c).loc main_v3 ↦{fullShare} A 3)
          ∗ ((SparseCore.T c).loc main_v5 ↦{fullShare} A 4) ∗ ((SparseCore.T c).loc main_v4 ↦{fullShare} A 5)
          ∗ ((SparseCore.T c).loc main_v6 ↦{fullShare} A 6) ∗ ((SparseCore.T c).loc main_v7 ↦{fullShare} A 7)
          ∗ ((SparseCore.T c).loc main_v12 ↦{fullShare} A 8)) := by
  unfold Dat.arrays
  rw [bigSep_W1]
  rw [(arr_whole1 0).set_eq_univ, (arr_whole1 2).set_eq_univ, (arr_whole1 3).set_eq_univ, (arr_whole1 4).set_eq_univ,
    (arr_whole1 5).set_eq_univ, (arr_whole1 6).set_eq_univ, (arr_whole1 7).set_eq_univ, (arr_whole1 8).set_eq_univ]
  rfl

/-- ENTRY: the operand arrays held whole make the pipeline's arrays at their entry contents. -/
theorem hsplit (c : Dev nD) : held g w1a w1b b1 w2 b2 w3 c o ⊢ (dat (UU := UU) g w1a w1b b1 w2 b2 w3 o O W c).arrays ((dat (UU := UU) g w1a w1b b1 w2 b2 w3 o O W c).arrAt · 0) := by
  rw [arrays_eq]
  show held g w1a w1b b1 w2 b2 w3 c o
    ⊢ iprop(((SparseCore.T c).loc main_v11 ↦{fullShare.left} g) ∗ ((SparseCore.T c).loc main_v11 ↦{fullShare.right} g)
          ∗ ((SparseCore.T c).loc main_v1 ↦{fullShare} w1a) ∗ ((SparseCore.T c).loc main_v3 ↦{fullShare} w1b)
          ∗ ((SparseCore.T c).loc main_v5 ↦{fullShare} b1) ∗ ((SparseCore.T c).loc main_v4 ↦{fullShare} w2)
          ∗ ((SparseCore.T c).loc main_v6 ↦{fullShare} b2) ∗ ((SparseCore.T c).loc main_v7 ↦{fullShare} w3)
          ∗ ((SparseCore.T c).loc main_v12 ↦{fullShare} o))
  unfold held
  iintro ⟨Hg, H1, H3, H5, H4, H6, H7, H12⟩
  ihave Hg2 := (pointsTo_share (PosShare.mem_left_op_right fullShare)).1 $$ Hg
  icases Hg2 with ⟨HgL, HgR⟩
  isplitl [HgL]; · iexact HgL
  isplitl [HgR]; · iexact HgR
  isplitl [H1]; · iexact H1
  isplitl [H3]; · iexact H3
  isplitl [H5]; · iexact H5
  isplitl [H4]; · iexact H4
  isplitl [H6]; · iexact H6
  isplitl [H7]; · iexact H7
  iexact H12

/-- EXIT: the pipeline's arrays at their final contents are the operand arrays as they were and the result at `tcOut`. -/
theorem hjoin (c : Dev nD) : (dat (UU := UU) g w1a w1b b1 w2 b2 w3 o O W c).arrays ((dat (UU := UU) g w1a w1b b1 w2 b2 w3 o O W c).arrAt · cfg1.N) ⊢ held g w1a w1b b1 w2 b2 w3 c (tcOut g w1a w1b b1 w2 b2 w3) := by
  rw [arrays_eq]
  rw [final0, final1, final2, final3, final4, final5, final6, final7, final8]
  show iprop(((SparseCore.T c).loc main_v11 ↦{fullShare.left} g) ∗ ((SparseCore.T c).loc main_v11 ↦{fullShare.right} g)
          ∗ ((SparseCore.T c).loc main_v1 ↦{fullShare} w1a) ∗ ((SparseCore.T c).loc main_v3 ↦{fullShare} w1b)
          ∗ ((SparseCore.T c).loc main_v5 ↦{fullShare} b1) ∗ ((SparseCore.T c).loc main_v4 ↦{fullShare} w2)
          ∗ ((SparseCore.T c).loc main_v6 ↦{fullShare} b2) ∗ ((SparseCore.T c).loc main_v7 ↦{fullShare} w3)
          ∗ ((SparseCore.T c).loc main_v12 ↦{fullShare} (tcOut g w1a w1b b1 w2 b2 w3)))
    ⊢ held g w1a w1b b1 w2 b2 w3 c (tcOut g w1a w1b b1 w2 b2 w3)
  unfold held
  iintro ⟨HgL, HgR, H1, H3, H5, H4, H6, H7, H12⟩
  isplitl [HgL HgR]
  · iapply (pointsTo_share (PosShare.mem_left_op_right fullShare)).2
    isplitl [HgL]; · iexact HgL
    iexact HgR
  isplitl [H1]; · iexact H1
  isplitl [H3]; · iexact H3
  isplitl [H5]; · iexact H5
  isplitl [H4]; · iexact H4
  isplitl [H6]; · iexact H6
  isplitl [H7]; · iexact H7
  iexact H12

/-- What the thread owes after the region: the same debts, its recorded waits those it had and the region's own. -/
abbrev owesAfter (c : Dev nD) : sProp 𝕄 :=
  iprop(∃ W' : Waits sig (HIx 1), ⌜∀ p ∈ W', p ∈ W ∨ p.2 = none⌝ ∗ owes (SparseCore.T c) O W')

set_option backward.isDefEq.respectTransparency.types false in
/-- The region as a record of the library's sequence of regions. -/
def reg (hmw : ∀ (c : Dev nD) (sm : SemLoc sig), (levAts L lv : sProp (MT nD τ sig (HIx 1) (Elt F) ℕ UU ℕ)) ⊢ MayWait (SparseCore.T c) sm none O) :
    Pipeline.RegionSeg (pcfgs (F := F)) adm (pdats (UU := UU) g w1a w1b b1 w2 b2 w3 o O W) none defs₀ 𝒱₀ L lv 0 where
  win := winFacts₀1
  block_pos := block_pos1
  stage_whole := stage_whole1
  K := PEmpty
  osem k := k.elim
  ho := Pipeline.OwnSemFacts.none _
  hbody c := (body_obligation (UU := UU) g w1a w1b b1 w2 b2 w3 o O W 𝒱₀ c).loose
  hwaits c := Pipeline.cellsWaits_intro (Pipeline.pin (pcfgs (F := F)) adm) (pdats (UU := UU) g w1a w1b b1 w2 b2 w3 o O W) none 0 c fun w s t => hmw c _
  pre c := iprop(held g w1a w1b b1 w2 b2 w3 c o ∗ owes (SparseCore.T c) O W)
  post c := iprop(held g w1a w1b b1 w2 b2 w3 c (tcOut g w1a w1b b1 w2 b2 w3) ∗ owesAfter O W c)
  X _ := iprop(emp)
  Y _ := iprop(emp)
  Z _ := iprop(emp)
  hentry c := by
    rw [Pipeline.ownSems0_none]
    iintro ⟨⟨Hh, HO⟩, -, -⟩
    imodintro
    isplitl [Hh]
    · iapply (hsplit (UU := UU) g w1a w1b b1 w2 b2 w3 o O W c); iexact Hh
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl hp
      iexact HO
    isplitr; · iempintro
    iempintro
  hin c := by
    rw [show (pdats (UU := UU) g w1a w1b b1 w2 b2 w3 o O W 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats (UU := UU) g w1a w1b b1 w2 b2 w3 o O W 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    iintro ⟨Ha, HO, -, -⟩
    imodintro
    isplitl [Ha]
    · iapply (hjoin (UU := UU) g w1a w1b b1 w2 b2 w3 o O W c); iexact Ha
    unfold Pipeline.Dat.owesAt Pipeline.owesWithin
    icases HO with ⟨%W', %hW', HO⟩
    iexists W'; isplitr
    · ipureintro
      intro p hp
      rcases hW' hp with h | ⟨w, s, rfl⟩
      · exact Or.inl h
      · exact Or.inr rfl
    iexact HO

/-- The pipeline's entry call, lifted to the SparseCore program's labels, is the line of @main. -/
theorem lift_entry :
    (SparseCore.liftProg (Q := 1) ((.op (.customCall (Pipeline.entry 0) ()) fun _ => .ret ⟨⟩ :
        Prog (TpuEff nD τ sig (Elt F) (Pipeline.Sig Λ₀ (Fin 1) fun p => (pcfgs (F := F) p).Adm) .tc) PUnit)) :
      Prog (TpuEff nD τ sig (Elt F) (SparseCore.Sig (Pipeline.Sig Λ₀ (Fin 1) fun p => (pcfgs (F := F) p).Adm) 1) .tc) PUnit)
      = .op (.customCall (SparseCore.inner (Pipeline.entry 0)) ()) fun _ => .ret ⟨⟩ := rfl

set_option maxHeartbeats 1000000 in
set_option backward.isDefEq.respectTransparency.types false in
/-- The region's step under the pipeline's own body table: the library's rule for one region of a sequence, at the record above. -/
theorem wp_inner (hmw : ∀ (c : Dev nD) (sm : SemLoc sig), (levAts L lv : sProp (MT nD τ sig (HIx 1) (Elt F) ℕ UU ℕ)) ⊢ MayWait (SparseCore.T c) sm none O) (d : Dev nD) (Φ : PUnit → sProp 𝕄) :
    iprop((iprop(boundary (SparseCore.T d) ∗ (reg (UU := UU) 𝒱₀ L lv g w1a w1b b1 w2 b2 w3 o O W hmw).post d) -∗ wp frame (wpE (Pipeline.defs (pcfgs (F := F)) defs₀) (Variants.lift 𝒱₀) (SparseCore.T d) none) Set.univ (.ret ⟨⟩) Φ)
        ∗ boundary (SparseCore.T d) ∗ (reg (UU := UU) 𝒱₀ L lv g w1a w1b b1 w2 b2 w3 o O W hmw).pre d ∗ levAts L lv
        ∗ Pipeline.cellsGhost (Pipeline.pin (pcfgs (F := F)) adm) EP 0 d ∗ Pipeline.toksInit (Pipeline.pin (pcfgs (F := F)) adm) EP 0 d)
      ⊢ wp frame (wpE (Pipeline.defs (pcfgs (F := F)) defs₀) (Variants.lift 𝒱₀) (SparseCore.T d) none) Set.univ ((.op (.customCall (Pipeline.entry 0) ()) fun _ => .ret ⟨⟩ :
        Prog (TpuEff nD τ sig (Elt F) (Pipeline.Sig Λ₀ (Fin 1) fun p => (pcfgs (F := F) p).Adm) .tc) PUnit)) Φ :=
  Pipeline.RegionSeg.wp (pcfgs (F := F)) adm (pdats (UU := UU) g w1a w1b b1 w2 b2 w3 o O W) none cellOf_inj EP defs₀ 𝒱₀ L lv
    (reg (UU := UU) 𝒱₀ L lv g w1a w1b b1 w2 b2 w3 o O W hmw) d none (fun _ h => nomatch h) (fun _ => .ret ⟨⟩) Φ

/-- THE REGION'S STEP inside the SparseCore program's @main, the continuation as a weakest precondition: from the
    region boundary, the operand arrays and the result's held whole, the thread's debts, the level facts and the
    pipeline's ghost state, the call of the pipeline's entry runs to the boundary, the operands as they were, the
    result at `tcOut` of them, and the debts. -/
theorem wp_region' (hmw : ∀ (c : Dev nD) (sm : SemLoc sig), (levAts L lv : sProp (MT nD τ sig (HIx 1) (Elt F) ℕ UU ℕ)) ⊢ MayWait (SparseCore.T c) sm none O) (d : Dev nD) (Φ : PUnit → sProp 𝕄) :
    iprop(boundary (SparseCore.T d) ∗ held g w1a w1b b1 w2 b2 w3 d o ∗ owes (SparseCore.T d) O W ∗ levAts L lv ∗ regionGhost EP d
        ∗ (iprop(boundary (SparseCore.T d) ∗ held g w1a w1b b1 w2 b2 w3 d (tcOut g w1a w1b b1 w2 b2 w3) ∗ owesAfter O W d) -∗ wp frame (wpE ((sc (F := F)).defs (Pipeline.defs (pcfgs (F := F)) defs₀)) (Variants.lift 𝒱₀) (SparseCore.T d) none) Set.univ (.ret ⟨⟩) Φ))
      ⊢ wp frame (wpE ((sc (F := F)).defs (Pipeline.defs (pcfgs (F := F)) defs₀)) (Variants.lift 𝒱₀) (SparseCore.T d) none) Set.univ (.op (.customCall (SparseCore.inner (Pipeline.entry 0)) ()) fun _ => .ret ⟨⟩) Φ := by
  rw [← lift_entry]
  refine .trans ?_ ((sc (F := F)).wp_liftProg (Pipeline.defs (pcfgs (F := F)) defs₀) (Variants.lift 𝒱₀) (SparseCore.T d) Set.univ none _ _)
  refine .trans ?_ (wp_inner EP 𝒱₀ L lv g w1a w1b b1 w2 b2 w3 o O W hmw d Φ)
  rw [wp_ret, wp_ret,
    show (reg (UU := UU) 𝒱₀ L lv g w1a w1b b1 w2 b2 w3 o O W hmw).post d = iprop(held g w1a w1b b1 w2 b2 w3 d (tcOut g w1a w1b b1 w2 b2 w3) ∗ owesAfter O W d) from rfl,
    show (reg (UU := UU) 𝒱₀ L lv g w1a w1b b1 w2 b2 w3 o O W hmw).pre d = iprop(held g w1a w1b b1 w2 b2 w3 d o ∗ owes (SparseCore.T d) O W) from rfl]
  iintro ⟨Hb, Hh, HO, Hlev, ⟨Hcg, Htk⟩, Hk⟩
  isplitl [Hk]
  · iintro ⟨Hb, Hh, HO⟩
    iapply Hk
    isplitl [Hb]; · iexact Hb
    isplitl [Hh]; · iexact Hh
    iexact HO
  isplitl [Hb]; · iexact Hb
  isplitl [Hh HO]
  · isplitl [Hh]; · iexact Hh
    iexact HO
  isplitl [Hlev]; · iexact Hlev
  isplitl [Hcg]; · iexact Hcg
  iexact Htk

/-- The same with the continuation as an assertion. -/
theorem wp_region (hmw : ∀ (c : Dev nD) (sm : SemLoc sig), (levAts L lv : sProp (MT nD τ sig (HIx 1) (Elt F) ℕ UU ℕ)) ⊢ MayWait (SparseCore.T c) sm none O) (d : Dev nD) (Φ : PUnit → sProp 𝕄) :
    iprop(boundary (SparseCore.T d) ∗ held g w1a w1b b1 w2 b2 w3 d o ∗ owes (SparseCore.T d) O W ∗ levAts L lv ∗ regionGhost EP d
        ∗ (iprop(boundary (SparseCore.T d) ∗ held g w1a w1b b1 w2 b2 w3 d (tcOut g w1a w1b b1 w2 b2 w3) ∗ owesAfter O W d) -∗ Φ ⟨⟩))
      ⊢ wp frame (wpE ((sc (F := F)).defs (Pipeline.defs (pcfgs (F := F)) defs₀)) (Variants.lift 𝒱₀) (SparseCore.T d) none) Set.univ (.op (.customCall (SparseCore.inner (Pipeline.entry 0)) ()) fun _ => .ret ⟨⟩) Φ := by
  refine .trans ?_ (wp_region' EP 𝒱₀ L lv g w1a w1b b1 w2 b2 w3 o O W hmw d Φ)
  iintro ⟨Hb, Hh, HO, Hlev, Hg, Hk⟩
  isplitl [Hb]; · iexact Hb
  isplitl [Hh]; · iexact Hh
  isplitl [HO]; · iexact HO
  isplitl [Hlev]; · iexact Hlev
  isplitl [Hg]; · iexact Hg
  iintro H
  iapply (le_wp_ret _ _)
  iapply Hk
  iexact H

end Region

end Cert.Kernel.TcRegion
end
-- ==== Proof.KRegion.lean ====
/-
  The attention region and its staging cells' ghost state, as the launch of the program uses them.
-/
import proofs.«215990_g90829968376431_cont_sun_c4_571_51_alg».proof.Proof.KLaunch
import proofs.«215990_g90829968376431_cont_sun_c4_571_51_alg».proof.Proof.KTcRegion

noncomputable section

namespace Cert.Kernel.Launch

open Cert.Kernel Cert.Kernel.Gen Cert.Kernel.ScTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The staging cells' launch ghost state, per device. -/
abbrev RG : Dev nD → sProp 𝕄 := fun d => TcRegion.regionGhost (UU := UU) (EP (F := F)) d

/-- The launch element's middle component funds it. -/
theorem hfund [∀ e, Nonempty (Elt F e)] :
    (BI.own (EP (F := F) TcRegion.ghost₀) : sProp 𝕄) ⊢ iprop(|==> bigSep Finset.univ (RG (F := F))) :=
  TcRegion.fund (UU := UU) (EP (F := F))

/-- The attention region, in the form the launch uses it: the operand arrays one by one. -/
theorem regionSpec [∀ e, Nonempty (Elt F e)] : RegionSpec (F := F) (RG (F := F)) := by
  intro d O W hmw g w1a w1b b1 w2 b2 w3 Q
  iintro ⟨Hb, Hv11, Hv1, Hv3, Hv5, Hv4, Hv6, Hv7, ⟨%o, Hv12⟩, HO, Hlev, HG, Hk⟩
  iapply (TcRegion.wp_region' (UU := UU) (EP (F := F)) 𝒱₀ (K (F := F)).L (K (F := F)).lev g w1a w1b b1 w2 b2 w3 o O W
      (fun c sm => by have hcd : c = d := Subsingleton.elim (α := Fin 1) c d; subst hcd; exact hmw sm) d Q) $$ [Hb Hv11 Hv1 Hv3 Hv5 Hv4 Hv6 Hv7 Hv12 HO Hlev HG Hk]
  isplitl [Hb]; · iexact Hb
  isplitl [Hv11 Hv1 Hv3 Hv5 Hv4 Hv6 Hv7 Hv12]
  · unfold TcRegion.held
    isplitl [Hv11]; · iexact Hv11
    isplitl [Hv1]; · iexact Hv1
    isplitl [Hv3]; · iexact Hv3
    isplitl [Hv5]; · iexact Hv5
    isplitl [Hv4]; · iexact Hv4
    isplitl [Hv6]; · iexact Hv6
    isplitl [Hv7]; · iexact Hv7
    iexact Hv12
  isplitl [HO]; · iexact HO
  isplitl [Hlev]; · iexact Hlev
  isplitl [HG]; · iexact HG
  iintro ⟨Hb, Hh, HO⟩
  unfold TcRegion.held
  icases Hh with ⟨Hv11, Hv1, Hv3, Hv5, Hv4, Hv6, Hv7, Hv12⟩
  iapply Hk
  isplitl [Hb]; · iexact Hb
  isplitl [Hv11]; · iexact Hv11
  isplitl [Hv1]; · iexact Hv1
  isplitl [Hv3]; · iexact Hv3
  isplitl [Hv5]; · iexact Hv5
  isplitl [Hv4]; · iexact Hv4
  isplitl [Hv6]; · iexact Hv6
  isplitl [Hv7]; · iexact Hv7
  isplitl [Hv12]; · iexact Hv12
  iexact HO

end Cert.Kernel.Launch

end
-- ==== Proof.lean ====
/-
  The proof of `Cert.Claim`: the gather-and-attend kernel against its jnp reference.

  Mathematics. The SparseCore part gathers rows of the embedding table: row `r` of the gathered array is the table's row
  named by word `r` of the flattened neighbour list followed by the node list (32 tasks, each copying its 10320 words
  and moving 86 chunks of 120 rows through two buffers). The TensorCore part computes, per node `n` with neighbour rows
  `E(n,k,·)` and own row `U(n,·)`:
    H1 = max(E·W1[0:128] + (U·W1[128:256] + b1), 0),  H2 = max(H1·W2 + b2, 0),  L = H2·W3,
    att = softmax_k L,  out(n,·) = Σ_k E(n,k,·)·att(n,k).
  The reference contracts the concatenation [E, U] against W1 in one product (a sum over 256 split into two over 128) and
  adds b3 to the logits, which the softmax over `k` cancels because every value is a finite real under the precondition.
  Both sides are shown equal to one specification (`Cert.Spec.out`), index by index over the extended reals.

  Frames. Each kernel program is run by the SparseCore launch theorem: the TensorCore runs twelve host operations, hands
  the table and the two index lists (as read tokens) and the result's rows to the 32 tasks, gets the rows back gathered,
  and runs the attention region over the pipeline's blocks; the arguments are never written. The reference's run is its
  list of host operations composed.
-/
import proofs.«215990_g90829968376431_cont_sun_c4_571_51_alg».proof.Defs
import proofs.«215990_g90829968376431_cont_sun_c4_571_51_alg».proof.Proof.Gen.Kernel
import proofs.«215990_g90829968376431_cont_sun_c4_571_51_alg».proof.Proof.Gen.Kernel.Skeleton
import proofs.«215990_g90829968376431_cont_sun_c4_571_51_alg».proof.Proof.Gen.Kernel.Launch
import proofs.«215990_g90829968376431_cont_sun_c4_571_51_alg».proof.Proof.Gen.Kernel.Points
import proofs.«215990_g90829968376431_cont_sun_c4_571_51_alg».proof.Proof.Gen.KernelIdeal
import proofs.«215990_g90829968376431_cont_sun_c4_571_51_alg».proof.Proof.Gen.KernelIdeal.Skeleton
import proofs.«215990_g90829968376431_cont_sun_c4_571_51_alg».proof.Proof.Gen.KernelIdeal.Launch
import proofs.«215990_g90829968376431_cont_sun_c4_571_51_alg».proof.Proof.Gen.KernelIdeal.Points
import proofs.«215990_g90829968376431_cont_sun_c4_571_51_alg».proof.Proof.Gen.ReferenceIdeal
import proofs.«215990_g90829968376431_cont_sun_c4_571_51_alg».proof.Proof.Gen.Pre_input_domain
import proofs.«215990_g90829968376431_cont_sun_c4_571_51_alg».proof.Proof.Claims
import proofs.«215990_g90829968376431_cont_sun_c4_571_51_alg».proof.Proof.ScTile
import proofs.«215990_g90829968376431_cont_sun_c4_571_51_alg».proof.Proof.TcRegion
import proofs.«215990_g90829968376431_cont_sun_c4_571_51_alg».proof.Proof.KiRegion
import proofs.«215990_g90829968376431_cont_sun_c4_571_51_alg».proof.Proof.TcValue
import proofs.«215990_g90829968376431_cont_sun_c4_571_51_alg».proof.Proof.RefRun
import proofs.«215990_g90829968376431_cont_sun_c4_571_51_alg».proof.Proof.RefIsSpec
import proofs.«215990_g90829968376431_cont_sun_c4_571_51_alg».proof.Proof.KLaunch
import proofs.«215990_g90829968376431_cont_sun_c4_571_51_alg».proof.Proof.KScTile
import proofs.«215990_g90829968376431_cont_sun_c4_571_51_alg».proof.Proof.KTcRegion
import proofs.«215990_g90829968376431_cont_sun_c4_571_51_alg».proof.Proof.KRegion
import Idealize.ShloMosaic.Adequacy
import Idealize.ShloMosaic.Init

noncomputable section

namespace Cert.Proof

open Idealize.ShloMosaic Idealize.SL.Sem

/-- The word-level program runs to the end without a fault and leaves its nine arguments unchanged: the launch of the
    same proof read at the word-level instance, its value dropped. -/
theorem frame_kernel : Cert.frame_Kernel (hKernel := Cert.Kernel.Gen.facts) (hPre_input_domain := Cert.Pre_input_domain.Gen.facts) :=
  fun m ρ hpre =>
    (θ_run (Cert.Kernel.defs (F := Bits)) _ _).mono (fun _ h c => (h c).2)
      (Cert.Kernel.Launch.run_main (F := Bits) m ρ (Cert.Kernel.ScTile.tile_body Cert.Kernel.Launch.facts)
        (Cert.Kernel.Launch.idxOK m (fun d => Cert.PreFacts.kernel_ranges m hpre d))
        Cert.Kernel.TcRegion.ghost₀ Cert.Kernel.Launch.RG Cert.Kernel.Launch.hfund Cert.Kernel.Launch.regionSpec)

/-- Everything the certificate claims. -/
theorem claim : Cert.Claim :=
  Cert.Proof.Claims.claim_of (Cert.KernelIdeal.ScTile.tile_body Cert.KernelIdeal.Launch.facts)
    Cert.KernelIdeal.TcRegion.ghost₀ Cert.KernelIdeal.Launch.RG Cert.KernelIdeal.Launch.hfund
    Cert.KernelIdeal.Launch.regionSpec frame_kernel Cert.KernelIdeal.TcValue.tcPay_eq
    Cert.ReferenceIdeal.RefValue.run Cert.ReferenceIdeal.RefValue.term_eq_spec

end Cert.Proof

end
